-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v66_1)) (v1 : (c : Dev Cert.KernelIdeal.nD) → Buf (Elt Ideal) ((c.tc : Thread Cert.KernelIdeal.nD Cert.KernelIdeal.τ).loc Cert.KernelIdeal.main_v66_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_1) = v0 c
          ∧ r.2.mem ((c.tc : Thread Cert.KernelIdeal.nD Cert.KernelIdeal.τ).loc Cert.KernelIdeal.main_v66_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part3 {F : FTy → Type} [FloatOps F] (main_arg12 : FVec F S2 .f32) (main_v48 : IVec S_ 1) (main_v49 : FVec F S2x2 .f32) (main_v50 : FVec F S2x2 .f32) : IVec S_ 1 :=
  let main_v51 : IVec S2x2 1 := cmpf .olt main_v49 main_v50
  let main_c_19 : IVec S_ 1 := constantI S_ 1 1#1
  let main_v52 : IVec S_ 1 := (fun x v => Host.reduce IntOp.andi x v reducesTo_S2x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S4x2 .f32) (main_arg9 : FVec F S2 .f32) (main_arg10 : FVec F S4x2 .f32) (main_arg11 : FVec F S2x2 .f32) (main_arg12 : FVec F S2 .f32) (main_v33 : IVec S_ 1) : IVec S_ 1 :=
  let main_v34 : FVec F S4x2 .f32 := Host.absf main_arg8
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S4x2 .f32 := Host.absf main_arg10
  let main_cst_16 : FVec F S_ .f32 := constant S_ .f32 0x7F800000#32
  let main_v45 : FVec F S4x2 .f32 := broadcastInDim S4x2 ![] bcast_S_S4x2 main_cst_16
  let main_v46 : IVec S4x2 1 := cmpf .olt main_v44 main_v45
  let main_c_17 : IVec S_ 1 := constantI S_ 1 1#1
  let main_v47 : IVec S_ 1 := (fun x v => Host.reduce IntOp.andi x v reducesTo_S4x2_S_d0_1 h_S_) main_v46 main_c_17
  let main_v48 : IVec S_ 1 := andi main_v43 main_v47
  let main_v49 : FVec F S2x2 .f32 := Host.absf main_arg11
  let main_cst_18 : FVec F S_ .f32 := constant S_ .f32 0x7F800000#32
  let main_v50 : FVec F S2x2 .f32 := broadcastInDim S2x2 ![] bcast_S_S2x2 main_cst_18
  fn_part3 (F := F) main_arg12 main_v48 main_v49 main_v50

def fn_part1 {F : FTy → Type} [FloatOps F] (main_arg5 : FVec F S4x4 .f32) (main_arg6 : FVec F S4 .f32) (main_arg7 : FVec F S4x4 .f32) (main_arg8 : FVec F S4x2 .f32) (main_arg9 : FVec F S2 .f32) (main_arg10 : FVec F S4x2 .f32) (main_arg11 : FVec F S2x2 .f32) (main_arg12 : FVec F S2 .f32) (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  let main_v19 : FVec F S4x4 .f32 := Host.absf main_arg5
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x4 .f32 := Host.absf main_arg7
  let main_cst_10 : FVec F S_ .f32 := constant S_ .f32 0x7F800000#32
  let main_v30 : FVec F S4x4 .f32 := broadcastInDim S4x4 ![] bcast_S_S4x4 main_cst_10
  let main_v31 : IVec S4x4 1 := cmpf .olt main_v29 main_v30
  let main_c_11 : IVec S_ 1 := constantI S_ 1 1#1
  let main_v32 : IVec S_ 1 := (fun x v => Host.reduce IntOp.andi x v reducesTo_S4x4_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1000000x1 .f32) (main_arg1 : IVec S2x16000000 32) (main_arg2 : FVec F S1x4 .f32) (main_arg3 : FVec F S4 .f32) (main_arg4 : FVec F S1x4 .f32) (main_arg5 : FVec F S4x4 .f32) (main_arg6 : FVec F S4 .f32) (main_arg7 : FVec F S4x4 .f32) (main_arg8 : FVec F S4x2 .f32) (main_arg9 : FVec F S2 .f32) (main_arg10 : FVec F S4x2 .f32) (main_arg11 : FVec F S2x2 .f32) (main_arg12 : FVec F S2 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1x4 .f32 := Host.absf main_arg4
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_arg5 main_arg6 main_arg7 main_arg8 main_arg9 main_arg10 main_arg11 main_arg12 main_v13 main_v16
-- ==== Kernel.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S1000000 : Shape := ⟨1, ![1000000]⟩
abbrev S1000000x4 : Shape := ⟨2, ![1000000, 4]⟩
abbrev S4096x1 : Shape := ⟨2, ![4096, 1]⟩
abbrev S4096x4 : Shape := ⟨2, ![4096, 4]⟩
abbrev S16000000x4 : Shape := ⟨2, ![16000000, 4]⟩
abbrev S1x2 : Shape := ⟨2, ![1, 2]⟩
abbrev S1000000x2 : Shape := ⟨2, ![1000000, 2]⟩
abbrev S4096x2 : Shape := ⟨2, ![4096, 2]⟩

abbrev nBuf : Space → Nat
  | .hbm => 99
  | .vmem => 31
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S1x4, .f32⟩
  | .hbm, ⟨3, _⟩ => ⟨S4, .f32⟩
  | .hbm, ⟨4, _⟩ => ⟨S1x4, .f32⟩
  | .hbm, ⟨5, _⟩ => ⟨S4x4, .f32⟩
  | .hbm, ⟨6, _⟩ => ⟨S4, .f32⟩
  | .hbm, ⟨7, _⟩ => ⟨S4x4, .f32⟩
  | .hbm, ⟨8, _⟩ => ⟨S4x2, .f32⟩
  | .hbm, ⟨9, _⟩ => ⟨S2, .f32⟩
  | .hbm, ⟨10, _⟩ => ⟨S4x2, .f32⟩
  | .hbm, ⟨11, _⟩ => ⟨S2x2, .f32⟩
  | .hbm, ⟨12, _⟩ => ⟨S2, .f32⟩
  | .hbm, ⟨13, _⟩ => ⟨S1x16000000, .i32⟩
  | .hbm, ⟨14, _⟩ => ⟨S16000000, .i32⟩
  | .hbm, ⟨15, _⟩ => ⟨S1x16000000, .i32⟩
  | .hbm, ⟨16, _⟩ => ⟨S16000000, .i32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x1, .f32⟩
  | .hbm, ⟨26, _⟩ => ⟨S_, .f32⟩
  | .hbm, ⟨27, _⟩ => ⟨S1000000x1, .f32⟩
  | .hbm, ⟨28, _⟩ => ⟨S16000000x1, .i32⟩
  | .hbm, ⟨29, _⟩ => ⟨S1000000x1, .f32⟩
  | .hbm, ⟨30, _⟩ => ⟨S_, .f32⟩
  | .hbm, ⟨31, _⟩ => ⟨S16000000, .f32⟩
  | .hbm, ⟨32, _⟩ => ⟨S_, .f32⟩
  | .hbm, ⟨33, _⟩ => ⟨S1000000, .f32⟩
  | .hbm, ⟨34, _⟩ => ⟨S16000000x1, .i32⟩
  | .hbm, ⟨35, _⟩ => ⟨S1000000, .f32⟩
  | .hbm, ⟨36, _⟩ => ⟨S_, .f32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S1000000x1, .f32⟩
  | .hbm, ⟨41, _⟩ => ⟨S1x4, .f32⟩
  | .hbm, ⟨42, _⟩ => ⟨S1000000x4, .f32⟩
  | .hbm, ⟨43, _⟩ => ⟨S_, .i32⟩
  | .hbm, ⟨44, _⟩ => ⟨S16000000, .i32⟩
  | .hbm, ⟨45, _⟩ => ⟨S16000000, .i1⟩
  | .hbm, ⟨46, _⟩ => ⟨S_, .i32⟩
  | .hbm, ⟨47, _⟩ => ⟨S16000000, .i32⟩
  | .hbm, ⟨48, _⟩ => ⟨S16000000, .i32⟩
  | .hbm, ⟨49, _⟩ => ⟨S16000000, .i32⟩
  | .hbm, ⟨50, _⟩ => ⟨S16000000x1, .i32⟩
  | .hbm, ⟨51, _⟩ => ⟨S16000000x4, .f32⟩
  | .hbm, ⟨52, _⟩ => ⟨S_, .f32⟩
  | .hbm, ⟨53, _⟩ => ⟨S1000000x4, .f32⟩
  | .hbm, ⟨54, _⟩ => ⟨S16000000x1, .i32⟩
  | .hbm, ⟨55, _⟩ => ⟨S1000000x4, .f32⟩
  | .hbm, ⟨56, _⟩ => ⟨S_, .f32⟩
  | .hbm, ⟨57, _⟩ => ⟨S16000000, .f32⟩
  | .hbm, ⟨58, _⟩ => ⟨S_, .f32⟩
  | .hbm, ⟨59, _⟩ => ⟨S1000000, .f32⟩
  | .hbm, ⟨60, _⟩ => ⟨S16000000x1, .i32⟩
  | .hbm, ⟨61, _⟩ => ⟨S1000000, .f32⟩
  | .hbm, ⟨62, _⟩ => ⟨S_, .f32⟩
  | .hbm, ⟨63, _⟩ => ⟨S1000000, .f32⟩
  | .hbm, ⟨64, _⟩ => ⟨S1000000, .f32⟩
  | .hbm, ⟨65, _⟩ => ⟨S1000000x1, .f32⟩
  | .hbm, ⟨66, _⟩ => ⟨S1000000x4, .f32⟩
  | .hbm, ⟨67, _⟩ => ⟨S1000000x4, .f32⟩
  | .hbm, ⟨68, _⟩ => ⟨S1x4, .f32⟩
  | .hbm, ⟨69, _⟩ => ⟨S1000000x4, .f32⟩
  | .hbm, ⟨70, _⟩ => ⟨S_, .i32⟩
  | .hbm, ⟨71, _⟩ => ⟨S16000000, .i32⟩
  | .hbm, ⟨72, _⟩ => ⟨S16000000, .i1⟩
  | .hbm, ⟨73, _⟩ => ⟨S_, .i32⟩
  | .hbm, ⟨74, _⟩ => ⟨S16000000, .i32⟩
  | .hbm, ⟨75, _⟩ => ⟨S16000000, .i32⟩
  | .hbm, ⟨76, _⟩ => ⟨S16000000, .i32⟩
  | .hbm, ⟨77, _⟩ => ⟨S16000000x1, .i32⟩
  | .hbm, ⟨78, _⟩ => ⟨S16000000x4, .f32⟩
  | .hbm, ⟨79, _⟩ => ⟨S_, .f32⟩
  | .hbm, ⟨80, _⟩ => ⟨S1000000x4, .f32⟩
  | .hbm, ⟨81, _⟩ => ⟨S16000000x1, .i32⟩
  | .hbm, ⟨82, _⟩ => ⟨S1000000x4, .f32⟩
  | .hbm, ⟨83, _⟩ => ⟨S_, .f32⟩
  | .hbm, ⟨84, _⟩ => ⟨S16000000, .f32⟩
  | .hbm, ⟨85, _⟩ => ⟨S_, .f32⟩
  | .hbm, ⟨86, _⟩ => ⟨S1000000, .f32⟩
  | .hbm, ⟨87, _⟩ => ⟨S16000000x1, .i32⟩
  | .hbm, ⟨88, _⟩ => ⟨S1000000, .f32⟩
  | .hbm, ⟨89, _⟩ => ⟨S_, .f32⟩
  | .hbm, ⟨90, _⟩ => ⟨S1000000, .f32⟩
  | .hbm, ⟨91, _⟩ => ⟨S1000000, .f32⟩
  | .hbm, ⟨92, _⟩ => ⟨S1000000x1, .f32⟩
  | .hbm, ⟨93, _⟩ => ⟨S1000000x4, .f32⟩
  | .hbm, ⟨94, _⟩ => ⟨S1000000x4, .f32⟩
  | .hbm, ⟨95, _⟩ => ⟨S1x2, .f32⟩
  | .hbm, ⟨96, _⟩ => ⟨S1x2, .f32⟩
  | .hbm, ⟨97, _⟩ => ⟨S1000000x2, .f32⟩
  | .hbm, ⟨98, _⟩ => ⟨S1000000x2, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x1, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | .local _ .vmem, ⟨7, _⟩ => ⟨S4096x4, .f32⟩
  | .local _ .vmem, ⟨8, _⟩ => ⟨S4096x4, .f32⟩
  | .local _ .vmem, ⟨9, _⟩ => ⟨S4096x4, .f32⟩
  | .local _ .vmem, ⟨10, _⟩ => ⟨S4096x4, .f32⟩
  | .local _ .vmem, ⟨11, _⟩ => ⟨S4096x4, .f32⟩
  | .local _ .vmem, ⟨12, _⟩ => ⟨S4096x4, .f32⟩
  | .local _ .vmem, ⟨13, _⟩ => ⟨S4x4, .f32⟩
  | .local _ .vmem, ⟨14, _⟩ => ⟨S1x4, .f32⟩
  | .local _ .vmem, ⟨15, _⟩ => ⟨S4x4, .f32⟩
  | .local _ .vmem, ⟨16, _⟩ => ⟨S4096x4, .f32⟩
  | .local _ .vmem, ⟨17, _⟩ => ⟨S4096x4, .f32⟩
  | .local _ .vmem, ⟨18, _⟩ => ⟨S4096x4, .f32⟩
  | .local _ .vmem, ⟨19, _⟩ => ⟨S4096x4, .f32⟩
  | .local _ .vmem, ⟨20, _⟩ => ⟨S4096x4, .f32⟩
  | .local _ .vmem, ⟨21, _⟩ => ⟨S4096x4, .f32⟩
  | .local _ .vmem, ⟨22, _⟩ => ⟨S4x2, .f32⟩
  | .local _ .vmem, ⟨23, _⟩ => ⟨S1x2, .f32⟩
  | .local _ .vmem, ⟨24, _⟩ => ⟨S4x2, .f32⟩
  | .local _ .vmem, ⟨25, _⟩ => ⟨S2x2, .f32⟩
  | .local _ .vmem, ⟨26, _⟩ => ⟨S1x2, .f32⟩
  | .local _ .vmem, ⟨27, _⟩ => ⟨S4096x2, .f32⟩
  | .local _ .vmem, ⟨28, _⟩ => ⟨S4096x2, .f32⟩
  | .local _ .vmem, ⟨29, _⟩ => ⟨S4096x2, .f32⟩
  | .local _ .vmem, ⟨30, _⟩ => ⟨S4096x2, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4096x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S4_S1x4 : S4.ShapeCasts S1x4
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4096x4 : S1x4.Broadcasts S4096x4
  broadcasts_S4096x1_S4096x4 : S4096x1.Broadcasts S4096x4
  inb_S4096x4_S4096x4_0_0 : ∀ a, (![0, 0] : Fin 2 → Nat) a + S4096x4.size a ≤ S4096x4.size a
  h_S4096x4 : 0 < S4096x4.numel
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  shapeCasts_S4096x4_S4096x4 : S4096x4.ShapeCasts S4096x4
  inb_S4x4_S4x4_0_0 : ∀ a, (![0, 0] : Fin 2 → Nat) a + S4x4.size a ≤ S4x4.size a
  h_S4x4 : 0 < S4x4.numel
  slices_S4096x4_o0_0_S4096x1 : S4096x4.Slices ![0, 0] S4096x1
  slices_S4x4_o0_0_S1x4 : S4x4.Slices ![0, 0] S1x4
  slices_S4096x4_o0_1_S4096x1 : S4096x4.Slices ![0, 1] S4096x1
  slices_S4x4_o1_0_S1x4 : S4x4.Slices ![1, 0] S1x4
  slices_S4096x4_o0_2_S4096x1 : S4096x4.Slices ![0, 2] S4096x1
  slices_S4x4_o2_0_S1x4 : S4x4.Slices ![2, 0] S1x4
  slices_S4096x4_o0_3_S4096x1 : S4096x4.Slices ![0, 3] S4096x1
  slices_S4x4_o3_0_S1x4 : S4x4.Slices ![3, 0] S1x4
  shapeCasts_S2_S1x2 : S2.ShapeCasts S1x2
  inb_S4x2_S4x2_0_0 : ∀ a, (![0, 0] : Fin 2 → Nat) a + S4x2.size a ≤ S4x2.size a
  h_S4x2 : 0 < S4x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  slices_S4x2_o0_0_S1x2 : S4x2.Slices ![0, 0] S1x2
  broadcasts_S4096x1_S4096x2 : S4096x1.Broadcasts S4096x2
  slices_S4x2_o1_0_S1x2 : S4x2.Slices ![1, 0] S1x2
  slices_S4x2_o2_0_S1x2 : S4x2.Slices ![2, 0] S1x2
  slices_S4x2_o3_0_S1x2 : S4x2.Slices ![3, 0] S1x2
  inb_S4096x2_S4096x2_0_0 : ∀ a, (![0, 0] : Fin 2 → Nat) a + S4096x2.size a ≤ S4096x2.size a
  h_S4096x2 : 0 < S4096x2.numel
  inb_S2x2_S2x2_0_0 : ∀ a, (![0, 0] : Fin 2 → Nat) a + S2x2.size a ≤ S2x2.size a
  h_S2x2 : 0 < S2x2.numel
  slices_S4096x2_o0_0_S4096x1 : S4096x2.Slices ![0, 0] S4096x1
  slices_S2x2_o0_0_S1x2 : S2x2.Slices ![0, 0] S1x2
  slices_S4096x2_o0_1_S4096x1 : S4096x2.Slices ![0, 1] S4096x1
  slices_S2x2_o1_0_S1x2 : S2x2.Slices ![1, 0] S1x2
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  scatter_S1000000_S16000000x1_S16000000_n_0_0_1_wf : ScatterDims.WF S1000000 S16000000x1 S16000000 [] [0] [0] 1
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x1.size a < S1000000x1.size a
  hwx0_0 : ∀ i : grid0.Coords, EltTy.bits .f32 = 32 ∨ (Rect.unit (s := S1000000x1) (fun a => cc0_transform_0 i a * S4096x1.size a) (fun a => (Pipeline.Clip.of (cc0_transform_0 i a) (S4096x1.size a) (S1000000x1.size a)).extent (S4096x1.size a)) fun a => Pipeline.Clip.inb (Pipeline.Clip.ok_of (hstart0_0 i a))).WholeWords (EltTy.packing .f32)
  hwxs0_0 : ∀ i : grid0.Coords, EltTy.bits .f32 = 32 ∨ (Rect.unit (s := S4096x1) (fun _ => 0) (fun a => (Pipeline.Clip.of (cc0_transform_0 i a) (S4096x1.size a) (S1000000x1.size a)).extent (S4096x1.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1.size a < S1000000x1.size a
  hwx0_1 : ∀ i : grid0.Coords, EltTy.bits .f32 = 32 ∨ (Rect.unit (s := S1000000x1) (fun a => cc0_transform_1 i a * S4096x1.size a) (fun a => (Pipeline.Clip.of (cc0_transform_1 i a) (S4096x1.size a) (S1000000x1.size a)).extent (S4096x1.size a)) fun a => Pipeline.Clip.inb (Pipeline.Clip.ok_of (hstart0_1 i a))).WholeWords (EltTy.packing .f32)
  hwxs0_1 : ∀ i : grid0.Coords, EltTy.bits .f32 = 32 ∨ (Rect.unit (s := S4096x1) (fun _ => 0) (fun a => (Pipeline.Clip.of (cc0_transform_1 i a) (S4096x1.size a) (S1000000x1.size a)).extent (S4096x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4096x4.size a < S1000000x4.size a
  hwx0_5 : ∀ i : grid0.Coords, EltTy.bits .f32 = 32 ∨ (Rect.unit (s := S1000000x4) (fun a => cc0_transform_5 i a * S4096x4.size a) (fun a => (Pipeline.Clip.of (cc0_transform_5 i a) (S4096x4.size a) (S1000000x4.size a)).extent (S4096x4.size a)) fun a => Pipeline.Clip.inb (Pipeline.Clip.ok_of (hstart0_5 i a))).WholeWords (EltTy.packing .f32)
  hwxs0_5 : ∀ i : grid0.Coords, EltTy.bits .f32 = 32 ∨ (Rect.unit (s := S4096x4) (fun _ => 0) (fun a => (Pipeline.Clip.of (cc0_transform_5 i a) (S4096x4.size a) (S1000000x4.size a)).extent (S4096x4.size a)) fun a => (Nat.zero_add _).trans_le (Pipeline.Clip.extent_le (Pipeline.Clip.ok_of (hstart0_5 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x4.size a < S1000000x4.size a
  hwx1_0 : ∀ i : grid1.Coords, EltTy.bits .f32 = 32 ∨ (Rect.unit (s := S1000000x4) (fun a => cc1_transform_0 i a * S4096x4.size a) (fun a => (Pipeline.Clip.of (cc1_transform_0 i a) (S4096x4.size a) (S1000000x4.size a)).extent (S4096x4.size a)) fun a => Pipeline.Clip.inb (Pipeline.Clip.ok_of (hstart1_0 i a))).WholeWords (EltTy.packing .f32)
  hwxs1_0 : ∀ i : grid1.Coords, EltTy.bits .f32 = 32 ∨ (Rect.unit (s := S4096x4) (fun _ => 0) (fun a => (Pipeline.Clip.of (cc1_transform_0 i a) (S4096x4.size a) (S1000000x4.size a)).extent (S4096x4.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x4.size a < S1000000x4.size a
  hwx1_1 : ∀ i : grid1.Coords, EltTy.bits .f32 = 32 ∨ (Rect.unit (s := S1000000x4) (fun a => cc1_transform_1 i a * S4096x4.size a) (fun a => (Pipeline.Clip.of (cc1_transform_1 i a) (S4096x4.size a) (S1000000x4.size a)).extent (S4096x4.size a)) fun a => Pipeline.Clip.inb (Pipeline.Clip.ok_of (hstart1_1 i a))).WholeWords (EltTy.packing .f32)
  hwxs1_1 : ∀ i : grid1.Coords, EltTy.bits .f32 = 32 ∨ (Rect.unit (s := S4096x4) (fun _ => 0) (fun a => (Pipeline.Clip.of (cc1_transform_1 i a) (S4096x4.size a) (S1000000x4.size a)).extent (S4096x4.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4.size a ≤ S4x4.size a
  hwx1_2 : ∀ i : grid1.Coords, EltTy.bits .f32 = 32 ∨ (Rect.block (s := S4x4) S4x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x4.size a ≤ S4x4.size a
  hwx1_4 : ∀ i : grid1.Coords, EltTy.bits .f32 = 32 ∨ (Rect.block (s := S4x4) S4x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S4096x4.size a < S1000000x4.size a
  hwx1_5 : ∀ i : grid1.Coords, EltTy.bits .f32 = 32 ∨ (Rect.unit (s := S1000000x4) (fun a => cc1_transform_5 i a * S4096x4.size a) (fun a => (Pipeline.Clip.of (cc1_transform_5 i a) (S4096x4.size a) (S1000000x4.size a)).extent (S4096x4.size a)) fun a => Pipeline.Clip.inb (Pipeline.Clip.ok_of (hstart1_5 i a))).WholeWords (EltTy.packing .f32)
  hwxs1_5 : ∀ i : grid1.Coords, EltTy.bits .f32 = 32 ∨ (Rect.unit (s := S4096x4) (fun _ => 0) (fun a => (Pipeline.Clip.of (cc1_transform_5 i a) (S4096x4.size a) (S1000000x4.size a)).extent (S4096x4.size a)) fun a => (Nat.zero_add _).trans_le (Pipeline.Clip.extent_le (Pipeline.Clip.ok_of (hstart1_5 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S4096x4.size a < S1000000x4.size a
  hwx2_0 : ∀ i : grid2.Coords, EltTy.bits .f32 = 32 ∨ (Rect.unit (s := S1000000x4) (fun a => cc2_transform_0 i a * S4096x4.size a) (fun a => (Pipeline.Clip.of (cc2_transform_0 i a) (S4096x4.size a) (S1000000x4.size a)).extent (S4096x4.size a)) fun a => Pipeline.Clip.inb (Pipeline.Clip.ok_of (hstart2_0 i a))).WholeWords (EltTy.packing .f32)
  hwxs2_0 : ∀ i : grid2.Coords, EltTy.bits .f32 = 32 ∨ (Rect.unit (s := S4096x4) (fun _ => 0) (fun a => (Pipeline.Clip.of (cc2_transform_0 i a) (S4096x4.size a) (S1000000x4.size a)).extent (S4096x4.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S4096x4.size a < S1000000x4.size a
  hwx2_1 : ∀ i : grid2.Coords, EltTy.bits .f32 = 32 ∨ (Rect.unit (s := S1000000x4) (fun a => cc2_transform_1 i a * S4096x4.size a) (fun a => (Pipeline.Clip.of (cc2_transform_1 i a) (S4096x4.size a) (S1000000x4.size a)).extent (S4096x4.size a)) fun a => Pipeline.Clip.inb (Pipeline.Clip.ok_of (hstart2_1 i a))).WholeWords (EltTy.packing .f32)
  hwxs2_1 : ∀ i : grid2.Coords, EltTy.bits .f32 = 32 ∨ (Rect.unit (s := S4096x4) (fun _ => 0) (fun a => (Pipeline.Clip.of (cc2_transform_1 i a) (S4096x4.size a) (S1000000x4.size a)).extent (S4096x4.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x2.size a ≤ S4x2.size a
  hwx2_2 : ∀ i : grid2.Coords, EltTy.bits .f32 = 32 ∨ (Rect.block (s := S4x2) S4x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x2.size a ≤ S4x2.size a
  hwx2_4 : ∀ i : grid2.Coords, EltTy.bits .f32 = 32 ∨ (Rect.block (s := S4x2) S4x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x2.size a ≤ S2x2.size a
  hwx2_5 : ∀ i : grid2.Coords, EltTy.bits .f32 = 32 ∨ (Rect.block (s := S2x2) S2x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hstart2_7 : ∀ (i : grid2.Coords) a, cc2_transform_7 i a * S4096x2.size a < S1000000x2.size a
  hwx2_7 : ∀ i : grid2.Coords, EltTy.bits .f32 = 32 ∨ (Rect.unit (s := S1000000x2) (fun a => cc2_transform_7 i a * S4096x2.size a) (fun a => (Pipeline.Clip.of (cc2_transform_7 i a) (S4096x2.size a) (S1000000x2.size a)).extent (S4096x2.size a)) fun a => Pipeline.Clip.inb (Pipeline.Clip.ok_of (hstart2_7 i a))).WholeWords (EltTy.packing .f32)
  hwxs2_7 : ∀ i : grid2.Coords, EltTy.bits .f32 = 32 ∨ (Rect.unit (s := S4096x2) (fun _ => 0) (fun a => (Pipeline.Clip.of (cc2_transform_7 i a) (S4096x2.size a) (S1000000x2.size a)).extent (S4096x2.size a)) fun a => (Nat.zero_add _).trans_le (Pipeline.Clip.extent_le (Pipeline.Clip.ok_of (hstart2_7 i a)))).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hstart2_8 : ∀ (i : grid2.Coords) a, cc2_transform_8 i a * S4096x2.size a < S1000000x2.size a
  hwx2_8 : ∀ i : grid2.Coords, EltTy.bits .f32 = 32 ∨ (Rect.unit (s := S1000000x2) (fun a => cc2_transform_8 i a * S4096x2.size a) (fun a => (Pipeline.Clip.of (cc2_transform_8 i a) (S4096x2.size a) (S1000000x2.size a)).extent (S4096x2.size a)) fun a => Pipeline.Clip.inb (Pipeline.Clip.ok_of (hstart2_8 i a))).WholeWords (EltTy.packing .f32)
  hwxs2_8 : ∀ i : grid2.Coords, EltTy.bits .f32 = 32 ∨ (Rect.unit (s := S4096x2) (fun _ => 0) (fun a => (Pipeline.Clip.of (cc2_transform_8 i a) (S4096x2.size a) (S1000000x2.size a)).extent (S4096x2.size a)) fun a => (Nat.zero_add _).trans_le (Pipeline.Clip.extent_le (Pipeline.Clip.ok_of (hstart2_8 i a)))).WholeWords (EltTy.packing .f32)

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf

abbrev win0_0 : Pipeline.Window sig grid0 :=
  Pipeline.Window.ofSpecClip (Memref.whole main_v21) S4096x1.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S4096x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v23) S4096x4.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_v42) S4096x4.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v23) S4096x4.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_arg5) S4x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S4x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v44) S4096x4.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v63) S4096x4.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v44) S4096x4.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_arg8) S4x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S4x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S2x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpecClip (Memref.whole main_v66_0) S4096x2.size cc2_transform_7 reads2_7 true false 2 stage2_7 sem2_7
    hrank2 hreads2_7 hstart2_7 nbuf2_7 (Memref.isWhole_whole _) hwx2_7 hwxs2_7 hstage2_7

abbrev win2_8 : Pipeline.Window sig grid2 :=
  Pipeline.Window.ofSpecClip (Memref.whole main_v66_1) S4096x2.size cc2_transform_8 reads2_8 true false 2 stage2_8 sem2_8
    hrank2 hreads2_8 hstart2_8 nbuf2_8 (Memref.isWhole_whole _) hwx2_8 hwxs2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S1000000 : Shape := ⟨1, ![1000000]⟩
abbrev S1000000x4 : Shape := ⟨2, ![1000000, 4]⟩
abbrev S16000000x4 : Shape := ⟨2, ![16000000, 4]⟩
abbrev S1000000x2 : Shape := ⟨2, ![1000000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S1x4, .f32⟩
  | .hbm, ⟨3, _⟩ => ⟨S4, .f32⟩
  | .hbm, ⟨4, _⟩ => ⟨S1x4, .f32⟩
  | .hbm, ⟨5, _⟩ => ⟨S4x4, .f32⟩
  | .hbm, ⟨6, _⟩ => ⟨S4, .f32⟩
  | .hbm, ⟨7, _⟩ => ⟨S4x4, .f32⟩
  | .hbm, ⟨8, _⟩ => ⟨S4x2, .f32⟩
  | .hbm, ⟨9, _⟩ => ⟨S2, .f32⟩
  | .hbm, ⟨10, _⟩ => ⟨S4x2, .f32⟩
  | .hbm, ⟨11, _⟩ => ⟨S2x2, .f32⟩
  | .hbm, ⟨12, _⟩ => ⟨S2, .f32⟩
  | .hbm, ⟨13, _⟩ => ⟨S1x16000000, .i32⟩
  | .hbm, ⟨14, _⟩ => ⟨S16000000, .i32⟩
  | .hbm, ⟨15, _⟩ => ⟨S1x16000000, .i32⟩
  | .hbm, ⟨16, _⟩ => ⟨S16000000, .i32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x1, .f32⟩
  | .hbm, ⟨26, _⟩ => ⟨S_, .f32⟩
  | .hbm, ⟨27, _⟩ => ⟨S1000000x1, .f32⟩
  | .hbm, ⟨28, _⟩ => ⟨S16000000x1, .i32⟩
  | .hbm, ⟨29, _⟩ => ⟨S1000000x1, .f32⟩
  | .hbm, ⟨30, _⟩ => ⟨S_, .f32⟩
  | .hbm, ⟨31, _⟩ => ⟨S16000000, .f32⟩
  | .hbm, ⟨32, _⟩ => ⟨S_, .f32⟩
  | .hbm, ⟨33, _⟩ => ⟨S1000000, .f32⟩
  | .hbm, ⟨34, _⟩ => ⟨S16000000x1, .i32⟩
  | .hbm, ⟨35, _⟩ => ⟨S1000000, .f32⟩
  | .hbm, ⟨36, _⟩ => ⟨S_, .f32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S1000000x1, .f32⟩
  | .hbm, ⟨41, _⟩ => ⟨S1000000x4, .f32⟩
  | .hbm, ⟨42, _⟩ => ⟨S1x4, .f32⟩
  | .hbm, ⟨43, _⟩ => ⟨S1000000x4, .f32⟩
  | .hbm, ⟨44, _⟩ => ⟨S1000000x4, .f32⟩
  | .hbm, ⟨45, _⟩ => ⟨S1000000x4, .f32⟩
  | .hbm, ⟨46, _⟩ => ⟨S1000000x4, .f32⟩
  | .hbm, ⟨47, _⟩ => ⟨S_, .f32⟩
  | .hbm, ⟨48, _⟩ => ⟨S1000000x4, .f32⟩
  | .hbm, ⟨49, _⟩ => ⟨S1000000x4, .f32⟩
  | .hbm, ⟨50, _⟩ => ⟨S_, .i32⟩
  | .hbm, ⟨51, _⟩ => ⟨S16000000, .i32⟩
  | .hbm, ⟨52, _⟩ => ⟨S16000000, .i1⟩
  | .hbm, ⟨53, _⟩ => ⟨S_, .i32⟩
  | .hbm, ⟨54, _⟩ => ⟨S16000000, .i32⟩
  | .hbm, ⟨55, _⟩ => ⟨S16000000, .i32⟩
  | .hbm, ⟨56, _⟩ => ⟨S16000000, .i32⟩
  | .hbm, ⟨57, _⟩ => ⟨S16000000x1, .i32⟩
  | .hbm, ⟨58, _⟩ => ⟨S16000000x4, .f32⟩
  | .hbm, ⟨59, _⟩ => ⟨S_, .f32⟩
  | .hbm, ⟨60, _⟩ => ⟨S1000000x4, .f32⟩
  | .hbm, ⟨61, _⟩ => ⟨S16000000x1, .i32⟩
  | .hbm, ⟨62, _⟩ => ⟨S1000000x4, .f32⟩
  | .hbm, ⟨63, _⟩ => ⟨S_, .f32⟩
  | .hbm, ⟨64, _⟩ => ⟨S16000000, .f32⟩
  | .hbm, ⟨65, _⟩ => ⟨S_, .f32⟩
  | .hbm, ⟨66, _⟩ => ⟨S1000000, .f32⟩
  | .hbm, ⟨67, _⟩ => ⟨S16000000x1, .i32⟩
  | .hbm, ⟨68, _⟩ => ⟨S1000000, .f32⟩
  | .hbm, ⟨69, _⟩ => ⟨S_, .f32⟩
  | .hbm, ⟨70, _⟩ => ⟨S1000000, .f32⟩
  | .hbm, ⟨71, _⟩ => ⟨S1000000, .f32⟩
  | .hbm, ⟨72, _⟩ => ⟨S1000000x1, .f32⟩
  | .hbm, ⟨73, _⟩ => ⟨S1000000x4, .f32⟩
  | .hbm, ⟨74, _⟩ => ⟨S1000000x4, .f32⟩
  | .hbm, ⟨75, _⟩ => ⟨S1000000x4, .f32⟩
  | .hbm, ⟨76, _⟩ => ⟨S1x4, .f32⟩
  | .hbm, ⟨77, _⟩ => ⟨S1000000x4, .f32⟩
  | .hbm, ⟨78, _⟩ => ⟨S1000000x4, .f32⟩
  | .hbm, ⟨79, _⟩ => ⟨S1000000x4, .f32⟩
  | .hbm, ⟨80, _⟩ => ⟨S1000000x4, .f32⟩
  | .hbm, ⟨81, _⟩ => ⟨S_, .f32⟩
  | .hbm, ⟨82, _⟩ => ⟨S1000000x4, .f32⟩
  | .hbm, ⟨83, _⟩ => ⟨S1000000x4, .f32⟩
  | .hbm, ⟨84, _⟩ => ⟨S_, .i32⟩
  | .hbm, ⟨85, _⟩ => ⟨S16000000, .i32⟩
  | .hbm, ⟨86, _⟩ => ⟨S16000000, .i1⟩
  | .hbm, ⟨87, _⟩ => ⟨S_, .i32⟩
  | .hbm, ⟨88, _⟩ => ⟨S16000000, .i32⟩
  | .hbm, ⟨89, _⟩ => ⟨S16000000, .i32⟩
  | .hbm, ⟨90, _⟩ => ⟨S16000000, .i32⟩
  | .hbm, ⟨91, _⟩ => ⟨S16000000x1, .i32⟩
  | .hbm, ⟨92, _⟩ => ⟨S16000000x4, .f32⟩
  | .hbm, ⟨93, _⟩ => ⟨S_, .f32⟩
  | .hbm, ⟨94, _⟩ => ⟨S1000000x4, .f32⟩
  | .hbm, ⟨95, _⟩ => ⟨S16000000x1, .i32⟩
  | .hbm, ⟨96, _⟩ => ⟨S1000000x4, .f32⟩
  | .hbm, ⟨97, _⟩ => ⟨S_, .f32⟩
  | .hbm, ⟨98, _⟩ => ⟨S16000000, .f32⟩
  | .hbm, ⟨99, _⟩ => ⟨S_, .f32⟩
  | .hbm, ⟨100, _⟩ => ⟨S1000000, .f32⟩
  | .hbm, ⟨101, _⟩ => ⟨S16000000x1, .i32⟩
  | .hbm, ⟨102, _⟩ => ⟨S1000000, .f32⟩
  | .hbm, ⟨103, _⟩ => ⟨S_, .f32⟩
  | .hbm, ⟨104, _⟩ => ⟨S1000000, .f32⟩
  | .hbm, ⟨105, _⟩ => ⟨S1000000, .f32⟩
  | .hbm, ⟨106, _⟩ => ⟨S1000000x1, .f32⟩
  | .hbm, ⟨107, _⟩ => ⟨S1000000x4, .f32⟩
  | .hbm, ⟨108, _⟩ => ⟨S1000000x4, .f32⟩
  | .hbm, ⟨109, _⟩ => ⟨S1000000x2, .f32⟩
  | .hbm, ⟨110, _⟩ => ⟨S1x2, .f32⟩
  | .hbm, ⟨111, _⟩ => ⟨S1000000x2, .f32⟩
  | .hbm, ⟨112, _⟩ => ⟨S1000000x2, .f32⟩
  | .hbm, ⟨113, _⟩ => ⟨S1000000x2, .f32⟩
  | .hbm, ⟨114, _⟩ => ⟨S1000000x2, .f32⟩
  | .hbm, ⟨115, _⟩ => ⟨S_, .f32⟩
  | .hbm, ⟨116, _⟩ => ⟨S1000000x2, .f32⟩
  | .hbm, ⟨117, _⟩ => ⟨S1000000x2, .f32⟩
  | .hbm, ⟨118, _⟩ => ⟨S1000000x2, .f32⟩
  | .hbm, ⟨119, _⟩ => ⟨S1x2, .f32⟩
  | .hbm, ⟨120, _⟩ => ⟨S1000000x2, .f32⟩
  | .hbm, ⟨121, _⟩ => ⟨S1000000x2, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x1 : S_.BroadcastsInDim S1000000x1 (![] : Fin 0 → Fin S1000000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  bcast_S_S1000000x2 : S_.BroadcastsInDim S1000000x2 (![] : Fin 0 → Fin S1000000x2.rank)
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  scatter_S1000000_S16000000x1_S16000000_n_0_0_1_wf : ScatterDims.WF S1000000 S16000000x1 S16000000 [] [0] [0] 1
  dot_S1000000x1_S1x4_S1000000x4_1_0_0_1_n_n_wf : DotDims.WF S1000000x1 S1x4 S1000000x4 [1] [0] [0] [1] [] []
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  dot_S1000000x4_S4x4_S1000000x4_1_0_0_1_n_n_wf : DotDims.WF S1000000x4 S4x4 S1000000x4 [1] [0] [0] [1] [] []
  dot_S1000000x4_S4x2_S1000000x2_1_0_0_1_n_n_wf : DotDims.WF S1000000x4 S4x2 S1000000x2 [1] [0] [0] [1] [] []
  dot_S1000000x2_S2x2_S1000000x2_1_0_0_1_n_n_wf : DotDims.WF S1000000x2 S2x2 S1000000x2 [1] [0] [0] [1] [] []

variable [Facts₀]

def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf
def dot_S1000000x2_S2x2_S1000000x2_1_0_0_1_n_n : DotDims S1000000x2 S2x2 S1000000x2 where
  lhsContracting := [1]
  rhsContracting := [0]
  lhsNonContracting := [0]
  rhsNonContracting := [1]
  lhsBatch := []
  rhsBatch := []
  wf := dot_S1000000x2_S2x2_S1000000x2_1_0_0_1_n_n_wf

class Facts : Prop extends Facts₀ where

variable [Facts]
-- ==== Proof.K.Stores.lean ====
/-
  What each of the three node-tile kernels stores, as one function of the blocks it loads (operand order: the
  aggregated-neighbour block, the node-feature block, the left weights, the bias row, the right weights, and for the
  last kernel the classifier's weights and bias row): the bodies' named payloads composed as the bodies compose them.
-/
import proofs.«180108_j33234456937224_1_alg».proof.Proof.Gen.Kernel.Skeleton

noncomputable section

namespace Cert.Kernel.Hand

open Cert.Kernel Cert.Kernel.Gen Idealize.ShloMosaic

variable {F : FTy → Type} [FloatOps F]

/-- Layer 1's tile: relu (b + a·wl + x·wr), one input column. -/
def store0 (a x : Vec F S4096x1 .f32) (wl b wr : Vec F S1x4 .f32) : Vec F S4096x4 .f32 :=
  k0_pay1 a x wl wr b

/-- Layer 2's tile: relu of the bias row plus, column by column, a·wl then x·wr, four input columns. -/
def store1 (a x : Vec F S4096x4 .f32) (wl : Vec F S4x4 .f32) (b : Vec F S1x4 .f32) (wr : Vec F S4x4 .f32) :
    Vec F S4096x4 .f32 :=
  k1_pay1 (k1_pay3 x) wr (k1_pay4 a x wl wr b) (k1_pay5 wl) (k1_pay6 a)

/-- Layer 3's tile, two output columns. -/
def store2h (a x : Vec F S4096x4 .f32) (wl : Vec F S4x2 .f32) (b : Vec F S1x2 .f32) (wr : Vec F S4x2 .f32) :
    Vec F S4096x2 .f32 :=
  k2_pay1 (k2_pay4 x) wr (k2_pay5 a x wl wr b) (k2_pay6 wl) (k2_pay7 a)

/-- The classifier's tile over layer 3's: bc + h·wc. -/
def store2o (a x : Vec F S4096x4 .f32) (wl : Vec F S4x2 .f32) (b : Vec F S1x2 .f32) (wr : Vec F S4x2 .f32)
    (wc : Vec F S2x2 .f32) (bc : Vec F S1x2 .f32) : Vec F S4096x2 .f32 :=
  k2_pay2 (k2_pay4 x) wr (k2_pay5 a x wl wr b) (k2_pay6 wl) (k2_pay7 a) wc bc

end Cert.Kernel.Hand

end
-- ==== Proof.K.Region0.lean ====
/-
  The first node-tile kernel (layer 1) at every grid point, for any float instance and any contents `V` of the
  buffers at the region's entry. A node tile is 4096 rows; the last of the 245 tiles overhangs the 1000000-row arrays,
  so its fetch fills only the tile's rows inside the array and the rest of the staging buffer holds words nothing
  names. The body is row-wise, so the rows inside the array of what it stores depend only on the rows inside the
  array of what it loads: that is all the write-back moves, and all that is stated of the three node windows.
-/
import proofs.«180108_j33234456937224_1_alg».proof.Proof.K.Stores
import proofs.«180108_j33234456937224_1_alg».proof.Proof.Gen.Kernel.Launch
import proofs.«180108_j33234456937224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated-neighbour tile at point `t`, filled out past the array's end with the zero word. -/
def atile0 (c : Dev nD) (t : Fin cfg0.N) : Vec F S4096x1 .f32 :=
  win0_0.fill (grid0.coords t) (fun _ => Scalar.ofBits .f32 0#32) (iblk0 V c 0 t)
/-- The node-feature tile likewise. -/
def xtile0 (c : Dev nD) (t : Fin cfg0.N) : Vec F S4096x1 .f32 :=
  win0_1.fill (grid0.coords t) (fun _ => Scalar.ofBits .f32 0#32) (iblk0 V c 1 t)

/-! ## The proof data -/

/-- After the body at point `t`: the two node tiles and the three weight blocks as fetched, the result's buffer at
    what the body stores of them. -/
def dat0 (c : Dev nD) : Dat τ (Elt F) Unit ℕ (UR sig nD τ) ℕ cfg0 c where
  A w := V c (Pipeline.arrRef spec0 w)
  after w t := match w with
    | ⟨0, _⟩ => atile0 V c t
    | ⟨1, _⟩ => xtile0 V c t
    | ⟨2, _⟩ => iblk0 V c 2 t
    | ⟨3, _⟩ => iblk0 V c 3 t
    | ⟨4, _⟩ => iblk0 V c 4 t
    | ⟨5, _⟩ => store0 (atile0 V c t) (xtile0 V c t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = atile0 V c t := by dsimp only [dat0]
theorem after0_1 (c : Dev nD) (t : Fin cfg0.N) : (dat0 V c).after 1 t = xtile0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = store0 (atile0 V c t) (xtile0 V c t) (iblk0 V c 2 t) (iblk0 V c 3 t) (iblk0 V c 4 t) := by dsimp only [dat0]

/-! ## What the body finds -/

/-- A node tile is fetched at every point: the buffer holds the tile's rows inside the array, anything past them. -/
theorem before0_0 (c : Dev nD) (t : Fin cfg0.N) (d) :
    (dat0 V c).before 0 t d = win0_0.fill (grid0.coords t) d (iblk0 V c 0 t) := by
  rw [(dat0 V c).before_fetched 0 t (fetch0_0 t) d]; rfl
theorem before0_1 (c : Dev nD) (t : Fin cfg0.N) (d) :
    (dat0 V c).before 1 t d = win0_1.fill (grid0.coords t) d (iblk0 V c 1 t) := by
  rw [(dat0 V c).before_fetched 1 t (fetch0_1 t) d]; rfl
/-- A weight block is fetched once and stays: the buffer holds the block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- The result's buffer was written back at the point before (or nothing has touched it): it holds anything. -/
theorem before0_5 (c : Dev nD) (t : Fin cfg0.N) (d) : (dat0 V c).before 5 t d = d :=
  (dat0 V c).before_out_reset 5 rfl t (by
    by_cases h : t.val = 0
    · exact .inl h
    · exact .inr ⟨h, flush0_5 _⟩) d

end Cert.Kernel.Hand

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.K.Payloads.lean ====
/-
  The value each of the three kernels stores, read at one element of the stored block, for every float instance.

  Each kernel loads a block of aggregated features, a block of node features, two weight matrices and a bias row, and
  stores the rectified value of an unrolled multiply-add chain: starting from the bias, for each input column in turn
  it adds the aggregated column times the matching row of the first weight matrix, then the feature column times the
  matching row of the second. The third kernel stores in addition a linear read-out of the rectified value. Read at
  row r and column j the stored value is a scalar expression in row r of the two feature blocks only.
-/
import proofs.«180108_j33234456937224_1_alg».proof.Proof.K.Stores
import proofs.«180108_j33234456937224_1_alg».proof.Proof.LibColumnLayout
import Idealize.ShloMosaic.Lib.ValueIdx
import Idealize.ShloMosaic.Lib.ValueLayout
import Idealize.ShloMosaic.Lib.Pipeline.Value

noncomputable section

namespace Cert.Kernel.Hand

open Cert.Kernel Cert.Kernel.Gen Idealize.ShloMosaic Idealize.ShloMosaic.ValueIdx Cert.ColumnLayout

variable {F : FTy → Type} [FloatOps F]

/-! ## The pointwise operations at an index, for every instance -/

section Pointwise
variable {s : Shape} {φ : FTy}

/-- A sum of two vectors at an index is the instance's sum of the two elements. -/
theorem addf_at (x y : FVec F s φ) (i : s.Idx) : addf x y i = FloatOps.addf (x i) (y i) := rfl
/-- A product of two vectors at an index is the instance's product of the two elements. -/
theorem mulf_at (x y : FVec F s φ) (i : s.Idx) : mulf x y i = FloatOps.mulf (x i) (y i) := rfl
/-- A maximum of two vectors at an index is the instance's maximum of the two elements. -/
theorem maximumf_at (x y : FVec F s φ) (i : s.Idx) : maximumf x y i = FloatOps.maximumf (x i) (y i) := rfl

end Pointwise

/-! ## The layout operations of the kernels at coordinates -/

section Layout
variable {α : Type}

/-- The column at offset `o` of an `[a, b]` block, kept as an `[a, 1]` column, reads at row `p` the block at `(p, o)`. -/
theorem col_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u)
      = X (ix2 p ⟨o, Nat.lt_of_lt_of_le (Nat.lt_succ_self o) (h.2 1)⟩) :=
  slice2_axis1_apply o X h p u _ (by have := u.isLt; show o = o + u.val; omega)

/-- The row at offset `o` of an `[a, b]` matrix, kept as a `[1, b]` row, reads at column `c` the matrix at `(o, c)`. -/
theorem row_apply {a b : ℕ} (o : ℕ) (X : (⟨2, ![a, b]⟩ : Shape).Idx → α)
    (h : (⟨2, ![a, b]⟩ : Shape).Slices ![o, 0] ⟨2, ![1, b]⟩) (u : Fin 1) (c : Fin b) :
    extractStridedSlice ⟨2, ![1, b]⟩ ![o, 0] X h (ix2 u c)
      = X (ix2 ⟨o, Nat.lt_of_lt_of_le (Nat.lt_succ_self o) (h.2 0)⟩ c) :=
  slice2_axis0_apply o X h u c _ (by have := u.isLt; show o = o + u.val; omega)

end Layout

/-! ## Layer 1's stored tile -/

/-- Layer 1's stored tile at row `r`, column `j`: the rectified bias plus the two products. -/
theorem store0_apply (a x : Vec F S4096x1 .f32) (wl b wr : Vec F S1x4 .f32) (r : Fin 4096) (j : Fin 4) :
    store0 a x wl b wr (ix2 r j) =
      FloatOps.maximumf
        (FloatOps.addf
          (FloatOps.addf (b (ix2 (0 : Fin 1) j)) (FloatOps.mulf (a (ix2 r (0 : Fin 1))) (wl (ix2 (0 : Fin 1) j))))
          (FloatOps.mulf (x (ix2 r (0 : Fin 1))) (wr (ix2 (0 : Fin 1) j))))
        (Scalar.ofBits .f32 0x00000000#32) := by
  unfold store0 k0_pay1
  simp only [shapeCast_self, maximumf_at, addf_at, mulf_at, broadcast_apply, broadcastTo_1b_ab_apply,
    broadcastTo_a1_ab_apply]

/-! ## Layer 2's stored tile -/

/-- Layer 2's stored tile at row `r`, column `j`: the rectified chain over the four input columns, each adding the
aggregated entry times its weight and then the feature entry times its weight. -/
theorem store1_apply (a x : Vec F S4096x4 .f32) (wl : Vec F S4x4 .f32) (b : Vec F S1x4 .f32) (wr : Vec F S4x4 .f32)
    (r : Fin 4096) (j : Fin 4) :
    store1 a x wl b wr (ix2 r j) =
      FloatOps.maximumf
        (FloatOps.addf (FloatOps.addf (FloatOps.addf (FloatOps.addf (FloatOps.addf (FloatOps.addf (FloatOps.addf (FloatOps.addf (b (ix2 (0 : Fin 1) j))
        (FloatOps.mulf (a (ix2 r (0 : Fin 4))) (wl (ix2 (0 : Fin 4) j))))
        (FloatOps.mulf (x (ix2 r (0 : Fin 4))) (wr (ix2 (0 : Fin 4) j))))
        (FloatOps.mulf (a (ix2 r (1 : Fin 4))) (wl (ix2 (1 : Fin 4) j))))
        (FloatOps.mulf (x (ix2 r (1 : Fin 4))) (wr (ix2 (1 : Fin 4) j))))
        (FloatOps.mulf (a (ix2 r (2 : Fin 4))) (wl (ix2 (2 : Fin 4) j))))
        (FloatOps.mulf (x (ix2 r (2 : Fin 4))) (wr (ix2 (2 : Fin 4) j))))
        (FloatOps.mulf (a (ix2 r (3 : Fin 4))) (wl (ix2 (3 : Fin 4) j))))
        (FloatOps.mulf (x (ix2 r (3 : Fin 4))) (wr (ix2 (3 : Fin 4) j))))
        (Scalar.ofBits .f32 0x00000000#32) := by
  unfold store1 k1_pay1 k1_pay4 k1_pay5 k1_pay6 k1_pay3 k1_pay2
  simp only [shapeCast_self, maximumf_at, addf_at, mulf_at, broadcast_apply, broadcastTo_1b_ab_apply,
    broadcastTo_a1_ab_apply, col_apply, row_apply]
  rfl

/-! ## Layer 3's stored tiles -/

/-- Layer 3's stored hidden tile at row `r`, column `j`: the rectified chain over the four input columns. -/
theorem store2h_apply (a x : Vec F S4096x4 .f32) (wl : Vec F S4x2 .f32) (b : Vec F S1x2 .f32) (wr : Vec F S4x2 .f32)
    (r : Fin 4096) (j : Fin 2) :
    store2h a x wl b wr (ix2 r j) =
      FloatOps.maximumf
        (FloatOps.addf (FloatOps.addf (FloatOps.addf (FloatOps.addf (FloatOps.addf (FloatOps.addf (FloatOps.addf (FloatOps.addf (b (ix2 (0 : Fin 1) j))
        (FloatOps.mulf (a (ix2 r (0 : Fin 4))) (wl (ix2 (0 : Fin 4) j))))
        (FloatOps.mulf (x (ix2 r (0 : Fin 4))) (wr (ix2 (0 : Fin 4) j))))
        (FloatOps.mulf (a (ix2 r (1 : Fin 4))) (wl (ix2 (1 : Fin 4) j))))
        (FloatOps.mulf (x (ix2 r (1 : Fin 4))) (wr (ix2 (1 : Fin 4) j))))
        (FloatOps.mulf (a (ix2 r (2 : Fin 4))) (wl (ix2 (2 : Fin 4) j))))
        (FloatOps.mulf (x (ix2 r (2 : Fin 4))) (wr (ix2 (2 : Fin 4) j))))
        (FloatOps.mulf (a (ix2 r (3 : Fin 4))) (wl (ix2 (3 : Fin 4) j))))
        (FloatOps.mulf (x (ix2 r (3 : Fin 4))) (wr (ix2 (3 : Fin 4) j))))
        (Scalar.ofBits .f32 0x00000000#32) := by
  unfold store2h k2_pay1 k2_pay5 k2_pay6 k2_pay7 k2_pay4 k2_pay3
  simp only [shapeCast_self, maximumf_at, addf_at, mulf_at, broadcast_apply, broadcastTo_1b_ab_apply,
    broadcastTo_a1_ab_apply, col_apply, row_apply]
  rfl

/-- The read-out tile is computed from the hidden tile as stored. -/
theorem store2o_apply (a x : Vec F S4096x4 .f32) (wl : Vec F S4x2 .f32) (b : Vec F S1x2 .f32) (wr : Vec F S4x2 .f32)
    (wc : Vec F S2x2 .f32) (bc : Vec F S1x2 .f32) (r : Fin 4096) (j : Fin 2) :
    store2o a x wl b wr wc bc (ix2 r j) =
      FloatOps.addf
        (FloatOps.addf (bc (ix2 (0 : Fin 1) j))
          (FloatOps.mulf (store2h a x wl b wr (ix2 r (0 : Fin 2))) (wc (ix2 (0 : Fin 2) j))))
        (FloatOps.mulf (store2h a x wl b wr (ix2 r (1 : Fin 2))) (wc (ix2 (1 : Fin 2) j))) := by
  unfold store2o k2_pay2
  simp only [shapeCast_self, addf_at, mulf_at, broadcastTo_1b_ab_apply, broadcastTo_a1_ab_apply, col_apply, row_apply]
  rfl

/-! ## Row locality: the stored value at row `r` reads the two feature blocks at row `r` only -/

/-- Layer 1's stored tile at row `r` depends on the two feature blocks through their row `r` only. -/
theorem store0_row_congr {a a' x x' : Vec F S4096x1 .f32} (wl b wr : Vec F S1x4 .f32) (r : Fin 4096) (j : Fin 4)
    (ha : a (ix2 r (0 : Fin 1)) = a' (ix2 r (0 : Fin 1))) (hx : x (ix2 r (0 : Fin 1)) = x' (ix2 r (0 : Fin 1))) :
    store0 a x wl b wr (ix2 r j) = store0 a' x' wl b wr (ix2 r j) := by
  rw [store0_apply, store0_apply, ha, hx]

/-- Layer 2's stored tile at row `r` depends on the two feature blocks through their row `r` only. -/
theorem store1_row_congr {a a' x x' : Vec F S4096x4 .f32} (wl : Vec F S4x4 .f32) (b : Vec F S1x4 .f32)
    (wr : Vec F S4x4 .f32) (r : Fin 4096) (j : Fin 4)
    (ha : ∀ k : Fin 4, a (ix2 r k) = a' (ix2 r k)) (hx : ∀ k : Fin 4, x (ix2 r k) = x' (ix2 r k)) :
    store1 a x wl b wr (ix2 r j) = store1 a' x' wl b wr (ix2 r j) := by
  rw [store1_apply, store1_apply, ha 0, ha 1, ha 2, ha 3, hx 0, hx 1, hx 2, hx 3]

/-- Layer 3's stored hidden tile at row `r` depends on the two feature blocks through their row `r` only. -/
theorem store2h_row_congr {a a' x x' : Vec F S4096x4 .f32} (wl : Vec F S4x2 .f32) (b : Vec F S1x2 .f32)
    (wr : Vec F S4x2 .f32) (r : Fin 4096) (j : Fin 2)
    (ha : ∀ k : Fin 4, a (ix2 r k) = a' (ix2 r k)) (hx : ∀ k : Fin 4, x (ix2 r k) = x' (ix2 r k)) :
    store2h a x wl b wr (ix2 r j) = store2h a' x' wl b wr (ix2 r j) := by
  rw [store2h_apply, store2h_apply, ha 0, ha 1, ha 2, ha 3, hx 0, hx 1, hx 2, hx 3]

/-- Layer 3's stored read-out tile at row `r` depends on the two feature blocks through their row `r` only. -/
theorem store2o_row_congr {a a' x x' : Vec F S4096x4 .f32} (wl : Vec F S4x2 .f32) (b : Vec F S1x2 .f32)
    (wr : Vec F S4x2 .f32) (wc : Vec F S2x2 .f32) (bc : Vec F S1x2 .f32) (r : Fin 4096) (j : Fin 2)
    (ha : ∀ k : Fin 4, a (ix2 r k) = a' (ix2 r k)) (hx : ∀ k : Fin 4, x (ix2 r k) = x' (ix2 r k)) :
    store2o a x wl b wr wc bc (ix2 r j) = store2o a' x' wl b wr wc bc (ix2 r j) := by
  rw [store2o_apply, store2o_apply, store2h_row_congr wl b wr r 0 ha hx, store2h_row_congr wl b wr r 1 ha hx]

end Cert.Kernel.Hand

end
-- ==== Proof.K.Local0.lean ====
/-
  Row locality of the first node-tile kernel: the rows inside the array of the tile the body stores do not depend on
  what fills the input tiles past the array's end.
-/
import proofs.«180108_j33234456937224_1_alg».proof.Proof.K.Region0
import proofs.«180108_j33234456937224_1_alg».proof.Proof.K.Payloads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two fills of one fetched part agree wherever the transfer moves the element, whatever filled the rest. -/
theorem fill_eq_of_moved0 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local0 (c : Dev nD) (t : Fin cfg0.N) (d0 d1 : Vec F S4096x1 .f32) :
    win0_5.cut (grid0.coords t)
        (store0 (win0_0.fill (grid0.coords t) d0 (iblk0 V c 0 t)) (win0_1.fill (grid0.coords t) d1 (iblk0 V c 1 t))
          (iblk0 V c 2 t) (iblk0 V c 3 t) (iblk0 V c 4 t))
      = win0_5.cut (grid0.coords t)
          (store0 (atile0 V c t) (xtile0 V c t) (iblk0 V c 2 t) (iblk0 V c 3 t) (iblk0 V c 4 t)) := by
  funext y
  have hy0 : (y 0).val < win0_5.xsize (grid0.coords t) 0 := (y 0).isLt
  have hr : (y 0).val < 4096 := Nat.lt_of_lt_of_le hy0 (win0_5.xsize_le (grid0.coords t) 0)
  have hj : (y 1).val < 4 := Nat.lt_of_lt_of_le (y 1).isLt (win0_5.xsize_le (grid0.coords t) 1)
  have hix : win0_5.xinj (grid0.coords t) y = ValueIdx.ix2 (⟨(y 0).val, hr⟩ : Fin 4096) (⟨(y 1).val, hj⟩ : Fin 4) := by
    funext a; match a with | ⟨0, _⟩ => rfl | ⟨1, _⟩ => rfl
  show store0 _ _ _ _ _ (win0_5.xinj (grid0.coords t) y) = store0 _ _ _ _ _ (win0_5.xinj (grid0.coords t) y)
  rw [hix]
  unfold atile0 xtile0
  refine store0_row_congr _ _ _ _ _ ?_ ?_
  · refine fill_eq_of_moved0 win0_0 _ _ _ _ _ ((win0_0.moved_iff _ _).mpr fun a => ?_)
    match a with
    | ⟨0, _⟩ => exact hy0
    | ⟨1, _⟩ => exact Pipeline.Clip.extent_pos (win0_0.hclip (grid0.coords t) 1) Nat.one_pos
  · refine fill_eq_of_moved0 win0_1 _ _ _ _ _ ((win0_1.moved_iff _ _).mpr fun a => ?_)
    match a with
    | ⟨0, _⟩ => exact hy0
    | ⟨1, _⟩ => exact Pipeline.Clip.extent_pos (win0_1.hclip (grid0.coords t) 1) Nat.one_pos

end Cert.Kernel.Hand

end
-- ==== Proof.K.Body0.lean ====
/-
  The first node-tile kernel's body as a triple on whole staging buffers, and the obligation the pipeline asks of it
  at every grid point: the body loads the two node tiles and the three weight blocks, computes, reads the result's
  buffer (a dead load) and stores the tile relu (b + a·wl + x·wr) over it whole.
-/
import proofs.«180108_j33234456937224_1_alg».proof.Proof.K.Region0
import proofs.«180108_j33234456937224_1_alg».proof.Proof.K.Local0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the store take the whole buffer -/

abbrev r0_n : Rect S4096x1 := Rect.unit (s := S4096x1) ![0, 0] S4096x1.size inb_S4096x1_S4096x1_0_0
abbrev r0_w : Rect S1x4 := Rect.unit (s := S1x4) ![0, 0] S1x4.size inb_S1x4_S1x4_0_0
abbrev r0_o : Rect S4096x4 := Rect.unit (s := S4096x4) ![0, 0] S4096x4.size inb_S4096x4_S4096x4_0_0

/-- The result's staging buffer after the body: its one store as a piece. -/
def out0_5 (x0 x1 : Vec F S4096x1 .f32) (x2 x3 x4 : Vec F S1x4 .f32) : Vec F S4096x4 .f32 :=
  View.canon [⟨r0_o, k0_pay1 (View.ld x0 r0_n) (View.ld x1 r0_n) (View.ld x2 r0_w) (View.ld x4 r0_w) (View.ld x3 r0_w)⟩]

theorem cover0_5 (p0 : Vec F S4096x4 .f32) (y : S4096x4.Idx) :
    ∃ pc ∈ ([⟨r0_o, p0⟩] : List (View.Piece (Elt F) S4096x4 .f32)), y ∈ pc.1.set :=
  View.cover_of_tiled [⟨r0_o, p0⟩] S4096x4.size (by rfl) y

/-- Whole-buffer accesses at offset zero read and write the contents themselves. -/
theorem out0_5_eq (x0 x1 : Vec F S4096x1 .f32) (x2 x3 x4 : Vec F S1x4 .f32) :
    out0_5 x0 x1 x2 x3 x4 = store0 x0 x1 x2 x3 x4 := by
  have hz : (![0, 0] : Fin 2 → Nat) = fun _ => 0 := funext fun a => by fin_cases a <;> rfl
  unfold out0_5 store0
  rw [View.canon_unit_zero hz]
  simp only [View.ld_unit_zero (S := S4096x1) hz, View.ld_unit_zero (S := S1x4) hz]

set_option maxHeartbeats 1000000 in
theorem sound_kernel0 (c : Dev nD) (E : Set ℕ) (i : grid0.Coords)
    (arg0 : Memref sig .tc .vmem S4096x1 .f32) (harg0 : arg0.IsWhole) (arg1 : Memref sig .tc .vmem S4096x1 .f32) (harg1 : arg1.IsWhole)
    (arg2 : Memref sig .tc .vmem S1x4 .f32) (harg2 : arg2.IsWhole) (arg3 : Memref sig .tc .vmem S1x4 .f32) (harg3 : arg3.IsWhole)
    (arg4 : Memref sig .tc .vmem S1x4 .f32) (harg4 : arg4.IsWhole) (arg5 : Memref sig .tc .vmem S4096x4 .f32) (harg5 : arg5.IsWhole)
    (x0 x1 : Vec F S4096x1 .f32) (x2 x3 x4 : Vec F S1x4 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__sage_layer_kernel i arg0 harg0 arg1 harg1 arg2 harg2 arg3 harg3 arg4 harg4 arg5 harg5) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: a node window's buffer stated on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare ((cfg0.win 0).fill (cfg0.grid.coords t) d ((cfg0.win 0).cut (cfg0.grid.coords t) ((dat0 V c).after 0 t))))
    ∗ (∃ d, owns (c : Thread nD τ) (st0_1 t) fullShare ((cfg0.win 1).fill (cfg0.grid.coords t) d ((cfg0.win 1).cut (cfg0.grid.coords t) ((dat0 V c).after 1 t))))
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (∃ d, owns (c : Thread nD τ) (st0_5 t) fullShare ((cfg0.win 5).fill (cfg0.grid.coords t) d ((cfg0.win 5).cut (cfg0.grid.coords t) ((dat0 V c).after 5 t)))))

/-- The body at any point: the node tiles arrive filled out past the array's end with anything, the weight blocks
    whole, the result's buffer holding anything; the rows inside the array of what the body stores are those of the
    tile of the zero-filled inputs (the body is row-wise: `local0`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2, before0_3 V c t d3, before0_4 V c t d4, before0_5 V c t d5]
  iapply (sound_kernel0 (F := F) c Set.univ (grid0.coords t) _ _ _ _ _ _ _ _ _ _ _ _
    (win0_0.fill (grid0.coords t) d0 (iblk0 V c 0 t)) (win0_1.fill (grid0.coords t) d1 (iblk0 V c 1 t))
    (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have ha : win0_0.cut (grid0.coords t) (atile0 V c t) = iblk0 V c 0 t := win0_0.cut_fill _ _ _
  have hx : win0_1.cut (grid0.coords t) (xtile0 V c t) = iblk0 V c 1 t := win0_1.cut_fill _ _ _
  isplitl [H0]
  · iexists d0
    change _ ⊢ owns (c : Thread nD τ) (st0_0 t) fullShare (win0_0.fill (grid0.coords t) d0 (win0_0.cut (grid0.coords t) (atile0 V c t)))
    rw [ha]; try iexact H0
  isplitl [H1]
  · iexists d1
    change _ ⊢ owns (c : Thread nD τ) (st0_1 t) fullShare (win0_1.fill (grid0.coords t) d1 (win0_1.cut (grid0.coords t) (xtile0 V c t)))
    rw [hx]; try iexact H1
  isplitl [H2]; · iexact H2
  isplitl [H3]; · iexact H3
  isplitl [H4]; · iexact H4
  iexists store0 (win0_0.fill (grid0.coords t) d0 (iblk0 V c 0 t)) (win0_1.fill (grid0.coords t) d1 (iblk0 V c 1 t)) (iblk0 V c 2 t) (iblk0 V c 3 t) (iblk0 V c 4 t)
  change _ ⊢ owns (c : Thread nD τ) (st0_5 t) fullShare (win0_5.fill (grid0.coords t) _ (win0_5.cut (grid0.coords t) _))
  rw [win0_5.fill_congr_cut (grid0.coords t) (local0 V c t d0 d1), ← out0_5_eq]
  try iexact H5

/-- The pipeline's obligation at every point. -/
theorem body_obligation0 (c : Dev nD) : BodyObligationLoose (dat0 (F := F) V c) (defs₀ (F := F)) Variants.none () Set.univ := fun t => by
  rw [bigSep_W0, bigSep_W0]
  exact sound_body0 V c t

end Cert.Kernel.Hand

end
-- ==== Proof.K.Region1.lean ====
/-
  The second node-tile kernel (layer 2) at every grid point, for any float instance and any contents `V` of the buffers at the region's
  entry. A node tile is 4096 rows; the last of the 245 tiles overhangs the 1000000-row arrays, so its fetch fills only
  the tile's rows inside the array and the rest of the staging buffer holds words nothing names. The body is row-wise,
  so the rows inside the array of what it stores depend only on the rows inside the array of what it loads: that is
  all the write-back moves, and all that is stated of the node windows.
-/
import proofs.«180108_j33234456937224_1_alg».proof.Proof.K.Stores
import proofs.«180108_j33234456937224_1_alg».proof.Proof.Gen.Kernel.Launch
import proofs.«180108_j33234456937224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-neighbour tile at point `t`, filled out past the array's end with the zero word. -/
def atile1 (c : Dev nD) (t : Fin cfg1.N) : Vec F S4096x4 .f32 :=
  win1_0.fill (grid1.coords t) (fun _ => Scalar.ofBits .f32 0#32) (iblk1 V c 0 t)
/-- The node-feature tile likewise. -/
def xtile1 (c : Dev nD) (t : Fin cfg1.N) : Vec F S4096x4 .f32 :=
  win1_1.fill (grid1.coords t) (fun _ => Scalar.ofBits .f32 0#32) (iblk1 V c 1 t)

/-! ## The proof data -/

/-- After the body at point `t`: the two node tiles and the weight blocks as fetched, each result's buffer at what the
    body stores of them. -/
def dat1 (c : Dev nD) : Dat τ (Elt F) Unit ℕ (UR sig nD τ) ℕ cfg1 c where
  A w := V c (Pipeline.arrRef spec1 w)
  after w t := match w with
    | ⟨0, _⟩ => atile1 V c t
    | ⟨1, _⟩ => xtile1 V c t
    | ⟨2, _⟩ => iblk1 V c 2 t
    | ⟨3, _⟩ => iblk1 V c 3 t
    | ⟨4, _⟩ => iblk1 V c 4 t
    | ⟨5, _⟩ => store1 (atile1 V c t) (xtile1 V c t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = atile1 V c t := by dsimp only [dat1]
theorem after1_1 (c : Dev nD) (t : Fin cfg1.N) : (dat1 V c).after 1 t = xtile1 V c t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = store1 (atile1 V c t) (xtile1 V c t) (iblk1 V c 2 t) (iblk1 V c 3 t) (iblk1 V c 4 t) := by dsimp only [dat1]

/-! ## What the body finds -/

/-- A node tile is fetched at every point: the buffer holds the tile's rows inside the array, anything past them. -/
theorem before1_0 (c : Dev nD) (t : Fin cfg1.N) (d) :
    (dat1 V c).before 0 t d = win1_0.fill (grid1.coords t) d (iblk1 V c 0 t) := by
  rw [(dat1 V c).before_fetched 0 t (fetch1_0 t) d]; rfl
/-- A node tile is fetched at every point: the buffer holds the tile's rows inside the array, anything past them. -/
theorem before1_1 (c : Dev nD) (t : Fin cfg1.N) (d) :
    (dat1 V c).before 1 t d = win1_1.fill (grid1.coords t) d (iblk1 V c 1 t) := by
  rw [(dat1 V c).before_fetched 1 t (fetch1_1 t) d]; rfl
/-- A weight block is fetched once and stays: the buffer holds the block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- A weight block is fetched once and stays: the buffer holds the block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- A weight block is fetched once and stays: the buffer holds the block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- A result's buffer was written back at the point before (or nothing has touched it): it holds anything. -/
theorem before1_5 (c : Dev nD) (t : Fin cfg1.N) (d) : (dat1 V c).before 5 t d = d :=
  (dat1 V c).before_out_reset 5 rfl t (by
    by_cases h : t.val = 0
    · exact .inl h
    · exact .inr ⟨h, flush1_5 _⟩) d

end Cert.Kernel.Hand

end
-- ==== Proof.K.Local1.lean ====
/-
  Row locality of the second node-tile kernel (layer 2): the rows inside the array of a tile the body stores do not depend on
  what fills the input tiles past the array's end.
-/
import proofs.«180108_j33234456937224_1_alg».proof.Proof.K.Region1
import proofs.«180108_j33234456937224_1_alg».proof.Proof.K.Payloads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Two fills of one fetched part agree wherever the transfer moves the element, whatever filled the rest. -/
theorem fill_eq_of_moved1 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local1_5 (c : Dev nD) (t : Fin cfg1.N) (d0 d1 : Vec F S4096x4 .f32) :
    win1_5.cut (grid1.coords t)
        (store1 (win1_0.fill (grid1.coords t) d0 (iblk1 V c 0 t)) (win1_1.fill (grid1.coords t) d1 (iblk1 V c 1 t)) (iblk1 V c 2 t) (iblk1 V c 3 t) (iblk1 V c 4 t))
      = win1_5.cut (grid1.coords t)
          (store1 (atile1 V c t) (xtile1 V c t) (iblk1 V c 2 t) (iblk1 V c 3 t) (iblk1 V c 4 t)) := by
  funext y
  have hy0 : (y 0).val < win1_5.xsize (grid1.coords t) 0 := (y 0).isLt
  have hr : (y 0).val < 4096 := Nat.lt_of_lt_of_le hy0 (win1_5.xsize_le (grid1.coords t) 0)
  have hj : (y 1).val < 4 := Nat.lt_of_lt_of_le (y 1).isLt (win1_5.xsize_le (grid1.coords t) 1)
  have hix : win1_5.xinj (grid1.coords t) y
      = ValueIdx.ix2 (⟨(y 0).val, hr⟩ : Fin 4096) (⟨(y 1).val, hj⟩ : Fin 4) := by
    funext a; match a with | ⟨0, _⟩ => rfl | ⟨1, _⟩ => rfl
  show store1 _ _ _ _ _ (win1_5.xinj (grid1.coords t) y) = store1 _ _ _ _ _ (win1_5.xinj (grid1.coords t) y)
  rw [hix]
  unfold atile1 xtile1
  refine store1_row_congr _ _ _ _ _ (fun k => ?_) (fun k => ?_)
  · refine fill_eq_of_moved1 win1_0 _ _ _ _ _ ((win1_0.moved_iff _ _).mpr fun a => ?_)
    match a with
    | ⟨0, _⟩ => exact hy0
    | ⟨1, _⟩ => exact (k.isLt : k.val < 4)
  · refine fill_eq_of_moved1 win1_1 _ _ _ _ _ ((win1_1.moved_iff _ _).mpr fun a => ?_)
    match a with
    | ⟨0, _⟩ => exact hy0
    | ⟨1, _⟩ => exact (k.isLt : k.val < 4)

end Cert.Kernel.Hand

end
-- ==== Proof.K.Body1.lean ====
/-
  The second node-tile kernel (layer 2)'s body as a triple on whole staging buffers, and the obligation the pipeline asks of it at every
  grid point: the body loads the two node tiles and the weight blocks whole, computes, reads each result's buffer (a
  dead load) and stores each result tile over its buffer whole.
-/
import proofs.«180108_j33234456937224_1_alg».proof.Proof.K.Region1
import proofs.«180108_j33234456937224_1_alg».proof.Proof.K.Local1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's accesses: every load and every store takes the whole buffer -/

abbrev r1_S4096x4 : Rect S4096x4 := Rect.unit (s := S4096x4) ![0, 0] S4096x4.size inb_S4096x4_S4096x4_0_0
abbrev r1_S4x4 : Rect S4x4 := Rect.unit (s := S4x4) ![0, 0] S4x4.size inb_S4x4_S4x4_0_0
abbrev r1_S1x4 : Rect S1x4 := Rect.unit (s := S1x4) ![0, 0] S1x4.size inb_S1x4_S1x4_0_0

/-- Result window 5's staging buffer after the body: its one store as a piece. -/
def out1_5 (x0 x1 : Vec F S4096x4 .f32) (x2 : Vec F S4x4 .f32) (x3 : Vec F S1x4 .f32) (x4 : Vec F S4x4 .f32) : Vec F S4096x4 .f32 :=
  View.canon [⟨r1_S4096x4, k1_pay1 (k1_pay3 (View.ld x1 r1_S4096x4)) (View.ld x4 r1_S4x4) (k1_pay4 (View.ld x0 r1_S4096x4) (View.ld x1 r1_S4096x4) (View.ld x2 r1_S4x4) (View.ld x4 r1_S4x4) (View.ld x3 r1_S1x4)) (k1_pay5 (View.ld x2 r1_S4x4)) (k1_pay6 (View.ld x0 r1_S4096x4))⟩]

theorem cover1_5 (p0 : Vec F S4096x4 .f32) (y : S4096x4.Idx) :
    ∃ pc ∈ ([⟨r1_S4096x4, p0⟩] : List (View.Piece (Elt F) S4096x4 .f32)), y ∈ pc.1.set :=
  View.cover_of_tiled [⟨r1_S4096x4, p0⟩] S4096x4.size (by rfl) y

/-- Whole-buffer accesses at offset zero read and write the contents themselves. -/
theorem out1_5_eq (x0 x1 : Vec F S4096x4 .f32) (x2 : Vec F S4x4 .f32) (x3 : Vec F S1x4 .f32) (x4 : Vec F S4x4 .f32) :
    out1_5 x0 x1 x2 x3 x4 = store1 x0 x1 x2 x3 x4 := by
  have hz : (![0, 0] : Fin 2 → Nat) = fun _ => 0 := funext fun a => by fin_cases a <;> rfl
  unfold out1_5 store1
  rw [View.canon_unit_zero hz]
  simp only [View.ld_unit_zero (S := S4096x4) hz, View.ld_unit_zero (S := S4x4) hz, View.ld_unit_zero (S := S1x4) hz]

set_option maxHeartbeats 4000000 in
theorem sound_kernel1 (c : Dev nD) (E : Set ℕ) (i : grid1.Coords)
    (arg0 : Memref sig .tc .vmem S4096x4 .f32) (harg0 : arg0.IsWhole) (arg1 : Memref sig .tc .vmem S4096x4 .f32) (harg1 : arg1.IsWhole) (arg2 : Memref sig .tc .vmem S4x4 .f32) (harg2 : arg2.IsWhole) (arg3 : Memref sig .tc .vmem S1x4 .f32) (harg3 : arg3.IsWhole) (arg4 : Memref sig .tc .vmem S4x4 .f32) (harg4 : arg4.IsWhole) (arg5 : Memref sig .tc .vmem S4096x4 .f32) (harg5 : arg5.IsWhole)
    (x0 x1 : Vec F S4096x4 .f32) (x2 : Vec F S4x4 .f32) (x3 : Vec F S1x4 .f32) (x4 : Vec F S4x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__sage_layer_kernel i arg0 harg0 arg1 harg1 arg2 harg2 arg3 harg3 arg4 harg4 arg5 harg5) K := by
  simp only [cc1__sage_layer_kernel_eq_skeleton]; unfold cc1__sage_layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: a node window's buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (∃ d, owns (c : Thread nD τ) (st1_5 t) fullShare ((cfg1.win 5).fill (cfg1.grid.coords t) d ((cfg1.win 5).cut (cfg1.grid.coords t) ((dat1 V c).after 5 t)))))

/-- The body at any point: the node tiles arrive filled out past the array's end with anything, the weight blocks
    whole, each result's buffer holding anything; the rows inside the array of what the body stores are those of the
    tile of the zero-filled inputs (the body is row-wise). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3, before1_4 V c t d4, before1_5 V c t d5]
  iapply (sound_kernel1 (F := F) c Set.univ (grid1.coords t) _ _ _ _ _ _ _ _ _ _ _ _
    (win1_0.fill (grid1.coords t) d0 (iblk1 V c 0 t)) (win1_1.fill (grid1.coords t) d1 (iblk1 V c 1 t)) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hc0 : win1_0.cut (grid1.coords t) (atile1 V c t) = iblk1 V c 0 t := win1_0.cut_fill _ _ _
  have hc1 : win1_1.cut (grid1.coords t) (xtile1 V c t) = iblk1 V c 1 t := win1_1.cut_fill _ _ _
  isplitl [H0]
  · iexists d0
    change _ ⊢ owns (c : Thread nD τ) (st1_0 t) fullShare (win1_0.fill (grid1.coords t) d0 (win1_0.cut (grid1.coords t) (atile1 V c t)))
    rw [hc0]; try iexact H0
  isplitl [H1]
  · iexists d1
    change _ ⊢ owns (c : Thread nD τ) (st1_1 t) fullShare (win1_1.fill (grid1.coords t) d1 (win1_1.cut (grid1.coords t) (xtile1 V c t)))
    rw [hc1]; try iexact H1
  isplitl [H2]; · iexact H2
  isplitl [H3]; · iexact H3
  isplitl [H4]; · iexact H4
  iexists store1 (win1_0.fill (grid1.coords t) d0 (iblk1 V c 0 t)) (win1_1.fill (grid1.coords t) d1 (iblk1 V c 1 t)) (iblk1 V c 2 t) (iblk1 V c 3 t) (iblk1 V c 4 t)
  change _ ⊢ owns (c : Thread nD τ) (st1_5 t) fullShare (win1_5.fill (grid1.coords t) _ (win1_5.cut (grid1.coords t) _))
  rw [win1_5.fill_congr_cut (grid1.coords t) (local1_5 V c t d0 d1), ← out1_5_eq]
  try iexact H5

/-- The pipeline's obligation at every point. -/
theorem body_obligation1 (c : Dev nD) : BodyObligationLoose (dat1 (F := F) V c) (defs₀ (F := F)) Variants.none () Set.univ := fun t => by
  rw [bigSep_W1, bigSep_W1]
  exact sound_body1 V c t

end Cert.Kernel.Hand

end
-- ==== Proof.K.Region2.lean ====
/-
  The third node-tile kernel (layer 3 and the classifier) at every grid point, for any float instance and any contents `V` of the buffers at the region's
  entry. A node tile is 4096 rows; the last of the 245 tiles overhangs the 1000000-row arrays, so its fetch fills only
  the tile's rows inside the array and the rest of the staging buffer holds words nothing names. The body is row-wise,
  so the rows inside the array of what it stores depend only on the rows inside the array of what it loads: that is
  all the write-back moves, and all that is stated of the node windows.
-/
import proofs.«180108_j33234456937224_1_alg».proof.Proof.K.Stores
import proofs.«180108_j33234456937224_1_alg».proof.Proof.Gen.Kernel.Launch
import proofs.«180108_j33234456937224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregated-neighbour tile at point `t`, filled out past the array's end with the zero word. -/
def atile2 (c : Dev nD) (t : Fin cfg2.N) : Vec F S4096x4 .f32 :=
  win2_0.fill (grid2.coords t) (fun _ => Scalar.ofBits .f32 0#32) (iblk2 V c 0 t)
/-- The node-feature tile likewise. -/
def xtile2 (c : Dev nD) (t : Fin cfg2.N) : Vec F S4096x4 .f32 :=
  win2_1.fill (grid2.coords t) (fun _ => Scalar.ofBits .f32 0#32) (iblk2 V c 1 t)

/-! ## The proof data -/

/-- After the body at point `t`: the two node tiles and the weight blocks as fetched, each result's buffer at what the
    body stores of them. -/
def dat2 (c : Dev nD) : Dat τ (Elt F) Unit ℕ (UR sig nD τ) ℕ cfg2 c where
  A w := V c (Pipeline.arrRef spec2 w)
  after w t := match w with
    | ⟨0, _⟩ => atile2 V c t
    | ⟨1, _⟩ => xtile2 V c t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => store2h (atile2 V c t) (xtile2 V c t) (iblk2 V c 2 t) (iblk2 V c 3 t) (iblk2 V c 4 t)
    | ⟨8, _⟩ => store2o (atile2 V c t) (xtile2 V c t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = atile2 V c t := by dsimp only [dat2]
theorem after2_1 (c : Dev nD) (t : Fin cfg2.N) : (dat2 V c).after 1 t = xtile2 V c t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = store2h (atile2 V c t) (xtile2 V c t) (iblk2 V c 2 t) (iblk2 V c 3 t) (iblk2 V c 4 t) := by dsimp only [dat2]
theorem after2_8 (c : Dev nD) (t : Fin cfg2.N) : (dat2 V c).after 8 t = store2o (atile2 V c t) (xtile2 V c t) (iblk2 V c 2 t) (iblk2 V c 3 t) (iblk2 V c 4 t) (iblk2 V c 5 t) (iblk2 V c 6 t) := by dsimp only [dat2]

/-! ## What the body finds -/

/-- A node tile is fetched at every point: the buffer holds the tile's rows inside the array, anything past them. -/
theorem before2_0 (c : Dev nD) (t : Fin cfg2.N) (d) :
    (dat2 V c).before 0 t d = win2_0.fill (grid2.coords t) d (iblk2 V c 0 t) := by
  rw [(dat2 V c).before_fetched 0 t (fetch2_0 t) d]; rfl
/-- A node tile is fetched at every point: the buffer holds the tile's rows inside the array, anything past them. -/
theorem before2_1 (c : Dev nD) (t : Fin cfg2.N) (d) :
    (dat2 V c).before 1 t d = win2_1.fill (grid2.coords t) d (iblk2 V c 1 t) := by
  rw [(dat2 V c).before_fetched 1 t (fetch2_1 t) d]; rfl
/-- A weight block is fetched once and stays: the buffer holds the block at every point. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- A weight block is fetched once and stays: the buffer holds the block at every point. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- A weight block is fetched once and stays: the buffer holds the block at every point. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- A weight block is fetched once and stays: the buffer holds the block at every point. -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- A weight block is fetched once and stays: the buffer holds the block at every point. -/
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
/-- A result's buffer was written back at the point before (or nothing has touched it): it holds anything. -/
theorem before2_7 (c : Dev nD) (t : Fin cfg2.N) (d) : (dat2 V c).before 7 t d = d :=
  (dat2 V c).before_out_reset 7 rfl t (by
    by_cases h : t.val = 0
    · exact .inl h
    · exact .inr ⟨h, flush2_7 _⟩) d
/-- A result's buffer was written back at the point before (or nothing has touched it): it holds anything. -/
theorem before2_8 (c : Dev nD) (t : Fin cfg2.N) (d) : (dat2 V c).before 8 t d = d :=
  (dat2 V c).before_out_reset 8 rfl t (by
    by_cases h : t.val = 0
    · exact .inl h
    · exact .inr ⟨h, flush2_8 _⟩) d

end Cert.Kernel.Hand

end
-- ==== Proof.K.Local2.lean ====
/-
  Row locality of the third node-tile kernel (layer 3 and the classifier): the rows inside the array of a tile the body stores do not depend on
  what fills the input tiles past the array's end.
-/
import proofs.«180108_j33234456937224_1_alg».proof.Proof.K.Region2
import proofs.«180108_j33234456937224_1_alg».proof.Proof.K.Payloads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Two fills of one fetched part agree wherever the transfer moves the element, whatever filled the rest. -/
theorem fill_eq_of_moved2 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local2_7 (c : Dev nD) (t : Fin cfg2.N) (d0 d1 : Vec F S4096x4 .f32) :
    win2_7.cut (grid2.coords t)
        (store2h (win2_0.fill (grid2.coords t) d0 (iblk2 V c 0 t)) (win2_1.fill (grid2.coords t) d1 (iblk2 V c 1 t)) (iblk2 V c 2 t) (iblk2 V c 3 t) (iblk2 V c 4 t))
      = win2_7.cut (grid2.coords t)
          (store2h (atile2 V c t) (xtile2 V c t) (iblk2 V c 2 t) (iblk2 V c 3 t) (iblk2 V c 4 t)) := by
  funext y
  have hy0 : (y 0).val < win2_7.xsize (grid2.coords t) 0 := (y 0).isLt
  have hr : (y 0).val < 4096 := Nat.lt_of_lt_of_le hy0 (win2_7.xsize_le (grid2.coords t) 0)
  have hj : (y 1).val < 2 := Nat.lt_of_lt_of_le (y 1).isLt (win2_7.xsize_le (grid2.coords t) 1)
  have hix : win2_7.xinj (grid2.coords t) y
      = ValueIdx.ix2 (⟨(y 0).val, hr⟩ : Fin 4096) (⟨(y 1).val, hj⟩ : Fin 2) := by
    funext a; match a with | ⟨0, _⟩ => rfl | ⟨1, _⟩ => rfl
  show store2h _ _ _ _ _ (win2_7.xinj (grid2.coords t) y) = store2h _ _ _ _ _ (win2_7.xinj (grid2.coords t) y)
  rw [hix]
  unfold atile2 xtile2
  refine store2h_row_congr _ _ _ _ _ (fun k => ?_) (fun k => ?_)
  · refine fill_eq_of_moved2 win2_0 _ _ _ _ _ ((win2_0.moved_iff _ _).mpr fun a => ?_)
    match a with
    | ⟨0, _⟩ => exact hy0
    | ⟨1, _⟩ => exact (k.isLt : k.val < 4)
  · refine fill_eq_of_moved2 win2_1 _ _ _ _ _ ((win2_1.moved_iff _ _).mpr fun a => ?_)
    match a with
    | ⟨0, _⟩ => exact hy0
    | ⟨1, _⟩ => exact (k.isLt : k.val < 4)

theorem local2_8 (c : Dev nD) (t : Fin cfg2.N) (d0 d1 : Vec F S4096x4 .f32) :
    win2_8.cut (grid2.coords t)
        (store2o (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t))
      = win2_8.cut (grid2.coords t)
          (store2o (atile2 V c t) (xtile2 V c t) (iblk2 V c 2 t) (iblk2 V c 3 t) (iblk2 V c 4 t) (iblk2 V c 5 t) (iblk2 V c 6 t)) := by
  funext y
  have hy0 : (y 0).val < win2_8.xsize (grid2.coords t) 0 := (y 0).isLt
  have hr : (y 0).val < 4096 := Nat.lt_of_lt_of_le hy0 (win2_8.xsize_le (grid2.coords t) 0)
  have hj : (y 1).val < 2 := Nat.lt_of_lt_of_le (y 1).isLt (win2_8.xsize_le (grid2.coords t) 1)
  have hix : win2_8.xinj (grid2.coords t) y
      = ValueIdx.ix2 (⟨(y 0).val, hr⟩ : Fin 4096) (⟨(y 1).val, hj⟩ : Fin 2) := by
    funext a; match a with | ⟨0, _⟩ => rfl | ⟨1, _⟩ => rfl
  show store2o _ _ _ _ _ _ _ (win2_8.xinj (grid2.coords t) y) = store2o _ _ _ _ _ _ _ (win2_8.xinj (grid2.coords t) y)
  rw [hix]
  unfold atile2 xtile2
  refine store2o_row_congr _ _ _ _ _ _ _ (fun k => ?_) (fun k => ?_)
  · refine fill_eq_of_moved2 win2_0 _ _ _ _ _ ((win2_0.moved_iff _ _).mpr fun a => ?_)
    match a with
    | ⟨0, _⟩ => exact hy0
    | ⟨1, _⟩ => exact (k.isLt : k.val < 4)
  · refine fill_eq_of_moved2 win2_1 _ _ _ _ _ ((win2_1.moved_iff _ _).mpr fun a => ?_)
    match a with
    | ⟨0, _⟩ => exact hy0
    | ⟨1, _⟩ => exact (k.isLt : k.val < 4)

end Cert.Kernel.Hand

end
-- ==== Proof.K.Body2.lean ====
/-
  The third node-tile kernel (layer 3 and the classifier)'s body as a triple on whole staging buffers, and the obligation the pipeline asks of it at every
  grid point: the body loads the two node tiles and the weight blocks whole, computes, reads each result's buffer (a
  dead load) and stores each result tile over its buffer whole.
-/
import proofs.«180108_j33234456937224_1_alg».proof.Proof.K.Region2
import proofs.«180108_j33234456937224_1_alg».proof.Proof.K.Local2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's accesses: every load and every store takes the whole buffer -/

abbrev r2_S4096x4 : Rect S4096x4 := Rect.unit (s := S4096x4) ![0, 0] S4096x4.size inb_S4096x4_S4096x4_0_0
abbrev r2_S4x2 : Rect S4x2 := Rect.unit (s := S4x2) ![0, 0] S4x2.size inb_S4x2_S4x2_0_0
abbrev r2_S1x2 : Rect S1x2 := Rect.unit (s := S1x2) ![0, 0] S1x2.size inb_S1x2_S1x2_0_0
abbrev r2_S2x2 : Rect S2x2 := Rect.unit (s := S2x2) ![0, 0] S2x2.size inb_S2x2_S2x2_0_0
abbrev r2_S4096x2 : Rect S4096x2 := Rect.unit (s := S4096x2) ![0, 0] S4096x2.size inb_S4096x2_S4096x2_0_0

/-- Result window 7's staging buffer after the body: its one store as a piece. -/
def out2_7 (x0 x1 : Vec F S4096x4 .f32) (x2 : Vec F S4x2 .f32) (x3 : Vec F S1x2 .f32) (x4 : Vec F S4x2 .f32) (x5 : Vec F S2x2 .f32) (x6 : Vec F S1x2 .f32) : Vec F S4096x2 .f32 :=
  View.canon [⟨r2_S4096x2, k2_pay1 (k2_pay4 (View.ld x1 r2_S4096x4)) (View.ld x4 r2_S4x2) (k2_pay5 (View.ld x0 r2_S4096x4) (View.ld x1 r2_S4096x4) (View.ld x2 r2_S4x2) (View.ld x4 r2_S4x2) (View.ld x3 r2_S1x2)) (k2_pay6 (View.ld x2 r2_S4x2)) (k2_pay7 (View.ld x0 r2_S4096x4))⟩]

theorem cover2_7 (p0 : Vec F S4096x2 .f32) (y : S4096x2.Idx) :
    ∃ pc ∈ ([⟨r2_S4096x2, p0⟩] : List (View.Piece (Elt F) S4096x2 .f32)), y ∈ pc.1.set :=
  View.cover_of_tiled [⟨r2_S4096x2, p0⟩] S4096x2.size (by rfl) y

/-- Whole-buffer accesses at offset zero read and write the contents themselves. -/
theorem out2_7_eq (x0 x1 : Vec F S4096x4 .f32) (x2 : Vec F S4x2 .f32) (x3 : Vec F S1x2 .f32) (x4 : Vec F S4x2 .f32) (x5 : Vec F S2x2 .f32) (x6 : Vec F S1x2 .f32) :
    out2_7 x0 x1 x2 x3 x4 x5 x6 = store2h x0 x1 x2 x3 x4 := by
  have hz : (![0, 0] : Fin 2 → Nat) = fun _ => 0 := funext fun a => by fin_cases a <;> rfl
  unfold out2_7 store2h
  rw [View.canon_unit_zero hz]
  simp only [View.ld_unit_zero (S := S4096x4) hz, View.ld_unit_zero (S := S4x2) hz, View.ld_unit_zero (S := S1x2) hz, View.ld_unit_zero (S := S2x2) hz]

/-- Result window 8's staging buffer after the body: its one store as a piece. -/
def out2_8 (x0 x1 : Vec F S4096x4 .f32) (x2 : Vec F S4x2 .f32) (x3 : Vec F S1x2 .f32) (x4 : Vec F S4x2 .f32) (x5 : Vec F S2x2 .f32) (x6 : Vec F S1x2 .f32) : Vec F S4096x2 .f32 :=
  View.canon [⟨r2_S4096x2, k2_pay2 (k2_pay4 (View.ld x1 r2_S4096x4)) (View.ld x4 r2_S4x2) (k2_pay5 (View.ld x0 r2_S4096x4) (View.ld x1 r2_S4096x4) (View.ld x2 r2_S4x2) (View.ld x4 r2_S4x2) (View.ld x3 r2_S1x2)) (k2_pay6 (View.ld x2 r2_S4x2)) (k2_pay7 (View.ld x0 r2_S4096x4)) (View.ld x5 r2_S2x2) (View.ld x6 r2_S1x2)⟩]

theorem cover2_8 (p0 : Vec F S4096x2 .f32) (y : S4096x2.Idx) :
    ∃ pc ∈ ([⟨r2_S4096x2, p0⟩] : List (View.Piece (Elt F) S4096x2 .f32)), y ∈ pc.1.set :=
  View.cover_of_tiled [⟨r2_S4096x2, p0⟩] S4096x2.size (by rfl) y

/-- Whole-buffer accesses at offset zero read and write the contents themselves. -/
theorem out2_8_eq (x0 x1 : Vec F S4096x4 .f32) (x2 : Vec F S4x2 .f32) (x3 : Vec F S1x2 .f32) (x4 : Vec F S4x2 .f32) (x5 : Vec F S2x2 .f32) (x6 : Vec F S1x2 .f32) :
    out2_8 x0 x1 x2 x3 x4 x5 x6 = store2o x0 x1 x2 x3 x4 x5 x6 := by
  have hz : (![0, 0] : Fin 2 → Nat) = fun _ => 0 := funext fun a => by fin_cases a <;> rfl
  unfold out2_8 store2o
  rw [View.canon_unit_zero hz]
  simp only [View.ld_unit_zero (S := S4096x4) hz, View.ld_unit_zero (S := S4x2) hz, View.ld_unit_zero (S := S1x2) hz, View.ld_unit_zero (S := S2x2) hz]

set_option maxHeartbeats 4000000 in
theorem sound_kernel2 (c : Dev nD) (E : Set ℕ) (i : grid2.Coords)
    (arg0 : Memref sig .tc .vmem S4096x4 .f32) (harg0 : arg0.IsWhole) (arg1 : Memref sig .tc .vmem S4096x4 .f32) (harg1 : arg1.IsWhole) (arg2 : Memref sig .tc .vmem S4x2 .f32) (harg2 : arg2.IsWhole) (arg3 : Memref sig .tc .vmem S1x2 .f32) (harg3 : arg3.IsWhole) (arg4 : Memref sig .tc .vmem S4x2 .f32) (harg4 : arg4.IsWhole) (arg5 : Memref sig .tc .vmem S2x2 .f32) (harg5 : arg5.IsWhole) (arg6 : Memref sig .tc .vmem S1x2 .f32) (harg6 : arg6.IsWhole) (arg7 : Memref sig .tc .vmem S4096x2 .f32) (harg7 : arg7.IsWhole) (arg8 : Memref sig .tc .vmem S4096x2 .f32) (harg8 : arg8.IsWhole)
    (x0 x1 : Vec F S4096x4 .f32) (x2 : Vec F S4x2 .f32) (x3 : Vec F S1x2 .f32) (x4 : Vec F S4x2 .f32) (x5 : Vec F S2x2 .f32) (x6 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x1 x2 x3 x4 x5 x6) ∗ owns (c : Thread nD τ) arg8 fullShare (out2_8 x0 x1 x2 x3 x4 x5 x6)) -∗ K ⟨⟩))
      ⊢ wp frame (wpE (defs₀ (F := F)) Variants.none c none) E
          (cc2__fused_layer3_kernel i arg0 harg0 arg1 harg1 arg2 harg2 arg3 harg3 arg4 harg4 arg5 harg5 arg6 harg6 arg7 harg7 arg8 harg8) K := by
  simp only [cc2__fused_layer3_kernel_eq_skeleton]; unfold cc2__fused_layer3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: a node window's buffer stated on the rows inside the array only. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ d, owns (c : Thread nD τ) (st2_7 t) fullShare ((cfg2.win 7).fill (cfg2.grid.coords t) d ((cfg2.win 7).cut (cfg2.grid.coords t) ((dat2 V c).after 7 t))))
    ∗ (∃ d, owns (c : Thread nD τ) (st2_8 t) fullShare ((cfg2.win 8).fill (cfg2.grid.coords t) d ((cfg2.win 8).cut (cfg2.grid.coords t) ((dat2 V c).after 8 t)))))

/-- The body at any point: the node tiles arrive filled out past the array's end with anything, the weight blocks
    whole, each result's buffer holding anything; the rows inside the array of what the body stores are those of the
    tile of the zero-filled inputs (the body is row-wise). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0 V c t d0, before2_1 V c t d1, before2_2 V c t d2, before2_3 V c t d3, before2_4 V c t d4, before2_5 V c t d5, before2_6 V c t d6, before2_7 V c t d7, before2_8 V c t d8]
  iapply (sound_kernel2 (F := F) c Set.univ (grid2.coords t) _ _ _ _ _ _ _ _ _ _ _ _ _ _ _ _ _ _
    (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  have hc0 : win2_0.cut (grid2.coords t) (atile2 V c t) = iblk2 V c 0 t := win2_0.cut_fill _ _ _
  have hc1 : win2_1.cut (grid2.coords t) (xtile2 V c t) = iblk2 V c 1 t := win2_1.cut_fill _ _ _
  isplitl [H0]
  · iexists d0
    change _ ⊢ owns (c : Thread nD τ) (st2_0 t) fullShare (win2_0.fill (grid2.coords t) d0 (win2_0.cut (grid2.coords t) (atile2 V c t)))
    rw [hc0]; try iexact H0
  isplitl [H1]
  · iexists d1
    change _ ⊢ owns (c : Thread nD τ) (st2_1 t) fullShare (win2_1.fill (grid2.coords t) d1 (win2_1.cut (grid2.coords t) (xtile2 V c t)))
    rw [hc1]; try iexact H1
  isplitl [H2]; · iexact H2
  isplitl [H3]; · iexact H3
  isplitl [H4]; · iexact H4
  isplitl [H5]; · iexact H5
  isplitl [H6]; · iexact H6
  isplitl [H7]
  · iexists store2h (win2_0.fill (grid2.coords t) d0 (iblk2 V c 0 t)) (win2_1.fill (grid2.coords t) d1 (iblk2 V c 1 t)) (iblk2 V c 2 t) (iblk2 V c 3 t) (iblk2 V c 4 t)
    change _ ⊢ owns (c : Thread nD τ) (st2_7 t) fullShare (win2_7.fill (grid2.coords t) _ (win2_7.cut (grid2.coords t) _))
    rw [win2_7.fill_congr_cut (grid2.coords t) (local2_7 V c t d0 d1), ← out2_7_eq]
    try iexact H7
  iexists store2o (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t)
  change _ ⊢ owns (c : Thread nD τ) (st2_8 t) fullShare (win2_8.fill (grid2.coords t) _ (win2_8.cut (grid2.coords t) _))
  rw [win2_8.fill_congr_cut (grid2.coords t) (local2_8 V c t d0 d1), ← out2_8_eq]
  try iexact H8

/-- The pipeline's obligation at every point. -/
theorem body_obligation2 (c : Dev nD) : BodyObligationLoose (dat2 (F := F) V c) (defs₀ (F := F)) Variants.none () Set.univ := fun t => by
  rw [bigSep_W2, bigSep_W2]
  exact sound_body2 V c t

end Cert.Kernel.Hand

end
-- ==== Proof.K.Run.lean ====
/-
  The whole program from the launch to the return, for any float instance: @main as six segments — three stretches of
  host operations and the three kernel regions — over the thread state "every unscoped buffer at the boundary's
  contents, the generator register at some state, nothing owed". The buffer contents at each boundary are a fold
  through @main from the launch memory: a stretch applies its operations, a region overwrites its result arrays with
  what its write-backs leave. Every weakly fair execution terminates with every unscoped buffer at the last contents.
-/
import proofs.«180108_j33234456937224_1_alg».proof.Proof.K.Body0
import proofs.«180108_j33234456937224_1_alg».proof.Proof.K.Body1
import proofs.«180108_j33234456937224_1_alg».proof.Proof.K.Body2
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation writes one and no region has one as a result -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg0) := W2_in m ρ c 1 rfl
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg2) := W2_in m ρ c 2 rfl
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg4) := W2_in m ρ c 4 rfl
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg5) := W4_in m ρ c 2 rfl
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg7) := W4_in m ρ c 4 rfl
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_in m ρ c 2 rfl
    _ = W4 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_in m ρ c 4 rfl
    _ = W4 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_in m ρ c 5 rfl
    _ = W4 m ρ c (Proc.devRef .tc main_arg11) := StableHlo.after_of_forall_not_mem (b := Proc.devRef .tc main_arg11) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg12) := rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W1`, left at `W2`. Its arrays split
    out of the unscoped buffers and put back at the exit contents; the generator register into the region's invariant
    and out; nothing owed; no semaphore of the kernel's own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W3`, left at `W4`. Its arrays split
    out of the unscoped buffers and put back at the exit contents; the generator register into the region's invariant
    and out; nothing owed; no semaphore of the kernel's own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W5`, left at `W6`. Its arrays split
    out of the unscoped buffers and put back at the exit contents; the generator register into the region's invariant
    and out; nothing owed; no semaphore of the kernel's own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) padm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main is the run of the segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- So the argument arrays end as launched. -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c)⟩) (run_all m ρ)

end Cert.Kernel.Hand

end
-- ==== Proof.KI.Stores.lean ====
/-
  What each of the three node-tile kernels stores, as one function of the blocks it loads (operand order: the
  aggregated-neighbour block, the node-feature block, the left weights, the bias row, the right weights, and for the
  last kernel the classifier's weights and bias row): the bodies' named payloads composed as the bodies compose them.
-/
import proofs.«180108_j33234456937224_1_alg».proof.Proof.Gen.KernelIdeal.Skeleton

noncomputable section

namespace Cert.KernelIdeal.Hand

open Cert.KernelIdeal Cert.KernelIdeal.Gen Idealize.ShloMosaic

variable {F : FTy → Type} [FloatOps F]

/-- Layer 1's tile: relu (b + a·wl + x·wr), one input column. -/
def store0 (a x : Vec F S4096x1 .f32) (wl b wr : Vec F S1x4 .f32) : Vec F S4096x4 .f32 :=
  k0_pay1 a x wl wr b

/-- Layer 2's tile: relu of the bias row plus, column by column, a·wl then x·wr, four input columns. -/
def store1 (a x : Vec F S4096x4 .f32) (wl : Vec F S4x4 .f32) (b : Vec F S1x4 .f32) (wr : Vec F S4x4 .f32) :
    Vec F S4096x4 .f32 :=
  k1_pay1 (k1_pay3 x) wr (k1_pay4 a x wl wr b) (k1_pay5 wl) (k1_pay6 a)

/-- Layer 3's tile, two output columns. -/
def store2h (a x : Vec F S4096x4 .f32) (wl : Vec F S4x2 .f32) (b : Vec F S1x2 .f32) (wr : Vec F S4x2 .f32) :
    Vec F S4096x2 .f32 :=
  k2_pay1 (k2_pay4 x) wr (k2_pay5 a x wl wr b) (k2_pay6 wl) (k2_pay7 a)

/-- The classifier's tile over layer 3's: bc + h·wc. -/
def store2o (a x : Vec F S4096x4 .f32) (wl : Vec F S4x2 .f32) (b : Vec F S1x2 .f32) (wr : Vec F S4x2 .f32)
    (wc : Vec F S2x2 .f32) (bc : Vec F S1x2 .f32) : Vec F S4096x2 .f32 :=
  k2_pay2 (k2_pay4 x) wr (k2_pay5 a x wl wr b) (k2_pay6 wl) (k2_pay7 a) wc bc

end Cert.KernelIdeal.Hand

end
-- ==== Proof.KI.Region0.lean ====
/-
  The first node-tile kernel (layer 1) at every grid point, for any float instance and any contents `V` of the
  buffers at the region's entry. A node tile is 4096 rows; the last of the 245 tiles overhangs the 1000000-row arrays,
  so its fetch fills only the tile's rows inside the array and the rest of the staging buffer holds words nothing
  names. The body is row-wise, so the rows inside the array of what it stores depend only on the rows inside the
  array of what it loads: that is all the write-back moves, and all that is stated of the three node windows.
-/
import proofs.«180108_j33234456937224_1_alg».proof.Proof.KI.Stores
import proofs.«180108_j33234456937224_1_alg».proof.Proof.Gen.KernelIdeal.Launch
import proofs.«180108_j33234456937224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregated-neighbour tile at point `t`, filled out past the array's end with the zero word. -/
def atile0 (c : Dev nD) (t : Fin cfg0.N) : Vec F S4096x1 .f32 :=
  win0_0.fill (grid0.coords t) (fun _ => Scalar.ofBits .f32 0#32) (iblk0 V c 0 t)
/-- The node-feature tile likewise. -/
def xtile0 (c : Dev nD) (t : Fin cfg0.N) : Vec F S4096x1 .f32 :=
  win0_1.fill (grid0.coords t) (fun _ => Scalar.ofBits .f32 0#32) (iblk0 V c 1 t)

/-! ## The proof data -/

/-- After the body at point `t`: the two node tiles and the three weight blocks as fetched, the result's buffer at
    what the body stores of them. -/
def dat0 (c : Dev nD) : Dat τ (Elt F) Unit ℕ (UR sig nD τ) ℕ cfg0 c where
  A w := V c (Pipeline.arrRef spec0 w)
  after w t := match w with
    | ⟨0, _⟩ => atile0 V c t
    | ⟨1, _⟩ => xtile0 V c t
    | ⟨2, _⟩ => iblk0 V c 2 t
    | ⟨3, _⟩ => iblk0 V c 3 t
    | ⟨4, _⟩ => iblk0 V c 4 t
    | ⟨5, _⟩ => store0 (atile0 V c t) (xtile0 V c t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = atile0 V c t := by dsimp only [dat0]
theorem after0_1 (c : Dev nD) (t : Fin cfg0.N) : (dat0 V c).after 1 t = xtile0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = store0 (atile0 V c t) (xtile0 V c t) (iblk0 V c 2 t) (iblk0 V c 3 t) (iblk0 V c 4 t) := by dsimp only [dat0]

/-! ## What the body finds -/

/-- A node tile is fetched at every point: the buffer holds the tile's rows inside the array, anything past them. -/
theorem before0_0 (c : Dev nD) (t : Fin cfg0.N) (d) :
    (dat0 V c).before 0 t d = win0_0.fill (grid0.coords t) d (iblk0 V c 0 t) := by
  rw [(dat0 V c).before_fetched 0 t (fetch0_0 t) d]; rfl
theorem before0_1 (c : Dev nD) (t : Fin cfg0.N) (d) :
    (dat0 V c).before 1 t d = win0_1.fill (grid0.coords t) d (iblk0 V c 1 t) := by
  rw [(dat0 V c).before_fetched 1 t (fetch0_1 t) d]; rfl
/-- A weight block is fetched once and stays: the buffer holds the block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- The result's buffer was written back at the point before (or nothing has touched it): it holds anything. -/
theorem before0_5 (c : Dev nD) (t : Fin cfg0.N) (d) : (dat0 V c).before 5 t d = d :=
  (dat0 V c).before_out_reset 5 rfl t (by
    by_cases h : t.val = 0
    · exact .inl h
    · exact .inr ⟨h, flush0_5 _⟩) d

end Cert.KernelIdeal.Hand

end
-- ==== Proof.KI.Payloads.lean ====
/-
  The value each of the three kernels stores, read at one element of the stored block, for every float instance.

  Each kernel loads a block of aggregated features, a block of node features, two weight matrices and a bias row, and
  stores the rectified value of an unrolled multiply-add chain: starting from the bias, for each input column in turn
  it adds the aggregated column times the matching row of the first weight matrix, then the feature column times the
  matching row of the second. The third kernel stores in addition a linear read-out of the rectified value. Read at
  row r and column j the stored value is a scalar expression in row r of the two feature blocks only.
-/
import proofs.«180108_j33234456937224_1_alg».proof.Proof.KI.Stores
import proofs.«180108_j33234456937224_1_alg».proof.Proof.LibColumnLayout
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Cert.ColumnLayout

variable {F : FTy → Type} [FloatOps F]

/-! ## The pointwise operations at an index, for every instance -/

section Pointwise
variable {s : Shape} {φ : FTy}

/-- A sum of two vectors at an index is the instance's sum of the two elements. -/
theorem addf_at (x y : FVec F s φ) (i : s.Idx) : addf x y i = FloatOps.addf (x i) (y i) := rfl
/-- A product of two vectors at an index is the instance's product of the two elements. -/
theorem mulf_at (x y : FVec F s φ) (i : s.Idx) : mulf x y i = FloatOps.mulf (x i) (y i) := rfl
/-- A maximum of two vectors at an index is the instance's maximum of the two elements. -/
theorem maximumf_at (x y : FVec F s φ) (i : s.Idx) : maximumf x y i = FloatOps.maximumf (x i) (y i) := rfl

end Pointwise

/-! ## The layout operations of the kernels at coordinates -/

section Layout
variable {α : Type}

/-- The column at offset `o` of an `[a, b]` block, kept as an `[a, 1]` column, reads at row `p` the block at `(p, o)`. -/
theorem col_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u)
      = X (ix2 p ⟨o, Nat.lt_of_lt_of_le (Nat.lt_succ_self o) (h.2 1)⟩) :=
  slice2_axis1_apply o X h p u _ (by have := u.isLt; show o = o + u.val; omega)

/-- The row at offset `o` of an `[a, b]` matrix, kept as a `[1, b]` row, reads at column `c` the matrix at `(o, c)`. -/
theorem row_apply {a b : ℕ} (o : ℕ) (X : (⟨2, ![a, b]⟩ : Shape).Idx → α)
    (h : (⟨2, ![a, b]⟩ : Shape).Slices ![o, 0] ⟨2, ![1, b]⟩) (u : Fin 1) (c : Fin b) :
    extractStridedSlice ⟨2, ![1, b]⟩ ![o, 0] X h (ix2 u c)
      = X (ix2 ⟨o, Nat.lt_of_lt_of_le (Nat.lt_succ_self o) (h.2 0)⟩ c) :=
  slice2_axis0_apply o X h u c _ (by have := u.isLt; show o = o + u.val; omega)

end Layout

/-! ## Layer 1's stored tile -/

/-- Layer 1's stored tile at row `r`, column `j`: the rectified bias plus the two products. -/
theorem store0_apply (a x : Vec F S4096x1 .f32) (wl b wr : Vec F S1x4 .f32) (r : Fin 4096) (j : Fin 4) :
    store0 a x wl b wr (ix2 r j) =
      FloatOps.maximumf
        (FloatOps.addf
          (FloatOps.addf (b (ix2 (0 : Fin 1) j)) (FloatOps.mulf (a (ix2 r (0 : Fin 1))) (wl (ix2 (0 : Fin 1) j))))
          (FloatOps.mulf (x (ix2 r (0 : Fin 1))) (wr (ix2 (0 : Fin 1) j))))
        (Scalar.ofBits .f32 0x00000000#32) := by
  unfold store0 k0_pay1
  simp only [shapeCast_self, maximumf_at, addf_at, mulf_at, broadcast_apply, broadcastTo_1b_ab_apply,
    broadcastTo_a1_ab_apply]

/-! ## Layer 2's stored tile -/

/-- Layer 2's stored tile at row `r`, column `j`: the rectified chain over the four input columns, each adding the
aggregated entry times its weight and then the feature entry times its weight. -/
theorem store1_apply (a x : Vec F S4096x4 .f32) (wl : Vec F S4x4 .f32) (b : Vec F S1x4 .f32) (wr : Vec F S4x4 .f32)
    (r : Fin 4096) (j : Fin 4) :
    store1 a x wl b wr (ix2 r j) =
      FloatOps.maximumf
        (FloatOps.addf (FloatOps.addf (FloatOps.addf (FloatOps.addf (FloatOps.addf (FloatOps.addf (FloatOps.addf (FloatOps.addf (b (ix2 (0 : Fin 1) j))
        (FloatOps.mulf (a (ix2 r (0 : Fin 4))) (wl (ix2 (0 : Fin 4) j))))
        (FloatOps.mulf (x (ix2 r (0 : Fin 4))) (wr (ix2 (0 : Fin 4) j))))
        (FloatOps.mulf (a (ix2 r (1 : Fin 4))) (wl (ix2 (1 : Fin 4) j))))
        (FloatOps.mulf (x (ix2 r (1 : Fin 4))) (wr (ix2 (1 : Fin 4) j))))
        (FloatOps.mulf (a (ix2 r (2 : Fin 4))) (wl (ix2 (2 : Fin 4) j))))
        (FloatOps.mulf (x (ix2 r (2 : Fin 4))) (wr (ix2 (2 : Fin 4) j))))
        (FloatOps.mulf (a (ix2 r (3 : Fin 4))) (wl (ix2 (3 : Fin 4) j))))
        (FloatOps.mulf (x (ix2 r (3 : Fin 4))) (wr (ix2 (3 : Fin 4) j))))
        (Scalar.ofBits .f32 0x00000000#32) := by
  unfold store1 k1_pay1 k1_pay4 k1_pay5 k1_pay6 k1_pay3 k1_pay2
  simp only [shapeCast_self, maximumf_at, addf_at, mulf_at, broadcast_apply, broadcastTo_1b_ab_apply,
    broadcastTo_a1_ab_apply, col_apply, row_apply]
  rfl

/-! ## Layer 3's stored tiles -/

/-- Layer 3's stored hidden tile at row `r`, column `j`: the rectified chain over the four input columns. -/
theorem store2h_apply (a x : Vec F S4096x4 .f32) (wl : Vec F S4x2 .f32) (b : Vec F S1x2 .f32) (wr : Vec F S4x2 .f32)
    (r : Fin 4096) (j : Fin 2) :
    store2h a x wl b wr (ix2 r j) =
      FloatOps.maximumf
        (FloatOps.addf (FloatOps.addf (FloatOps.addf (FloatOps.addf (FloatOps.addf (FloatOps.addf (FloatOps.addf (FloatOps.addf (b (ix2 (0 : Fin 1) j))
        (FloatOps.mulf (a (ix2 r (0 : Fin 4))) (wl (ix2 (0 : Fin 4) j))))
        (FloatOps.mulf (x (ix2 r (0 : Fin 4))) (wr (ix2 (0 : Fin 4) j))))
        (FloatOps.mulf (a (ix2 r (1 : Fin 4))) (wl (ix2 (1 : Fin 4) j))))
        (FloatOps.mulf (x (ix2 r (1 : Fin 4))) (wr (ix2 (1 : Fin 4) j))))
        (FloatOps.mulf (a (ix2 r (2 : Fin 4))) (wl (ix2 (2 : Fin 4) j))))
        (FloatOps.mulf (x (ix2 r (2 : Fin 4))) (wr (ix2 (2 : Fin 4) j))))
        (FloatOps.mulf (a (ix2 r (3 : Fin 4))) (wl (ix2 (3 : Fin 4) j))))
        (FloatOps.mulf (x (ix2 r (3 : Fin 4))) (wr (ix2 (3 : Fin 4) j))))
        (Scalar.ofBits .f32 0x00000000#32) := by
  unfold store2h k2_pay1 k2_pay5 k2_pay6 k2_pay7 k2_pay4 k2_pay3
  simp only [shapeCast_self, maximumf_at, addf_at, mulf_at, broadcast_apply, broadcastTo_1b_ab_apply,
    broadcastTo_a1_ab_apply, col_apply, row_apply]
  rfl

/-- The read-out tile is computed from the hidden tile as stored. -/
theorem store2o_apply (a x : Vec F S4096x4 .f32) (wl : Vec F S4x2 .f32) (b : Vec F S1x2 .f32) (wr : Vec F S4x2 .f32)
    (wc : Vec F S2x2 .f32) (bc : Vec F S1x2 .f32) (r : Fin 4096) (j : Fin 2) :
    store2o a x wl b wr wc bc (ix2 r j) =
      FloatOps.addf
        (FloatOps.addf (bc (ix2 (0 : Fin 1) j))
          (FloatOps.mulf (store2h a x wl b wr (ix2 r (0 : Fin 2))) (wc (ix2 (0 : Fin 2) j))))
        (FloatOps.mulf (store2h a x wl b wr (ix2 r (1 : Fin 2))) (wc (ix2 (1 : Fin 2) j))) := by
  unfold store2o k2_pay2
  simp only [shapeCast_self, addf_at, mulf_at, broadcastTo_1b_ab_apply, broadcastTo_a1_ab_apply, col_apply, row_apply]
  rfl

/-! ## Row locality: the stored value at row `r` reads the two feature blocks at row `r` only -/

/-- Layer 1's stored tile at row `r` depends on the two feature blocks through their row `r` only. -/
theorem store0_row_congr {a a' x x' : Vec F S4096x1 .f32} (wl b wr : Vec F S1x4 .f32) (r : Fin 4096) (j : Fin 4)
    (ha : a (ix2 r (0 : Fin 1)) = a' (ix2 r (0 : Fin 1))) (hx : x (ix2 r (0 : Fin 1)) = x' (ix2 r (0 : Fin 1))) :
    store0 a x wl b wr (ix2 r j) = store0 a' x' wl b wr (ix2 r j) := by
  rw [store0_apply, store0_apply, ha, hx]

/-- Layer 2's stored tile at row `r` depends on the two feature blocks through their row `r` only. -/
theorem store1_row_congr {a a' x x' : Vec F S4096x4 .f32} (wl : Vec F S4x4 .f32) (b : Vec F S1x4 .f32)
    (wr : Vec F S4x4 .f32) (r : Fin 4096) (j : Fin 4)
    (ha : ∀ k : Fin 4, a (ix2 r k) = a' (ix2 r k)) (hx : ∀ k : Fin 4, x (ix2 r k) = x' (ix2 r k)) :
    store1 a x wl b wr (ix2 r j) = store1 a' x' wl b wr (ix2 r j) := by
  rw [store1_apply, store1_apply, ha 0, ha 1, ha 2, ha 3, hx 0, hx 1, hx 2, hx 3]

/-- Layer 3's stored hidden tile at row `r` depends on the two feature blocks through their row `r` only. -/
theorem store2h_row_congr {a a' x x' : Vec F S4096x4 .f32} (wl : Vec F S4x2 .f32) (b : Vec F S1x2 .f32)
    (wr : Vec F S4x2 .f32) (r : Fin 4096) (j : Fin 2)
    (ha : ∀ k : Fin 4, a (ix2 r k) = a' (ix2 r k)) (hx : ∀ k : Fin 4, x (ix2 r k) = x' (ix2 r k)) :
    store2h a x wl b wr (ix2 r j) = store2h a' x' wl b wr (ix2 r j) := by
  rw [store2h_apply, store2h_apply, ha 0, ha 1, ha 2, ha 3, hx 0, hx 1, hx 2, hx 3]

/-- Layer 3's stored read-out tile at row `r` depends on the two feature blocks through their row `r` only. -/
theorem store2o_row_congr {a a' x x' : Vec F S4096x4 .f32} (wl : Vec F S4x2 .f32) (b : Vec F S1x2 .f32)
    (wr : Vec F S4x2 .f32) (wc : Vec F S2x2 .f32) (bc : Vec F S1x2 .f32) (r : Fin 4096) (j : Fin 2)
    (ha : ∀ k : Fin 4, a (ix2 r k) = a' (ix2 r k)) (hx : ∀ k : Fin 4, x (ix2 r k) = x' (ix2 r k)) :
    store2o a x wl b wr wc bc (ix2 r j) = store2o a' x' wl b wr wc bc (ix2 r j) := by
  rw [store2o_apply, store2o_apply, store2h_row_congr wl b wr r 0 ha hx, store2h_row_congr wl b wr r 1 ha hx]

end Cert.KernelIdeal.Hand

end
-- ==== Proof.KI.Local0.lean ====
/-
  Row locality of the first node-tile kernel: the rows inside the array of the tile the body stores do not depend on
  what fills the input tiles past the array's end.
-/
import proofs.«180108_j33234456937224_1_alg».proof.Proof.KI.Region0
import proofs.«180108_j33234456937224_1_alg».proof.Proof.KI.Payloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Two fills of one fetched part agree wherever the transfer moves the element, whatever filled the rest. -/
theorem fill_eq_of_moved0 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local0 (c : Dev nD) (t : Fin cfg0.N) (d0 d1 : Vec F S4096x1 .f32) :
    win0_5.cut (grid0.coords t)
        (store0 (win0_0.fill (grid0.coords t) d0 (iblk0 V c 0 t)) (win0_1.fill (grid0.coords t) d1 (iblk0 V c 1 t))
          (iblk0 V c 2 t) (iblk0 V c 3 t) (iblk0 V c 4 t))
      = win0_5.cut (grid0.coords t)
          (store0 (atile0 V c t) (xtile0 V c t) (iblk0 V c 2 t) (iblk0 V c 3 t) (iblk0 V c 4 t)) := by
  funext y
  have hy0 : (y 0).val < win0_5.xsize (grid0.coords t) 0 := (y 0).isLt
  have hr : (y 0).val < 4096 := Nat.lt_of_lt_of_le hy0 (win0_5.xsize_le (grid0.coords t) 0)
  have hj : (y 1).val < 4 := Nat.lt_of_lt_of_le (y 1).isLt (win0_5.xsize_le (grid0.coords t) 1)
  have hix : win0_5.xinj (grid0.coords t) y = ValueIdx.ix2 (⟨(y 0).val, hr⟩ : Fin 4096) (⟨(y 1).val, hj⟩ : Fin 4) := by
    funext a; match a with | ⟨0, _⟩ => rfl | ⟨1, _⟩ => rfl
  show store0 _ _ _ _ _ (win0_5.xinj (grid0.coords t) y) = store0 _ _ _ _ _ (win0_5.xinj (grid0.coords t) y)
  rw [hix]
  unfold atile0 xtile0
  refine store0_row_congr _ _ _ _ _ ?_ ?_
  · refine fill_eq_of_moved0 win0_0 _ _ _ _ _ ((win0_0.moved_iff _ _).mpr fun a => ?_)
    match a with
    | ⟨0, _⟩ => exact hy0
    | ⟨1, _⟩ => exact Pipeline.Clip.extent_pos (win0_0.hclip (grid0.coords t) 1) Nat.one_pos
  · refine fill_eq_of_moved0 win0_1 _ _ _ _ _ ((win0_1.moved_iff _ _).mpr fun a => ?_)
    match a with
    | ⟨0, _⟩ => exact hy0
    | ⟨1, _⟩ => exact Pipeline.Clip.extent_pos (win0_1.hclip (grid0.coords t) 1) Nat.one_pos

end Cert.KernelIdeal.Hand

end
-- ==== Proof.KI.Body0.lean ====
/-
  The first node-tile kernel's body as a triple on whole staging buffers, and the obligation the pipeline asks of it
  at every grid point: the body loads the two node tiles and the three weight blocks, computes, reads the result's
  buffer (a dead load) and stores the tile relu (b + a·wl + x·wr) over it whole.
-/
import proofs.«180108_j33234456937224_1_alg».proof.Proof.KI.Region0
import proofs.«180108_j33234456937224_1_alg».proof.Proof.KI.Local0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: every load and the store take the whole buffer -/

abbrev r0_n : Rect S4096x1 := Rect.unit (s := S4096x1) ![0, 0] S4096x1.size inb_S4096x1_S4096x1_0_0
abbrev r0_w : Rect S1x4 := Rect.unit (s := S1x4) ![0, 0] S1x4.size inb_S1x4_S1x4_0_0
abbrev r0_o : Rect S4096x4 := Rect.unit (s := S4096x4) ![0, 0] S4096x4.size inb_S4096x4_S4096x4_0_0

/-- The result's staging buffer after the body: its one store as a piece. -/
def out0_5 (x0 x1 : Vec F S4096x1 .f32) (x2 x3 x4 : Vec F S1x4 .f32) : Vec F S4096x4 .f32 :=
  View.canon [⟨r0_o, k0_pay1 (View.ld x0 r0_n) (View.ld x1 r0_n) (View.ld x2 r0_w) (View.ld x4 r0_w) (View.ld x3 r0_w)⟩]

theorem cover0_5 (p0 : Vec F S4096x4 .f32) (y : S4096x4.Idx) :
    ∃ pc ∈ ([⟨r0_o, p0⟩] : List (View.Piece (Elt F) S4096x4 .f32)), y ∈ pc.1.set :=
  View.cover_of_tiled [⟨r0_o, p0⟩] S4096x4.size (by rfl) y

/-- Whole-buffer accesses at offset zero read and write the contents themselves. -/
theorem out0_5_eq (x0 x1 : Vec F S4096x1 .f32) (x2 x3 x4 : Vec F S1x4 .f32) :
    out0_5 x0 x1 x2 x3 x4 = store0 x0 x1 x2 x3 x4 := by
  have hz : (![0, 0] : Fin 2 → Nat) = fun _ => 0 := funext fun a => by fin_cases a <;> rfl
  unfold out0_5 store0
  rw [View.canon_unit_zero hz]
  simp only [View.ld_unit_zero (S := S4096x1) hz, View.ld_unit_zero (S := S1x4) hz]

set_option maxHeartbeats 1000000 in
theorem sound_kernel0 (c : Dev nD) (E : Set ℕ) (i : grid0.Coords)
    (arg0 : Memref sig .tc .vmem S4096x1 .f32) (harg0 : arg0.IsWhole) (arg1 : Memref sig .tc .vmem S4096x1 .f32) (harg1 : arg1.IsWhole)
    (arg2 : Memref sig .tc .vmem S1x4 .f32) (harg2 : arg2.IsWhole) (arg3 : Memref sig .tc .vmem S1x4 .f32) (harg3 : arg3.IsWhole)
    (arg4 : Memref sig .tc .vmem S1x4 .f32) (harg4 : arg4.IsWhole) (arg5 : Memref sig .tc .vmem S4096x4 .f32) (harg5 : arg5.IsWhole)
    (x0 x1 : Vec F S4096x1 .f32) (x2 x3 x4 : Vec F S1x4 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__sage_layer_kernel i arg0 harg0 arg1 harg1 arg2 harg2 arg3 harg3 arg4 harg4 arg5 harg5) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: a node window's buffer stated on the rows inside the array only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare ((cfg0.win 0).fill (cfg0.grid.coords t) d ((cfg0.win 0).cut (cfg0.grid.coords t) ((dat0 V c).after 0 t))))
    ∗ (∃ d, owns (c : Thread nD τ) (st0_1 t) fullShare ((cfg0.win 1).fill (cfg0.grid.coords t) d ((cfg0.win 1).cut (cfg0.grid.coords t) ((dat0 V c).after 1 t))))
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (∃ d, owns (c : Thread nD τ) (st0_5 t) fullShare ((cfg0.win 5).fill (cfg0.grid.coords t) d ((cfg0.win 5).cut (cfg0.grid.coords t) ((dat0 V c).after 5 t)))))

/-- The body at any point: the node tiles arrive filled out past the array's end with anything, the weight blocks
    whole, the result's buffer holding anything; the rows inside the array of what the body stores are those of the
    tile of the zero-filled inputs (the body is row-wise: `local0`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [before0_0 V c t d0, before0_1 V c t d1, before0_2 V c t d2, before0_3 V c t d3, before0_4 V c t d4, before0_5 V c t d5]
  iapply (sound_kernel0 (F := F) c Set.univ (grid0.coords t) _ _ _ _ _ _ _ _ _ _ _ _
    (win0_0.fill (grid0.coords t) d0 (iblk0 V c 0 t)) (win0_1.fill (grid0.coords t) d1 (iblk0 V c 1 t))
    (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have ha : win0_0.cut (grid0.coords t) (atile0 V c t) = iblk0 V c 0 t := win0_0.cut_fill _ _ _
  have hx : win0_1.cut (grid0.coords t) (xtile0 V c t) = iblk0 V c 1 t := win0_1.cut_fill _ _ _
  isplitl [H0]
  · iexists d0
    change _ ⊢ owns (c : Thread nD τ) (st0_0 t) fullShare (win0_0.fill (grid0.coords t) d0 (win0_0.cut (grid0.coords t) (atile0 V c t)))
    rw [ha]; try iexact H0
  isplitl [H1]
  · iexists d1
    change _ ⊢ owns (c : Thread nD τ) (st0_1 t) fullShare (win0_1.fill (grid0.coords t) d1 (win0_1.cut (grid0.coords t) (xtile0 V c t)))
    rw [hx]; try iexact H1
  isplitl [H2]; · iexact H2
  isplitl [H3]; · iexact H3
  isplitl [H4]; · iexact H4
  iexists store0 (win0_0.fill (grid0.coords t) d0 (iblk0 V c 0 t)) (win0_1.fill (grid0.coords t) d1 (iblk0 V c 1 t)) (iblk0 V c 2 t) (iblk0 V c 3 t) (iblk0 V c 4 t)
  change _ ⊢ owns (c : Thread nD τ) (st0_5 t) fullShare (win0_5.fill (grid0.coords t) _ (win0_5.cut (grid0.coords t) _))
  rw [win0_5.fill_congr_cut (grid0.coords t) (local0 V c t d0 d1), ← out0_5_eq]
  try iexact H5

/-- The pipeline's obligation at every point. -/
theorem body_obligation0 (c : Dev nD) : BodyObligationLoose (dat0 (F := F) V c) (defs₀ (F := F)) Variants.none () Set.univ := fun t => by
  rw [bigSep_W0, bigSep_W0]
  exact sound_body0 V c t

end Cert.KernelIdeal.Hand

end
-- ==== Proof.KI.Region1.lean ====
/-
  The second node-tile kernel (layer 2) at every grid point, for any float instance and any contents `V` of the buffers at the region's
  entry. A node tile is 4096 rows; the last of the 245 tiles overhangs the 1000000-row arrays, so its fetch fills only
  the tile's rows inside the array and the rest of the staging buffer holds words nothing names. The body is row-wise,
  so the rows inside the array of what it stores depend only on the rows inside the array of what it loads: that is
  all the write-back moves, and all that is stated of the node windows.
-/
import proofs.«180108_j33234456937224_1_alg».proof.Proof.KI.Stores
import proofs.«180108_j33234456937224_1_alg».proof.Proof.Gen.KernelIdeal.Launch
import proofs.«180108_j33234456937224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-neighbour tile at point `t`, filled out past the array's end with the zero word. -/
def atile1 (c : Dev nD) (t : Fin cfg1.N) : Vec F S4096x4 .f32 :=
  win1_0.fill (grid1.coords t) (fun _ => Scalar.ofBits .f32 0#32) (iblk1 V c 0 t)
/-- The node-feature tile likewise. -/
def xtile1 (c : Dev nD) (t : Fin cfg1.N) : Vec F S4096x4 .f32 :=
  win1_1.fill (grid1.coords t) (fun _ => Scalar.ofBits .f32 0#32) (iblk1 V c 1 t)

/-! ## The proof data -/

/-- After the body at point `t`: the two node tiles and the weight blocks as fetched, each result's buffer at what the
    body stores of them. -/
def dat1 (c : Dev nD) : Dat τ (Elt F) Unit ℕ (UR sig nD τ) ℕ cfg1 c where
  A w := V c (Pipeline.arrRef spec1 w)
  after w t := match w with
    | ⟨0, _⟩ => atile1 V c t
    | ⟨1, _⟩ => xtile1 V c t
    | ⟨2, _⟩ => iblk1 V c 2 t
    | ⟨3, _⟩ => iblk1 V c 3 t
    | ⟨4, _⟩ => iblk1 V c 4 t
    | ⟨5, _⟩ => store1 (atile1 V c t) (xtile1 V c t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = atile1 V c t := by dsimp only [dat1]
theorem after1_1 (c : Dev nD) (t : Fin cfg1.N) : (dat1 V c).after 1 t = xtile1 V c t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = store1 (atile1 V c t) (xtile1 V c t) (iblk1 V c 2 t) (iblk1 V c 3 t) (iblk1 V c 4 t) := by dsimp only [dat1]

/-! ## What the body finds -/

/-- A node tile is fetched at every point: the buffer holds the tile's rows inside the array, anything past them. -/
theorem before1_0 (c : Dev nD) (t : Fin cfg1.N) (d) :
    (dat1 V c).before 0 t d = win1_0.fill (grid1.coords t) d (iblk1 V c 0 t) := by
  rw [(dat1 V c).before_fetched 0 t (fetch1_0 t) d]; rfl
/-- A node tile is fetched at every point: the buffer holds the tile's rows inside the array, anything past them. -/
theorem before1_1 (c : Dev nD) (t : Fin cfg1.N) (d) :
    (dat1 V c).before 1 t d = win1_1.fill (grid1.coords t) d (iblk1 V c 1 t) := by
  rw [(dat1 V c).before_fetched 1 t (fetch1_1 t) d]; rfl
/-- A weight block is fetched once and stays: the buffer holds the block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- A weight block is fetched once and stays: the buffer holds the block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- A weight block is fetched once and stays: the buffer holds the block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- A result's buffer was written back at the point before (or nothing has touched it): it holds anything. -/
theorem before1_5 (c : Dev nD) (t : Fin cfg1.N) (d) : (dat1 V c).before 5 t d = d :=
  (dat1 V c).before_out_reset 5 rfl t (by
    by_cases h : t.val = 0
    · exact .inl h
    · exact .inr ⟨h, flush1_5 _⟩) d

end Cert.KernelIdeal.Hand

end
-- ==== Proof.KI.Local1.lean ====
/-
  Row locality of the second node-tile kernel (layer 2): the rows inside the array of a tile the body stores do not depend on
  what fills the input tiles past the array's end.
-/
import proofs.«180108_j33234456937224_1_alg».proof.Proof.KI.Region1
import proofs.«180108_j33234456937224_1_alg».proof.Proof.KI.Payloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Two fills of one fetched part agree wherever the transfer moves the element, whatever filled the rest. -/
theorem fill_eq_of_moved1 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local1_5 (c : Dev nD) (t : Fin cfg1.N) (d0 d1 : Vec F S4096x4 .f32) :
    win1_5.cut (grid1.coords t)
        (store1 (win1_0.fill (grid1.coords t) d0 (iblk1 V c 0 t)) (win1_1.fill (grid1.coords t) d1 (iblk1 V c 1 t)) (iblk1 V c 2 t) (iblk1 V c 3 t) (iblk1 V c 4 t))
      = win1_5.cut (grid1.coords t)
          (store1 (atile1 V c t) (xtile1 V c t) (iblk1 V c 2 t) (iblk1 V c 3 t) (iblk1 V c 4 t)) := by
  funext y
  have hy0 : (y 0).val < win1_5.xsize (grid1.coords t) 0 := (y 0).isLt
  have hr : (y 0).val < 4096 := Nat.lt_of_lt_of_le hy0 (win1_5.xsize_le (grid1.coords t) 0)
  have hj : (y 1).val < 4 := Nat.lt_of_lt_of_le (y 1).isLt (win1_5.xsize_le (grid1.coords t) 1)
  have hix : win1_5.xinj (grid1.coords t) y
      = ValueIdx.ix2 (⟨(y 0).val, hr⟩ : Fin 4096) (⟨(y 1).val, hj⟩ : Fin 4) := by
    funext a; match a with | ⟨0, _⟩ => rfl | ⟨1, _⟩ => rfl
  show store1 _ _ _ _ _ (win1_5.xinj (grid1.coords t) y) = store1 _ _ _ _ _ (win1_5.xinj (grid1.coords t) y)
  rw [hix]
  unfold atile1 xtile1
  refine store1_row_congr _ _ _ _ _ (fun k => ?_) (fun k => ?_)
  · refine fill_eq_of_moved1 win1_0 _ _ _ _ _ ((win1_0.moved_iff _ _).mpr fun a => ?_)
    match a with
    | ⟨0, _⟩ => exact hy0
    | ⟨1, _⟩ => exact (k.isLt : k.val < 4)
  · refine fill_eq_of_moved1 win1_1 _ _ _ _ _ ((win1_1.moved_iff _ _).mpr fun a => ?_)
    match a with
    | ⟨0, _⟩ => exact hy0
    | ⟨1, _⟩ => exact (k.isLt : k.val < 4)

end Cert.KernelIdeal.Hand

end
-- ==== Proof.KI.Body1.lean ====
/-
  The second node-tile kernel (layer 2)'s body as a triple on whole staging buffers, and the obligation the pipeline asks of it at every
  grid point: the body loads the two node tiles and the weight blocks whole, computes, reads each result's buffer (a
  dead load) and stores each result tile over its buffer whole.
-/
import proofs.«180108_j33234456937224_1_alg».proof.Proof.KI.Region1
import proofs.«180108_j33234456937224_1_alg».proof.Proof.KI.Local1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's accesses: every load and every store takes the whole buffer -/

abbrev r1_S4096x4 : Rect S4096x4 := Rect.unit (s := S4096x4) ![0, 0] S4096x4.size inb_S4096x4_S4096x4_0_0
abbrev r1_S4x4 : Rect S4x4 := Rect.unit (s := S4x4) ![0, 0] S4x4.size inb_S4x4_S4x4_0_0
abbrev r1_S1x4 : Rect S1x4 := Rect.unit (s := S1x4) ![0, 0] S1x4.size inb_S1x4_S1x4_0_0

/-- Result window 5's staging buffer after the body: its one store as a piece. -/
def out1_5 (x0 x1 : Vec F S4096x4 .f32) (x2 : Vec F S4x4 .f32) (x3 : Vec F S1x4 .f32) (x4 : Vec F S4x4 .f32) : Vec F S4096x4 .f32 :=
  View.canon [⟨r1_S4096x4, k1_pay1 (k1_pay3 (View.ld x1 r1_S4096x4)) (View.ld x4 r1_S4x4) (k1_pay4 (View.ld x0 r1_S4096x4) (View.ld x1 r1_S4096x4) (View.ld x2 r1_S4x4) (View.ld x4 r1_S4x4) (View.ld x3 r1_S1x4)) (k1_pay5 (View.ld x2 r1_S4x4)) (k1_pay6 (View.ld x0 r1_S4096x4))⟩]

theorem cover1_5 (p0 : Vec F S4096x4 .f32) (y : S4096x4.Idx) :
    ∃ pc ∈ ([⟨r1_S4096x4, p0⟩] : List (View.Piece (Elt F) S4096x4 .f32)), y ∈ pc.1.set :=
  View.cover_of_tiled [⟨r1_S4096x4, p0⟩] S4096x4.size (by rfl) y

/-- Whole-buffer accesses at offset zero read and write the contents themselves. -/
theorem out1_5_eq (x0 x1 : Vec F S4096x4 .f32) (x2 : Vec F S4x4 .f32) (x3 : Vec F S1x4 .f32) (x4 : Vec F S4x4 .f32) :
    out1_5 x0 x1 x2 x3 x4 = store1 x0 x1 x2 x3 x4 := by
  have hz : (![0, 0] : Fin 2 → Nat) = fun _ => 0 := funext fun a => by fin_cases a <;> rfl
  unfold out1_5 store1
  rw [View.canon_unit_zero hz]
  simp only [View.ld_unit_zero (S := S4096x4) hz, View.ld_unit_zero (S := S4x4) hz, View.ld_unit_zero (S := S1x4) hz]

set_option maxHeartbeats 4000000 in
theorem sound_kernel1 (c : Dev nD) (E : Set ℕ) (i : grid1.Coords)
    (arg0 : Memref sig .tc .vmem S4096x4 .f32) (harg0 : arg0.IsWhole) (arg1 : Memref sig .tc .vmem S4096x4 .f32) (harg1 : arg1.IsWhole) (arg2 : Memref sig .tc .vmem S4x4 .f32) (harg2 : arg2.IsWhole) (arg3 : Memref sig .tc .vmem S1x4 .f32) (harg3 : arg3.IsWhole) (arg4 : Memref sig .tc .vmem S4x4 .f32) (harg4 : arg4.IsWhole) (arg5 : Memref sig .tc .vmem S4096x4 .f32) (harg5 : arg5.IsWhole)
    (x0 x1 : Vec F S4096x4 .f32) (x2 : Vec F S4x4 .f32) (x3 : Vec F S1x4 .f32) (x4 : Vec F S4x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__sage_layer_kernel i arg0 harg0 arg1 harg1 arg2 harg2 arg3 harg3 arg4 harg4 arg5 harg5) K := by
  simp only [cc1__sage_layer_kernel_eq_skeleton]; unfold cc1__sage_layer_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: a node window's buffer stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (∃ d, owns (c : Thread nD τ) (st1_5 t) fullShare ((cfg1.win 5).fill (cfg1.grid.coords t) d ((cfg1.win 5).cut (cfg1.grid.coords t) ((dat1 V c).after 5 t)))))

/-- The body at any point: the node tiles arrive filled out past the array's end with anything, the weight blocks
    whole, each result's buffer holding anything; the rows inside the array of what the body stores are those of the
    tile of the zero-filled inputs (the body is row-wise). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3, before1_4 V c t d4, before1_5 V c t d5]
  iapply (sound_kernel1 (F := F) c Set.univ (grid1.coords t) _ _ _ _ _ _ _ _ _ _ _ _
    (win1_0.fill (grid1.coords t) d0 (iblk1 V c 0 t)) (win1_1.fill (grid1.coords t) d1 (iblk1 V c 1 t)) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hc0 : win1_0.cut (grid1.coords t) (atile1 V c t) = iblk1 V c 0 t := win1_0.cut_fill _ _ _
  have hc1 : win1_1.cut (grid1.coords t) (xtile1 V c t) = iblk1 V c 1 t := win1_1.cut_fill _ _ _
  isplitl [H0]
  · iexists d0
    change _ ⊢ owns (c : Thread nD τ) (st1_0 t) fullShare (win1_0.fill (grid1.coords t) d0 (win1_0.cut (grid1.coords t) (atile1 V c t)))
    rw [hc0]; try iexact H0
  isplitl [H1]
  · iexists d1
    change _ ⊢ owns (c : Thread nD τ) (st1_1 t) fullShare (win1_1.fill (grid1.coords t) d1 (win1_1.cut (grid1.coords t) (xtile1 V c t)))
    rw [hc1]; try iexact H1
  isplitl [H2]; · iexact H2
  isplitl [H3]; · iexact H3
  isplitl [H4]; · iexact H4
  iexists store1 (win1_0.fill (grid1.coords t) d0 (iblk1 V c 0 t)) (win1_1.fill (grid1.coords t) d1 (iblk1 V c 1 t)) (iblk1 V c 2 t) (iblk1 V c 3 t) (iblk1 V c 4 t)
  change _ ⊢ owns (c : Thread nD τ) (st1_5 t) fullShare (win1_5.fill (grid1.coords t) _ (win1_5.cut (grid1.coords t) _))
  rw [win1_5.fill_congr_cut (grid1.coords t) (local1_5 V c t d0 d1), ← out1_5_eq]
  try iexact H5

/-- The pipeline's obligation at every point. -/
theorem body_obligation1 (c : Dev nD) : BodyObligationLoose (dat1 (F := F) V c) (defs₀ (F := F)) Variants.none () Set.univ := fun t => by
  rw [bigSep_W1, bigSep_W1]
  exact sound_body1 V c t

end Cert.KernelIdeal.Hand

end
-- ==== Proof.KI.Region2.lean ====
/-
  The third node-tile kernel (layer 3 and the classifier) at every grid point, for any float instance and any contents `V` of the buffers at the region's
  entry. A node tile is 4096 rows; the last of the 245 tiles overhangs the 1000000-row arrays, so its fetch fills only
  the tile's rows inside the array and the rest of the staging buffer holds words nothing names. The body is row-wise,
  so the rows inside the array of what it stores depend only on the rows inside the array of what it loads: that is
  all the write-back moves, and all that is stated of the node windows.
-/
import proofs.«180108_j33234456937224_1_alg».proof.Proof.KI.Stores
import proofs.«180108_j33234456937224_1_alg».proof.Proof.Gen.KernelIdeal.Launch
import proofs.«180108_j33234456937224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregated-neighbour tile at point `t`, filled out past the array's end with the zero word. -/
def atile2 (c : Dev nD) (t : Fin cfg2.N) : Vec F S4096x4 .f32 :=
  win2_0.fill (grid2.coords t) (fun _ => Scalar.ofBits .f32 0#32) (iblk2 V c 0 t)
/-- The node-feature tile likewise. -/
def xtile2 (c : Dev nD) (t : Fin cfg2.N) : Vec F S4096x4 .f32 :=
  win2_1.fill (grid2.coords t) (fun _ => Scalar.ofBits .f32 0#32) (iblk2 V c 1 t)

/-! ## The proof data -/

/-- After the body at point `t`: the two node tiles and the weight blocks as fetched, each result's buffer at what the
    body stores of them. -/
def dat2 (c : Dev nD) : Dat τ (Elt F) Unit ℕ (UR sig nD τ) ℕ cfg2 c where
  A w := V c (Pipeline.arrRef spec2 w)
  after w t := match w with
    | ⟨0, _⟩ => atile2 V c t
    | ⟨1, _⟩ => xtile2 V c t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => store2h (atile2 V c t) (xtile2 V c t) (iblk2 V c 2 t) (iblk2 V c 3 t) (iblk2 V c 4 t)
    | ⟨8, _⟩ => store2o (atile2 V c t) (xtile2 V c t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = atile2 V c t := by dsimp only [dat2]
theorem after2_1 (c : Dev nD) (t : Fin cfg2.N) : (dat2 V c).after 1 t = xtile2 V c t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = store2h (atile2 V c t) (xtile2 V c t) (iblk2 V c 2 t) (iblk2 V c 3 t) (iblk2 V c 4 t) := by dsimp only [dat2]
theorem after2_8 (c : Dev nD) (t : Fin cfg2.N) : (dat2 V c).after 8 t = store2o (atile2 V c t) (xtile2 V c t) (iblk2 V c 2 t) (iblk2 V c 3 t) (iblk2 V c 4 t) (iblk2 V c 5 t) (iblk2 V c 6 t) := by dsimp only [dat2]

/-! ## What the body finds -/

/-- A node tile is fetched at every point: the buffer holds the tile's rows inside the array, anything past them. -/
theorem before2_0 (c : Dev nD) (t : Fin cfg2.N) (d) :
    (dat2 V c).before 0 t d = win2_0.fill (grid2.coords t) d (iblk2 V c 0 t) := by
  rw [(dat2 V c).before_fetched 0 t (fetch2_0 t) d]; rfl
/-- A node tile is fetched at every point: the buffer holds the tile's rows inside the array, anything past them. -/
theorem before2_1 (c : Dev nD) (t : Fin cfg2.N) (d) :
    (dat2 V c).before 1 t d = win2_1.fill (grid2.coords t) d (iblk2 V c 1 t) := by
  rw [(dat2 V c).before_fetched 1 t (fetch2_1 t) d]; rfl
/-- A weight block is fetched once and stays: the buffer holds the block at every point. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- A weight block is fetched once and stays: the buffer holds the block at every point. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- A weight block is fetched once and stays: the buffer holds the block at every point. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- A weight block is fetched once and stays: the buffer holds the block at every point. -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- A weight block is fetched once and stays: the buffer holds the block at every point. -/
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
/-- A result's buffer was written back at the point before (or nothing has touched it): it holds anything. -/
theorem before2_7 (c : Dev nD) (t : Fin cfg2.N) (d) : (dat2 V c).before 7 t d = d :=
  (dat2 V c).before_out_reset 7 rfl t (by
    by_cases h : t.val = 0
    · exact .inl h
    · exact .inr ⟨h, flush2_7 _⟩) d
/-- A result's buffer was written back at the point before (or nothing has touched it): it holds anything. -/
theorem before2_8 (c : Dev nD) (t : Fin cfg2.N) (d) : (dat2 V c).before 8 t d = d :=
  (dat2 V c).before_out_reset 8 rfl t (by
    by_cases h : t.val = 0
    · exact .inl h
    · exact .inr ⟨h, flush2_8 _⟩) d

end Cert.KernelIdeal.Hand

end
-- ==== Proof.KI.Local2.lean ====
/-
  Row locality of the third node-tile kernel (layer 3 and the classifier): the rows inside the array of a tile the body stores do not depend on
  what fills the input tiles past the array's end.
-/
import proofs.«180108_j33234456937224_1_alg».proof.Proof.KI.Region2
import proofs.«180108_j33234456937224_1_alg».proof.Proof.KI.Payloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Two fills of one fetched part agree wherever the transfer moves the element, whatever filled the rest. -/
theorem fill_eq_of_moved2 {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem local2_7 (c : Dev nD) (t : Fin cfg2.N) (d0 d1 : Vec F S4096x4 .f32) :
    win2_7.cut (grid2.coords t)
        (store2h (win2_0.fill (grid2.coords t) d0 (iblk2 V c 0 t)) (win2_1.fill (grid2.coords t) d1 (iblk2 V c 1 t)) (iblk2 V c 2 t) (iblk2 V c 3 t) (iblk2 V c 4 t))
      = win2_7.cut (grid2.coords t)
          (store2h (atile2 V c t) (xtile2 V c t) (iblk2 V c 2 t) (iblk2 V c 3 t) (iblk2 V c 4 t)) := by
  funext y
  have hy0 : (y 0).val < win2_7.xsize (grid2.coords t) 0 := (y 0).isLt
  have hr : (y 0).val < 4096 := Nat.lt_of_lt_of_le hy0 (win2_7.xsize_le (grid2.coords t) 0)
  have hj : (y 1).val < 2 := Nat.lt_of_lt_of_le (y 1).isLt (win2_7.xsize_le (grid2.coords t) 1)
  have hix : win2_7.xinj (grid2.coords t) y
      = ValueIdx.ix2 (⟨(y 0).val, hr⟩ : Fin 4096) (⟨(y 1).val, hj⟩ : Fin 2) := by
    funext a; match a with | ⟨0, _⟩ => rfl | ⟨1, _⟩ => rfl
  show store2h _ _ _ _ _ (win2_7.xinj (grid2.coords t) y) = store2h _ _ _ _ _ (win2_7.xinj (grid2.coords t) y)
  rw [hix]
  unfold atile2 xtile2
  refine store2h_row_congr _ _ _ _ _ (fun k => ?_) (fun k => ?_)
  · refine fill_eq_of_moved2 win2_0 _ _ _ _ _ ((win2_0.moved_iff _ _).mpr fun a => ?_)
    match a with
    | ⟨0, _⟩ => exact hy0
    | ⟨1, _⟩ => exact (k.isLt : k.val < 4)
  · refine fill_eq_of_moved2 win2_1 _ _ _ _ _ ((win2_1.moved_iff _ _).mpr fun a => ?_)
    match a with
    | ⟨0, _⟩ => exact hy0
    | ⟨1, _⟩ => exact (k.isLt : k.val < 4)

theorem local2_8 (c : Dev nD) (t : Fin cfg2.N) (d0 d1 : Vec F S4096x4 .f32) :
    win2_8.cut (grid2.coords t)
        (store2o (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t))
      = win2_8.cut (grid2.coords t)
          (store2o (atile2 V c t) (xtile2 V c t) (iblk2 V c 2 t) (iblk2 V c 3 t) (iblk2 V c 4 t) (iblk2 V c 5 t) (iblk2 V c 6 t)) := by
  funext y
  have hy0 : (y 0).val < win2_8.xsize (grid2.coords t) 0 := (y 0).isLt
  have hr : (y 0).val < 4096 := Nat.lt_of_lt_of_le hy0 (win2_8.xsize_le (grid2.coords t) 0)
  have hj : (y 1).val < 2 := Nat.lt_of_lt_of_le (y 1).isLt (win2_8.xsize_le (grid2.coords t) 1)
  have hix : win2_8.xinj (grid2.coords t) y
      = ValueIdx.ix2 (⟨(y 0).val, hr⟩ : Fin 4096) (⟨(y 1).val, hj⟩ : Fin 2) := by
    funext a; match a with | ⟨0, _⟩ => rfl | ⟨1, _⟩ => rfl
  show store2o _ _ _ _ _ _ _ (win2_8.xinj (grid2.coords t) y) = store2o _ _ _ _ _ _ _ (win2_8.xinj (grid2.coords t) y)
  rw [hix]
  unfold atile2 xtile2
  refine store2o_row_congr _ _ _ _ _ _ _ (fun k => ?_) (fun k => ?_)
  · refine fill_eq_of_moved2 win2_0 _ _ _ _ _ ((win2_0.moved_iff _ _).mpr fun a => ?_)
    match a with
    | ⟨0, _⟩ => exact hy0
    | ⟨1, _⟩ => exact (k.isLt : k.val < 4)
  · refine fill_eq_of_moved2 win2_1 _ _ _ _ _ ((win2_1.moved_iff _ _).mpr fun a => ?_)
    match a with
    | ⟨0, _⟩ => exact hy0
    | ⟨1, _⟩ => exact (k.isLt : k.val < 4)

end Cert.KernelIdeal.Hand

end
-- ==== Proof.KI.Body2.lean ====
/-
  The third node-tile kernel (layer 3 and the classifier)'s body as a triple on whole staging buffers, and the obligation the pipeline asks of it at every
  grid point: the body loads the two node tiles and the weight blocks whole, computes, reads each result's buffer (a
  dead load) and stores each result tile over its buffer whole.
-/
import proofs.«180108_j33234456937224_1_alg».proof.Proof.KI.Region2
import proofs.«180108_j33234456937224_1_alg».proof.Proof.KI.Local2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body's accesses: every load and every store takes the whole buffer -/

abbrev r2_S4096x4 : Rect S4096x4 := Rect.unit (s := S4096x4) ![0, 0] S4096x4.size inb_S4096x4_S4096x4_0_0
abbrev r2_S4x2 : Rect S4x2 := Rect.unit (s := S4x2) ![0, 0] S4x2.size inb_S4x2_S4x2_0_0
abbrev r2_S1x2 : Rect S1x2 := Rect.unit (s := S1x2) ![0, 0] S1x2.size inb_S1x2_S1x2_0_0
abbrev r2_S2x2 : Rect S2x2 := Rect.unit (s := S2x2) ![0, 0] S2x2.size inb_S2x2_S2x2_0_0
abbrev r2_S4096x2 : Rect S4096x2 := Rect.unit (s := S4096x2) ![0, 0] S4096x2.size inb_S4096x2_S4096x2_0_0

/-- Result window 7's staging buffer after the body: its one store as a piece. -/
def out2_7 (x0 x1 : Vec F S4096x4 .f32) (x2 : Vec F S4x2 .f32) (x3 : Vec F S1x2 .f32) (x4 : Vec F S4x2 .f32) (x5 : Vec F S2x2 .f32) (x6 : Vec F S1x2 .f32) : Vec F S4096x2 .f32 :=
  View.canon [⟨r2_S4096x2, k2_pay1 (k2_pay4 (View.ld x1 r2_S4096x4)) (View.ld x4 r2_S4x2) (k2_pay5 (View.ld x0 r2_S4096x4) (View.ld x1 r2_S4096x4) (View.ld x2 r2_S4x2) (View.ld x4 r2_S4x2) (View.ld x3 r2_S1x2)) (k2_pay6 (View.ld x2 r2_S4x2)) (k2_pay7 (View.ld x0 r2_S4096x4))⟩]

theorem cover2_7 (p0 : Vec F S4096x2 .f32) (y : S4096x2.Idx) :
    ∃ pc ∈ ([⟨r2_S4096x2, p0⟩] : List (View.Piece (Elt F) S4096x2 .f32)), y ∈ pc.1.set :=
  View.cover_of_tiled [⟨r2_S4096x2, p0⟩] S4096x2.size (by rfl) y

/-- Whole-buffer accesses at offset zero read and write the contents themselves. -/
theorem out2_7_eq (x0 x1 : Vec F S4096x4 .f32) (x2 : Vec F S4x2 .f32) (x3 : Vec F S1x2 .f32) (x4 : Vec F S4x2 .f32) (x5 : Vec F S2x2 .f32) (x6 : Vec F S1x2 .f32) :
    out2_7 x0 x1 x2 x3 x4 x5 x6 = store2h x0 x1 x2 x3 x4 := by
  have hz : (![0, 0] : Fin 2 → Nat) = fun _ => 0 := funext fun a => by fin_cases a <;> rfl
  unfold out2_7 store2h
  rw [View.canon_unit_zero hz]
  simp only [View.ld_unit_zero (S := S4096x4) hz, View.ld_unit_zero (S := S4x2) hz, View.ld_unit_zero (S := S1x2) hz, View.ld_unit_zero (S := S2x2) hz]

/-- Result window 8's staging buffer after the body: its one store as a piece. -/
def out2_8 (x0 x1 : Vec F S4096x4 .f32) (x2 : Vec F S4x2 .f32) (x3 : Vec F S1x2 .f32) (x4 : Vec F S4x2 .f32) (x5 : Vec F S2x2 .f32) (x6 : Vec F S1x2 .f32) : Vec F S4096x2 .f32 :=
  View.canon [⟨r2_S4096x2, k2_pay2 (k2_pay4 (View.ld x1 r2_S4096x4)) (View.ld x4 r2_S4x2) (k2_pay5 (View.ld x0 r2_S4096x4) (View.ld x1 r2_S4096x4) (View.ld x2 r2_S4x2) (View.ld x4 r2_S4x2) (View.ld x3 r2_S1x2)) (k2_pay6 (View.ld x2 r2_S4x2)) (k2_pay7 (View.ld x0 r2_S4096x4)) (View.ld x5 r2_S2x2) (View.ld x6 r2_S1x2)⟩]

theorem cover2_8 (p0 : Vec F S4096x2 .f32) (y : S4096x2.Idx) :
    ∃ pc ∈ ([⟨r2_S4096x2, p0⟩] : List (View.Piece (Elt F) S4096x2 .f32)), y ∈ pc.1.set :=
  View.cover_of_tiled [⟨r2_S4096x2, p0⟩] S4096x2.size (by rfl) y

/-- Whole-buffer accesses at offset zero read and write the contents themselves. -/
theorem out2_8_eq (x0 x1 : Vec F S4096x4 .f32) (x2 : Vec F S4x2 .f32) (x3 : Vec F S1x2 .f32) (x4 : Vec F S4x2 .f32) (x5 : Vec F S2x2 .f32) (x6 : Vec F S1x2 .f32) :
    out2_8 x0 x1 x2 x3 x4 x5 x6 = store2o x0 x1 x2 x3 x4 x5 x6 := by
  have hz : (![0, 0] : Fin 2 → Nat) = fun _ => 0 := funext fun a => by fin_cases a <;> rfl
  unfold out2_8 store2o
  rw [View.canon_unit_zero hz]
  simp only [View.ld_unit_zero (S := S4096x4) hz, View.ld_unit_zero (S := S4x2) hz, View.ld_unit_zero (S := S1x2) hz, View.ld_unit_zero (S := S2x2) hz]

set_option maxHeartbeats 4000000 in
theorem sound_kernel2 (c : Dev nD) (E : Set ℕ) (i : grid2.Coords)
    (arg0 : Memref sig .tc .vmem S4096x4 .f32) (harg0 : arg0.IsWhole) (arg1 : Memref sig .tc .vmem S4096x4 .f32) (harg1 : arg1.IsWhole) (arg2 : Memref sig .tc .vmem S4x2 .f32) (harg2 : arg2.IsWhole) (arg3 : Memref sig .tc .vmem S1x2 .f32) (harg3 : arg3.IsWhole) (arg4 : Memref sig .tc .vmem S4x2 .f32) (harg4 : arg4.IsWhole) (arg5 : Memref sig .tc .vmem S2x2 .f32) (harg5 : arg5.IsWhole) (arg6 : Memref sig .tc .vmem S1x2 .f32) (harg6 : arg6.IsWhole) (arg7 : Memref sig .tc .vmem S4096x2 .f32) (harg7 : arg7.IsWhole) (arg8 : Memref sig .tc .vmem S4096x2 .f32) (harg8 : arg8.IsWhole)
    (x0 x1 : Vec F S4096x4 .f32) (x2 : Vec F S4x2 .f32) (x3 : Vec F S1x2 .f32) (x4 : Vec F S4x2 .f32) (x5 : Vec F S2x2 .f32) (x6 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x1 x2 x3 x4 x5 x6) ∗ owns (c : Thread nD τ) arg8 fullShare (out2_8 x0 x1 x2 x3 x4 x5 x6)) -∗ K ⟨⟩))
      ⊢ wp frame (wpE (defs₀ (F := F)) Variants.none c none) E
          (cc2__fused_layer3_kernel i arg0 harg0 arg1 harg1 arg2 harg2 arg3 harg3 arg4 harg4 arg5 harg5 arg6 harg6 arg7 harg7 arg8 harg8) K := by
  simp only [cc2__fused_layer3_kernel_eq_skeleton]; unfold cc2__fused_layer3_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: a node window's buffer stated on the rows inside the array only. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (∃ d, owns (c : Thread nD τ) (st2_7 t) fullShare ((cfg2.win 7).fill (cfg2.grid.coords t) d ((cfg2.win 7).cut (cfg2.grid.coords t) ((dat2 V c).after 7 t))))
    ∗ (∃ d, owns (c : Thread nD τ) (st2_8 t) fullShare ((cfg2.win 8).fill (cfg2.grid.coords t) d ((cfg2.win 8).cut (cfg2.grid.coords t) ((dat2 V c).after 8 t)))))

/-- The body at any point: the node tiles arrive filled out past the array's end with anything, the weight blocks
    whole, each result's buffer holding anything; the rows inside the array of what the body stores are those of the
    tile of the zero-filled inputs (the body is row-wise). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0 V c t d0, before2_1 V c t d1, before2_2 V c t d2, before2_3 V c t d3, before2_4 V c t d4, before2_5 V c t d5, before2_6 V c t d6, before2_7 V c t d7, before2_8 V c t d8]
  iapply (sound_kernel2 (F := F) c Set.univ (grid2.coords t) _ _ _ _ _ _ _ _ _ _ _ _ _ _ _ _ _ _
    (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  have hc0 : win2_0.cut (grid2.coords t) (atile2 V c t) = iblk2 V c 0 t := win2_0.cut_fill _ _ _
  have hc1 : win2_1.cut (grid2.coords t) (xtile2 V c t) = iblk2 V c 1 t := win2_1.cut_fill _ _ _
  isplitl [H0]
  · iexists d0
    change _ ⊢ owns (c : Thread nD τ) (st2_0 t) fullShare (win2_0.fill (grid2.coords t) d0 (win2_0.cut (grid2.coords t) (atile2 V c t)))
    rw [hc0]; try iexact H0
  isplitl [H1]
  · iexists d1
    change _ ⊢ owns (c : Thread nD τ) (st2_1 t) fullShare (win2_1.fill (grid2.coords t) d1 (win2_1.cut (grid2.coords t) (xtile2 V c t)))
    rw [hc1]; try iexact H1
  isplitl [H2]; · iexact H2
  isplitl [H3]; · iexact H3
  isplitl [H4]; · iexact H4
  isplitl [H5]; · iexact H5
  isplitl [H6]; · iexact H6
  isplitl [H7]
  · iexists store2h (win2_0.fill (grid2.coords t) d0 (iblk2 V c 0 t)) (win2_1.fill (grid2.coords t) d1 (iblk2 V c 1 t)) (iblk2 V c 2 t) (iblk2 V c 3 t) (iblk2 V c 4 t)
    change _ ⊢ owns (c : Thread nD τ) (st2_7 t) fullShare (win2_7.fill (grid2.coords t) _ (win2_7.cut (grid2.coords t) _))
    rw [win2_7.fill_congr_cut (grid2.coords t) (local2_7 V c t d0 d1), ← out2_7_eq]
    try iexact H7
  iexists store2o (win2_0.fill (grid2.coords t) d0 (iblk2 V c 0 t)) (win2_1.fill (grid2.coords t) d1 (iblk2 V c 1 t)) (iblk2 V c 2 t) (iblk2 V c 3 t) (iblk2 V c 4 t) (iblk2 V c 5 t) (iblk2 V c 6 t)
  change _ ⊢ owns (c : Thread nD τ) (st2_8 t) fullShare (win2_8.fill (grid2.coords t) _ (win2_8.cut (grid2.coords t) _))
  rw [win2_8.fill_congr_cut (grid2.coords t) (local2_8 V c t d0 d1), ← out2_8_eq]
  try iexact H8

/-- The pipeline's obligation at every point. -/
theorem body_obligation2 (c : Dev nD) : BodyObligationLoose (dat2 (F := F) V c) (defs₀ (F := F)) Variants.none () Set.univ := fun t => by
  rw [bigSep_W2, bigSep_W2]
  exact sound_body2 V c t

end Cert.KernelIdeal.Hand

end
-- ==== Proof.KI.Run.lean ====
/-
  The whole program from the launch to the return, for any float instance: @main as six segments — three stretches of
  host operations and the three kernel regions — over the thread state "every unscoped buffer at the boundary's
  contents, the generator register at some state, nothing owed". The buffer contents at each boundary are a fold
  through @main from the launch memory: a stretch applies its operations, a region overwrites its result arrays with
  what its write-backs leave. Every weakly fair execution terminates with every unscoped buffer at the last contents.
-/
import proofs.«180108_j33234456937224_1_alg».proof.Proof.KI.Body0
import proofs.«180108_j33234456937224_1_alg».proof.Proof.KI.Body1
import proofs.«180108_j33234456937224_1_alg».proof.Proof.KI.Body2
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation writes one and no region has one as a result -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg0) := W2_in m ρ c 1 rfl
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg2) := W2_in m ρ c 2 rfl
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg4) := W2_in m ρ c 4 rfl
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg5) := W4_in m ρ c 2 rfl
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg7) := W4_in m ρ c 4 rfl
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_in m ρ c 2 rfl
    _ = W4 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_in m ρ c 4 rfl
    _ = W4 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_in m ρ c 5 rfl
    _ = W4 m ρ c (Proc.devRef .tc main_arg11) := StableHlo.after_of_forall_not_mem (b := Proc.devRef .tc main_arg11) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg12) := rfl

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W1`, left at `W2`. Its arrays split
    out of the unscoped buffers and put back at the exit contents; the generator register into the region's invariant
    and out; nothing owed; no semaphore of the kernel's own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W3`, left at `W4`. Its arrays split
    out of the unscoped buffers and put back at the exit contents; the generator register into the region's invariant
    and out; nothing owed; no semaphore of the kernel's own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W5`, left at `W6`. Its arrays split
    out of the unscoped buffers and put back at the exit contents; the generator register into the region's invariant
    and out; nothing owed; no semaphore of the kernel's own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) padm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
/-- @main is the run of the segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- So the argument arrays end as launched. -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c)⟩) (run_all m ρ)

end Cert.KernelIdeal.Hand

end
-- ==== Proof.Spec.lean ====
/-
  The specification of the three-layer mean-aggregation graph network, at the ideal instance
  (every float an extended real, every operation exact).

  * `agg1` / `agg4`: mean aggregation over the edge list `e` (row 0 the sources, row 1 the
    destinations) of a node array with 1 / 4 columns: gather the sources' rows (a negative source
    index wraps by the node count), sum them into the destinations' rows, and divide each row by
    the larger of the destination's in-degree and 1. It is the host operations' composed term,
    never opened: both programs compute it by the same operations.
  * `layer1`, `layer44`, `layer42`, `cls`: the dense layers index by index over the extended
    reals, the additions in the order `acc₀ = b j; acc_{k+1} = (acc_k + a(r,k)·wl(k,j)) + x(r,k)·wr(k,j)`,
    then `max · 0` (none for `cls`).
  * `h1`, `h2`, `h3`, `out`: the network, as functions of the 13 argument arrays.
-/
import proofs.«180108_j33234456937224_1_alg».proof.Proof.Gen.ReferenceIdeal
import Idealize.ShloMosaic.PureOps.Ideal
import Idealize.ShloMosaic.Lib.ValueIdx

noncomputable section

namespace Cert.Sage

open Cert.ReferenceIdeal Cert.ReferenceIdeal.Gen Idealize.ShloMosaic Idealize.ShloMosaic.ValueIdx

/-- The edge list: two rows of 16000000 node indices. -/
abbrev Edges : Type := (⟨S2x16000000, .i32⟩ : BufTy).Contents (Elt Ideal)

set_option maxRecDepth 8192 in
/-- Mean aggregation of a one-column node array over the edges. -/
def agg1 (x : FVec Ideal S1000000x1 .f32) (e : Edges) : FVec Ideal S1000000x1 .f32 :=
  Host.divf (F := Ideal) (Host.scatterAdd (F := Ideal) scatter_S1000000x1_S16000000x1_S16000000x1_1_0_0_1 (broadcastInDim S1000000x1 ![] bcast_S_S1000000x1 (constant (F := Ideal) S_ .f32 0x00000000#32)) (broadcastInDim S16000000x1 ![0] bcast_S16000000_S16000000x1_0 (shapeCast _ (extractStridedSlice S1x16000000 ![1, 0] e slices_S2x16000000_S1x16000000_1_0) shapeCasts_S1x16000000_S16000000)) (Host.gather gather_S1000000x1_S16000000x1_S16000000x1_1_0_n_n_0_1_11 x (broadcastInDim S16000000x1 ![0] bcast_S16000000_S16000000x1_0 (select (cmpi .slt (shapeCast _ (extractStridedSlice S1x16000000 ![0, 0] e slices_S2x16000000_S1x16000000_0_0) shapeCasts_S1x16000000_S16000000) (broadcastInDim S16000000 ![] bcast_S_S16000000 (constantI S_ 32 0#32))) (addi (shapeCast _ (extractStridedSlice S1x16000000 ![0, 0] e slices_S2x16000000_S1x16000000_0_0) shapeCasts_S1x16000000_S16000000) (broadcastInDim S16000000 ![] bcast_S_S16000000 (constantI S_ 32 1000000#32))) (shapeCast _ (extractStridedSlice S1x16000000 ![0, 0] e slices_S2x16000000_S1x16000000_0_0) shapeCasts_S1x16000000_S16000000))))) (broadcastInDim S1000000x1 ![0] bcast_S1000000_S1000000x1_0 (maximumf (Host.scatterAdd (F := Ideal) scatter_S1000000_S16000000x1_S16000000_n_0_0_1 (broadcastInDim S1000000 ![] bcast_S_S1000000 (constant (F := Ideal) S_ .f32 0x00000000#32)) (broadcastInDim S16000000x1 ![0] bcast_S16000000_S16000000x1_0 (shapeCast _ (extractStridedSlice S1x16000000 ![1, 0] e slices_S2x16000000_S1x16000000_1_0) shapeCasts_S1x16000000_S16000000)) (broadcastInDim S16000000 ![] bcast_S_S16000000 (constant (F := Ideal) S_ .f32 0x3F800000#32))) (broadcastInDim S1000000 ![] bcast_S_S1000000 (constant (F := Ideal) S_ .f32 0x3F800000#32))))

set_option maxRecDepth 8192 in
/-- Mean aggregation of a four-column node array over the edges. -/
def agg4 (h : FVec Ideal S1000000x4 .f32) (e : Edges) : FVec Ideal S1000000x4 .f32 :=
  Host.divf (F := Ideal) (Host.scatterAdd (F := Ideal) scatter_S1000000x4_S16000000x1_S16000000x4_1_0_0_1 (broadcastInDim S1000000x4 ![] bcast_S_S1000000x4 (constant (F := Ideal) S_ .f32 0x00000000#32)) (broadcastInDim S16000000x1 ![0] bcast_S16000000_S16000000x1_0 (shapeCast _ (extractStridedSlice S1x16000000 ![1, 0] e slices_S2x16000000_S1x16000000_1_0) shapeCasts_S1x16000000_S16000000)) (Host.gather gather_S1000000x4_S16000000x1_S16000000x4_1_0_n_n_0_1_14 h (broadcastInDim S16000000x1 ![0] bcast_S16000000_S16000000x1_0 (select (cmpi .slt (shapeCast _ (extractStridedSlice S1x16000000 ![0, 0] e slices_S2x16000000_S1x16000000_0_0) shapeCasts_S1x16000000_S16000000) (broadcastInDim S16000000 ![] bcast_S_S16000000 (constantI S_ 32 0#32))) (addi (shapeCast _ (extractStridedSlice S1x16000000 ![0, 0] e slices_S2x16000000_S1x16000000_0_0) shapeCasts_S1x16000000_S16000000) (broadcastInDim S16000000 ![] bcast_S_S16000000 (constantI S_ 32 1000000#32))) (shapeCast _ (extractStridedSlice S1x16000000 ![0, 0] e slices_S2x16000000_S1x16000000_0_0) shapeCasts_S1x16000000_S16000000))))) (broadcastInDim S1000000x4 ![0, 1] bcast_S1000000x1_S1000000x4_0_1 (broadcastInDim S1000000x1 ![0] bcast_S1000000_S1000000x1_0 (maximumf (Host.scatterAdd (F := Ideal) scatter_S1000000_S16000000x1_S16000000_n_0_0_1 (broadcastInDim S1000000 ![] bcast_S_S1000000 (constant (F := Ideal) S_ .f32 0x00000000#32)) (broadcastInDim S16000000x1 ![0] bcast_S16000000_S16000000x1_0 (shapeCast _ (extractStridedSlice S1x16000000 ![1, 0] e slices_S2x16000000_S1x16000000_1_0) shapeCasts_S1x16000000_S16000000)) (broadcastInDim S16000000 ![] bcast_S_S16000000 (constant (F := Ideal) S_ .f32 0x3F800000#32))) (broadcastInDim S1000000 ![] bcast_S_S1000000 (constant (F := Ideal) S_ .f32 0x3F800000#32)))))

/-- First layer (1 input column, 4 output columns), at row `r` and column `j`. -/
def layer1 (a x : FVec Ideal S1000000x1 .f32) (wl : FVec Ideal S1x4 .f32) (b : FVec Ideal S4 .f32)
    (wr : FVec Ideal S1x4 .f32) : FVec Ideal S1000000x4 .f32 := fun i =>
  max ((b (ix1 (i 1)) + a (ix2 (i 0) 0) * wl (ix2 0 (i 1))) + x (ix2 (i 0) 0) * wr (ix2 0 (i 1))) 0

/-- Second layer (4 input columns, 4 output columns). -/
def layer44 (a x : FVec Ideal S1000000x4 .f32) (wl : FVec Ideal S4x4 .f32) (b : FVec Ideal S4 .f32)
    (wr : FVec Ideal S4x4 .f32) : FVec Ideal S1000000x4 .f32 := fun i =>
  max ((((((((b (ix1 (i 1))
    + a (ix2 (i 0) 0) * wl (ix2 0 (i 1))) + x (ix2 (i 0) 0) * wr (ix2 0 (i 1)))
    + a (ix2 (i 0) 1) * wl (ix2 1 (i 1))) + x (ix2 (i 0) 1) * wr (ix2 1 (i 1)))
    + a (ix2 (i 0) 2) * wl (ix2 2 (i 1))) + x (ix2 (i 0) 2) * wr (ix2 2 (i 1)))
    + a (ix2 (i 0) 3) * wl (ix2 3 (i 1))) + x (ix2 (i 0) 3) * wr (ix2 3 (i 1))) 0

/-- Third layer (4 input columns, 2 output columns). -/
def layer42 (a x : FVec Ideal S1000000x4 .f32) (wl : FVec Ideal S4x2 .f32) (b : FVec Ideal S2 .f32)
    (wr : FVec Ideal S4x2 .f32) : FVec Ideal S1000000x2 .f32 := fun i =>
  max ((((((((b (ix1 (i 1))
    + a (ix2 (i 0) 0) * wl (ix2 0 (i 1))) + x (ix2 (i 0) 0) * wr (ix2 0 (i 1)))
    + a (ix2 (i 0) 1) * wl (ix2 1 (i 1))) + x (ix2 (i 0) 1) * wr (ix2 1 (i 1)))
    + a (ix2 (i 0) 2) * wl (ix2 2 (i 1))) + x (ix2 (i 0) 2) * wr (ix2 2 (i 1)))
    + a (ix2 (i 0) 3) * wl (ix2 3 (i 1))) + x (ix2 (i 0) 3) * wr (ix2 3 (i 1))) 0

/-- The classifier (2 input columns, 2 output columns, no `max`). -/
def cls (h : FVec Ideal S1000000x2 .f32) (wc : FVec Ideal S2x2 .f32) (bc : FVec Ideal S2 .f32) :
    FVec Ideal S1000000x2 .f32 := fun i =>
  (bc (ix1 (i 1)) + h (ix2 (i 0) 0) * wc (ix2 0 (i 1))) + h (ix2 (i 0) 1) * wc (ix2 1 (i 1))

/-! ## The network, of the 13 argument arrays -/

section
variable (x : FVec Ideal S1000000x1 .f32) (e : Edges)
  (W1l : FVec Ideal S1x4 .f32) (b1 : FVec Ideal S4 .f32) (W1r : FVec Ideal S1x4 .f32)
  (W2l : FVec Ideal S4x4 .f32) (b2 : FVec Ideal S4 .f32) (W2r : FVec Ideal S4x4 .f32)
  (W3l : FVec Ideal S4x2 .f32) (b3 : FVec Ideal S2 .f32) (W3r : FVec Ideal S4x2 .f32)
  (Wc : FVec Ideal S2x2 .f32) (bc : FVec Ideal S2 .f32)

/-- The first hidden layer. -/
def h1 : FVec Ideal S1000000x4 .f32 := layer1 (agg1 x e) x W1l b1 W1r
/-- The second hidden layer. -/
def h2 : FVec Ideal S1000000x4 .f32 := layer44 (agg4 (h1 x e W1l b1 W1r) e) (h1 x e W1l b1 W1r) W2l b2 W2r
/-- The third hidden layer: the program's second result. -/
def h3 : FVec Ideal S1000000x2 .f32 :=
  layer42 (agg4 (h2 x e W1l b1 W1r W2l b2 W2r) e) (h2 x e W1l b1 W1r W2l b2 W2r) W3l b3 W3r
/-- The classifier output: the program's first result. -/
def out : FVec Ideal S1000000x2 .f32 := cls (h3 x e W1l b1 W1r W2l b2 W2r W3l b3 W3r) Wc bc
end

end Cert.Sage

end
-- ==== Proof.SpecEdges.lean ====
/-
  The two rows of the edge list as flat index arrays: the sources and the destinations. They are
  the sub-terms of `agg1` / `agg4` that read the edge list.
-/
import proofs.«180108_j33234456937224_1_alg».proof.Proof.Spec

noncomputable section

namespace Cert.Sage

open Cert.ReferenceIdeal Cert.ReferenceIdeal.Gen Idealize.ShloMosaic

/-- The edges' sources: row 0 of the edge list, flattened. -/
def srcOf (e : Edges) : IVec S16000000 32 :=
  shapeCast _ (extractStridedSlice S1x16000000 ![0, 0] e slices_S2x16000000_S1x16000000_0_0) shapeCasts_S1x16000000_S16000000

/-- The edges' destinations: row 1 of the edge list, flattened. -/
def dstOf (e : Edges) : IVec S16000000 32 :=
  shapeCast _ (extractStridedSlice S1x16000000 ![1, 0] e slices_S2x16000000_S1x16000000_1_0) shapeCasts_S1x16000000_S16000000

end Cert.Sage

end
-- ==== Proof.KI.HostValue0.lean ====
/-
  The kernel program's first stretch of host operations, from any contents `W` of the buffers:
  it leaves the edges' sources and destinations, the mean aggregation `agg1` of the input
  features, and the first bias as a one-row matrix; it writes no argument.
-/
import proofs.«180108_j33234456937224_1_alg».proof.Proof.SpecEdges
import proofs.«180108_j33234456937224_1_alg».proof.Proof.Gen.KernelIdeal.Regions
import Idealize.ShloMosaic.Lib.StableHlo.Run
import Idealize.ShloMosaic.Lib.ValueLayout

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

/-- The sources. -/
theorem h0_src : StableHlo.after (hostOps0 (F := Ideal)) W (Proc.devRef .tc main_v1)
    = Cert.Sage.srcOf (W (Proc.devRef .tc main_arg1)) := by
  after_results
  rfl

/-- The destinations. -/
theorem h0_dst : StableHlo.after (hostOps0 (F := Ideal)) W (Proc.devRef .tc main_v3)
    = Cert.Sage.dstOf (W (Proc.devRef .tc main_arg1)) := by
  after_results
  rfl

set_option maxRecDepth 8192 in
set_option maxHeartbeats 4000000 in
/-- The mean aggregation of the input features. -/
theorem h0_agg : StableHlo.after (hostOps0 (F := Ideal)) W (Proc.devRef .tc main_v21)
    = Cert.Sage.agg1 (W (Proc.devRef .tc main_arg0)) (W (Proc.devRef .tc main_arg1)) := by
  after_results_simp
  unfold Cert.Sage.agg1
  rfl

/-- The first bias, as a one-row matrix. -/
theorem h0_b : StableHlo.after (hostOps0 (F := Ideal)) W (Proc.devRef .tc main_v22)
    = shapeCast S1x4 (W (Proc.devRef .tc main_arg3) : FVec Ideal S4 .f32) shapeCasts_S4_S1x4 := by
  after_results
  rfl

/-- The one-row matrix read at a column is the bias there. -/
theorem h0_b_apply (j : Fin 4) :
    (StableHlo.after (hostOps0 (F := Ideal)) W (Proc.devRef .tc main_v22) : FVec Ideal S1x4 .f32) (ix2 0 j)
      = (W (Proc.devRef .tc main_arg3) : FVec Ideal S4 .f32) (ix1 j) := by
  rw [h0_b]
  exact shapeCast_a_1a_apply _ _ 0 j

/-- A buffer the stretch does not write keeps its contents. -/
theorem h0_keep (r : Ref sig .tc) (h : r ∉ hostOps0_W) :
    StableHlo.after (hostOps0 (F := Ideal)) W (Proc.devRef .tc r) = W (Proc.devRef .tc r) :=
  StableHlo.after_of_writes_sub hostOps0 W hostOps0_writes h

theorem h0_keep_arg0 : StableHlo.after (hostOps0 (F := Ideal)) W (Proc.devRef .tc main_arg0) = W (Proc.devRef .tc main_arg0) :=
  h0_keep W main_arg0 (by decide)
theorem h0_keep_arg1 : StableHlo.after (hostOps0 (F := Ideal)) W (Proc.devRef .tc main_arg1) = W (Proc.devRef .tc main_arg1) :=
  h0_keep W main_arg1 (by decide)
theorem h0_keep_arg2 : StableHlo.after (hostOps0 (F := Ideal)) W (Proc.devRef .tc main_arg2) = W (Proc.devRef .tc main_arg2) :=
  h0_keep W main_arg2 (by decide)
theorem h0_keep_arg3 : StableHlo.after (hostOps0 (F := Ideal)) W (Proc.devRef .tc main_arg3) = W (Proc.devRef .tc main_arg3) :=
  h0_keep W main_arg3 (by decide)
theorem h0_keep_arg4 : StableHlo.after (hostOps0 (F := Ideal)) W (Proc.devRef .tc main_arg4) = W (Proc.devRef .tc main_arg4) :=
  h0_keep W main_arg4 (by decide)
theorem h0_keep_arg5 : StableHlo.after (hostOps0 (F := Ideal)) W (Proc.devRef .tc main_arg5) = W (Proc.devRef .tc main_arg5) :=
  h0_keep W main_arg5 (by decide)
theorem h0_keep_arg6 : StableHlo.after (hostOps0 (F := Ideal)) W (Proc.devRef .tc main_arg6) = W (Proc.devRef .tc main_arg6) :=
  h0_keep W main_arg6 (by decide)
theorem h0_keep_arg7 : StableHlo.after (hostOps0 (F := Ideal)) W (Proc.devRef .tc main_arg7) = W (Proc.devRef .tc main_arg7) :=
  h0_keep W main_arg7 (by decide)
theorem h0_keep_arg8 : StableHlo.after (hostOps0 (F := Ideal)) W (Proc.devRef .tc main_arg8) = W (Proc.devRef .tc main_arg8) :=
  h0_keep W main_arg8 (by decide)
theorem h0_keep_arg9 : StableHlo.after (hostOps0 (F := Ideal)) W (Proc.devRef .tc main_arg9) = W (Proc.devRef .tc main_arg9) :=
  h0_keep W main_arg9 (by decide)
theorem h0_keep_arg10 : StableHlo.after (hostOps0 (F := Ideal)) W (Proc.devRef .tc main_arg10) = W (Proc.devRef .tc main_arg10) :=
  h0_keep W main_arg10 (by decide)
theorem h0_keep_arg11 : StableHlo.after (hostOps0 (F := Ideal)) W (Proc.devRef .tc main_arg11) = W (Proc.devRef .tc main_arg11) :=
  h0_keep W main_arg11 (by decide)
theorem h0_keep_arg12 : StableHlo.after (hostOps0 (F := Ideal)) W (Proc.devRef .tc main_arg12) = W (Proc.devRef .tc main_arg12) :=
  h0_keep W main_arg12 (by decide)

end Cert.KernelIdeal.HostV

end
-- ==== Proof.KI.HostValue1.lean ====
/-
  The kernel program's second stretch of host operations, from any contents `W` of the buffers
  in which the sources and the destinations of the edges `e` stand where the first stretch left
  them: it leaves the mean aggregation `agg4` of the first layer's result and the second bias as
  a one-row matrix; it writes neither an argument nor what it reads.
-/
import proofs.«180108_j33234456937224_1_alg».proof.Proof.SpecEdges
import proofs.«180108_j33234456937224_1_alg».proof.Proof.Gen.KernelIdeal.Regions
import Idealize.ShloMosaic.Lib.StableHlo.Run
import Idealize.ShloMosaic.Lib.ValueLayout

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

set_option maxRecDepth 8192 in
set_option maxHeartbeats 4000000 in
/-- The mean aggregation of the first hidden layer. -/
theorem h1_agg (e : Cert.Sage.Edges)
    (hs : W (Proc.devRef .tc main_v1) = Cert.Sage.srcOf e) (hd : W (Proc.devRef .tc main_v3) = Cert.Sage.dstOf e) :
    StableHlo.after (hostOps1 (F := Ideal)) W (Proc.devRef .tc main_v42)
      = Cert.Sage.agg4 (W (Proc.devRef .tc main_v23)) e := by
  after_results_simp
  rw [hs, hd]
  unfold Cert.Sage.agg4 Cert.Sage.srcOf Cert.Sage.dstOf
  rfl

/-- The second bias, as a one-row matrix. -/
theorem h1_b : StableHlo.after (hostOps1 (F := Ideal)) W (Proc.devRef .tc main_v43)
    = shapeCast S1x4 (W (Proc.devRef .tc main_arg6) : FVec Ideal S4 .f32) shapeCasts_S4_S1x4 := by
  after_results
  rfl

/-- The one-row matrix read at a column is the bias there. -/
theorem h1_b_apply (j : Fin 4) :
    (StableHlo.after (hostOps1 (F := Ideal)) W (Proc.devRef .tc main_v43) : FVec Ideal S1x4 .f32) (ix2 0 j)
      = (W (Proc.devRef .tc main_arg6) : FVec Ideal S4 .f32) (ix1 j) := by
  rw [h1_b]
  exact shapeCast_a_1a_apply _ _ 0 j

/-- A buffer the stretch does not write keeps its contents. -/
theorem h1_keep (r : Ref sig .tc) (h : r ∉ hostOps1_W) :
    StableHlo.after (hostOps1 (F := Ideal)) W (Proc.devRef .tc r) = W (Proc.devRef .tc r) :=
  StableHlo.after_of_writes_sub hostOps1 W hostOps1_writes h

theorem h1_keep_v1 : StableHlo.after (hostOps1 (F := Ideal)) W (Proc.devRef .tc main_v1) = W (Proc.devRef .tc main_v1) :=
  h1_keep W main_v1 (by decide)
theorem h1_keep_v3 : StableHlo.after (hostOps1 (F := Ideal)) W (Proc.devRef .tc main_v3) = W (Proc.devRef .tc main_v3) :=
  h1_keep W main_v3 (by decide)
theorem h1_keep_v23 : StableHlo.after (hostOps1 (F := Ideal)) W (Proc.devRef .tc main_v23) = W (Proc.devRef .tc main_v23) :=
  h1_keep W main_v23 (by decide)
theorem h1_keep_arg0 : StableHlo.after (hostOps1 (F := Ideal)) W (Proc.devRef .tc main_arg0) = W (Proc.devRef .tc main_arg0) :=
  h1_keep W main_arg0 (by decide)
theorem h1_keep_arg1 : StableHlo.after (hostOps1 (F := Ideal)) W (Proc.devRef .tc main_arg1) = W (Proc.devRef .tc main_arg1) :=
  h1_keep W main_arg1 (by decide)
theorem h1_keep_arg2 : StableHlo.after (hostOps1 (F := Ideal)) W (Proc.devRef .tc main_arg2) = W (Proc.devRef .tc main_arg2) :=
  h1_keep W main_arg2 (by decide)
theorem h1_keep_arg3 : StableHlo.after (hostOps1 (F := Ideal)) W (Proc.devRef .tc main_arg3) = W (Proc.devRef .tc main_arg3) :=
  h1_keep W main_arg3 (by decide)
theorem h1_keep_arg4 : StableHlo.after (hostOps1 (F := Ideal)) W (Proc.devRef .tc main_arg4) = W (Proc.devRef .tc main_arg4) :=
  h1_keep W main_arg4 (by decide)
theorem h1_keep_arg5 : StableHlo.after (hostOps1 (F := Ideal)) W (Proc.devRef .tc main_arg5) = W (Proc.devRef .tc main_arg5) :=
  h1_keep W main_arg5 (by decide)
theorem h1_keep_arg6 : StableHlo.after (hostOps1 (F := Ideal)) W (Proc.devRef .tc main_arg6) = W (Proc.devRef .tc main_arg6) :=
  h1_keep W main_arg6 (by decide)
theorem h1_keep_arg7 : StableHlo.after (hostOps1 (F := Ideal)) W (Proc.devRef .tc main_arg7) = W (Proc.devRef .tc main_arg7) :=
  h1_keep W main_arg7 (by decide)
theorem h1_keep_arg8 : StableHlo.after (hostOps1 (F := Ideal)) W (Proc.devRef .tc main_arg8) = W (Proc.devRef .tc main_arg8) :=
  h1_keep W main_arg8 (by decide)
theorem h1_keep_arg9 : StableHlo.after (hostOps1 (F := Ideal)) W (Proc.devRef .tc main_arg9) = W (Proc.devRef .tc main_arg9) :=
  h1_keep W main_arg9 (by decide)
theorem h1_keep_arg10 : StableHlo.after (hostOps1 (F := Ideal)) W (Proc.devRef .tc main_arg10) = W (Proc.devRef .tc main_arg10) :=
  h1_keep W main_arg10 (by decide)
theorem h1_keep_arg11 : StableHlo.after (hostOps1 (F := Ideal)) W (Proc.devRef .tc main_arg11) = W (Proc.devRef .tc main_arg11) :=
  h1_keep W main_arg11 (by decide)
theorem h1_keep_arg12 : StableHlo.after (hostOps1 (F := Ideal)) W (Proc.devRef .tc main_arg12) = W (Proc.devRef .tc main_arg12) :=
  h1_keep W main_arg12 (by decide)

end Cert.KernelIdeal.HostV

end
-- ==== Proof.KI.HostValue2.lean ====
/-
  The kernel program's third stretch of host operations, from any contents `W` of the buffers
  in which the sources and the destinations of the edges `e` stand where the first stretch left
  them: it leaves the mean aggregation `agg4` of the second layer's result, and the third bias
  and the classifier's bias as one-row matrices; it writes neither an argument nor what it reads.
-/
import proofs.«180108_j33234456937224_1_alg».proof.Proof.SpecEdges
import proofs.«180108_j33234456937224_1_alg».proof.Proof.Gen.KernelIdeal.Regions
import Idealize.ShloMosaic.Lib.StableHlo.Run
import Idealize.ShloMosaic.Lib.ValueLayout

noncomputable section

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx

variable (W : Valuation τ sig (Elt Ideal))

set_option maxRecDepth 8192 in
set_option maxHeartbeats 4000000 in
/-- The mean aggregation of the second hidden layer. -/
theorem h2_agg (e : Cert.Sage.Edges)
    (hs : W (Proc.devRef .tc main_v1) = Cert.Sage.srcOf e) (hd : W (Proc.devRef .tc main_v3) = Cert.Sage.dstOf e) :
    StableHlo.after (hostOps2 (F := Ideal)) W (Proc.devRef .tc main_v63)
      = Cert.Sage.agg4 (W (Proc.devRef .tc main_v44)) e := by
  after_results_simp
  rw [hs, hd]
  unfold Cert.Sage.agg4 Cert.Sage.srcOf Cert.Sage.dstOf
  rfl

/-- The third bias, as a one-row matrix. -/
theorem h2_b3 : StableHlo.after (hostOps2 (F := Ideal)) W (Proc.devRef .tc main_v64)
    = shapeCast S1x2 (W (Proc.devRef .tc main_arg9) : FVec Ideal S2 .f32) shapeCasts_S2_S1x2 := by
  after_results
  rfl

/-- The one-row matrix read at a column is the bias there. -/
theorem h2_b3_apply (j : Fin 2) :
    (StableHlo.after (hostOps2 (F := Ideal)) W (Proc.devRef .tc main_v64) : FVec Ideal S1x2 .f32) (ix2 0 j)
      = (W (Proc.devRef .tc main_arg9) : FVec Ideal S2 .f32) (ix1 j) := by
  rw [h2_b3]
  exact shapeCast_a_1a_apply _ _ 0 j

/-- The classifier's bias, as a one-row matrix. -/
theorem h2_bc : StableHlo.after (hostOps2 (F := Ideal)) W (Proc.devRef .tc main_v65)
    = shapeCast S1x2 (W (Proc.devRef .tc main_arg12) : FVec Ideal S2 .f32) shapeCasts_S2_S1x2 := by
  after_results
  rfl

/-- The one-row matrix read at a column is the bias there. -/
theorem h2_bc_apply (j : Fin 2) :
    (StableHlo.after (hostOps2 (F := Ideal)) W (Proc.devRef .tc main_v65) : FVec Ideal S1x2 .f32) (ix2 0 j)
      = (W (Proc.devRef .tc main_arg12) : FVec Ideal S2 .f32) (ix1 j) := by
  rw [h2_bc]
  exact shapeCast_a_1a_apply _ _ 0 j

/-- A buffer the stretch does not write keeps its contents. -/
theorem h2_keep (r : Ref sig .tc) (h : r ∉ hostOps2_W) :
    StableHlo.after (hostOps2 (F := Ideal)) W (Proc.devRef .tc r) = W (Proc.devRef .tc r) :=
  StableHlo.after_of_writes_sub hostOps2 W hostOps2_writes h

theorem h2_keep_v1 : StableHlo.after (hostOps2 (F := Ideal)) W (Proc.devRef .tc main_v1) = W (Proc.devRef .tc main_v1) :=
  h2_keep W main_v1 (by decide)
theorem h2_keep_v3 : StableHlo.after (hostOps2 (F := Ideal)) W (Proc.devRef .tc main_v3) = W (Proc.devRef .tc main_v3) :=
  h2_keep W main_v3 (by decide)
theorem h2_keep_v44 : StableHlo.after (hostOps2 (F := Ideal)) W (Proc.devRef .tc main_v44) = W (Proc.devRef .tc main_v44) :=
  h2_keep W main_v44 (by decide)
theorem h2_keep_arg0 : StableHlo.after (hostOps2 (F := Ideal)) W (Proc.devRef .tc main_arg0) = W (Proc.devRef .tc main_arg0) :=
  h2_keep W main_arg0 (by decide)
theorem h2_keep_arg1 : StableHlo.after (hostOps2 (F := Ideal)) W (Proc.devRef .tc main_arg1) = W (Proc.devRef .tc main_arg1) :=
  h2_keep W main_arg1 (by decide)
theorem h2_keep_arg2 : StableHlo.after (hostOps2 (F := Ideal)) W (Proc.devRef .tc main_arg2) = W (Proc.devRef .tc main_arg2) :=
  h2_keep W main_arg2 (by decide)
theorem h2_keep_arg3 : StableHlo.after (hostOps2 (F := Ideal)) W (Proc.devRef .tc main_arg3) = W (Proc.devRef .tc main_arg3) :=
  h2_keep W main_arg3 (by decide)
theorem h2_keep_arg4 : StableHlo.after (hostOps2 (F := Ideal)) W (Proc.devRef .tc main_arg4) = W (Proc.devRef .tc main_arg4) :=
  h2_keep W main_arg4 (by decide)
theorem h2_keep_arg5 : StableHlo.after (hostOps2 (F := Ideal)) W (Proc.devRef .tc main_arg5) = W (Proc.devRef .tc main_arg5) :=
  h2_keep W main_arg5 (by decide)
theorem h2_keep_arg6 : StableHlo.after (hostOps2 (F := Ideal)) W (Proc.devRef .tc main_arg6) = W (Proc.devRef .tc main_arg6) :=
  h2_keep W main_arg6 (by decide)
theorem h2_keep_arg7 : StableHlo.after (hostOps2 (F := Ideal)) W (Proc.devRef .tc main_arg7) = W (Proc.devRef .tc main_arg7) :=
  h2_keep W main_arg7 (by decide)
theorem h2_keep_arg8 : StableHlo.after (hostOps2 (F := Ideal)) W (Proc.devRef .tc main_arg8) = W (Proc.devRef .tc main_arg8) :=
  h2_keep W main_arg8 (by decide)
theorem h2_keep_arg9 : StableHlo.after (hostOps2 (F := Ideal)) W (Proc.devRef .tc main_arg9) = W (Proc.devRef .tc main_arg9) :=
  h2_keep W main_arg9 (by decide)
theorem h2_keep_arg10 : StableHlo.after (hostOps2 (F := Ideal)) W (Proc.devRef .tc main_arg10) = W (Proc.devRef .tc main_arg10) :=
  h2_keep W main_arg10 (by decide)
theorem h2_keep_arg11 : StableHlo.after (hostOps2 (F := Ideal)) W (Proc.devRef .tc main_arg11) = W (Proc.devRef .tc main_arg11) :=
  h2_keep W main_arg11 (by decide)
theorem h2_keep_arg12 : StableHlo.after (hostOps2 (F := Ideal)) W (Proc.devRef .tc main_arg12) = W (Proc.devRef .tc main_arg12) :=
  h2_keep W main_arg12 (by decide)

end Cert.KernelIdeal.HostV

end
-- ==== Proof.KI.HostValue.lean ====
/-
  The kernel program's three stretches of host operations at the ideal instance: what each leaves.
-/
import proofs.«180108_j33234456937224_1_alg».proof.Proof.KI.HostValue0
import proofs.«180108_j33234456937224_1_alg».proof.Proof.KI.HostValue1
import proofs.«180108_j33234456937224_1_alg».proof.Proof.KI.HostValue2
-- ==== Proof.KI.ValueArgs.lean ====
/-
  The argument arrays, and the edges' sources and destinations that the first stretch of host
  operations computes, stand unchanged at every later boundary of the kernel program: no host
  operation writes them and no region has them as a result.
-/
import proofs.«180108_j33234456937224_1_alg».proof.Proof.KI.Run
import proofs.«180108_j33234456937224_1_alg».proof.Proof.KI.HostValue

noncomputable section

namespace Cert.KernelIdeal.Hand

open Cert.KernelIdeal Cert.KernelIdeal.Gen Cert.KernelIdeal.HostV
open Idealize.ShloMosaic Idealize.ShloMosaic.TcCoe Idealize.SL.Sem

variable (m : (ℓ : Loc nD τ sig) → Buf (Elt Ideal) ℓ) (ρ : Dev nD → PrngReg) (c : Dev nD)

/-! ## The arguments -/

theorem W1_arg0 : W1 m ρ c (Proc.devRef .tc main_arg0) = m ((c : Thread nD τ).loc main_arg0) := h0_keep_arg0 (W0 m ρ c)
theorem W2_arg0 : W2 m ρ c (Proc.devRef .tc main_arg0) = m ((c : Thread nD τ).loc main_arg0) := (W2_in m ρ c 1 rfl).trans (W1_arg0 m ρ c)
theorem W3_arg0 : W3 m ρ c (Proc.devRef .tc main_arg0) = m ((c : Thread nD τ).loc main_arg0) := (h1_keep_arg0 (W2 m ρ c)).trans (W2_arg0 m ρ c)
theorem W4_arg0 : W4 m ρ c (Proc.devRef .tc main_arg0) = m ((c : Thread nD τ).loc main_arg0) := (W4_of_ne m ρ c main_arg0 (by decide)).trans (W3_arg0 m ρ c)
theorem W5_arg0 : W5 m ρ c (Proc.devRef .tc main_arg0) = m ((c : Thread nD τ).loc main_arg0) := (h2_keep_arg0 (W4 m ρ c)).trans (W4_arg0 m ρ c)
theorem W1_arg1 : W1 m ρ c (Proc.devRef .tc main_arg1) = m ((c : Thread nD τ).loc main_arg1) := h0_keep_arg1 (W0 m ρ c)
theorem W2_arg1 : W2 m ρ c (Proc.devRef .tc main_arg1) = m ((c : Thread nD τ).loc main_arg1) := (W2_of_ne m ρ c main_arg1 (by decide)).trans (W1_arg1 m ρ c)
theorem W3_arg1 : W3 m ρ c (Proc.devRef .tc main_arg1) = m ((c : Thread nD τ).loc main_arg1) := (h1_keep_arg1 (W2 m ρ c)).trans (W2_arg1 m ρ c)
theorem W4_arg1 : W4 m ρ c (Proc.devRef .tc main_arg1) = m ((c : Thread nD τ).loc main_arg1) := (W4_of_ne m ρ c main_arg1 (by decide)).trans (W3_arg1 m ρ c)
theorem W5_arg1 : W5 m ρ c (Proc.devRef .tc main_arg1) = m ((c : Thread nD τ).loc main_arg1) := (h2_keep_arg1 (W4 m ρ c)).trans (W4_arg1 m ρ c)
theorem W1_arg2 : W1 m ρ c (Proc.devRef .tc main_arg2) = m ((c : Thread nD τ).loc main_arg2) := h0_keep_arg2 (W0 m ρ c)
theorem W2_arg2 : W2 m ρ c (Proc.devRef .tc main_arg2) = m ((c : Thread nD τ).loc main_arg2) := (W2_in m ρ c 2 rfl).trans (W1_arg2 m ρ c)
theorem W3_arg2 : W3 m ρ c (Proc.devRef .tc main_arg2) = m ((c : Thread nD τ).loc main_arg2) := (h1_keep_arg2 (W2 m ρ c)).trans (W2_arg2 m ρ c)
theorem W4_arg2 : W4 m ρ c (Proc.devRef .tc main_arg2) = m ((c : Thread nD τ).loc main_arg2) := (W4_of_ne m ρ c main_arg2 (by decide)).trans (W3_arg2 m ρ c)
theorem W5_arg2 : W5 m ρ c (Proc.devRef .tc main_arg2) = m ((c : Thread nD τ).loc main_arg2) := (h2_keep_arg2 (W4 m ρ c)).trans (W4_arg2 m ρ c)
theorem W1_arg3 : W1 m ρ c (Proc.devRef .tc main_arg3) = m ((c : Thread nD τ).loc main_arg3) := h0_keep_arg3 (W0 m ρ c)
theorem W2_arg3 : W2 m ρ c (Proc.devRef .tc main_arg3) = m ((c : Thread nD τ).loc main_arg3) := (W2_of_ne m ρ c main_arg3 (by decide)).trans (W1_arg3 m ρ c)
theorem W3_arg3 : W3 m ρ c (Proc.devRef .tc main_arg3) = m ((c : Thread nD τ).loc main_arg3) := (h1_keep_arg3 (W2 m ρ c)).trans (W2_arg3 m ρ c)
theorem W4_arg3 : W4 m ρ c (Proc.devRef .tc main_arg3) = m ((c : Thread nD τ).loc main_arg3) := (W4_of_ne m ρ c main_arg3 (by decide)).trans (W3_arg3 m ρ c)
theorem W5_arg3 : W5 m ρ c (Proc.devRef .tc main_arg3) = m ((c : Thread nD τ).loc main_arg3) := (h2_keep_arg3 (W4 m ρ c)).trans (W4_arg3 m ρ c)
theorem W1_arg4 : W1 m ρ c (Proc.devRef .tc main_arg4) = m ((c : Thread nD τ).loc main_arg4) := h0_keep_arg4 (W0 m ρ c)
theorem W2_arg4 : W2 m ρ c (Proc.devRef .tc main_arg4) = m ((c : Thread nD τ).loc main_arg4) := (W2_in m ρ c 4 rfl).trans (W1_arg4 m ρ c)
theorem W3_arg4 : W3 m ρ c (Proc.devRef .tc main_arg4) = m ((c : Thread nD τ).loc main_arg4) := (h1_keep_arg4 (W2 m ρ c)).trans (W2_arg4 m ρ c)
theorem W4_arg4 : W4 m ρ c (Proc.devRef .tc main_arg4) = m ((c : Thread nD τ).loc main_arg4) := (W4_of_ne m ρ c main_arg4 (by decide)).trans (W3_arg4 m ρ c)
theorem W5_arg4 : W5 m ρ c (Proc.devRef .tc main_arg4) = m ((c : Thread nD τ).loc main_arg4) := (h2_keep_arg4 (W4 m ρ c)).trans (W4_arg4 m ρ c)
theorem W1_arg5 : W1 m ρ c (Proc.devRef .tc main_arg5) = m ((c : Thread nD τ).loc main_arg5) := h0_keep_arg5 (W0 m ρ c)
theorem W2_arg5 : W2 m ρ c (Proc.devRef .tc main_arg5) = m ((c : Thread nD τ).loc main_arg5) := (W2_of_ne m ρ c main_arg5 (by decide)).trans (W1_arg5 m ρ c)
theorem W3_arg5 : W3 m ρ c (Proc.devRef .tc main_arg5) = m ((c : Thread nD τ).loc main_arg5) := (h1_keep_arg5 (W2 m ρ c)).trans (W2_arg5 m ρ c)
theorem W4_arg5 : W4 m ρ c (Proc.devRef .tc main_arg5) = m ((c : Thread nD τ).loc main_arg5) := (W4_in m ρ c 2 rfl).trans (W3_arg5 m ρ c)
theorem W5_arg5 : W5 m ρ c (Proc.devRef .tc main_arg5) = m ((c : Thread nD τ).loc main_arg5) := (h2_keep_arg5 (W4 m ρ c)).trans (W4_arg5 m ρ c)
theorem W1_arg6 : W1 m ρ c (Proc.devRef .tc main_arg6) = m ((c : Thread nD τ).loc main_arg6) := h0_keep_arg6 (W0 m ρ c)
theorem W2_arg6 : W2 m ρ c (Proc.devRef .tc main_arg6) = m ((c : Thread nD τ).loc main_arg6) := (W2_of_ne m ρ c main_arg6 (by decide)).trans (W1_arg6 m ρ c)
theorem W3_arg6 : W3 m ρ c (Proc.devRef .tc main_arg6) = m ((c : Thread nD τ).loc main_arg6) := (h1_keep_arg6 (W2 m ρ c)).trans (W2_arg6 m ρ c)
theorem W4_arg6 : W4 m ρ c (Proc.devRef .tc main_arg6) = m ((c : Thread nD τ).loc main_arg6) := (W4_of_ne m ρ c main_arg6 (by decide)).trans (W3_arg6 m ρ c)
theorem W5_arg6 : W5 m ρ c (Proc.devRef .tc main_arg6) = m ((c : Thread nD τ).loc main_arg6) := (h2_keep_arg6 (W4 m ρ c)).trans (W4_arg6 m ρ c)
theorem W1_arg7 : W1 m ρ c (Proc.devRef .tc main_arg7) = m ((c : Thread nD τ).loc main_arg7) := h0_keep_arg7 (W0 m ρ c)
theorem W2_arg7 : W2 m ρ c (Proc.devRef .tc main_arg7) = m ((c : Thread nD τ).loc main_arg7) := (W2_of_ne m ρ c main_arg7 (by decide)).trans (W1_arg7 m ρ c)
theorem W3_arg7 : W3 m ρ c (Proc.devRef .tc main_arg7) = m ((c : Thread nD τ).loc main_arg7) := (h1_keep_arg7 (W2 m ρ c)).trans (W2_arg7 m ρ c)
theorem W4_arg7 : W4 m ρ c (Proc.devRef .tc main_arg7) = m ((c : Thread nD τ).loc main_arg7) := (W4_in m ρ c 4 rfl).trans (W3_arg7 m ρ c)
theorem W5_arg7 : W5 m ρ c (Proc.devRef .tc main_arg7) = m ((c : Thread nD τ).loc main_arg7) := (h2_keep_arg7 (W4 m ρ c)).trans (W4_arg7 m ρ c)
theorem W1_arg8 : W1 m ρ c (Proc.devRef .tc main_arg8) = m ((c : Thread nD τ).loc main_arg8) := h0_keep_arg8 (W0 m ρ c)
theorem W2_arg8 : W2 m ρ c (Proc.devRef .tc main_arg8) = m ((c : Thread nD τ).loc main_arg8) := (W2_of_ne m ρ c main_arg8 (by decide)).trans (W1_arg8 m ρ c)
theorem W3_arg8 : W3 m ρ c (Proc.devRef .tc main_arg8) = m ((c : Thread nD τ).loc main_arg8) := (h1_keep_arg8 (W2 m ρ c)).trans (W2_arg8 m ρ c)
theorem W4_arg8 : W4 m ρ c (Proc.devRef .tc main_arg8) = m ((c : Thread nD τ).loc main_arg8) := (W4_of_ne m ρ c main_arg8 (by decide)).trans (W3_arg8 m ρ c)
theorem W5_arg8 : W5 m ρ c (Proc.devRef .tc main_arg8) = m ((c : Thread nD τ).loc main_arg8) := (h2_keep_arg8 (W4 m ρ c)).trans (W4_arg8 m ρ c)
theorem W1_arg9 : W1 m ρ c (Proc.devRef .tc main_arg9) = m ((c : Thread nD τ).loc main_arg9) := h0_keep_arg9 (W0 m ρ c)
theorem W2_arg9 : W2 m ρ c (Proc.devRef .tc main_arg9) = m ((c : Thread nD τ).loc main_arg9) := (W2_of_ne m ρ c main_arg9 (by decide)).trans (W1_arg9 m ρ c)
theorem W3_arg9 : W3 m ρ c (Proc.devRef .tc main_arg9) = m ((c : Thread nD τ).loc main_arg9) := (h1_keep_arg9 (W2 m ρ c)).trans (W2_arg9 m ρ c)
theorem W4_arg9 : W4 m ρ c (Proc.devRef .tc main_arg9) = m ((c : Thread nD τ).loc main_arg9) := (W4_of_ne m ρ c main_arg9 (by decide)).trans (W3_arg9 m ρ c)
theorem W5_arg9 : W5 m ρ c (Proc.devRef .tc main_arg9) = m ((c : Thread nD τ).loc main_arg9) := (h2_keep_arg9 (W4 m ρ c)).trans (W4_arg9 m ρ c)
theorem W1_arg10 : W1 m ρ c (Proc.devRef .tc main_arg10) = m ((c : Thread nD τ).loc main_arg10) := h0_keep_arg10 (W0 m ρ c)
theorem W2_arg10 : W2 m ρ c (Proc.devRef .tc main_arg10) = m ((c : Thread nD τ).loc main_arg10) := (W2_of_ne m ρ c main_arg10 (by decide)).trans (W1_arg10 m ρ c)
theorem W3_arg10 : W3 m ρ c (Proc.devRef .tc main_arg10) = m ((c : Thread nD τ).loc main_arg10) := (h1_keep_arg10 (W2 m ρ c)).trans (W2_arg10 m ρ c)
theorem W4_arg10 : W4 m ρ c (Proc.devRef .tc main_arg10) = m ((c : Thread nD τ).loc main_arg10) := (W4_of_ne m ρ c main_arg10 (by decide)).trans (W3_arg10 m ρ c)
theorem W5_arg10 : W5 m ρ c (Proc.devRef .tc main_arg10) = m ((c : Thread nD τ).loc main_arg10) := (h2_keep_arg10 (W4 m ρ c)).trans (W4_arg10 m ρ c)
theorem W1_arg11 : W1 m ρ c (Proc.devRef .tc main_arg11) = m ((c : Thread nD τ).loc main_arg11) := h0_keep_arg11 (W0 m ρ c)
theorem W2_arg11 : W2 m ρ c (Proc.devRef .tc main_arg11) = m ((c : Thread nD τ).loc main_arg11) := (W2_of_ne m ρ c main_arg11 (by decide)).trans (W1_arg11 m ρ c)
theorem W3_arg11 : W3 m ρ c (Proc.devRef .tc main_arg11) = m ((c : Thread nD τ).loc main_arg11) := (h1_keep_arg11 (W2 m ρ c)).trans (W2_arg11 m ρ c)
theorem W4_arg11 : W4 m ρ c (Proc.devRef .tc main_arg11) = m ((c : Thread nD τ).loc main_arg11) := (W4_of_ne m ρ c main_arg11 (by decide)).trans (W3_arg11 m ρ c)
theorem W5_arg11 : W5 m ρ c (Proc.devRef .tc main_arg11) = m ((c : Thread nD τ).loc main_arg11) := (h2_keep_arg11 (W4 m ρ c)).trans (W4_arg11 m ρ c)
theorem W1_arg12 : W1 m ρ c (Proc.devRef .tc main_arg12) = m ((c : Thread nD τ).loc main_arg12) := h0_keep_arg12 (W0 m ρ c)
theorem W2_arg12 : W2 m ρ c (Proc.devRef .tc main_arg12) = m ((c : Thread nD τ).loc main_arg12) := (W2_of_ne m ρ c main_arg12 (by decide)).trans (W1_arg12 m ρ c)
theorem W3_arg12 : W3 m ρ c (Proc.devRef .tc main_arg12) = m ((c : Thread nD τ).loc main_arg12) := (h1_keep_arg12 (W2 m ρ c)).trans (W2_arg12 m ρ c)
theorem W4_arg12 : W4 m ρ c (Proc.devRef .tc main_arg12) = m ((c : Thread nD τ).loc main_arg12) := (W4_of_ne m ρ c main_arg12 (by decide)).trans (W3_arg12 m ρ c)
theorem W5_arg12 : W5 m ρ c (Proc.devRef .tc main_arg12) = m ((c : Thread nD τ).loc main_arg12) := (h2_keep_arg12 (W4 m ρ c)).trans (W4_arg12 m ρ c)

/-! ## The edges' sources and destinations -/

theorem W1_src : W1 m ρ c (Proc.devRef .tc main_v1) = Cert.Sage.srcOf (m ((c : Thread nD τ).loc main_arg1)) := h0_src (W0 m ρ c)
theorem W2_src : W2 m ρ c (Proc.devRef .tc main_v1) = Cert.Sage.srcOf (m ((c : Thread nD τ).loc main_arg1)) := (W2_of_ne m ρ c main_v1 (by decide)).trans (W1_src m ρ c)
theorem W3_src : W3 m ρ c (Proc.devRef .tc main_v1) = Cert.Sage.srcOf (m ((c : Thread nD τ).loc main_arg1)) := (h1_keep_v1 (W2 m ρ c)).trans (W2_src m ρ c)
theorem W4_src : W4 m ρ c (Proc.devRef .tc main_v1) = Cert.Sage.srcOf (m ((c : Thread nD τ).loc main_arg1)) := (W4_of_ne m ρ c main_v1 (by decide)).trans (W3_src m ρ c)
theorem W1_dst : W1 m ρ c (Proc.devRef .tc main_v3) = Cert.Sage.dstOf (m ((c : Thread nD τ).loc main_arg1)) := h0_dst (W0 m ρ c)
theorem W2_dst : W2 m ρ c (Proc.devRef .tc main_v3) = Cert.Sage.dstOf (m ((c : Thread nD τ).loc main_arg1)) := (W2_of_ne m ρ c main_v3 (by decide)).trans (W1_dst m ρ c)
theorem W3_dst : W3 m ρ c (Proc.devRef .tc main_v3) = Cert.Sage.dstOf (m ((c : Thread nD τ).loc main_arg1)) := (h1_keep_v3 (W2 m ρ c)).trans (W2_dst m ρ c)
theorem W4_dst : W4 m ρ c (Proc.devRef .tc main_v3) = Cert.Sage.dstOf (m ((c : Thread nD τ).loc main_arg1)) := (W4_of_ne m ρ c main_v3 (by decide)).trans (W3_dst m ρ c)

end Cert.KernelIdeal.Hand

end
-- ==== Proof.KI.GeometryBase.lean ====
/-
  Arithmetic of the row tiling shared by the three pipelines: an array of 1000000 rows is cut into 245 blocks of
  4096 rows; 245 · 4096 = 1003520, so the last block (index 244) overhangs the array by 3520 rows and only its
  first 576 rows lie inside it (1000000 = 244 · 4096 + 576). The part of block `t` inside the array has
  `min 4096 (1000000 - t · 4096)` rows.
-/
import Idealize.ShloMosaic.Lib.ValueIdx

namespace Cert.KernelIdeal.Hand

/-- A row of a block's part inside the array is a row of the array (245 · 4096 = 1003520 overhangs 1000000 by 3520). -/
theorem row_lt {t r : Nat} (h : r < min 4096 (1000000 - t * 4096)) : t * 4096 + r < 1000000 := by omega
/-- It is a row of the block. -/
theorem lt_block {t r : Nat} (h : r < min 4096 (1000000 - t * 4096)) : r < 4096 := by omega
/-- Row `r` of the array is row `r % 4096` of block `r / 4096`, inside that block's part of the array
    (1000000 = 244 · 4096 + 576). -/
theorem rem_lt {r : Nat} (h : r < 1000000) : r % 4096 < min 4096 (1000000 - r / 4096 * 4096) := by omega

end Cert.KernelIdeal.Hand
-- ==== Proof.KI.Geometry0.lean ====
/-
  The geometry of pipeline 0's windows, whatever the pipeline computes: two input arrays of one column, three one-block weight arrays of shape 1 × 4, one output array of four columns.
  For a window over an array of 1000000 rows in blocks of 4096 rows (block index `(t, 0)` at grid point `t`, the last
  block cut to its first 576 rows): where an element of the block at point `t` sits in the array (row
  `t · 4096 +` its row, the same column), what reading the array through the block gives, the moved part of a
  staging buffer's contents and a buffer just filled, read at an index; for an output array, that the blocks cover it
  (row `r` is row `r % 4096` of block `r / 4096`) and hence that the array ends holding `G` when every point writes
  back its block of `G`. For a window whose one block is its whole array: an element sits at its own index and reading
  through the block is the identity.
-/
import proofs.«180108_j33234456937224_1_alg».proof.Proof.Gen.KernelIdeal.Launch
import proofs.«180108_j33234456937224_1_alg».proof.Proof.Gen.KernelIdeal.Points
import proofs.«180108_j33234456937224_1_alg».proof.Proof.KI.GeometryBase
import Idealize.ShloMosaic.Lib.Pipeline.Value
import Idealize.ShloMosaic.Lib.ValueIdx

noncomputable section

namespace Cert.KernelIdeal.Hand

open Cert.KernelIdeal Cert.KernelIdeal.Gen Idealize.ShloMosaic
open Idealize.ShloMosaic.Pipeline (Dat)
open Idealize.ShloMosaic.ValueIdx

/-- The grid point whose block holds row `r`. -/
def pt0 (r : Fin 1000000) : Fin cfg0.N := ⟨r.val / 4096, Nat.lt_of_lt_of_eq (by have := r.isLt; omega) N_0.symm⟩
theorem pt0_val (r : Fin 1000000) : (pt0 r).val = r.val / 4096 := rfl

/-! ## Region 0, window 0: row blocks of 4096 of an array of 1000000 rows and 1 column -/

/-- The block index at point `t` is `(t, 0)`. -/
theorem idx0_0 : ∀ t : Fin cfg0.N, (cfg0.win 0).index t (0 : Fin 2) = t.val ∧ (cfg0.win 0).index t (1 : Fin 2) = 0 :=
  (by decide +kernel : ∀ t : Fin grid0.N, win0_0.index t (0 : Fin 2) = t.val ∧ win0_0.index t (1 : Fin 2) = 0)

/-- The rows the transfer at point `t` moves: 4096, cut at the array's end (244 · 4096 + 576 = 1000000); every column. -/
theorem xs0_0 : ∀ t : Fin cfg0.N, (cfg0.win 0).xsize (cfg0.grid.coords t) (0 : Fin 2) = min 4096 (1000000 - t.val * 4096)
    ∧ (cfg0.win 0).xsize (cfg0.grid.coords t) (1 : Fin 2) = 1 :=
  (by decide +kernel : ∀ t : Fin grid0.N, win0_0.xsize (grid0.coords t) (0 : Fin 2) = min 4096 (1000000 - t.val * 4096)
    ∧ win0_0.xsize (grid0.coords t) (1 : Fin 2) = 1)

/-- A row of the moved part is below the cut size, -/
theorem y0_lt0_0 (t : Fin cfg0.N) (y : ((cfg0.win 0).xblock (cfg0.grid.coords t)).Idx) : (y 0).val < min 4096 (1000000 - t.val * 4096) :=
  Nat.lt_of_lt_of_eq (y 0).isLt (xs0_0 t).1
/-- and a column below the width. -/
theorem y1_lt0_0 (t : Fin cfg0.N) (y : ((cfg0.win 0).xblock (cfg0.grid.coords t)).Idx) : (y 1).val < 1 :=
  Nat.lt_of_lt_of_eq (y 1).isLt (xs0_0 t).2

/-- An element of the block at point `t` sits in the array at row `t · 4096 +` its row, -/
theorem emb0_0_0 (t : Fin cfg0.N) (y : ((cfg0.win 0).xblock (cfg0.grid.coords t)).Idx) :
    (((cfg0.win 0).blk t).view.emb y (0 : Fin 2)).val = t.val * 4096 + (y 0).val := by
  have h := (cfg0.win 0).rect_emb_val t y (0 : Fin 2)
  rw [(idx0_0 t).1] at h
  exact h
/-- at its own column. -/
theorem emb0_0_1 (t : Fin cfg0.N) (y : ((cfg0.win 0).xblock (cfg0.grid.coords t)).Idx) :
    (((cfg0.win 0).blk t).view.emb y (1 : Fin 2)).val = (y 1).val := by
  have h := (cfg0.win 0).rect_emb_val t y (1 : Fin 2)
  rw [(idx0_0 t).2] at h
  exact h.trans (by omega)

/-- The same as one equation of indices. -/
theorem emb0_0 (t : Fin cfg0.N) (y : ((cfg0.win 0).xblock (cfg0.grid.coords t)).Idx) :
    ((cfg0.win 0).blk t).view.emb y
      = (ix2 ⟨t.val * 4096 + (y 0).val, row_lt (y0_lt0_0 t y)⟩ ⟨(y 1).val, y1_lt0_0 t y⟩ : S1000000x1.Idx) := by
  funext a; apply Fin.ext
  match a with
  | ⟨0, _⟩ => exact emb0_0_0 t y
  | ⟨1, _⟩ => exact emb0_0_1 t y

/-- Reading the array through the block at point `t`: the array at row `t · 4096 +` the row. -/
theorem read0_0 {Val : EltTy → Type} (t : Fin cfg0.N) (A : S1000000x1.Idx → Val .f32) (y : ((cfg0.win 0).xblock (cfg0.grid.coords t)).Idx) :
    ((cfg0.win 0).blk t).view.read Val A y
      = A (ix2 ⟨t.val * 4096 + (y 0).val, row_lt (y0_lt0_0 t y)⟩ ⟨(y 1).val, y1_lt0_0 t y⟩) := by
  rw [← emb0_0 t y]; rfl

/-- An index of the array is in the block at point `t` iff its row is among the block's rows inside the array. -/
theorem mem_blk0_0 (t : Fin cfg0.N) (i : S1000000x1.Idx) :
    i ∈ ((cfg0.win 0).blk t).view.set
      ↔ t.val * 4096 ≤ (i 0).val ∧ (i 0).val < t.val * 4096 + min 4096 (1000000 - t.val * 4096) := by
  show i ∈ ((View.whole main_v21).slice (win0_0.rect t)).set ↔ _
  rw [View.set_slice_whole, Rect.mem_set_unit]
  obtain ⟨e0, e1⟩ := idx0_0 t
  obtain ⟨s0, s1⟩ := xs0_0 t
  have h1 : (i 1).val < 1 := (i 1).isLt
  refine ⟨fun h => ?_, fun h a => ?_⟩
  · have h0 := h (0 : Fin 2)
    change win0_0.index t (0 : Fin 2) * 4096 ≤ (i 0).val
      ∧ (i 0).val < win0_0.index t (0 : Fin 2) * 4096 + win0_0.xsize (grid0.coords t) (0 : Fin 2) at h0
    rw [e0, s0] at h0; exact h0
  · match a with
    | ⟨0, _⟩ =>
      change win0_0.index t (0 : Fin 2) * 4096 ≤ (i 0).val
        ∧ (i 0).val < win0_0.index t (0 : Fin 2) * 4096 + win0_0.xsize (grid0.coords t) (0 : Fin 2)
      rw [e0, s0]; exact h
    | ⟨1, _⟩ =>
      change win0_0.index t (1 : Fin 2) * 1 ≤ (i 1).val
        ∧ (i 1).val < win0_0.index t (1 : Fin 2) * 1 + win0_0.xsize (grid0.coords t) (1 : Fin 2)
      rw [e1, s1]; omega

/-- The index of the moved part of the block at point `t` with row `r` (below the cut size) and column `k`. -/
def xix0_0 (t : Fin cfg0.N) (r : Nat) (hr : r < min 4096 (1000000 - t.val * 4096)) (k : Fin 1) : ((cfg0.win 0).xblock (cfg0.grid.coords t)).Idx :=
  fun a => match a with
    | ⟨0, _⟩ => ⟨r, Nat.lt_of_lt_of_eq hr (xs0_0 t).1.symm⟩
    | ⟨1, _⟩ => ⟨k.val, Nat.lt_of_lt_of_eq k.isLt (xs0_0 t).2.symm⟩
theorem xix0_0_0 (t : Fin cfg0.N) (r : Nat) (hr : r < min 4096 (1000000 - t.val * 4096)) (k : Fin 1) :
    (xix0_0 t r hr k 0).val = r := rfl
theorem xix0_0_1 (t : Fin cfg0.N) (r : Nat) (hr : r < min 4096 (1000000 - t.val * 4096)) (k : Fin 1) :
    (xix0_0 t r hr k 1).val = k.val := rfl
/-- Every index of the moved part is of that form. -/
theorem eq_xix0_0 (t : Fin cfg0.N) (y : ((cfg0.win 0).xblock (cfg0.grid.coords t)).Idx) :
    y = xix0_0 t (y 0).val (y0_lt0_0 t y) ⟨(y 1).val, y1_lt0_0 t y⟩ := by
  funext a; match a with | ⟨0, _⟩ => rfl | ⟨1, _⟩ => rfl

/-- Reading the array through the block at point `t`, at row `r` and column `k` of its moved part. -/
theorem read_xix0_0 {Val : EltTy → Type} (t : Fin cfg0.N) (A : S1000000x1.Idx → Val .f32) (r : Nat)
    (hr : r < min 4096 (1000000 - t.val * 4096)) (k : Fin 1) :
    ((cfg0.win 0).blk t).view.read Val A (xix0_0 t r hr k) = A (ix2 ⟨t.val * 4096 + r, row_lt hr⟩ k) :=
  read0_0 t A _

/-- The moved part of contents `X` of the block, at an index: `X` at the same row and column. -/
theorem cut0_0 {α : Type} (t : Fin cfg0.N) (X : S4096x1.Idx → α) (y : ((cfg0.win 0).xblock (cfg0.grid.coords t)).Idx) :
    (cfg0.win 0).cut (cfg0.grid.coords t) X y
      = X (ix2 ⟨(y 0).val, lt_block (y0_lt0_0 t y)⟩ ⟨(y 1).val, y1_lt0_0 t y⟩) :=
  congrArg X (funext fun a => match a with | ⟨0, _⟩ => rfl | ⟨1, _⟩ => rfl)

/-- Contents `d` of the block with the moved part replaced by `g`, at a row below the cut size: `g` there. -/
theorem fill0_0 {α : Type} (t : Fin cfg0.N) (d : S4096x1.Idx → α) (g : ((cfg0.win 0).xblock (cfg0.grid.coords t)).Idx → α) (j : S4096x1.Idx)
    (h : (j 0).val < min 4096 (1000000 - t.val * 4096)) :
    (cfg0.win 0).fill (cfg0.grid.coords t) d g j = g (xix0_0 t (j 0).val h (j 1)) := by
  have hm : (cfg0.win 0).moved (cfg0.grid.coords t) j = true := ((cfg0.win 0).moved_iff _ j).mpr fun a => by
    match a with
    | ⟨0, _⟩ => exact Nat.lt_of_lt_of_eq h (xs0_0 t).1.symm
    | ⟨1, _⟩ => exact Nat.lt_of_lt_of_eq (j 1).isLt (xs0_0 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read0_0 {Val : EltTy → Type} (t : Fin cfg0.N) (d : S4096x1.Idx → Val .f32) (A : S1000000x1.Idx → Val .f32)
    (j : S4096x1.Idx) (h : (j 0).val < min 4096 (1000000 - t.val * 4096)) :
    (cfg0.win 0).fill (cfg0.grid.coords t) d (((cfg0.win 0).blk t).view.read Val A) j
      = A (ix2 ⟨t.val * 4096 + (j 0).val, row_lt h⟩ (j 1)) :=
  (fill0_0 t d _ j h).trans (read_xix0_0 t A _ h _)

/-! ## Region 0, window 1: row blocks of 4096 of an array of 1000000 rows and 1 column -/

/-- The block index at point `t` is `(t, 0)`. -/
theorem idx0_1 : ∀ t : Fin cfg0.N, (cfg0.win 1).index t (0 : Fin 2) = t.val ∧ (cfg0.win 1).index t (1 : Fin 2) = 0 :=
  (by decide +kernel : ∀ t : Fin grid0.N, win0_1.index t (0 : Fin 2) = t.val ∧ win0_1.index t (1 : Fin 2) = 0)

/-- The rows the transfer at point `t` moves: 4096, cut at the array's end (244 · 4096 + 576 = 1000000); every column. -/
theorem xs0_1 : ∀ t : Fin cfg0.N, (cfg0.win 1).xsize (cfg0.grid.coords t) (0 : Fin 2) = min 4096 (1000000 - t.val * 4096)
    ∧ (cfg0.win 1).xsize (cfg0.grid.coords t) (1 : Fin 2) = 1 :=
  (by decide +kernel : ∀ t : Fin grid0.N, win0_1.xsize (grid0.coords t) (0 : Fin 2) = min 4096 (1000000 - t.val * 4096)
    ∧ win0_1.xsize (grid0.coords t) (1 : Fin 2) = 1)

/-- A row of the moved part is below the cut size, -/
theorem y0_lt0_1 (t : Fin cfg0.N) (y : ((cfg0.win 1).xblock (cfg0.grid.coords t)).Idx) : (y 0).val < min 4096 (1000000 - t.val * 4096) :=
  Nat.lt_of_lt_of_eq (y 0).isLt (xs0_1 t).1
/-- and a column below the width. -/
theorem y1_lt0_1 (t : Fin cfg0.N) (y : ((cfg0.win 1).xblock (cfg0.grid.coords t)).Idx) : (y 1).val < 1 :=
  Nat.lt_of_lt_of_eq (y 1).isLt (xs0_1 t).2

/-- An element of the block at point `t` sits in the array at row `t · 4096 +` its row, -/
theorem emb0_1_0 (t : Fin cfg0.N) (y : ((cfg0.win 1).xblock (cfg0.grid.coords t)).Idx) :
    (((cfg0.win 1).blk t).view.emb y (0 : Fin 2)).val = t.val * 4096 + (y 0).val := by
  have h := (cfg0.win 1).rect_emb_val t y (0 : Fin 2)
  rw [(idx0_1 t).1] at h
  exact h
/-- at its own column. -/
theorem emb0_1_1 (t : Fin cfg0.N) (y : ((cfg0.win 1).xblock (cfg0.grid.coords t)).Idx) :
    (((cfg0.win 1).blk t).view.emb y (1 : Fin 2)).val = (y 1).val := by
  have h := (cfg0.win 1).rect_emb_val t y (1 : Fin 2)
  rw [(idx0_1 t).2] at h
  exact h.trans (by omega)

/-- The same as one equation of indices. -/
theorem emb0_1 (t : Fin cfg0.N) (y : ((cfg0.win 1).xblock (cfg0.grid.coords t)).Idx) :
    ((cfg0.win 1).blk t).view.emb y
      = (ix2 ⟨t.val * 4096 + (y 0).val, row_lt (y0_lt0_1 t y)⟩ ⟨(y 1).val, y1_lt0_1 t y⟩ : S1000000x1.Idx) := by
  funext a; apply Fin.ext
  match a with
  | ⟨0, _⟩ => exact emb0_1_0 t y
  | ⟨1, _⟩ => exact emb0_1_1 t y

/-- Reading the array through the block at point `t`: the array at row `t · 4096 +` the row. -/
theorem read0_1 {Val : EltTy → Type} (t : Fin cfg0.N) (A : S1000000x1.Idx → Val .f32) (y : ((cfg0.win 1).xblock (cfg0.grid.coords t)).Idx) :
    ((cfg0.win 1).blk t).view.read Val A y
      = A (ix2 ⟨t.val * 4096 + (y 0).val, row_lt (y0_lt0_1 t y)⟩ ⟨(y 1).val, y1_lt0_1 t y⟩) := by
  rw [← emb0_1 t y]; rfl

/-- An index of the array is in the block at point `t` iff its row is among the block's rows inside the array. -/
theorem mem_blk0_1 (t : Fin cfg0.N) (i : S1000000x1.Idx) :
    i ∈ ((cfg0.win 1).blk t).view.set
      ↔ t.val * 4096 ≤ (i 0).val ∧ (i 0).val < t.val * 4096 + min 4096 (1000000 - t.val * 4096) := by
  show i ∈ ((View.whole main_arg0).slice (win0_1.rect t)).set ↔ _
  rw [View.set_slice_whole, Rect.mem_set_unit]
  obtain ⟨e0, e1⟩ := idx0_1 t
  obtain ⟨s0, s1⟩ := xs0_1 t
  have h1 : (i 1).val < 1 := (i 1).isLt
  refine ⟨fun h => ?_, fun h a => ?_⟩
  · have h0 := h (0 : Fin 2)
    change win0_1.index t (0 : Fin 2) * 4096 ≤ (i 0).val
      ∧ (i 0).val < win0_1.index t (0 : Fin 2) * 4096 + win0_1.xsize (grid0.coords t) (0 : Fin 2) at h0
    rw [e0, s0] at h0; exact h0
  · match a with
    | ⟨0, _⟩ =>
      change win0_1.index t (0 : Fin 2) * 4096 ≤ (i 0).val
        ∧ (i 0).val < win0_1.index t (0 : Fin 2) * 4096 + win0_1.xsize (grid0.coords t) (0 : Fin 2)
      rw [e0, s0]; exact h
    | ⟨1, _⟩ =>
      change win0_1.index t (1 : Fin 2) * 1 ≤ (i 1).val
        ∧ (i 1).val < win0_1.index t (1 : Fin 2) * 1 + win0_1.xsize (grid0.coords t) (1 : Fin 2)
      rw [e1, s1]; omega

/-- The index of the moved part of the block at point `t` with row `r` (below the cut size) and column `k`. -/
def xix0_1 (t : Fin cfg0.N) (r : Nat) (hr : r < min 4096 (1000000 - t.val * 4096)) (k : Fin 1) : ((cfg0.win 1).xblock (cfg0.grid.coords t)).Idx :=
  fun a => match a with
    | ⟨0, _⟩ => ⟨r, Nat.lt_of_lt_of_eq hr (xs0_1 t).1.symm⟩
    | ⟨1, _⟩ => ⟨k.val, Nat.lt_of_lt_of_eq k.isLt (xs0_1 t).2.symm⟩
theorem xix0_1_0 (t : Fin cfg0.N) (r : Nat) (hr : r < min 4096 (1000000 - t.val * 4096)) (k : Fin 1) :
    (xix0_1 t r hr k 0).val = r := rfl
theorem xix0_1_1 (t : Fin cfg0.N) (r : Nat) (hr : r < min 4096 (1000000 - t.val * 4096)) (k : Fin 1) :
    (xix0_1 t r hr k 1).val = k.val := rfl
/-- Every index of the moved part is of that form. -/
theorem eq_xix0_1 (t : Fin cfg0.N) (y : ((cfg0.win 1).xblock (cfg0.grid.coords t)).Idx) :
    y = xix0_1 t (y 0).val (y0_lt0_1 t y) ⟨(y 1).val, y1_lt0_1 t y⟩ := by
  funext a; match a with | ⟨0, _⟩ => rfl | ⟨1, _⟩ => rfl

/-- Reading the array through the block at point `t`, at row `r` and column `k` of its moved part. -/
theorem read_xix0_1 {Val : EltTy → Type} (t : Fin cfg0.N) (A : S1000000x1.Idx → Val .f32) (r : Nat)
    (hr : r < min 4096 (1000000 - t.val * 4096)) (k : Fin 1) :
    ((cfg0.win 1).blk t).view.read Val A (xix0_1 t r hr k) = A (ix2 ⟨t.val * 4096 + r, row_lt hr⟩ k) :=
  read0_1 t A _

/-- The moved part of contents `X` of the block, at an index: `X` at the same row and column. -/
theorem cut0_1 {α : Type} (t : Fin cfg0.N) (X : S4096x1.Idx → α) (y : ((cfg0.win 1).xblock (cfg0.grid.coords t)).Idx) :
    (cfg0.win 1).cut (cfg0.grid.coords t) X y
      = X (ix2 ⟨(y 0).val, lt_block (y0_lt0_1 t y)⟩ ⟨(y 1).val, y1_lt0_1 t y⟩) :=
  congrArg X (funext fun a => match a with | ⟨0, _⟩ => rfl | ⟨1, _⟩ => rfl)

/-- Contents `d` of the block with the moved part replaced by `g`, at a row below the cut size: `g` there. -/
theorem fill0_1 {α : Type} (t : Fin cfg0.N) (d : S4096x1.Idx → α) (g : ((cfg0.win 1).xblock (cfg0.grid.coords t)).Idx → α) (j : S4096x1.Idx)
    (h : (j 0).val < min 4096 (1000000 - t.val * 4096)) :
    (cfg0.win 1).fill (cfg0.grid.coords t) d g j = g (xix0_1 t (j 0).val h (j 1)) := by
  have hm : (cfg0.win 1).moved (cfg0.grid.coords t) j = true := ((cfg0.win 1).moved_iff _ j).mpr fun a => by
    match a with
    | ⟨0, _⟩ => exact Nat.lt_of_lt_of_eq h (xs0_1 t).1.symm
    | ⟨1, _⟩ => exact Nat.lt_of_lt_of_eq (j 1).isLt (xs0_1 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read0_1 {Val : EltTy → Type} (t : Fin cfg0.N) (d : S4096x1.Idx → Val .f32) (A : S1000000x1.Idx → Val .f32)
    (j : S4096x1.Idx) (h : (j 0).val < min 4096 (1000000 - t.val * 4096)) :
    (cfg0.win 1).fill (cfg0.grid.coords t) d (((cfg0.win 1).blk t).view.read Val A) j
      = A (ix2 ⟨t.val * 4096 + (j 0).val, row_lt h⟩ (j 1)) :=
  (fill0_1 t d _ j h).trans (read_xix0_1 t A _ h _)

/-! ## Region 0, window 2: the whole array of 1 row and 4 columns, one block -/

/-- The block index at every point is `(0, 0)`. -/
theorem idx0_2 : ∀ t : Fin cfg0.N, (cfg0.win 2).index t (0 : Fin 2) = 0 ∧ (cfg0.win 2).index t (1 : Fin 2) = 0 :=
  (by decide +kernel : ∀ t : Fin grid0.N, win0_2.index t (0 : Fin 2) = 0 ∧ win0_2.index t (1 : Fin 2) = 0)

/-- No transfer is cut: it moves the whole block, which is the whole array. -/
theorem xs0_2 (t : Fin cfg0.N) : (cfg0.win 2).xsize (cfg0.grid.coords t) = S1x4.size := rfl

/-- An element of the block sits in the array at its own index. -/
theorem emb0_2 (t : Fin cfg0.N) (y : ((cfg0.win 2).xblock (cfg0.grid.coords t)).Idx) : ((cfg0.win 2).blk t).view.emb y = (y : S1x4.Idx) := by
  funext a; apply Fin.ext
  match a with
  | ⟨0, _⟩ => exact (cfg0.win 2).rect_emb_val_of_index_zero t (0 : Fin 2) (idx0_2 t).1 y
  | ⟨1, _⟩ => exact (cfg0.win 2).rect_emb_val_of_index_zero t (1 : Fin 2) (idx0_2 t).2 y

/-- Reading the array through the block: the array. -/
theorem read0_2 {Val : EltTy → Type} (t : Fin cfg0.N) (A : S1x4.Idx → Val .f32) :
    (((cfg0.win 2).blk t).view.read Val A : S1x4.Idx → Val .f32) = A := by
  funext y
  show A (((cfg0.win 2).blk t).view.emb y) = A y
  rw [emb0_2 t y]

/-! ## Region 0, window 3: the whole array of 1 row and 4 columns, one block -/

/-- The block index at every point is `(0, 0)`. -/
theorem idx0_3 : ∀ t : Fin cfg0.N, (cfg0.win 3).index t (0 : Fin 2) = 0 ∧ (cfg0.win 3).index t (1 : Fin 2) = 0 :=
  (by decide +kernel : ∀ t : Fin grid0.N, win0_3.index t (0 : Fin 2) = 0 ∧ win0_3.index t (1 : Fin 2) = 0)

/-- No transfer is cut: it moves the whole block, which is the whole array. -/
theorem xs0_3 (t : Fin cfg0.N) : (cfg0.win 3).xsize (cfg0.grid.coords t) = S1x4.size := rfl

/-- An element of the block sits in the array at its own index. -/
theorem emb0_3 (t : Fin cfg0.N) (y : ((cfg0.win 3).xblock (cfg0.grid.coords t)).Idx) : ((cfg0.win 3).blk t).view.emb y = (y : S1x4.Idx) := by
  funext a; apply Fin.ext
  match a with
  | ⟨0, _⟩ => exact (cfg0.win 3).rect_emb_val_of_index_zero t (0 : Fin 2) (idx0_3 t).1 y
  | ⟨1, _⟩ => exact (cfg0.win 3).rect_emb_val_of_index_zero t (1 : Fin 2) (idx0_3 t).2 y

/-- Reading the array through the block: the array. -/
theorem read0_3 {Val : EltTy → Type} (t : Fin cfg0.N) (A : S1x4.Idx → Val .f32) :
    (((cfg0.win 3).blk t).view.read Val A : S1x4.Idx → Val .f32) = A := by
  funext y
  show A (((cfg0.win 3).blk t).view.emb y) = A y
  rw [emb0_3 t y]

/-! ## Region 0, window 4: the whole array of 1 row and 4 columns, one block -/

/-- The block index at every point is `(0, 0)`. -/
theorem idx0_4 : ∀ t : Fin cfg0.N, (cfg0.win 4).index t (0 : Fin 2) = 0 ∧ (cfg0.win 4).index t (1 : Fin 2) = 0 :=
  (by decide +kernel : ∀ t : Fin grid0.N, win0_4.index t (0 : Fin 2) = 0 ∧ win0_4.index t (1 : Fin 2) = 0)

/-- No transfer is cut: it moves the whole block, which is the whole array. -/
theorem xs0_4 (t : Fin cfg0.N) : (cfg0.win 4).xsize (cfg0.grid.coords t) = S1x4.size := rfl

/-- An element of the block sits in the array at its own index. -/
theorem emb0_4 (t : Fin cfg0.N) (y : ((cfg0.win 4).xblock (cfg0.grid.coords t)).Idx) : ((cfg0.win 4).blk t).view.emb y = (y : S1x4.Idx) := by
  funext a; apply Fin.ext
  match a with
  | ⟨0, _⟩ => exact (cfg0.win 4).rect_emb_val_of_index_zero t (0 : Fin 2) (idx0_4 t).1 y
  | ⟨1, _⟩ => exact (cfg0.win 4).rect_emb_val_of_index_zero t (1 : Fin 2) (idx0_4 t).2 y

/-- Reading the array through the block: the array. -/
theorem read0_4 {Val : EltTy → Type} (t : Fin cfg0.N) (A : S1x4.Idx → Val .f32) :
    (((cfg0.win 4).blk t).view.read Val A : S1x4.Idx → Val .f32) = A := by
  funext y
  show A (((cfg0.win 4).blk t).view.emb y) = A y
  rw [emb0_4 t y]

/-! ## Region 0, window 5: row blocks of 4096 of an array of 1000000 rows and 4 columns -/

/-- The block index at point `t` is `(t, 0)`. -/
theorem idx0_5 : ∀ t : Fin cfg0.N, (cfg0.win 5).index t (0 : Fin 2) = t.val ∧ (cfg0.win 5).index t (1 : Fin 2) = 0 :=
  (by decide +kernel : ∀ t : Fin grid0.N, win0_5.index t (0 : Fin 2) = t.val ∧ win0_5.index t (1 : Fin 2) = 0)

/-- The rows the transfer at point `t` moves: 4096, cut at the array's end (244 · 4096 + 576 = 1000000); every column. -/
theorem xs0_5 : ∀ t : Fin cfg0.N, (cfg0.win 5).xsize (cfg0.grid.coords t) (0 : Fin 2) = min 4096 (1000000 - t.val * 4096)
    ∧ (cfg0.win 5).xsize (cfg0.grid.coords t) (1 : Fin 2) = 4 :=
  (by decide +kernel : ∀ t : Fin grid0.N, win0_5.xsize (grid0.coords t) (0 : Fin 2) = min 4096 (1000000 - t.val * 4096)
    ∧ win0_5.xsize (grid0.coords t) (1 : Fin 2) = 4)

/-- A row of the moved part is below the cut size, -/
theorem y0_lt0_5 (t : Fin cfg0.N) (y : ((cfg0.win 5).xblock (cfg0.grid.coords t)).Idx) : (y 0).val < min 4096 (1000000 - t.val * 4096) :=
  Nat.lt_of_lt_of_eq (y 0).isLt (xs0_5 t).1
/-- and a column below the width. -/
theorem y1_lt0_5 (t : Fin cfg0.N) (y : ((cfg0.win 5).xblock (cfg0.grid.coords t)).Idx) : (y 1).val < 4 :=
  Nat.lt_of_lt_of_eq (y 1).isLt (xs0_5 t).2

/-- An element of the block at point `t` sits in the array at row `t · 4096 +` its row, -/
theorem emb0_5_0 (t : Fin cfg0.N) (y : ((cfg0.win 5).xblock (cfg0.grid.coords t)).Idx) :
    (((cfg0.win 5).blk t).view.emb y (0 : Fin 2)).val = t.val * 4096 + (y 0).val := by
  have h := (cfg0.win 5).rect_emb_val t y (0 : Fin 2)
  rw [(idx0_5 t).1] at h
  exact h
/-- at its own column. -/
theorem emb0_5_1 (t : Fin cfg0.N) (y : ((cfg0.win 5).xblock (cfg0.grid.coords t)).Idx) :
    (((cfg0.win 5).blk t).view.emb y (1 : Fin 2)).val = (y 1).val := by
  have h := (cfg0.win 5).rect_emb_val t y (1 : Fin 2)
  rw [(idx0_5 t).2] at h
  exact h.trans (by omega)

/-- The same as one equation of indices. -/
theorem emb0_5 (t : Fin cfg0.N) (y : ((cfg0.win 5).xblock (cfg0.grid.coords t)).Idx) :
    ((cfg0.win 5).blk t).view.emb y
      = (ix2 ⟨t.val * 4096 + (y 0).val, row_lt (y0_lt0_5 t y)⟩ ⟨(y 1).val, y1_lt0_5 t y⟩ : S1000000x4.Idx) := by
  funext a; apply Fin.ext
  match a with
  | ⟨0, _⟩ => exact emb0_5_0 t y
  | ⟨1, _⟩ => exact emb0_5_1 t y

/-- Reading the array through the block at point `t`: the array at row `t · 4096 +` the row. -/
theorem read0_5 {Val : EltTy → Type} (t : Fin cfg0.N) (A : S1000000x4.Idx → Val .f32) (y : ((cfg0.win 5).xblock (cfg0.grid.coords t)).Idx) :
    ((cfg0.win 5).blk t).view.read Val A y
      = A (ix2 ⟨t.val * 4096 + (y 0).val, row_lt (y0_lt0_5 t y)⟩ ⟨(y 1).val, y1_lt0_5 t y⟩) := by
  rw [← emb0_5 t y]; rfl

/-- An index of the array is in the block at point `t` iff its row is among the block's rows inside the array. -/
theorem mem_blk0_5 (t : Fin cfg0.N) (i : S1000000x4.Idx) :
    i ∈ ((cfg0.win 5).blk t).view.set
      ↔ t.val * 4096 ≤ (i 0).val ∧ (i 0).val < t.val * 4096 + min 4096 (1000000 - t.val * 4096) := by
  show i ∈ ((View.whole main_v23).slice (win0_5.rect t)).set ↔ _
  rw [View.set_slice_whole, Rect.mem_set_unit]
  obtain ⟨e0, e1⟩ := idx0_5 t
  obtain ⟨s0, s1⟩ := xs0_5 t
  have h1 : (i 1).val < 4 := (i 1).isLt
  refine ⟨fun h => ?_, fun h a => ?_⟩
  · have h0 := h (0 : Fin 2)
    change win0_5.index t (0 : Fin 2) * 4096 ≤ (i 0).val
      ∧ (i 0).val < win0_5.index t (0 : Fin 2) * 4096 + win0_5.xsize (grid0.coords t) (0 : Fin 2) at h0
    rw [e0, s0] at h0; exact h0
  · match a with
    | ⟨0, _⟩ =>
      change win0_5.index t (0 : Fin 2) * 4096 ≤ (i 0).val
        ∧ (i 0).val < win0_5.index t (0 : Fin 2) * 4096 + win0_5.xsize (grid0.coords t) (0 : Fin 2)
      rw [e0, s0]; exact h
    | ⟨1, _⟩ =>
      change win0_5.index t (1 : Fin 2) * 4 ≤ (i 1).val
        ∧ (i 1).val < win0_5.index t (1 : Fin 2) * 4 + win0_5.xsize (grid0.coords t) (1 : Fin 2)
      rw [e1, s1]; omega

/-- The index of the moved part of the block at point `t` with row `r` (below the cut size) and column `k`. -/
def xix0_5 (t : Fin cfg0.N) (r : Nat) (hr : r < min 4096 (1000000 - t.val * 4096)) (k : Fin 4) : ((cfg0.win 5).xblock (cfg0.grid.coords t)).Idx :=
  fun a => match a with
    | ⟨0, _⟩ => ⟨r, Nat.lt_of_lt_of_eq hr (xs0_5 t).1.symm⟩
    | ⟨1, _⟩ => ⟨k.val, Nat.lt_of_lt_of_eq k.isLt (xs0_5 t).2.symm⟩
theorem xix0_5_0 (t : Fin cfg0.N) (r : Nat) (hr : r < min 4096 (1000000 - t.val * 4096)) (k : Fin 4) :
    (xix0_5 t r hr k 0).val = r := rfl
theorem xix0_5_1 (t : Fin cfg0.N) (r : Nat) (hr : r < min 4096 (1000000 - t.val * 4096)) (k : Fin 4) :
    (xix0_5 t r hr k 1).val = k.val := rfl
/-- Every index of the moved part is of that form. -/
theorem eq_xix0_5 (t : Fin cfg0.N) (y : ((cfg0.win 5).xblock (cfg0.grid.coords t)).Idx) :
    y = xix0_5 t (y 0).val (y0_lt0_5 t y) ⟨(y 1).val, y1_lt0_5 t y⟩ := by
  funext a; match a with | ⟨0, _⟩ => rfl | ⟨1, _⟩ => rfl

/-- Reading the array through the block at point `t`, at row `r` and column `k` of its moved part. -/
theorem read_xix0_5 {Val : EltTy → Type} (t : Fin cfg0.N) (A : S1000000x4.Idx → Val .f32) (r : Nat)
    (hr : r < min 4096 (1000000 - t.val * 4096)) (k : Fin 4) :
    ((cfg0.win 5).blk t).view.read Val A (xix0_5 t r hr k) = A (ix2 ⟨t.val * 4096 + r, row_lt hr⟩ k) :=
  read0_5 t A _

/-- The moved part of contents `X` of the block, at an index: `X` at the same row and column. -/
theorem cut0_5 {α : Type} (t : Fin cfg0.N) (X : S4096x4.Idx → α) (y : ((cfg0.win 5).xblock (cfg0.grid.coords t)).Idx) :
    (cfg0.win 5).cut (cfg0.grid.coords t) X y
      = X (ix2 ⟨(y 0).val, lt_block (y0_lt0_5 t y)⟩ ⟨(y 1).val, y1_lt0_5 t y⟩) :=
  congrArg X (funext fun a => match a with | ⟨0, _⟩ => rfl | ⟨1, _⟩ => rfl)

/-- Contents `d` of the block with the moved part replaced by `g`, at a row below the cut size: `g` there. -/
theorem fill0_5 {α : Type} (t : Fin cfg0.N) (d : S4096x4.Idx → α) (g : ((cfg0.win 5).xblock (cfg0.grid.coords t)).Idx → α) (j : S4096x4.Idx)
    (h : (j 0).val < min 4096 (1000000 - t.val * 4096)) :
    (cfg0.win 5).fill (cfg0.grid.coords t) d g j = g (xix0_5 t (j 0).val h (j 1)) := by
  have hm : (cfg0.win 5).moved (cfg0.grid.coords t) j = true := ((cfg0.win 5).moved_iff _ j).mpr fun a => by
    match a with
    | ⟨0, _⟩ => exact Nat.lt_of_lt_of_eq h (xs0_5 t).1.symm
    | ⟨1, _⟩ => exact Nat.lt_of_lt_of_eq (j 1).isLt (xs0_5 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read0_5 {Val : EltTy → Type} (t : Fin cfg0.N) (d : S4096x4.Idx → Val .f32) (A : S1000000x4.Idx → Val .f32)
    (j : S4096x4.Idx) (h : (j 0).val < min 4096 (1000000 - t.val * 4096)) :
    (cfg0.win 5).fill (cfg0.grid.coords t) d (((cfg0.win 5).blk t).view.read Val A) j
      = A (ix2 ⟨t.val * 4096 + (j 0).val, row_lt h⟩ (j 1)) :=
  (fill0_5 t d _ j h).trans (read_xix0_5 t A _ h _)

/-- Every index of the array is in the block of the point `row / 4096`, which writes it back. -/
theorem blocksCover0_5 : ∀ i : S1000000x4.Idx, ∃ t : Fin cfg0.N, (cfg0.win 5).flush t = true ∧ i ∈ ((cfg0.win 5).blk t).view.set := by
  intro i
  have hi : (i 0).val < 1000000 := (i 0).isLt
  refine ⟨⟨(i 0).val / 4096, Nat.lt_of_lt_of_eq (by omega) N_0.symm⟩, flush0_5 _, ?_⟩
  rw [mem_blk0_5]
  show (i 0).val / 4096 * 4096 ≤ (i 0).val
    ∧ (i 0).val < (i 0).val / 4096 * 4096 + min 4096 (1000000 - (i 0).val / 4096 * 4096)
  omega

/-- The index inside that block: row `row % 4096`, the same column. -/
def blkIdx0_5 (i : S1000000x4.Idx) : ((cfg0.win 5).xblock (cfg0.grid.coords (pt0 (i 0)))).Idx :=
  xix0_5 (pt0 (i 0)) ((i 0).val % 4096) (rem_lt (i 0).isLt) (i 1)

/-- It sits in the array at `i`. -/
theorem emb_blkIdx0_5 (i : S1000000x4.Idx) : ((cfg0.win 5).blk (pt0 (i 0))).view.emb (blkIdx0_5 i) = i := by
  rw [emb0_5]
  funext a; apply Fin.ext
  match a with
  | ⟨0, _⟩ => show (i 0).val / 4096 * 4096 + (i 0).val % 4096 = (i 0).val; omega
  | ⟨1, _⟩ => rfl

/-- THE WHOLE ARRAY: if every point writes back its block of one contents `G`, the array ends holding `G`. -/
theorem final0_5 {Val : EltTy → Type} {Ix : Type} [DecidableEq Ix] {Name : Type} [DecidableEq Name] {U : Type} [Idealize.SL.RA.URA U]
    {Lvl : Type} {c : Dev nD} (dat : Dat τ Val Ix Name U Lvl cfg0 c)
    (G : Buf Val ((cfg0.win 5).arr.view.loc (c.tc : Thread nD τ)))
    (hG : ∀ t, dat.flushed 5 t = ((cfg0.win 5).blk t).view.read Val G) :
    dat.arrAt 5 cfg0.N = G :=
  dat.arrAt_eq_of_cover 5 G (fun t _ => hG t) blocksCover0_5

end Cert.KernelIdeal.Hand

end
-- ==== Proof.KI.PayloadsIdeal.lean ====
/-
  The stored values of the three kernels at the ideal instance: every float is an extended real and every operation
  is exact, so the stored value at row r, column j is the maximum with zero of the bias plus, for each input column in
  the kernel's order, the aggregated entry times its weight and the feature entry times its weight; the read-out adds
  to its bias the two stored hidden entries times their weights.
-/
import proofs.«180108_j33234456937224_1_alg».proof.Proof.KI.Payloads
import Idealize.ShloMosaic.PureOps.Ideal.Laws

noncomputable section

namespace Cert.KernelIdeal.Hand

open Cert.KernelIdeal Cert.KernelIdeal.Gen Idealize.ShloMosaic Idealize.ShloMosaic.ValueIdx

/-- Layer 1's stored tile over the extended reals. -/
theorem store0_apply_ideal (a x : Vec Ideal S4096x1 .f32) (wl b wr : Vec Ideal S1x4 .f32) (r : Fin 4096) (j : Fin 4) :
    store0 a x wl b wr (ix2 r j) =
      max (b (ix2 (0 : Fin 1) j) + a (ix2 r (0 : Fin 1)) * wl (ix2 (0 : Fin 1) j)
        + x (ix2 r (0 : Fin 1)) * wr (ix2 (0 : Fin 1) j) : EReal) 0 := by
  rw [store0_apply]
  simp only [Ideal.maximumf_def, Ideal.addf_def, Ideal.mulf_def, Scalar.ofBits, Ideal.ofBits_def, Ideal.ofBits_zero_f32]

/-- Layer 2's stored tile over the extended reals. -/
theorem store1_apply_ideal (a x : Vec Ideal S4096x4 .f32) (wl : Vec Ideal S4x4 .f32) (b : Vec Ideal S1x4 .f32)
    (wr : Vec Ideal S4x4 .f32) (r : Fin 4096) (j : Fin 4) :
    store1 a x wl b wr (ix2 r j) =
      max (b (ix2 (0 : Fin 1) j)
        + a (ix2 r (0 : Fin 4)) * wl (ix2 (0 : Fin 4) j) + x (ix2 r (0 : Fin 4)) * wr (ix2 (0 : Fin 4) j)
        + a (ix2 r (1 : Fin 4)) * wl (ix2 (1 : Fin 4) j) + x (ix2 r (1 : Fin 4)) * wr (ix2 (1 : Fin 4) j)
        + a (ix2 r (2 : Fin 4)) * wl (ix2 (2 : Fin 4) j) + x (ix2 r (2 : Fin 4)) * wr (ix2 (2 : Fin 4) j)
        + a (ix2 r (3 : Fin 4)) * wl (ix2 (3 : Fin 4) j) + x (ix2 r (3 : Fin 4)) * wr (ix2 (3 : Fin 4) j) : EReal) 0 := by
  rw [store1_apply]
  simp only [Ideal.maximumf_def, Ideal.addf_def, Ideal.mulf_def, Scalar.ofBits, Ideal.ofBits_def, Ideal.ofBits_zero_f32]

/-- Layer 3's stored hidden tile over the extended reals. -/
theorem store2h_apply_ideal (a x : Vec Ideal S4096x4 .f32) (wl : Vec Ideal S4x2 .f32) (b : Vec Ideal S1x2 .f32)
    (wr : Vec Ideal S4x2 .f32) (r : Fin 4096) (j : Fin 2) :
    store2h a x wl b wr (ix2 r j) =
      max (b (ix2 (0 : Fin 1) j)
        + a (ix2 r (0 : Fin 4)) * wl (ix2 (0 : Fin 4) j) + x (ix2 r (0 : Fin 4)) * wr (ix2 (0 : Fin 4) j)
        + a (ix2 r (1 : Fin 4)) * wl (ix2 (1 : Fin 4) j) + x (ix2 r (1 : Fin 4)) * wr (ix2 (1 : Fin 4) j)
        + a (ix2 r (2 : Fin 4)) * wl (ix2 (2 : Fin 4) j) + x (ix2 r (2 : Fin 4)) * wr (ix2 (2 : Fin 4) j)
        + a (ix2 r (3 : Fin 4)) * wl (ix2 (3 : Fin 4) j) + x (ix2 r (3 : Fin 4)) * wr (ix2 (3 : Fin 4) j) : EReal) 0 := by
  rw [store2h_apply]
  simp only [Ideal.maximumf_def, Ideal.addf_def, Ideal.mulf_def, Scalar.ofBits, Ideal.ofBits_def, Ideal.ofBits_zero_f32]

/-- Layer 3's stored read-out tile over the extended reals, from the stored hidden tile. -/
theorem store2o_apply_ideal (a x : Vec Ideal S4096x4 .f32) (wl : Vec Ideal S4x2 .f32) (b : Vec Ideal S1x2 .f32)
    (wr : Vec Ideal S4x2 .f32) (wc : Vec Ideal S2x2 .f32) (bc : Vec Ideal S1x2 .f32) (r : Fin 4096) (j : Fin 2) :
    store2o a x wl b wr wc bc (ix2 r j) =
      (bc (ix2 (0 : Fin 1) j) + store2h a x wl b wr (ix2 r (0 : Fin 2)) * wc (ix2 (0 : Fin 2) j)
        + store2h a x wl b wr (ix2 r (1 : Fin 2)) * wc (ix2 (1 : Fin 2) j) : EReal) := by
  rw [store2o_apply]
  simp only [Ideal.addf_def, Ideal.mulf_def]

end Cert.KernelIdeal.Hand

end
-- ==== Proof.KI.Final0.lean ====
/-
  The first layer's pipeline, at the ideal instance, as one function of the arrays it finds: the output array ends
  holding, at row r and column j, the maximum with zero of the bias plus the aggregated entry of row r times its weight
  plus the feature entry of row r times its weight. Every point writes back its block of that function (the element
  at row y of block t is computed from rows t · 4096 + y of the two node arrays), and the blocks cover the array.
-/
import proofs.«180108_j33234456937224_1_alg».proof.Proof.KI.Region0
import proofs.«180108_j33234456937224_1_alg».proof.Proof.KI.Geometry0
import proofs.«180108_j33234456937224_1_alg».proof.Proof.KI.PayloadsIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The first layer over whole arrays, the bias a row: at row r and column j,
    max ((b(0,j) + a(r,0) · wl(0,j)) + x(r,0) · wr(0,j)) 0. -/
def lay1 (a x : FVec Ideal S1000000x1 .f32) (wl bb wr : FVec Ideal S1x4 .f32) : FVec Ideal S1000000x4 .f32 := fun i =>
  max ((bb (ix2 0 (i 1)) + a (ix2 (i 0) 0) * wl (ix2 0 (i 1))) + x (ix2 (i 0) 0) * wr (ix2 0 (i 1))) 0

section
variable {F : FTy → Type} [FloatOps F]
variable (V : (c : Dev nD) → (b : Ref sig .tc) → Buf (Elt F) ((c : Thread nD τ).loc b))

/-- The aggregated tile at point `t`, at a row `r` inside the array: the aggregated array at row t · 4096 + r. -/
theorem atile0_apply (c : Dev nD) (t : Fin cfg0.N) (r : Nat) (h : r < min 4096 (1000000 - t.val * 4096)) (k : Fin 1) :
    atile0 V c t (ix2 ⟨r, lt_block h⟩ k) = V c main_v21 (ix2 ⟨t.val * 4096 + r, row_lt h⟩ k) :=
  fill_read0_0 t _ (V c main_v21) (ix2 ⟨r, lt_block h⟩ k) h
/-- The feature tile likewise. -/
theorem xtile0_apply (c : Dev nD) (t : Fin cfg0.N) (r : Nat) (h : r < min 4096 (1000000 - t.val * 4096)) (k : Fin 1) :
    xtile0 V c t (ix2 ⟨r, lt_block h⟩ k) = V c main_arg0 (ix2 ⟨t.val * 4096 + r, row_lt h⟩ k) :=
  fill_read0_1 t _ (V c main_arg0) (ix2 ⟨r, lt_block h⟩ k) h
/-- The weight blocks are the weight arrays. -/
theorem iblk0_2 (c : Dev nD) (t : Fin cfg0.N) : (iblk0 V c 2 t : S1x4.Idx → Elt F .f32) = V c main_arg2 :=
  read0_2 t (V c main_arg2)
theorem iblk0_3 (c : Dev nD) (t : Fin cfg0.N) : (iblk0 V c 3 t : S1x4.Idx → Elt F .f32) = V c main_v22 :=
  read0_3 t (V c main_v22)
theorem iblk0_4 (c : Dev nD) (t : Fin cfg0.N) : (iblk0 V c 4 t : S1x4.Idx → Elt F .f32) = V c main_arg4 :=
  read0_4 t (V c main_arg4)
end

variable (V : (c : Dev nD) → (b : Ref sig .tc) → Buf (Elt Ideal) ((c : Thread nD τ).loc b))

/-- What the body stores at row `r` (inside the array) of the tile at point `t` is the layer at row t · 4096 + r. -/
theorem store0_tile (c : Dev nD) (t : Fin cfg0.N) (r : Nat) (h : r < min 4096 (1000000 - t.val * 4096)) (j : Fin 4) :
    store0 (atile0 V c t) (xtile0 V c t) (iblk0 V c 2 t) (iblk0 V c 3 t) (iblk0 V c 4 t) (ix2 ⟨r, lt_block h⟩ j)
      = lay1 (V c main_v21) (V c main_arg0) (V c main_arg2) (V c main_v22) (V c main_arg4)
          (ix2 ⟨t.val * 4096 + r, row_lt h⟩ j) := by
  refine (store0_apply_ideal _ _ _ _ _ _ _).trans ?_
  rw [atile0_apply V c t r h, xtile0_apply V c t r h, iblk0_2, iblk0_3, iblk0_4]
  rfl

/-- What point `t` writes back is its block of the layer's function of the arrays. -/
theorem flushed0_5 (c : Dev nD) (t : Fin cfg0.N) :
    (dat0 (F := Ideal) V c).flushed 5 t
      = ((cfg0.win 5).blk t).view.read (Elt Ideal)
          (lay1 (V c main_v21) (V c main_arg0) (V c main_arg2) (V c main_v22) (V c main_arg4)) := by
  funext y
  show (cfg0.win 5).cut (cfg0.grid.coords t) ((dat0 V c).after 5 t) y = _
  rw [after0_5]
  refine (cut0_5 t _ y).trans ?_
  refine Eq.trans ?_ (read0_5 t _ y).symm
  exact store0_tile V c t (y 0).val (y0_lt0_5 t y) ⟨(y 1).val, y1_lt0_5 t y⟩

/-- THE FIRST LAYER'S ARRAY after the pipeline. -/
theorem final0 (c : Dev nD) :
    (dat0 (F := Ideal) V c).arrAt 5 cfg0.N
      = lay1 (V c main_v21) (V c main_arg0) (V c main_arg2) (V c main_v22) (V c main_arg4) :=
  final0_5 (dat0 V c) _ (flushed0_5 V c)

end Cert.KernelIdeal.Hand

end
-- ==== Proof.KI.Geometry1.lean ====
/-
  The geometry of pipeline 1's windows, whatever the pipeline computes: two input arrays of four columns, weight arrays of shapes 4 × 4, 1 × 4, 4 × 4, one output array of four columns.
  For a window over an array of 1000000 rows in blocks of 4096 rows (block index `(t, 0)` at grid point `t`, the last
  block cut to its first 576 rows): where an element of the block at point `t` sits in the array (row
  `t · 4096 +` its row, the same column), what reading the array through the block gives, the moved part of a
  staging buffer's contents and a buffer just filled, read at an index; for an output array, that the blocks cover it
  (row `r` is row `r % 4096` of block `r / 4096`) and hence that the array ends holding `G` when every point writes
  back its block of `G`. For a window whose one block is its whole array: an element sits at its own index and reading
  through the block is the identity.
-/
import proofs.«180108_j33234456937224_1_alg».proof.Proof.Gen.KernelIdeal.Launch
import proofs.«180108_j33234456937224_1_alg».proof.Proof.Gen.KernelIdeal.Points
import proofs.«180108_j33234456937224_1_alg».proof.Proof.KI.GeometryBase
import Idealize.ShloMosaic.Lib.Pipeline.Value
import Idealize.ShloMosaic.Lib.ValueIdx

noncomputable section

namespace Cert.KernelIdeal.Hand

open Cert.KernelIdeal Cert.KernelIdeal.Gen Idealize.ShloMosaic
open Idealize.ShloMosaic.Pipeline (Dat)
open Idealize.ShloMosaic.ValueIdx

/-- The grid point whose block holds row `r`. -/
def pt1 (r : Fin 1000000) : Fin cfg1.N := ⟨r.val / 4096, Nat.lt_of_lt_of_eq (by have := r.isLt; omega) N_1.symm⟩
theorem pt1_val (r : Fin 1000000) : (pt1 r).val = r.val / 4096 := rfl

/-! ## Region 1, window 0: row blocks of 4096 of an array of 1000000 rows and 4 columns -/

/-- The block index at point `t` is `(t, 0)`. -/
theorem idx1_0 : ∀ t : Fin cfg1.N, (cfg1.win 0).index t (0 : Fin 2) = t.val ∧ (cfg1.win 0).index t (1 : Fin 2) = 0 :=
  (by decide +kernel : ∀ t : Fin grid1.N, win1_0.index t (0 : Fin 2) = t.val ∧ win1_0.index t (1 : Fin 2) = 0)

/-- The rows the transfer at point `t` moves: 4096, cut at the array's end (244 · 4096 + 576 = 1000000); every column. -/
theorem xs1_0 : ∀ t : Fin cfg1.N, (cfg1.win 0).xsize (cfg1.grid.coords t) (0 : Fin 2) = min 4096 (1000000 - t.val * 4096)
    ∧ (cfg1.win 0).xsize (cfg1.grid.coords t) (1 : Fin 2) = 4 :=
  (by decide +kernel : ∀ t : Fin grid1.N, win1_0.xsize (grid1.coords t) (0 : Fin 2) = min 4096 (1000000 - t.val * 4096)
    ∧ win1_0.xsize (grid1.coords t) (1 : Fin 2) = 4)

/-- A row of the moved part is below the cut size, -/
theorem y0_lt1_0 (t : Fin cfg1.N) (y : ((cfg1.win 0).xblock (cfg1.grid.coords t)).Idx) : (y 0).val < min 4096 (1000000 - t.val * 4096) :=
  Nat.lt_of_lt_of_eq (y 0).isLt (xs1_0 t).1
/-- and a column below the width. -/
theorem y1_lt1_0 (t : Fin cfg1.N) (y : ((cfg1.win 0).xblock (cfg1.grid.coords t)).Idx) : (y 1).val < 4 :=
  Nat.lt_of_lt_of_eq (y 1).isLt (xs1_0 t).2

/-- An element of the block at point `t` sits in the array at row `t · 4096 +` its row, -/
theorem emb1_0_0 (t : Fin cfg1.N) (y : ((cfg1.win 0).xblock (cfg1.grid.coords t)).Idx) :
    (((cfg1.win 0).blk t).view.emb y (0 : Fin 2)).val = t.val * 4096 + (y 0).val := by
  have h := (cfg1.win 0).rect_emb_val t y (0 : Fin 2)
  rw [(idx1_0 t).1] at h
  exact h
/-- at its own column. -/
theorem emb1_0_1 (t : Fin cfg1.N) (y : ((cfg1.win 0).xblock (cfg1.grid.coords t)).Idx) :
    (((cfg1.win 0).blk t).view.emb y (1 : Fin 2)).val = (y 1).val := by
  have h := (cfg1.win 0).rect_emb_val t y (1 : Fin 2)
  rw [(idx1_0 t).2] at h
  exact h.trans (by omega)

/-- The same as one equation of indices. -/
theorem emb1_0 (t : Fin cfg1.N) (y : ((cfg1.win 0).xblock (cfg1.grid.coords t)).Idx) :
    ((cfg1.win 0).blk t).view.emb y
      = (ix2 ⟨t.val * 4096 + (y 0).val, row_lt (y0_lt1_0 t y)⟩ ⟨(y 1).val, y1_lt1_0 t y⟩ : S1000000x4.Idx) := by
  funext a; apply Fin.ext
  match a with
  | ⟨0, _⟩ => exact emb1_0_0 t y
  | ⟨1, _⟩ => exact emb1_0_1 t y

/-- Reading the array through the block at point `t`: the array at row `t · 4096 +` the row. -/
theorem read1_0 {Val : EltTy → Type} (t : Fin cfg1.N) (A : S1000000x4.Idx → Val .f32) (y : ((cfg1.win 0).xblock (cfg1.grid.coords t)).Idx) :
    ((cfg1.win 0).blk t).view.read Val A y
      = A (ix2 ⟨t.val * 4096 + (y 0).val, row_lt (y0_lt1_0 t y)⟩ ⟨(y 1).val, y1_lt1_0 t y⟩) := by
  rw [← emb1_0 t y]; rfl

/-- An index of the array is in the block at point `t` iff its row is among the block's rows inside the array. -/
theorem mem_blk1_0 (t : Fin cfg1.N) (i : S1000000x4.Idx) :
    i ∈ ((cfg1.win 0).blk t).view.set
      ↔ t.val * 4096 ≤ (i 0).val ∧ (i 0).val < t.val * 4096 + min 4096 (1000000 - t.val * 4096) := by
  show i ∈ ((View.whole main_v42).slice (win1_0.rect t)).set ↔ _
  rw [View.set_slice_whole, Rect.mem_set_unit]
  obtain ⟨e0, e1⟩ := idx1_0 t
  obtain ⟨s0, s1⟩ := xs1_0 t
  have h1 : (i 1).val < 4 := (i 1).isLt
  refine ⟨fun h => ?_, fun h a => ?_⟩
  · have h0 := h (0 : Fin 2)
    change win1_0.index t (0 : Fin 2) * 4096 ≤ (i 0).val
      ∧ (i 0).val < win1_0.index t (0 : Fin 2) * 4096 + win1_0.xsize (grid1.coords t) (0 : Fin 2) at h0
    rw [e0, s0] at h0; exact h0
  · match a with
    | ⟨0, _⟩ =>
      change win1_0.index t (0 : Fin 2) * 4096 ≤ (i 0).val
        ∧ (i 0).val < win1_0.index t (0 : Fin 2) * 4096 + win1_0.xsize (grid1.coords t) (0 : Fin 2)
      rw [e0, s0]; exact h
    | ⟨1, _⟩ =>
      change win1_0.index t (1 : Fin 2) * 4 ≤ (i 1).val
        ∧ (i 1).val < win1_0.index t (1 : Fin 2) * 4 + win1_0.xsize (grid1.coords t) (1 : Fin 2)
      rw [e1, s1]; omega

/-- The index of the moved part of the block at point `t` with row `r` (below the cut size) and column `k`. -/
def xix1_0 (t : Fin cfg1.N) (r : Nat) (hr : r < min 4096 (1000000 - t.val * 4096)) (k : Fin 4) : ((cfg1.win 0).xblock (cfg1.grid.coords t)).Idx :=
  fun a => match a with
    | ⟨0, _⟩ => ⟨r, Nat.lt_of_lt_of_eq hr (xs1_0 t).1.symm⟩
    | ⟨1, _⟩ => ⟨k.val, Nat.lt_of_lt_of_eq k.isLt (xs1_0 t).2.symm⟩
theorem xix1_0_0 (t : Fin cfg1.N) (r : Nat) (hr : r < min 4096 (1000000 - t.val * 4096)) (k : Fin 4) :
    (xix1_0 t r hr k 0).val = r := rfl
theorem xix1_0_1 (t : Fin cfg1.N) (r : Nat) (hr : r < min 4096 (1000000 - t.val * 4096)) (k : Fin 4) :
    (xix1_0 t r hr k 1).val = k.val := rfl
/-- Every index of the moved part is of that form. -/
theorem eq_xix1_0 (t : Fin cfg1.N) (y : ((cfg1.win 0).xblock (cfg1.grid.coords t)).Idx) :
    y = xix1_0 t (y 0).val (y0_lt1_0 t y) ⟨(y 1).val, y1_lt1_0 t y⟩ := by
  funext a; match a with | ⟨0, _⟩ => rfl | ⟨1, _⟩ => rfl

/-- Reading the array through the block at point `t`, at row `r` and column `k` of its moved part. -/
theorem read_xix1_0 {Val : EltTy → Type} (t : Fin cfg1.N) (A : S1000000x4.Idx → Val .f32) (r : Nat)
    (hr : r < min 4096 (1000000 - t.val * 4096)) (k : Fin 4) :
    ((cfg1.win 0).blk t).view.read Val A (xix1_0 t r hr k) = A (ix2 ⟨t.val * 4096 + r, row_lt hr⟩ k) :=
  read1_0 t A _

/-- The moved part of contents `X` of the block, at an index: `X` at the same row and column. -/
theorem cut1_0 {α : Type} (t : Fin cfg1.N) (X : S4096x4.Idx → α) (y : ((cfg1.win 0).xblock (cfg1.grid.coords t)).Idx) :
    (cfg1.win 0).cut (cfg1.grid.coords t) X y
      = X (ix2 ⟨(y 0).val, lt_block (y0_lt1_0 t y)⟩ ⟨(y 1).val, y1_lt1_0 t y⟩) :=
  congrArg X (funext fun a => match a with | ⟨0, _⟩ => rfl | ⟨1, _⟩ => rfl)

/-- Contents `d` of the block with the moved part replaced by `g`, at a row below the cut size: `g` there. -/
theorem fill1_0 {α : Type} (t : Fin cfg1.N) (d : S4096x4.Idx → α) (g : ((cfg1.win 0).xblock (cfg1.grid.coords t)).Idx → α) (j : S4096x4.Idx)
    (h : (j 0).val < min 4096 (1000000 - t.val * 4096)) :
    (cfg1.win 0).fill (cfg1.grid.coords t) d g j = g (xix1_0 t (j 0).val h (j 1)) := by
  have hm : (cfg1.win 0).moved (cfg1.grid.coords t) j = true := ((cfg1.win 0).moved_iff _ j).mpr fun a => by
    match a with
    | ⟨0, _⟩ => exact Nat.lt_of_lt_of_eq h (xs1_0 t).1.symm
    | ⟨1, _⟩ => exact Nat.lt_of_lt_of_eq (j 1).isLt (xs1_0 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read1_0 {Val : EltTy → Type} (t : Fin cfg1.N) (d : S4096x4.Idx → Val .f32) (A : S1000000x4.Idx → Val .f32)
    (j : S4096x4.Idx) (h : (j 0).val < min 4096 (1000000 - t.val * 4096)) :
    (cfg1.win 0).fill (cfg1.grid.coords t) d (((cfg1.win 0).blk t).view.read Val A) j
      = A (ix2 ⟨t.val * 4096 + (j 0).val, row_lt h⟩ (j 1)) :=
  (fill1_0 t d _ j h).trans (read_xix1_0 t A _ h _)

/-! ## Region 1, window 1: row blocks of 4096 of an array of 1000000 rows and 4 columns -/

/-- The block index at point `t` is `(t, 0)`. -/
theorem idx1_1 : ∀ t : Fin cfg1.N, (cfg1.win 1).index t (0 : Fin 2) = t.val ∧ (cfg1.win 1).index t (1 : Fin 2) = 0 :=
  (by decide +kernel : ∀ t : Fin grid1.N, win1_1.index t (0 : Fin 2) = t.val ∧ win1_1.index t (1 : Fin 2) = 0)

/-- The rows the transfer at point `t` moves: 4096, cut at the array's end (244 · 4096 + 576 = 1000000); every column. -/
theorem xs1_1 : ∀ t : Fin cfg1.N, (cfg1.win 1).xsize (cfg1.grid.coords t) (0 : Fin 2) = min 4096 (1000000 - t.val * 4096)
    ∧ (cfg1.win 1).xsize (cfg1.grid.coords t) (1 : Fin 2) = 4 :=
  (by decide +kernel : ∀ t : Fin grid1.N, win1_1.xsize (grid1.coords t) (0 : Fin 2) = min 4096 (1000000 - t.val * 4096)
    ∧ win1_1.xsize (grid1.coords t) (1 : Fin 2) = 4)

/-- A row of the moved part is below the cut size, -/
theorem y0_lt1_1 (t : Fin cfg1.N) (y : ((cfg1.win 1).xblock (cfg1.grid.coords t)).Idx) : (y 0).val < min 4096 (1000000 - t.val * 4096) :=
  Nat.lt_of_lt_of_eq (y 0).isLt (xs1_1 t).1
/-- and a column below the width. -/
theorem y1_lt1_1 (t : Fin cfg1.N) (y : ((cfg1.win 1).xblock (cfg1.grid.coords t)).Idx) : (y 1).val < 4 :=
  Nat.lt_of_lt_of_eq (y 1).isLt (xs1_1 t).2

/-- An element of the block at point `t` sits in the array at row `t · 4096 +` its row, -/
theorem emb1_1_0 (t : Fin cfg1.N) (y : ((cfg1.win 1).xblock (cfg1.grid.coords t)).Idx) :
    (((cfg1.win 1).blk t).view.emb y (0 : Fin 2)).val = t.val * 4096 + (y 0).val := by
  have h := (cfg1.win 1).rect_emb_val t y (0 : Fin 2)
  rw [(idx1_1 t).1] at h
  exact h
/-- at its own column. -/
theorem emb1_1_1 (t : Fin cfg1.N) (y : ((cfg1.win 1).xblock (cfg1.grid.coords t)).Idx) :
    (((cfg1.win 1).blk t).view.emb y (1 : Fin 2)).val = (y 1).val := by
  have h := (cfg1.win 1).rect_emb_val t y (1 : Fin 2)
  rw [(idx1_1 t).2] at h
  exact h.trans (by omega)

/-- The same as one equation of indices. -/
theorem emb1_1 (t : Fin cfg1.N) (y : ((cfg1.win 1).xblock (cfg1.grid.coords t)).Idx) :
    ((cfg1.win 1).blk t).view.emb y
      = (ix2 ⟨t.val * 4096 + (y 0).val, row_lt (y0_lt1_1 t y)⟩ ⟨(y 1).val, y1_lt1_1 t y⟩ : S1000000x4.Idx) := by
  funext a; apply Fin.ext
  match a with
  | ⟨0, _⟩ => exact emb1_1_0 t y
  | ⟨1, _⟩ => exact emb1_1_1 t y

/-- Reading the array through the block at point `t`: the array at row `t · 4096 +` the row. -/
theorem read1_1 {Val : EltTy → Type} (t : Fin cfg1.N) (A : S1000000x4.Idx → Val .f32) (y : ((cfg1.win 1).xblock (cfg1.grid.coords t)).Idx) :
    ((cfg1.win 1).blk t).view.read Val A y
      = A (ix2 ⟨t.val * 4096 + (y 0).val, row_lt (y0_lt1_1 t y)⟩ ⟨(y 1).val, y1_lt1_1 t y⟩) := by
  rw [← emb1_1 t y]; rfl

/-- An index of the array is in the block at point `t` iff its row is among the block's rows inside the array. -/
theorem mem_blk1_1 (t : Fin cfg1.N) (i : S1000000x4.Idx) :
    i ∈ ((cfg1.win 1).blk t).view.set
      ↔ t.val * 4096 ≤ (i 0).val ∧ (i 0).val < t.val * 4096 + min 4096 (1000000 - t.val * 4096) := by
  show i ∈ ((View.whole main_v23).slice (win1_1.rect t)).set ↔ _
  rw [View.set_slice_whole, Rect.mem_set_unit]
  obtain ⟨e0, e1⟩ := idx1_1 t
  obtain ⟨s0, s1⟩ := xs1_1 t
  have h1 : (i 1).val < 4 := (i 1).isLt
  refine ⟨fun h => ?_, fun h a => ?_⟩
  · have h0 := h (0 : Fin 2)
    change win1_1.index t (0 : Fin 2) * 4096 ≤ (i 0).val
      ∧ (i 0).val < win1_1.index t (0 : Fin 2) * 4096 + win1_1.xsize (grid1.coords t) (0 : Fin 2) at h0
    rw [e0, s0] at h0; exact h0
  · match a with
    | ⟨0, _⟩ =>
      change win1_1.index t (0 : Fin 2) * 4096 ≤ (i 0).val
        ∧ (i 0).val < win1_1.index t (0 : Fin 2) * 4096 + win1_1.xsize (grid1.coords t) (0 : Fin 2)
      rw [e0, s0]; exact h
    | ⟨1, _⟩ =>
      change win1_1.index t (1 : Fin 2) * 4 ≤ (i 1).val
        ∧ (i 1).val < win1_1.index t (1 : Fin 2) * 4 + win1_1.xsize (grid1.coords t) (1 : Fin 2)
      rw [e1, s1]; omega

/-- The index of the moved part of the block at point `t` with row `r` (below the cut size) and column `k`. -/
def xix1_1 (t : Fin cfg1.N) (r : Nat) (hr : r < min 4096 (1000000 - t.val * 4096)) (k : Fin 4) : ((cfg1.win 1).xblock (cfg1.grid.coords t)).Idx :=
  fun a => match a with
    | ⟨0, _⟩ => ⟨r, Nat.lt_of_lt_of_eq hr (xs1_1 t).1.symm⟩
    | ⟨1, _⟩ => ⟨k.val, Nat.lt_of_lt_of_eq k.isLt (xs1_1 t).2.symm⟩
theorem xix1_1_0 (t : Fin cfg1.N) (r : Nat) (hr : r < min 4096 (1000000 - t.val * 4096)) (k : Fin 4) :
    (xix1_1 t r hr k 0).val = r := rfl
theorem xix1_1_1 (t : Fin cfg1.N) (r : Nat) (hr : r < min 4096 (1000000 - t.val * 4096)) (k : Fin 4) :
    (xix1_1 t r hr k 1).val = k.val := rfl
/-- Every index of the moved part is of that form. -/
theorem eq_xix1_1 (t : Fin cfg1.N) (y : ((cfg1.win 1).xblock (cfg1.grid.coords t)).Idx) :
    y = xix1_1 t (y 0).val (y0_lt1_1 t y) ⟨(y 1).val, y1_lt1_1 t y⟩ := by
  funext a; match a with | ⟨0, _⟩ => rfl | ⟨1, _⟩ => rfl

/-- Reading the array through the block at point `t`, at row `r` and column `k` of its moved part. -/
theorem read_xix1_1 {Val : EltTy → Type} (t : Fin cfg1.N) (A : S1000000x4.Idx → Val .f32) (r : Nat)
    (hr : r < min 4096 (1000000 - t.val * 4096)) (k : Fin 4) :
    ((cfg1.win 1).blk t).view.read Val A (xix1_1 t r hr k) = A (ix2 ⟨t.val * 4096 + r, row_lt hr⟩ k) :=
  read1_1 t A _

/-- The moved part of contents `X` of the block, at an index: `X` at the same row and column. -/
theorem cut1_1 {α : Type} (t : Fin cfg1.N) (X : S4096x4.Idx → α) (y : ((cfg1.win 1).xblock (cfg1.grid.coords t)).Idx) :
    (cfg1.win 1).cut (cfg1.grid.coords t) X y
      = X (ix2 ⟨(y 0).val, lt_block (y0_lt1_1 t y)⟩ ⟨(y 1).val, y1_lt1_1 t y⟩) :=
  congrArg X (funext fun a => match a with | ⟨0, _⟩ => rfl | ⟨1, _⟩ => rfl)

/-- Contents `d` of the block with the moved part replaced by `g`, at a row below the cut size: `g` there. -/
theorem fill1_1 {α : Type} (t : Fin cfg1.N) (d : S4096x4.Idx → α) (g : ((cfg1.win 1).xblock (cfg1.grid.coords t)).Idx → α) (j : S4096x4.Idx)
    (h : (j 0).val < min 4096 (1000000 - t.val * 4096)) :
    (cfg1.win 1).fill (cfg1.grid.coords t) d g j = g (xix1_1 t (j 0).val h (j 1)) := by
  have hm : (cfg1.win 1).moved (cfg1.grid.coords t) j = true := ((cfg1.win 1).moved_iff _ j).mpr fun a => by
    match a with
    | ⟨0, _⟩ => exact Nat.lt_of_lt_of_eq h (xs1_1 t).1.symm
    | ⟨1, _⟩ => exact Nat.lt_of_lt_of_eq (j 1).isLt (xs1_1 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read1_1 {Val : EltTy → Type} (t : Fin cfg1.N) (d : S4096x4.Idx → Val .f32) (A : S1000000x4.Idx → Val .f32)
    (j : S4096x4.Idx) (h : (j 0).val < min 4096 (1000000 - t.val * 4096)) :
    (cfg1.win 1).fill (cfg1.grid.coords t) d (((cfg1.win 1).blk t).view.read Val A) j
      = A (ix2 ⟨t.val * 4096 + (j 0).val, row_lt h⟩ (j 1)) :=
  (fill1_1 t d _ j h).trans (read_xix1_1 t A _ h _)

/-! ## Region 1, window 2: the whole array of 4 rows and 4 columns, one block -/

/-- The block index at every point is `(0, 0)`. -/
theorem idx1_2 : ∀ t : Fin cfg1.N, (cfg1.win 2).index t (0 : Fin 2) = 0 ∧ (cfg1.win 2).index t (1 : Fin 2) = 0 :=
  (by decide +kernel : ∀ t : Fin grid1.N, win1_2.index t (0 : Fin 2) = 0 ∧ win1_2.index t (1 : Fin 2) = 0)

/-- No transfer is cut: it moves the whole block, which is the whole array. -/
theorem xs1_2 (t : Fin cfg1.N) : (cfg1.win 2).xsize (cfg1.grid.coords t) = S4x4.size := rfl

/-- An element of the block sits in the array at its own index. -/
theorem emb1_2 (t : Fin cfg1.N) (y : ((cfg1.win 2).xblock (cfg1.grid.coords t)).Idx) : ((cfg1.win 2).blk t).view.emb y = (y : S4x4.Idx) := by
  funext a; apply Fin.ext
  match a with
  | ⟨0, _⟩ => exact (cfg1.win 2).rect_emb_val_of_index_zero t (0 : Fin 2) (idx1_2 t).1 y
  | ⟨1, _⟩ => exact (cfg1.win 2).rect_emb_val_of_index_zero t (1 : Fin 2) (idx1_2 t).2 y

/-- Reading the array through the block: the array. -/
theorem read1_2 {Val : EltTy → Type} (t : Fin cfg1.N) (A : S4x4.Idx → Val .f32) :
    (((cfg1.win 2).blk t).view.read Val A : S4x4.Idx → Val .f32) = A := by
  funext y
  show A (((cfg1.win 2).blk t).view.emb y) = A y
  rw [emb1_2 t y]

/-! ## Region 1, window 3: the whole array of 1 row and 4 columns, one block -/

/-- The block index at every point is `(0, 0)`. -/
theorem idx1_3 : ∀ t : Fin cfg1.N, (cfg1.win 3).index t (0 : Fin 2) = 0 ∧ (cfg1.win 3).index t (1 : Fin 2) = 0 :=
  (by decide +kernel : ∀ t : Fin grid1.N, win1_3.index t (0 : Fin 2) = 0 ∧ win1_3.index t (1 : Fin 2) = 0)

/-- No transfer is cut: it moves the whole block, which is the whole array. -/
theorem xs1_3 (t : Fin cfg1.N) : (cfg1.win 3).xsize (cfg1.grid.coords t) = S1x4.size := rfl

/-- An element of the block sits in the array at its own index. -/
theorem emb1_3 (t : Fin cfg1.N) (y : ((cfg1.win 3).xblock (cfg1.grid.coords t)).Idx) : ((cfg1.win 3).blk t).view.emb y = (y : S1x4.Idx) := by
  funext a; apply Fin.ext
  match a with
  | ⟨0, _⟩ => exact (cfg1.win 3).rect_emb_val_of_index_zero t (0 : Fin 2) (idx1_3 t).1 y
  | ⟨1, _⟩ => exact (cfg1.win 3).rect_emb_val_of_index_zero t (1 : Fin 2) (idx1_3 t).2 y

/-- Reading the array through the block: the array. -/
theorem read1_3 {Val : EltTy → Type} (t : Fin cfg1.N) (A : S1x4.Idx → Val .f32) :
    (((cfg1.win 3).blk t).view.read Val A : S1x4.Idx → Val .f32) = A := by
  funext y
  show A (((cfg1.win 3).blk t).view.emb y) = A y
  rw [emb1_3 t y]

/-! ## Region 1, window 4: the whole array of 4 rows and 4 columns, one block -/

/-- The block index at every point is `(0, 0)`. -/
theorem idx1_4 : ∀ t : Fin cfg1.N, (cfg1.win 4).index t (0 : Fin 2) = 0 ∧ (cfg1.win 4).index t (1 : Fin 2) = 0 :=
  (by decide +kernel : ∀ t : Fin grid1.N, win1_4.index t (0 : Fin 2) = 0 ∧ win1_4.index t (1 : Fin 2) = 0)

/-- No transfer is cut: it moves the whole block, which is the whole array. -/
theorem xs1_4 (t : Fin cfg1.N) : (cfg1.win 4).xsize (cfg1.grid.coords t) = S4x4.size := rfl

/-- An element of the block sits in the array at its own index. -/
theorem emb1_4 (t : Fin cfg1.N) (y : ((cfg1.win 4).xblock (cfg1.grid.coords t)).Idx) : ((cfg1.win 4).blk t).view.emb y = (y : S4x4.Idx) := by
  funext a; apply Fin.ext
  match a with
  | ⟨0, _⟩ => exact (cfg1.win 4).rect_emb_val_of_index_zero t (0 : Fin 2) (idx1_4 t).1 y
  | ⟨1, _⟩ => exact (cfg1.win 4).rect_emb_val_of_index_zero t (1 : Fin 2) (idx1_4 t).2 y

/-- Reading the array through the block: the array. -/
theorem read1_4 {Val : EltTy → Type} (t : Fin cfg1.N) (A : S4x4.Idx → Val .f32) :
    (((cfg1.win 4).blk t).view.read Val A : S4x4.Idx → Val .f32) = A := by
  funext y
  show A (((cfg1.win 4).blk t).view.emb y) = A y
  rw [emb1_4 t y]

/-! ## Region 1, window 5: row blocks of 4096 of an array of 1000000 rows and 4 columns -/

/-- The block index at point `t` is `(t, 0)`. -/
theorem idx1_5 : ∀ t : Fin cfg1.N, (cfg1.win 5).index t (0 : Fin 2) = t.val ∧ (cfg1.win 5).index t (1 : Fin 2) = 0 :=
  (by decide +kernel : ∀ t : Fin grid1.N, win1_5.index t (0 : Fin 2) = t.val ∧ win1_5.index t (1 : Fin 2) = 0)

/-- The rows the transfer at point `t` moves: 4096, cut at the array's end (244 · 4096 + 576 = 1000000); every column. -/
theorem xs1_5 : ∀ t : Fin cfg1.N, (cfg1.win 5).xsize (cfg1.grid.coords t) (0 : Fin 2) = min 4096 (1000000 - t.val * 4096)
    ∧ (cfg1.win 5).xsize (cfg1.grid.coords t) (1 : Fin 2) = 4 :=
  (by decide +kernel : ∀ t : Fin grid1.N, win1_5.xsize (grid1.coords t) (0 : Fin 2) = min 4096 (1000000 - t.val * 4096)
    ∧ win1_5.xsize (grid1.coords t) (1 : Fin 2) = 4)

/-- A row of the moved part is below the cut size, -/
theorem y0_lt1_5 (t : Fin cfg1.N) (y : ((cfg1.win 5).xblock (cfg1.grid.coords t)).Idx) : (y 0).val < min 4096 (1000000 - t.val * 4096) :=
  Nat.lt_of_lt_of_eq (y 0).isLt (xs1_5 t).1
/-- and a column below the width. -/
theorem y1_lt1_5 (t : Fin cfg1.N) (y : ((cfg1.win 5).xblock (cfg1.grid.coords t)).Idx) : (y 1).val < 4 :=
  Nat.lt_of_lt_of_eq (y 1).isLt (xs1_5 t).2

/-- An element of the block at point `t` sits in the array at row `t · 4096 +` its row, -/
theorem emb1_5_0 (t : Fin cfg1.N) (y : ((cfg1.win 5).xblock (cfg1.grid.coords t)).Idx) :
    (((cfg1.win 5).blk t).view.emb y (0 : Fin 2)).val = t.val * 4096 + (y 0).val := by
  have h := (cfg1.win 5).rect_emb_val t y (0 : Fin 2)
  rw [(idx1_5 t).1] at h
  exact h
/-- at its own column. -/
theorem emb1_5_1 (t : Fin cfg1.N) (y : ((cfg1.win 5).xblock (cfg1.grid.coords t)).Idx) :
    (((cfg1.win 5).blk t).view.emb y (1 : Fin 2)).val = (y 1).val := by
  have h := (cfg1.win 5).rect_emb_val t y (1 : Fin 2)
  rw [(idx1_5 t).2] at h
  exact h.trans (by omega)

/-- The same as one equation of indices. -/
theorem emb1_5 (t : Fin cfg1.N) (y : ((cfg1.win 5).xblock (cfg1.grid.coords t)).Idx) :
    ((cfg1.win 5).blk t).view.emb y
      = (ix2 ⟨t.val * 4096 + (y 0).val, row_lt (y0_lt1_5 t y)⟩ ⟨(y 1).val, y1_lt1_5 t y⟩ : S1000000x4.Idx) := by
  funext a; apply Fin.ext
  match a with
  | ⟨0, _⟩ => exact emb1_5_0 t y
  | ⟨1, _⟩ => exact emb1_5_1 t y

/-- Reading the array through the block at point `t`: the array at row `t · 4096 +` the row. -/
theorem read1_5 {Val : EltTy → Type} (t : Fin cfg1.N) (A : S1000000x4.Idx → Val .f32) (y : ((cfg1.win 5).xblock (cfg1.grid.coords t)).Idx) :
    ((cfg1.win 5).blk t).view.read Val A y
      = A (ix2 ⟨t.val * 4096 + (y 0).val, row_lt (y0_lt1_5 t y)⟩ ⟨(y 1).val, y1_lt1_5 t y⟩) := by
  rw [← emb1_5 t y]; rfl

/-- An index of the array is in the block at point `t` iff its row is among the block's rows inside the array. -/
theorem mem_blk1_5 (t : Fin cfg1.N) (i : S1000000x4.Idx) :
    i ∈ ((cfg1.win 5).blk t).view.set
      ↔ t.val * 4096 ≤ (i 0).val ∧ (i 0).val < t.val * 4096 + min 4096 (1000000 - t.val * 4096) := by
  show i ∈ ((View.whole main_v44).slice (win1_5.rect t)).set ↔ _
  rw [View.set_slice_whole, Rect.mem_set_unit]
  obtain ⟨e0, e1⟩ := idx1_5 t
  obtain ⟨s0, s1⟩ := xs1_5 t
  have h1 : (i 1).val < 4 := (i 1).isLt
  refine ⟨fun h => ?_, fun h a => ?_⟩
  · have h0 := h (0 : Fin 2)
    change win1_5.index t (0 : Fin 2) * 4096 ≤ (i 0).val
      ∧ (i 0).val < win1_5.index t (0 : Fin 2) * 4096 + win1_5.xsize (grid1.coords t) (0 : Fin 2) at h0
    rw [e0, s0] at h0; exact h0
  · match a with
    | ⟨0, _⟩ =>
      change win1_5.index t (0 : Fin 2) * 4096 ≤ (i 0).val
        ∧ (i 0).val < win1_5.index t (0 : Fin 2) * 4096 + win1_5.xsize (grid1.coords t) (0 : Fin 2)
      rw [e0, s0]; exact h
    | ⟨1, _⟩ =>
      change win1_5.index t (1 : Fin 2) * 4 ≤ (i 1).val
        ∧ (i 1).val < win1_5.index t (1 : Fin 2) * 4 + win1_5.xsize (grid1.coords t) (1 : Fin 2)
      rw [e1, s1]; omega

/-- The index of the moved part of the block at point `t` with row `r` (below the cut size) and column `k`. -/
def xix1_5 (t : Fin cfg1.N) (r : Nat) (hr : r < min 4096 (1000000 - t.val * 4096)) (k : Fin 4) : ((cfg1.win 5).xblock (cfg1.grid.coords t)).Idx :=
  fun a => match a with
    | ⟨0, _⟩ => ⟨r, Nat.lt_of_lt_of_eq hr (xs1_5 t).1.symm⟩
    | ⟨1, _⟩ => ⟨k.val, Nat.lt_of_lt_of_eq k.isLt (xs1_5 t).2.symm⟩
theorem xix1_5_0 (t : Fin cfg1.N) (r : Nat) (hr : r < min 4096 (1000000 - t.val * 4096)) (k : Fin 4) :
    (xix1_5 t r hr k 0).val = r := rfl
theorem xix1_5_1 (t : Fin cfg1.N) (r : Nat) (hr : r < min 4096 (1000000 - t.val * 4096)) (k : Fin 4) :
    (xix1_5 t r hr k 1).val = k.val := rfl
/-- Every index of the moved part is of that form. -/
theorem eq_xix1_5 (t : Fin cfg1.N) (y : ((cfg1.win 5).xblock (cfg1.grid.coords t)).Idx) :
    y = xix1_5 t (y 0).val (y0_lt1_5 t y) ⟨(y 1).val, y1_lt1_5 t y⟩ := by
  funext a; match a with | ⟨0, _⟩ => rfl | ⟨1, _⟩ => rfl

/-- Reading the array through the block at point `t`, at row `r` and column `k` of its moved part. -/
theorem read_xix1_5 {Val : EltTy → Type} (t : Fin cfg1.N) (A : S1000000x4.Idx → Val .f32) (r : Nat)
    (hr : r < min 4096 (1000000 - t.val * 4096)) (k : Fin 4) :
    ((cfg1.win 5).blk t).view.read Val A (xix1_5 t r hr k) = A (ix2 ⟨t.val * 4096 + r, row_lt hr⟩ k) :=
  read1_5 t A _

/-- The moved part of contents `X` of the block, at an index: `X` at the same row and column. -/
theorem cut1_5 {α : Type} (t : Fin cfg1.N) (X : S4096x4.Idx → α) (y : ((cfg1.win 5).xblock (cfg1.grid.coords t)).Idx) :
    (cfg1.win 5).cut (cfg1.grid.coords t) X y
      = X (ix2 ⟨(y 0).val, lt_block (y0_lt1_5 t y)⟩ ⟨(y 1).val, y1_lt1_5 t y⟩) :=
  congrArg X (funext fun a => match a with | ⟨0, _⟩ => rfl | ⟨1, _⟩ => rfl)

/-- Contents `d` of the block with the moved part replaced by `g`, at a row below the cut size: `g` there. -/
theorem fill1_5 {α : Type} (t : Fin cfg1.N) (d : S4096x4.Idx → α) (g : ((cfg1.win 5).xblock (cfg1.grid.coords t)).Idx → α) (j : S4096x4.Idx)
    (h : (j 0).val < min 4096 (1000000 - t.val * 4096)) :
    (cfg1.win 5).fill (cfg1.grid.coords t) d g j = g (xix1_5 t (j 0).val h (j 1)) := by
  have hm : (cfg1.win 5).moved (cfg1.grid.coords t) j = true := ((cfg1.win 5).moved_iff _ j).mpr fun a => by
    match a with
    | ⟨0, _⟩ => exact Nat.lt_of_lt_of_eq h (xs1_5 t).1.symm
    | ⟨1, _⟩ => exact Nat.lt_of_lt_of_eq (j 1).isLt (xs1_5 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read1_5 {Val : EltTy → Type} (t : Fin cfg1.N) (d : S4096x4.Idx → Val .f32) (A : S1000000x4.Idx → Val .f32)
    (j : S4096x4.Idx) (h : (j 0).val < min 4096 (1000000 - t.val * 4096)) :
    (cfg1.win 5).fill (cfg1.grid.coords t) d (((cfg1.win 5).blk t).view.read Val A) j
      = A (ix2 ⟨t.val * 4096 + (j 0).val, row_lt h⟩ (j 1)) :=
  (fill1_5 t d _ j h).trans (read_xix1_5 t A _ h _)

/-- Every index of the array is in the block of the point `row / 4096`, which writes it back. -/
theorem blocksCover1_5 : ∀ i : S1000000x4.Idx, ∃ t : Fin cfg1.N, (cfg1.win 5).flush t = true ∧ i ∈ ((cfg1.win 5).blk t).view.set := by
  intro i
  have hi : (i 0).val < 1000000 := (i 0).isLt
  refine ⟨⟨(i 0).val / 4096, Nat.lt_of_lt_of_eq (by omega) N_1.symm⟩, flush1_5 _, ?_⟩
  rw [mem_blk1_5]
  show (i 0).val / 4096 * 4096 ≤ (i 0).val
    ∧ (i 0).val < (i 0).val / 4096 * 4096 + min 4096 (1000000 - (i 0).val / 4096 * 4096)
  omega

/-- The index inside that block: row `row % 4096`, the same column. -/
def blkIdx1_5 (i : S1000000x4.Idx) : ((cfg1.win 5).xblock (cfg1.grid.coords (pt1 (i 0)))).Idx :=
  xix1_5 (pt1 (i 0)) ((i 0).val % 4096) (rem_lt (i 0).isLt) (i 1)

/-- It sits in the array at `i`. -/
theorem emb_blkIdx1_5 (i : S1000000x4.Idx) : ((cfg1.win 5).blk (pt1 (i 0))).view.emb (blkIdx1_5 i) = i := by
  rw [emb1_5]
  funext a; apply Fin.ext
  match a with
  | ⟨0, _⟩ => show (i 0).val / 4096 * 4096 + (i 0).val % 4096 = (i 0).val; omega
  | ⟨1, _⟩ => rfl

/-- THE WHOLE ARRAY: if every point writes back its block of one contents `G`, the array ends holding `G`. -/
theorem final1_5 {Val : EltTy → Type} {Ix : Type} [DecidableEq Ix] {Name : Type} [DecidableEq Name] {U : Type} [Idealize.SL.RA.URA U]
    {Lvl : Type} {c : Dev nD} (dat : Dat τ Val Ix Name U Lvl cfg1 c)
    (G : Buf Val ((cfg1.win 5).arr.view.loc (c.tc : Thread nD τ)))
    (hG : ∀ t, dat.flushed 5 t = ((cfg1.win 5).blk t).view.read Val G) :
    dat.arrAt 5 cfg1.N = G :=
  dat.arrAt_eq_of_cover 5 G (fun t _ => hG t) blocksCover1_5

end Cert.KernelIdeal.Hand

end
-- ==== Proof.KI.Final1.lean ====
/-
  The second layer's pipeline, at the ideal instance, as one function of the arrays it finds: the output array ends
  holding, at row r and column j, the maximum with zero of the bias plus, for each of the four input columns in turn,
  the aggregated entry of row r times its weight and then the feature entry of row r times its weight. Every point
  writes back its block of that function, and the blocks cover the array.
-/
import proofs.«180108_j33234456937224_1_alg».proof.Proof.KI.Region1
import proofs.«180108_j33234456937224_1_alg».proof.Proof.KI.Geometry1
import proofs.«180108_j33234456937224_1_alg».proof.Proof.KI.PayloadsIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The second layer over whole arrays, the bias a row, the additions in the kernel's order. -/
def lay44 (a x : FVec Ideal S1000000x4 .f32) (wl : FVec Ideal S4x4 .f32) (bb : FVec Ideal S1x4 .f32)
    (wr : FVec Ideal S4x4 .f32) : FVec Ideal S1000000x4 .f32 := fun i =>
  max ((((((((bb (ix2 0 (i 1))
    + a (ix2 (i 0) 0) * wl (ix2 0 (i 1))) + x (ix2 (i 0) 0) * wr (ix2 0 (i 1)))
    + a (ix2 (i 0) 1) * wl (ix2 1 (i 1))) + x (ix2 (i 0) 1) * wr (ix2 1 (i 1)))
    + a (ix2 (i 0) 2) * wl (ix2 2 (i 1))) + x (ix2 (i 0) 2) * wr (ix2 2 (i 1)))
    + a (ix2 (i 0) 3) * wl (ix2 3 (i 1))) + x (ix2 (i 0) 3) * wr (ix2 3 (i 1))) 0

section
variable {F : FTy → Type} [FloatOps F]
variable (V : (c : Dev nD) → (b : Ref sig .tc) → Buf (Elt F) ((c : Thread nD τ).loc b))

/-- The aggregated tile at point `t`, at a row `r` inside the array: the aggregated array at row t · 4096 + r. -/
theorem atile1_apply (c : Dev nD) (t : Fin cfg1.N) (r : Nat) (h : r < min 4096 (1000000 - t.val * 4096)) (k : Fin 4) :
    atile1 V c t (ix2 ⟨r, lt_block h⟩ k) = V c main_v42 (ix2 ⟨t.val * 4096 + r, row_lt h⟩ k) :=
  fill_read1_0 t _ (V c main_v42) (ix2 ⟨r, lt_block h⟩ k) h
/-- The feature tile likewise. -/
theorem xtile1_apply (c : Dev nD) (t : Fin cfg1.N) (r : Nat) (h : r < min 4096 (1000000 - t.val * 4096)) (k : Fin 4) :
    xtile1 V c t (ix2 ⟨r, lt_block h⟩ k) = V c main_v23 (ix2 ⟨t.val * 4096 + r, row_lt h⟩ k) :=
  fill_read1_1 t _ (V c main_v23) (ix2 ⟨r, lt_block h⟩ k) h
/-- The weight blocks are the weight arrays. -/
theorem iblk1_2 (c : Dev nD) (t : Fin cfg1.N) : (iblk1 V c 2 t : S4x4.Idx → Elt F .f32) = V c main_arg5 :=
  read1_2 t (V c main_arg5)
theorem iblk1_3 (c : Dev nD) (t : Fin cfg1.N) : (iblk1 V c 3 t : S1x4.Idx → Elt F .f32) = V c main_v43 :=
  read1_3 t (V c main_v43)
theorem iblk1_4 (c : Dev nD) (t : Fin cfg1.N) : (iblk1 V c 4 t : S4x4.Idx → Elt F .f32) = V c main_arg7 :=
  read1_4 t (V c main_arg7)
end

variable (V : (c : Dev nD) → (b : Ref sig .tc) → Buf (Elt Ideal) ((c : Thread nD τ).loc b))

/-- What the body stores at row `r` (inside the array) of the tile at point `t` is the layer at row t · 4096 + r. -/
theorem store1_tile (c : Dev nD) (t : Fin cfg1.N) (r : Nat) (h : r < min 4096 (1000000 - t.val * 4096)) (j : Fin 4) :
    store1 (atile1 V c t) (xtile1 V c t) (iblk1 V c 2 t) (iblk1 V c 3 t) (iblk1 V c 4 t) (ix2 ⟨r, lt_block h⟩ j)
      = lay44 (V c main_v42) (V c main_v23) (V c main_arg5) (V c main_v43) (V c main_arg7)
          (ix2 ⟨t.val * 4096 + r, row_lt h⟩ j) := by
  refine (store1_apply_ideal _ _ _ _ _ _ _).trans ?_
  rw [atile1_apply V c t r h 0, atile1_apply V c t r h 1, atile1_apply V c t r h 2, atile1_apply V c t r h 3,
    xtile1_apply V c t r h 0, xtile1_apply V c t r h 1, xtile1_apply V c t r h 2, xtile1_apply V c t r h 3,
    iblk1_2, iblk1_3, iblk1_4]
  rfl

/-- What point `t` writes back is its block of the layer's function of the arrays. -/
theorem flushed1_5 (c : Dev nD) (t : Fin cfg1.N) :
    (dat1 (F := Ideal) V c).flushed 5 t
      = ((cfg1.win 5).blk t).view.read (Elt Ideal)
          (lay44 (V c main_v42) (V c main_v23) (V c main_arg5) (V c main_v43) (V c main_arg7)) := by
  funext y
  show (cfg1.win 5).cut (cfg1.grid.coords t) ((dat1 V c).after 5 t) y = _
  rw [after1_5]
  refine (cut1_5 t _ y).trans ?_
  refine Eq.trans ?_ (read1_5 t _ y).symm
  exact store1_tile V c t (y 0).val (y0_lt1_5 t y) ⟨(y 1).val, y1_lt1_5 t y⟩

/-- THE SECOND LAYER'S ARRAY after the pipeline. -/
theorem final1 (c : Dev nD) :
    (dat1 (F := Ideal) V c).arrAt 5 cfg1.N
      = lay44 (V c main_v42) (V c main_v23) (V c main_arg5) (V c main_v43) (V c main_arg7) :=
  final1_5 (dat1 V c) _ (flushed1_5 V c)

end Cert.KernelIdeal.Hand

end
-- ==== Proof.KI.Geometry2.lean ====
/-
  The geometry of pipeline 2's windows, whatever the pipeline computes: two input arrays of four columns, weight arrays of shapes 4 × 2, 1 × 2, 4 × 2, 2 × 2, 1 × 2, two output arrays of two columns.
  For a window over an array of 1000000 rows in blocks of 4096 rows (block index `(t, 0)` at grid point `t`, the last
  block cut to its first 576 rows): where an element of the block at point `t` sits in the array (row
  `t · 4096 +` its row, the same column), what reading the array through the block gives, the moved part of a
  staging buffer's contents and a buffer just filled, read at an index; for an output array, that the blocks cover it
  (row `r` is row `r % 4096` of block `r / 4096`) and hence that the array ends holding `G` when every point writes
  back its block of `G`. For a window whose one block is its whole array: an element sits at its own index and reading
  through the block is the identity.
-/
import proofs.«180108_j33234456937224_1_alg».proof.Proof.Gen.KernelIdeal.Launch
import proofs.«180108_j33234456937224_1_alg».proof.Proof.Gen.KernelIdeal.Points
import proofs.«180108_j33234456937224_1_alg».proof.Proof.KI.GeometryBase
import Idealize.ShloMosaic.Lib.Pipeline.Value
import Idealize.ShloMosaic.Lib.ValueIdx

noncomputable section

namespace Cert.KernelIdeal.Hand

open Cert.KernelIdeal Cert.KernelIdeal.Gen Idealize.ShloMosaic
open Idealize.ShloMosaic.Pipeline (Dat)
open Idealize.ShloMosaic.ValueIdx

/-- The grid point whose block holds row `r`. -/
def pt2 (r : Fin 1000000) : Fin cfg2.N := ⟨r.val / 4096, Nat.lt_of_lt_of_eq (by have := r.isLt; omega) N_2.symm⟩
theorem pt2_val (r : Fin 1000000) : (pt2 r).val = r.val / 4096 := rfl

/-! ## Region 2, window 0: row blocks of 4096 of an array of 1000000 rows and 4 columns -/

/-- The block index at point `t` is `(t, 0)`. -/
theorem idx2_0 : ∀ t : Fin cfg2.N, (cfg2.win 0).index t (0 : Fin 2) = t.val ∧ (cfg2.win 0).index t (1 : Fin 2) = 0 :=
  (by decide +kernel : ∀ t : Fin grid2.N, win2_0.index t (0 : Fin 2) = t.val ∧ win2_0.index t (1 : Fin 2) = 0)

/-- The rows the transfer at point `t` moves: 4096, cut at the array's end (244 · 4096 + 576 = 1000000); every column. -/
theorem xs2_0 : ∀ t : Fin cfg2.N, (cfg2.win 0).xsize (cfg2.grid.coords t) (0 : Fin 2) = min 4096 (1000000 - t.val * 4096)
    ∧ (cfg2.win 0).xsize (cfg2.grid.coords t) (1 : Fin 2) = 4 :=
  (by decide +kernel : ∀ t : Fin grid2.N, win2_0.xsize (grid2.coords t) (0 : Fin 2) = min 4096 (1000000 - t.val * 4096)
    ∧ win2_0.xsize (grid2.coords t) (1 : Fin 2) = 4)

/-- A row of the moved part is below the cut size, -/
theorem y0_lt2_0 (t : Fin cfg2.N) (y : ((cfg2.win 0).xblock (cfg2.grid.coords t)).Idx) : (y 0).val < min 4096 (1000000 - t.val * 4096) :=
  Nat.lt_of_lt_of_eq (y 0).isLt (xs2_0 t).1
/-- and a column below the width. -/
theorem y1_lt2_0 (t : Fin cfg2.N) (y : ((cfg2.win 0).xblock (cfg2.grid.coords t)).Idx) : (y 1).val < 4 :=
  Nat.lt_of_lt_of_eq (y 1).isLt (xs2_0 t).2

/-- An element of the block at point `t` sits in the array at row `t · 4096 +` its row, -/
theorem emb2_0_0 (t : Fin cfg2.N) (y : ((cfg2.win 0).xblock (cfg2.grid.coords t)).Idx) :
    (((cfg2.win 0).blk t).view.emb y (0 : Fin 2)).val = t.val * 4096 + (y 0).val := by
  have h := (cfg2.win 0).rect_emb_val t y (0 : Fin 2)
  rw [(idx2_0 t).1] at h
  exact h
/-- at its own column. -/
theorem emb2_0_1 (t : Fin cfg2.N) (y : ((cfg2.win 0).xblock (cfg2.grid.coords t)).Idx) :
    (((cfg2.win 0).blk t).view.emb y (1 : Fin 2)).val = (y 1).val := by
  have h := (cfg2.win 0).rect_emb_val t y (1 : Fin 2)
  rw [(idx2_0 t).2] at h
  exact h.trans (by omega)

/-- The same as one equation of indices. -/
theorem emb2_0 (t : Fin cfg2.N) (y : ((cfg2.win 0).xblock (cfg2.grid.coords t)).Idx) :
    ((cfg2.win 0).blk t).view.emb y
      = (ix2 ⟨t.val * 4096 + (y 0).val, row_lt (y0_lt2_0 t y)⟩ ⟨(y 1).val, y1_lt2_0 t y⟩ : S1000000x4.Idx) := by
  funext a; apply Fin.ext
  match a with
  | ⟨0, _⟩ => exact emb2_0_0 t y
  | ⟨1, _⟩ => exact emb2_0_1 t y

/-- Reading the array through the block at point `t`: the array at row `t · 4096 +` the row. -/
theorem read2_0 {Val : EltTy → Type} (t : Fin cfg2.N) (A : S1000000x4.Idx → Val .f32) (y : ((cfg2.win 0).xblock (cfg2.grid.coords t)).Idx) :
    ((cfg2.win 0).blk t).view.read Val A y
      = A (ix2 ⟨t.val * 4096 + (y 0).val, row_lt (y0_lt2_0 t y)⟩ ⟨(y 1).val, y1_lt2_0 t y⟩) := by
  rw [← emb2_0 t y]; rfl

/-- An index of the array is in the block at point `t` iff its row is among the block's rows inside the array. -/
theorem mem_blk2_0 (t : Fin cfg2.N) (i : S1000000x4.Idx) :
    i ∈ ((cfg2.win 0).blk t).view.set
      ↔ t.val * 4096 ≤ (i 0).val ∧ (i 0).val < t.val * 4096 + min 4096 (1000000 - t.val * 4096) := by
  show i ∈ ((View.whole main_v63).slice (win2_0.rect t)).set ↔ _
  rw [View.set_slice_whole, Rect.mem_set_unit]
  obtain ⟨e0, e1⟩ := idx2_0 t
  obtain ⟨s0, s1⟩ := xs2_0 t
  have h1 : (i 1).val < 4 := (i 1).isLt
  refine ⟨fun h => ?_, fun h a => ?_⟩
  · have h0 := h (0 : Fin 2)
    change win2_0.index t (0 : Fin 2) * 4096 ≤ (i 0).val
      ∧ (i 0).val < win2_0.index t (0 : Fin 2) * 4096 + win2_0.xsize (grid2.coords t) (0 : Fin 2) at h0
    rw [e0, s0] at h0; exact h0
  · match a with
    | ⟨0, _⟩ =>
      change win2_0.index t (0 : Fin 2) * 4096 ≤ (i 0).val
        ∧ (i 0).val < win2_0.index t (0 : Fin 2) * 4096 + win2_0.xsize (grid2.coords t) (0 : Fin 2)
      rw [e0, s0]; exact h
    | ⟨1, _⟩ =>
      change win2_0.index t (1 : Fin 2) * 4 ≤ (i 1).val
        ∧ (i 1).val < win2_0.index t (1 : Fin 2) * 4 + win2_0.xsize (grid2.coords t) (1 : Fin 2)
      rw [e1, s1]; omega

/-- The index of the moved part of the block at point `t` with row `r` (below the cut size) and column `k`. -/
def xix2_0 (t : Fin cfg2.N) (r : Nat) (hr : r < min 4096 (1000000 - t.val * 4096)) (k : Fin 4) : ((cfg2.win 0).xblock (cfg2.grid.coords t)).Idx :=
  fun a => match a with
    | ⟨0, _⟩ => ⟨r, Nat.lt_of_lt_of_eq hr (xs2_0 t).1.symm⟩
    | ⟨1, _⟩ => ⟨k.val, Nat.lt_of_lt_of_eq k.isLt (xs2_0 t).2.symm⟩
theorem xix2_0_0 (t : Fin cfg2.N) (r : Nat) (hr : r < min 4096 (1000000 - t.val * 4096)) (k : Fin 4) :
    (xix2_0 t r hr k 0).val = r := rfl
theorem xix2_0_1 (t : Fin cfg2.N) (r : Nat) (hr : r < min 4096 (1000000 - t.val * 4096)) (k : Fin 4) :
    (xix2_0 t r hr k 1).val = k.val := rfl
/-- Every index of the moved part is of that form. -/
theorem eq_xix2_0 (t : Fin cfg2.N) (y : ((cfg2.win 0).xblock (cfg2.grid.coords t)).Idx) :
    y = xix2_0 t (y 0).val (y0_lt2_0 t y) ⟨(y 1).val, y1_lt2_0 t y⟩ := by
  funext a; match a with | ⟨0, _⟩ => rfl | ⟨1, _⟩ => rfl

/-- Reading the array through the block at point `t`, at row `r` and column `k` of its moved part. -/
theorem read_xix2_0 {Val : EltTy → Type} (t : Fin cfg2.N) (A : S1000000x4.Idx → Val .f32) (r : Nat)
    (hr : r < min 4096 (1000000 - t.val * 4096)) (k : Fin 4) :
    ((cfg2.win 0).blk t).view.read Val A (xix2_0 t r hr k) = A (ix2 ⟨t.val * 4096 + r, row_lt hr⟩ k) :=
  read2_0 t A _

/-- The moved part of contents `X` of the block, at an index: `X` at the same row and column. -/
theorem cut2_0 {α : Type} (t : Fin cfg2.N) (X : S4096x4.Idx → α) (y : ((cfg2.win 0).xblock (cfg2.grid.coords t)).Idx) :
    (cfg2.win 0).cut (cfg2.grid.coords t) X y
      = X (ix2 ⟨(y 0).val, lt_block (y0_lt2_0 t y)⟩ ⟨(y 1).val, y1_lt2_0 t y⟩) :=
  congrArg X (funext fun a => match a with | ⟨0, _⟩ => rfl | ⟨1, _⟩ => rfl)

/-- Contents `d` of the block with the moved part replaced by `g`, at a row below the cut size: `g` there. -/
theorem fill2_0 {α : Type} (t : Fin cfg2.N) (d : S4096x4.Idx → α) (g : ((cfg2.win 0).xblock (cfg2.grid.coords t)).Idx → α) (j : S4096x4.Idx)
    (h : (j 0).val < min 4096 (1000000 - t.val * 4096)) :
    (cfg2.win 0).fill (cfg2.grid.coords t) d g j = g (xix2_0 t (j 0).val h (j 1)) := by
  have hm : (cfg2.win 0).moved (cfg2.grid.coords t) j = true := ((cfg2.win 0).moved_iff _ j).mpr fun a => by
    match a with
    | ⟨0, _⟩ => exact Nat.lt_of_lt_of_eq h (xs2_0 t).1.symm
    | ⟨1, _⟩ => exact Nat.lt_of_lt_of_eq (j 1).isLt (xs2_0 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read2_0 {Val : EltTy → Type} (t : Fin cfg2.N) (d : S4096x4.Idx → Val .f32) (A : S1000000x4.Idx → Val .f32)
    (j : S4096x4.Idx) (h : (j 0).val < min 4096 (1000000 - t.val * 4096)) :
    (cfg2.win 0).fill (cfg2.grid.coords t) d (((cfg2.win 0).blk t).view.read Val A) j
      = A (ix2 ⟨t.val * 4096 + (j 0).val, row_lt h⟩ (j 1)) :=
  (fill2_0 t d _ j h).trans (read_xix2_0 t A _ h _)

/-! ## Region 2, window 1: row blocks of 4096 of an array of 1000000 rows and 4 columns -/

/-- The block index at point `t` is `(t, 0)`. -/
theorem idx2_1 : ∀ t : Fin cfg2.N, (cfg2.win 1).index t (0 : Fin 2) = t.val ∧ (cfg2.win 1).index t (1 : Fin 2) = 0 :=
  (by decide +kernel : ∀ t : Fin grid2.N, win2_1.index t (0 : Fin 2) = t.val ∧ win2_1.index t (1 : Fin 2) = 0)

/-- The rows the transfer at point `t` moves: 4096, cut at the array's end (244 · 4096 + 576 = 1000000); every column. -/
theorem xs2_1 : ∀ t : Fin cfg2.N, (cfg2.win 1).xsize (cfg2.grid.coords t) (0 : Fin 2) = min 4096 (1000000 - t.val * 4096)
    ∧ (cfg2.win 1).xsize (cfg2.grid.coords t) (1 : Fin 2) = 4 :=
  (by decide +kernel : ∀ t : Fin grid2.N, win2_1.xsize (grid2.coords t) (0 : Fin 2) = min 4096 (1000000 - t.val * 4096)
    ∧ win2_1.xsize (grid2.coords t) (1 : Fin 2) = 4)

/-- A row of the moved part is below the cut size, -/
theorem y0_lt2_1 (t : Fin cfg2.N) (y : ((cfg2.win 1).xblock (cfg2.grid.coords t)).Idx) : (y 0).val < min 4096 (1000000 - t.val * 4096) :=
  Nat.lt_of_lt_of_eq (y 0).isLt (xs2_1 t).1
/-- and a column below the width. -/
theorem y1_lt2_1 (t : Fin cfg2.N) (y : ((cfg2.win 1).xblock (cfg2.grid.coords t)).Idx) : (y 1).val < 4 :=
  Nat.lt_of_lt_of_eq (y 1).isLt (xs2_1 t).2

/-- An element of the block at point `t` sits in the array at row `t · 4096 +` its row, -/
theorem emb2_1_0 (t : Fin cfg2.N) (y : ((cfg2.win 1).xblock (cfg2.grid.coords t)).Idx) :
    (((cfg2.win 1).blk t).view.emb y (0 : Fin 2)).val = t.val * 4096 + (y 0).val := by
  have h := (cfg2.win 1).rect_emb_val t y (0 : Fin 2)
  rw [(idx2_1 t).1] at h
  exact h
/-- at its own column. -/
theorem emb2_1_1 (t : Fin cfg2.N) (y : ((cfg2.win 1).xblock (cfg2.grid.coords t)).Idx) :
    (((cfg2.win 1).blk t).view.emb y (1 : Fin 2)).val = (y 1).val := by
  have h := (cfg2.win 1).rect_emb_val t y (1 : Fin 2)
  rw [(idx2_1 t).2] at h
  exact h.trans (by omega)

/-- The same as one equation of indices. -/
theorem emb2_1 (t : Fin cfg2.N) (y : ((cfg2.win 1).xblock (cfg2.grid.coords t)).Idx) :
    ((cfg2.win 1).blk t).view.emb y
      = (ix2 ⟨t.val * 4096 + (y 0).val, row_lt (y0_lt2_1 t y)⟩ ⟨(y 1).val, y1_lt2_1 t y⟩ : S1000000x4.Idx) := by
  funext a; apply Fin.ext
  match a with
  | ⟨0, _⟩ => exact emb2_1_0 t y
  | ⟨1, _⟩ => exact emb2_1_1 t y

/-- Reading the array through the block at point `t`: the array at row `t · 4096 +` the row. -/
theorem read2_1 {Val : EltTy → Type} (t : Fin cfg2.N) (A : S1000000x4.Idx → Val .f32) (y : ((cfg2.win 1).xblock (cfg2.grid.coords t)).Idx) :
    ((cfg2.win 1).blk t).view.read Val A y
      = A (ix2 ⟨t.val * 4096 + (y 0).val, row_lt (y0_lt2_1 t y)⟩ ⟨(y 1).val, y1_lt2_1 t y⟩) := by
  rw [← emb2_1 t y]; rfl

/-- An index of the array is in the block at point `t` iff its row is among the block's rows inside the array. -/
theorem mem_blk2_1 (t : Fin cfg2.N) (i : S1000000x4.Idx) :
    i ∈ ((cfg2.win 1).blk t).view.set
      ↔ t.val * 4096 ≤ (i 0).val ∧ (i 0).val < t.val * 4096 + min 4096 (1000000 - t.val * 4096) := by
  show i ∈ ((View.whole main_v44).slice (win2_1.rect t)).set ↔ _
  rw [View.set_slice_whole, Rect.mem_set_unit]
  obtain ⟨e0, e1⟩ := idx2_1 t
  obtain ⟨s0, s1⟩ := xs2_1 t
  have h1 : (i 1).val < 4 := (i 1).isLt
  refine ⟨fun h => ?_, fun h a => ?_⟩
  · have h0 := h (0 : Fin 2)
    change win2_1.index t (0 : Fin 2) * 4096 ≤ (i 0).val
      ∧ (i 0).val < win2_1.index t (0 : Fin 2) * 4096 + win2_1.xsize (grid2.coords t) (0 : Fin 2) at h0
    rw [e0, s0] at h0; exact h0
  · match a with
    | ⟨0, _⟩ =>
      change win2_1.index t (0 : Fin 2) * 4096 ≤ (i 0).val
        ∧ (i 0).val < win2_1.index t (0 : Fin 2) * 4096 + win2_1.xsize (grid2.coords t) (0 : Fin 2)
      rw [e0, s0]; exact h
    | ⟨1, _⟩ =>
      change win2_1.index t (1 : Fin 2) * 4 ≤ (i 1).val
        ∧ (i 1).val < win2_1.index t (1 : Fin 2) * 4 + win2_1.xsize (grid2.coords t) (1 : Fin 2)
      rw [e1, s1]; omega

/-- The index of the moved part of the block at point `t` with row `r` (below the cut size) and column `k`. -/
def xix2_1 (t : Fin cfg2.N) (r : Nat) (hr : r < min 4096 (1000000 - t.val * 4096)) (k : Fin 4) : ((cfg2.win 1).xblock (cfg2.grid.coords t)).Idx :=
  fun a => match a with
    | ⟨0, _⟩ => ⟨r, Nat.lt_of_lt_of_eq hr (xs2_1 t).1.symm⟩
    | ⟨1, _⟩ => ⟨k.val, Nat.lt_of_lt_of_eq k.isLt (xs2_1 t).2.symm⟩
theorem xix2_1_0 (t : Fin cfg2.N) (r : Nat) (hr : r < min 4096 (1000000 - t.val * 4096)) (k : Fin 4) :
    (xix2_1 t r hr k 0).val = r := rfl
theorem xix2_1_1 (t : Fin cfg2.N) (r : Nat) (hr : r < min 4096 (1000000 - t.val * 4096)) (k : Fin 4) :
    (xix2_1 t r hr k 1).val = k.val := rfl
/-- Every index of the moved part is of that form. -/
theorem eq_xix2_1 (t : Fin cfg2.N) (y : ((cfg2.win 1).xblock (cfg2.grid.coords t)).Idx) :
    y = xix2_1 t (y 0).val (y0_lt2_1 t y) ⟨(y 1).val, y1_lt2_1 t y⟩ := by
  funext a; match a with | ⟨0, _⟩ => rfl | ⟨1, _⟩ => rfl

/-- Reading the array through the block at point `t`, at row `r` and column `k` of its moved part. -/
theorem read_xix2_1 {Val : EltTy → Type} (t : Fin cfg2.N) (A : S1000000x4.Idx → Val .f32) (r : Nat)
    (hr : r < min 4096 (1000000 - t.val * 4096)) (k : Fin 4) :
    ((cfg2.win 1).blk t).view.read Val A (xix2_1 t r hr k) = A (ix2 ⟨t.val * 4096 + r, row_lt hr⟩ k) :=
  read2_1 t A _

/-- The moved part of contents `X` of the block, at an index: `X` at the same row and column. -/
theorem cut2_1 {α : Type} (t : Fin cfg2.N) (X : S4096x4.Idx → α) (y : ((cfg2.win 1).xblock (cfg2.grid.coords t)).Idx) :
    (cfg2.win 1).cut (cfg2.grid.coords t) X y
      = X (ix2 ⟨(y 0).val, lt_block (y0_lt2_1 t y)⟩ ⟨(y 1).val, y1_lt2_1 t y⟩) :=
  congrArg X (funext fun a => match a with | ⟨0, _⟩ => rfl | ⟨1, _⟩ => rfl)

/-- Contents `d` of the block with the moved part replaced by `g`, at a row below the cut size: `g` there. -/
theorem fill2_1 {α : Type} (t : Fin cfg2.N) (d : S4096x4.Idx → α) (g : ((cfg2.win 1).xblock (cfg2.grid.coords t)).Idx → α) (j : S4096x4.Idx)
    (h : (j 0).val < min 4096 (1000000 - t.val * 4096)) :
    (cfg2.win 1).fill (cfg2.grid.coords t) d g j = g (xix2_1 t (j 0).val h (j 1)) := by
  have hm : (cfg2.win 1).moved (cfg2.grid.coords t) j = true := ((cfg2.win 1).moved_iff _ j).mpr fun a => by
    match a with
    | ⟨0, _⟩ => exact Nat.lt_of_lt_of_eq h (xs2_1 t).1.symm
    | ⟨1, _⟩ => exact Nat.lt_of_lt_of_eq (j 1).isLt (xs2_1 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read2_1 {Val : EltTy → Type} (t : Fin cfg2.N) (d : S4096x4.Idx → Val .f32) (A : S1000000x4.Idx → Val .f32)
    (j : S4096x4.Idx) (h : (j 0).val < min 4096 (1000000 - t.val * 4096)) :
    (cfg2.win 1).fill (cfg2.grid.coords t) d (((cfg2.win 1).blk t).view.read Val A) j
      = A (ix2 ⟨t.val * 4096 + (j 0).val, row_lt h⟩ (j 1)) :=
  (fill2_1 t d _ j h).trans (read_xix2_1 t A _ h _)

/-! ## Region 2, window 2: the whole array of 4 rows and 2 columns, one block -/

/-- The block index at every point is `(0, 0)`. -/
theorem idx2_2 : ∀ t : Fin cfg2.N, (cfg2.win 2).index t (0 : Fin 2) = 0 ∧ (cfg2.win 2).index t (1 : Fin 2) = 0 :=
  (by decide +kernel : ∀ t : Fin grid2.N, win2_2.index t (0 : Fin 2) = 0 ∧ win2_2.index t (1 : Fin 2) = 0)

/-- No transfer is cut: it moves the whole block, which is the whole array. -/
theorem xs2_2 (t : Fin cfg2.N) : (cfg2.win 2).xsize (cfg2.grid.coords t) = S4x2.size := rfl

/-- An element of the block sits in the array at its own index. -/
theorem emb2_2 (t : Fin cfg2.N) (y : ((cfg2.win 2).xblock (cfg2.grid.coords t)).Idx) : ((cfg2.win 2).blk t).view.emb y = (y : S4x2.Idx) := by
  funext a; apply Fin.ext
  match a with
  | ⟨0, _⟩ => exact (cfg2.win 2).rect_emb_val_of_index_zero t (0 : Fin 2) (idx2_2 t).1 y
  | ⟨1, _⟩ => exact (cfg2.win 2).rect_emb_val_of_index_zero t (1 : Fin 2) (idx2_2 t).2 y

/-- Reading the array through the block: the array. -/
theorem read2_2 {Val : EltTy → Type} (t : Fin cfg2.N) (A : S4x2.Idx → Val .f32) :
    (((cfg2.win 2).blk t).view.read Val A : S4x2.Idx → Val .f32) = A := by
  funext y
  show A (((cfg2.win 2).blk t).view.emb y) = A y
  rw [emb2_2 t y]

/-! ## Region 2, window 3: the whole array of 1 row and 2 columns, one block -/

/-- The block index at every point is `(0, 0)`. -/
theorem idx2_3 : ∀ t : Fin cfg2.N, (cfg2.win 3).index t (0 : Fin 2) = 0 ∧ (cfg2.win 3).index t (1 : Fin 2) = 0 :=
  (by decide +kernel : ∀ t : Fin grid2.N, win2_3.index t (0 : Fin 2) = 0 ∧ win2_3.index t (1 : Fin 2) = 0)

/-- No transfer is cut: it moves the whole block, which is the whole array. -/
theorem xs2_3 (t : Fin cfg2.N) : (cfg2.win 3).xsize (cfg2.grid.coords t) = S1x2.size := rfl

/-- An element of the block sits in the array at its own index. -/
theorem emb2_3 (t : Fin cfg2.N) (y : ((cfg2.win 3).xblock (cfg2.grid.coords t)).Idx) : ((cfg2.win 3).blk t).view.emb y = (y : S1x2.Idx) := by
  funext a; apply Fin.ext
  match a with
  | ⟨0, _⟩ => exact (cfg2.win 3).rect_emb_val_of_index_zero t (0 : Fin 2) (idx2_3 t).1 y
  | ⟨1, _⟩ => exact (cfg2.win 3).rect_emb_val_of_index_zero t (1 : Fin 2) (idx2_3 t).2 y

/-- Reading the array through the block: the array. -/
theorem read2_3 {Val : EltTy → Type} (t : Fin cfg2.N) (A : S1x2.Idx → Val .f32) :
    (((cfg2.win 3).blk t).view.read Val A : S1x2.Idx → Val .f32) = A := by
  funext y
  show A (((cfg2.win 3).blk t).view.emb y) = A y
  rw [emb2_3 t y]

/-! ## Region 2, window 4: the whole array of 4 rows and 2 columns, one block -/

/-- The block index at every point is `(0, 0)`. -/
theorem idx2_4 : ∀ t : Fin cfg2.N, (cfg2.win 4).index t (0 : Fin 2) = 0 ∧ (cfg2.win 4).index t (1 : Fin 2) = 0 :=
  (by decide +kernel : ∀ t : Fin grid2.N, win2_4.index t (0 : Fin 2) = 0 ∧ win2_4.index t (1 : Fin 2) = 0)

/-- No transfer is cut: it moves the whole block, which is the whole array. -/
theorem xs2_4 (t : Fin cfg2.N) : (cfg2.win 4).xsize (cfg2.grid.coords t) = S4x2.size := rfl

/-- An element of the block sits in the array at its own index. -/
theorem emb2_4 (t : Fin cfg2.N) (y : ((cfg2.win 4).xblock (cfg2.grid.coords t)).Idx) : ((cfg2.win 4).blk t).view.emb y = (y : S4x2.Idx) := by
  funext a; apply Fin.ext
  match a with
  | ⟨0, _⟩ => exact (cfg2.win 4).rect_emb_val_of_index_zero t (0 : Fin 2) (idx2_4 t).1 y
  | ⟨1, _⟩ => exact (cfg2.win 4).rect_emb_val_of_index_zero t (1 : Fin 2) (idx2_4 t).2 y

/-- Reading the array through the block: the array. -/
theorem read2_4 {Val : EltTy → Type} (t : Fin cfg2.N) (A : S4x2.Idx → Val .f32) :
    (((cfg2.win 4).blk t).view.read Val A : S4x2.Idx → Val .f32) = A := by
  funext y
  show A (((cfg2.win 4).blk t).view.emb y) = A y
  rw [emb2_4 t y]

/-! ## Region 2, window 5: the whole array of 2 rows and 2 columns, one block -/

/-- The block index at every point is `(0, 0)`. -/
theorem idx2_5 : ∀ t : Fin cfg2.N, (cfg2.win 5).index t (0 : Fin 2) = 0 ∧ (cfg2.win 5).index t (1 : Fin 2) = 0 :=
  (by decide +kernel : ∀ t : Fin grid2.N, win2_5.index t (0 : Fin 2) = 0 ∧ win2_5.index t (1 : Fin 2) = 0)

/-- No transfer is cut: it moves the whole block, which is the whole array. -/
theorem xs2_5 (t : Fin cfg2.N) : (cfg2.win 5).xsize (cfg2.grid.coords t) = S2x2.size := rfl

/-- An element of the block sits in the array at its own index. -/
theorem emb2_5 (t : Fin cfg2.N) (y : ((cfg2.win 5).xblock (cfg2.grid.coords t)).Idx) : ((cfg2.win 5).blk t).view.emb y = (y : S2x2.Idx) := by
  funext a; apply Fin.ext
  match a with
  | ⟨0, _⟩ => exact (cfg2.win 5).rect_emb_val_of_index_zero t (0 : Fin 2) (idx2_5 t).1 y
  | ⟨1, _⟩ => exact (cfg2.win 5).rect_emb_val_of_index_zero t (1 : Fin 2) (idx2_5 t).2 y

/-- Reading the array through the block: the array. -/
theorem read2_5 {Val : EltTy → Type} (t : Fin cfg2.N) (A : S2x2.Idx → Val .f32) :
    (((cfg2.win 5).blk t).view.read Val A : S2x2.Idx → Val .f32) = A := by
  funext y
  show A (((cfg2.win 5).blk t).view.emb y) = A y
  rw [emb2_5 t y]

/-! ## Region 2, window 6: the whole array of 1 row and 2 columns, one block -/

/-- The block index at every point is `(0, 0)`. -/
theorem idx2_6 : ∀ t : Fin cfg2.N, (cfg2.win 6).index t (0 : Fin 2) = 0 ∧ (cfg2.win 6).index t (1 : Fin 2) = 0 :=
  (by decide +kernel : ∀ t : Fin grid2.N, win2_6.index t (0 : Fin 2) = 0 ∧ win2_6.index t (1 : Fin 2) = 0)

/-- No transfer is cut: it moves the whole block, which is the whole array. -/
theorem xs2_6 (t : Fin cfg2.N) : (cfg2.win 6).xsize (cfg2.grid.coords t) = S1x2.size := rfl

/-- An element of the block sits in the array at its own index. -/
theorem emb2_6 (t : Fin cfg2.N) (y : ((cfg2.win 6).xblock (cfg2.grid.coords t)).Idx) : ((cfg2.win 6).blk t).view.emb y = (y : S1x2.Idx) := by
  funext a; apply Fin.ext
  match a with
  | ⟨0, _⟩ => exact (cfg2.win 6).rect_emb_val_of_index_zero t (0 : Fin 2) (idx2_6 t).1 y
  | ⟨1, _⟩ => exact (cfg2.win 6).rect_emb_val_of_index_zero t (1 : Fin 2) (idx2_6 t).2 y

/-- Reading the array through the block: the array. -/
theorem read2_6 {Val : EltTy → Type} (t : Fin cfg2.N) (A : S1x2.Idx → Val .f32) :
    (((cfg2.win 6).blk t).view.read Val A : S1x2.Idx → Val .f32) = A := by
  funext y
  show A (((cfg2.win 6).blk t).view.emb y) = A y
  rw [emb2_6 t y]

/-! ## Region 2, window 7: row blocks of 4096 of an array of 1000000 rows and 2 columns -/

/-- The block index at point `t` is `(t, 0)`. -/
theorem idx2_7 : ∀ t : Fin cfg2.N, (cfg2.win 7).index t (0 : Fin 2) = t.val ∧ (cfg2.win 7).index t (1 : Fin 2) = 0 :=
  (by decide +kernel : ∀ t : Fin grid2.N, win2_7.index t (0 : Fin 2) = t.val ∧ win2_7.index t (1 : Fin 2) = 0)

/-- The rows the transfer at point `t` moves: 4096, cut at the array's end (244 · 4096 + 576 = 1000000); every column. -/
theorem xs2_7 : ∀ t : Fin cfg2.N, (cfg2.win 7).xsize (cfg2.grid.coords t) (0 : Fin 2) = min 4096 (1000000 - t.val * 4096)
    ∧ (cfg2.win 7).xsize (cfg2.grid.coords t) (1 : Fin 2) = 2 :=
  (by decide +kernel : ∀ t : Fin grid2.N, win2_7.xsize (grid2.coords t) (0 : Fin 2) = min 4096 (1000000 - t.val * 4096)
    ∧ win2_7.xsize (grid2.coords t) (1 : Fin 2) = 2)

/-- A row of the moved part is below the cut size, -/
theorem y0_lt2_7 (t : Fin cfg2.N) (y : ((cfg2.win 7).xblock (cfg2.grid.coords t)).Idx) : (y 0).val < min 4096 (1000000 - t.val * 4096) :=
  Nat.lt_of_lt_of_eq (y 0).isLt (xs2_7 t).1
/-- and a column below the width. -/
theorem y1_lt2_7 (t : Fin cfg2.N) (y : ((cfg2.win 7).xblock (cfg2.grid.coords t)).Idx) : (y 1).val < 2 :=
  Nat.lt_of_lt_of_eq (y 1).isLt (xs2_7 t).2

/-- An element of the block at point `t` sits in the array at row `t · 4096 +` its row, -/
theorem emb2_7_0 (t : Fin cfg2.N) (y : ((cfg2.win 7).xblock (cfg2.grid.coords t)).Idx) :
    (((cfg2.win 7).blk t).view.emb y (0 : Fin 2)).val = t.val * 4096 + (y 0).val := by
  have h := (cfg2.win 7).rect_emb_val t y (0 : Fin 2)
  rw [(idx2_7 t).1] at h
  exact h
/-- at its own column. -/
theorem emb2_7_1 (t : Fin cfg2.N) (y : ((cfg2.win 7).xblock (cfg2.grid.coords t)).Idx) :
    (((cfg2.win 7).blk t).view.emb y (1 : Fin 2)).val = (y 1).val := by
  have h := (cfg2.win 7).rect_emb_val t y (1 : Fin 2)
  rw [(idx2_7 t).2] at h
  exact h.trans (by omega)

/-- The same as one equation of indices. -/
theorem emb2_7 (t : Fin cfg2.N) (y : ((cfg2.win 7).xblock (cfg2.grid.coords t)).Idx) :
    ((cfg2.win 7).blk t).view.emb y
      = (ix2 ⟨t.val * 4096 + (y 0).val, row_lt (y0_lt2_7 t y)⟩ ⟨(y 1).val, y1_lt2_7 t y⟩ : S1000000x2.Idx) := by
  funext a; apply Fin.ext
  match a with
  | ⟨0, _⟩ => exact emb2_7_0 t y
  | ⟨1, _⟩ => exact emb2_7_1 t y

/-- Reading the array through the block at point `t`: the array at row `t · 4096 +` the row. -/
theorem read2_7 {Val : EltTy → Type} (t : Fin cfg2.N) (A : S1000000x2.Idx → Val .f32) (y : ((cfg2.win 7).xblock (cfg2.grid.coords t)).Idx) :
    ((cfg2.win 7).blk t).view.read Val A y
      = A (ix2 ⟨t.val * 4096 + (y 0).val, row_lt (y0_lt2_7 t y)⟩ ⟨(y 1).val, y1_lt2_7 t y⟩) := by
  rw [← emb2_7 t y]; rfl

/-- An index of the array is in the block at point `t` iff its row is among the block's rows inside the array. -/
theorem mem_blk2_7 (t : Fin cfg2.N) (i : S1000000x2.Idx) :
    i ∈ ((cfg2.win 7).blk t).view.set
      ↔ t.val * 4096 ≤ (i 0).val ∧ (i 0).val < t.val * 4096 + min 4096 (1000000 - t.val * 4096) := by
  show i ∈ ((View.whole main_v66_0).slice (win2_7.rect t)).set ↔ _
  rw [View.set_slice_whole, Rect.mem_set_unit]
  obtain ⟨e0, e1⟩ := idx2_7 t
  obtain ⟨s0, s1⟩ := xs2_7 t
  have h1 : (i 1).val < 2 := (i 1).isLt
  refine ⟨fun h => ?_, fun h a => ?_⟩
  · have h0 := h (0 : Fin 2)
    change win2_7.index t (0 : Fin 2) * 4096 ≤ (i 0).val
      ∧ (i 0).val < win2_7.index t (0 : Fin 2) * 4096 + win2_7.xsize (grid2.coords t) (0 : Fin 2) at h0
    rw [e0, s0] at h0; exact h0
  · match a with
    | ⟨0, _⟩ =>
      change win2_7.index t (0 : Fin 2) * 4096 ≤ (i 0).val
        ∧ (i 0).val < win2_7.index t (0 : Fin 2) * 4096 + win2_7.xsize (grid2.coords t) (0 : Fin 2)
      rw [e0, s0]; exact h
    | ⟨1, _⟩ =>
      change win2_7.index t (1 : Fin 2) * 2 ≤ (i 1).val
        ∧ (i 1).val < win2_7.index t (1 : Fin 2) * 2 + win2_7.xsize (grid2.coords t) (1 : Fin 2)
      rw [e1, s1]; omega

/-- The index of the moved part of the block at point `t` with row `r` (below the cut size) and column `k`. -/
def xix2_7 (t : Fin cfg2.N) (r : Nat) (hr : r < min 4096 (1000000 - t.val * 4096)) (k : Fin 2) : ((cfg2.win 7).xblock (cfg2.grid.coords t)).Idx :=
  fun a => match a with
    | ⟨0, _⟩ => ⟨r, Nat.lt_of_lt_of_eq hr (xs2_7 t).1.symm⟩
    | ⟨1, _⟩ => ⟨k.val, Nat.lt_of_lt_of_eq k.isLt (xs2_7 t).2.symm⟩
theorem xix2_7_0 (t : Fin cfg2.N) (r : Nat) (hr : r < min 4096 (1000000 - t.val * 4096)) (k : Fin 2) :
    (xix2_7 t r hr k 0).val = r := rfl
theorem xix2_7_1 (t : Fin cfg2.N) (r : Nat) (hr : r < min 4096 (1000000 - t.val * 4096)) (k : Fin 2) :
    (xix2_7 t r hr k 1).val = k.val := rfl
/-- Every index of the moved part is of that form. -/
theorem eq_xix2_7 (t : Fin cfg2.N) (y : ((cfg2.win 7).xblock (cfg2.grid.coords t)).Idx) :
    y = xix2_7 t (y 0).val (y0_lt2_7 t y) ⟨(y 1).val, y1_lt2_7 t y⟩ := by
  funext a; match a with | ⟨0, _⟩ => rfl | ⟨1, _⟩ => rfl

/-- Reading the array through the block at point `t`, at row `r` and column `k` of its moved part. -/
theorem read_xix2_7 {Val : EltTy → Type} (t : Fin cfg2.N) (A : S1000000x2.Idx → Val .f32) (r : Nat)
    (hr : r < min 4096 (1000000 - t.val * 4096)) (k : Fin 2) :
    ((cfg2.win 7).blk t).view.read Val A (xix2_7 t r hr k) = A (ix2 ⟨t.val * 4096 + r, row_lt hr⟩ k) :=
  read2_7 t A _

/-- The moved part of contents `X` of the block, at an index: `X` at the same row and column. -/
theorem cut2_7 {α : Type} (t : Fin cfg2.N) (X : S4096x2.Idx → α) (y : ((cfg2.win 7).xblock (cfg2.grid.coords t)).Idx) :
    (cfg2.win 7).cut (cfg2.grid.coords t) X y
      = X (ix2 ⟨(y 0).val, lt_block (y0_lt2_7 t y)⟩ ⟨(y 1).val, y1_lt2_7 t y⟩) :=
  congrArg X (funext fun a => match a with | ⟨0, _⟩ => rfl | ⟨1, _⟩ => rfl)

/-- Contents `d` of the block with the moved part replaced by `g`, at a row below the cut size: `g` there. -/
theorem fill2_7 {α : Type} (t : Fin cfg2.N) (d : S4096x2.Idx → α) (g : ((cfg2.win 7).xblock (cfg2.grid.coords t)).Idx → α) (j : S4096x2.Idx)
    (h : (j 0).val < min 4096 (1000000 - t.val * 4096)) :
    (cfg2.win 7).fill (cfg2.grid.coords t) d g j = g (xix2_7 t (j 0).val h (j 1)) := by
  have hm : (cfg2.win 7).moved (cfg2.grid.coords t) j = true := ((cfg2.win 7).moved_iff _ j).mpr fun a => by
    match a with
    | ⟨0, _⟩ => exact Nat.lt_of_lt_of_eq h (xs2_7 t).1.symm
    | ⟨1, _⟩ => exact Nat.lt_of_lt_of_eq (j 1).isLt (xs2_7 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read2_7 {Val : EltTy → Type} (t : Fin cfg2.N) (d : S4096x2.Idx → Val .f32) (A : S1000000x2.Idx → Val .f32)
    (j : S4096x2.Idx) (h : (j 0).val < min 4096 (1000000 - t.val * 4096)) :
    (cfg2.win 7).fill (cfg2.grid.coords t) d (((cfg2.win 7).blk t).view.read Val A) j
      = A (ix2 ⟨t.val * 4096 + (j 0).val, row_lt h⟩ (j 1)) :=
  (fill2_7 t d _ j h).trans (read_xix2_7 t A _ h _)

/-- Every index of the array is in the block of the point `row / 4096`, which writes it back. -/
theorem blocksCover2_7 : ∀ i : S1000000x2.Idx, ∃ t : Fin cfg2.N, (cfg2.win 7).flush t = true ∧ i ∈ ((cfg2.win 7).blk t).view.set := by
  intro i
  have hi : (i 0).val < 1000000 := (i 0).isLt
  refine ⟨⟨(i 0).val / 4096, Nat.lt_of_lt_of_eq (by omega) N_2.symm⟩, flush2_7 _, ?_⟩
  rw [mem_blk2_7]
  show (i 0).val / 4096 * 4096 ≤ (i 0).val
    ∧ (i 0).val < (i 0).val / 4096 * 4096 + min 4096 (1000000 - (i 0).val / 4096 * 4096)
  omega

/-- The index inside that block: row `row % 4096`, the same column. -/
def blkIdx2_7 (i : S1000000x2.Idx) : ((cfg2.win 7).xblock (cfg2.grid.coords (pt2 (i 0)))).Idx :=
  xix2_7 (pt2 (i 0)) ((i 0).val % 4096) (rem_lt (i 0).isLt) (i 1)

/-- It sits in the array at `i`. -/
theorem emb_blkIdx2_7 (i : S1000000x2.Idx) : ((cfg2.win 7).blk (pt2 (i 0))).view.emb (blkIdx2_7 i) = i := by
  rw [emb2_7]
  funext a; apply Fin.ext
  match a with
  | ⟨0, _⟩ => show (i 0).val / 4096 * 4096 + (i 0).val % 4096 = (i 0).val; omega
  | ⟨1, _⟩ => rfl

/-- THE WHOLE ARRAY: if every point writes back its block of one contents `G`, the array ends holding `G`. -/
theorem final2_7 {Val : EltTy → Type} {Ix : Type} [DecidableEq Ix] {Name : Type} [DecidableEq Name] {U : Type} [Idealize.SL.RA.URA U]
    {Lvl : Type} {c : Dev nD} (dat : Dat τ Val Ix Name U Lvl cfg2 c)
    (G : Buf Val ((cfg2.win 7).arr.view.loc (c.tc : Thread nD τ)))
    (hG : ∀ t, dat.flushed 7 t = ((cfg2.win 7).blk t).view.read Val G) :
    dat.arrAt 7 cfg2.N = G :=
  dat.arrAt_eq_of_cover 7 G (fun t _ => hG t) blocksCover2_7

/-! ## Region 2, window 8: row blocks of 4096 of an array of 1000000 rows and 2 columns -/

/-- The block index at point `t` is `(t, 0)`. -/
theorem idx2_8 : ∀ t : Fin cfg2.N, (cfg2.win 8).index t (0 : Fin 2) = t.val ∧ (cfg2.win 8).index t (1 : Fin 2) = 0 :=
  (by decide +kernel : ∀ t : Fin grid2.N, win2_8.index t (0 : Fin 2) = t.val ∧ win2_8.index t (1 : Fin 2) = 0)

/-- The rows the transfer at point `t` moves: 4096, cut at the array's end (244 · 4096 + 576 = 1000000); every column. -/
theorem xs2_8 : ∀ t : Fin cfg2.N, (cfg2.win 8).xsize (cfg2.grid.coords t) (0 : Fin 2) = min 4096 (1000000 - t.val * 4096)
    ∧ (cfg2.win 8).xsize (cfg2.grid.coords t) (1 : Fin 2) = 2 :=
  (by decide +kernel : ∀ t : Fin grid2.N, win2_8.xsize (grid2.coords t) (0 : Fin 2) = min 4096 (1000000 - t.val * 4096)
    ∧ win2_8.xsize (grid2.coords t) (1 : Fin 2) = 2)

/-- A row of the moved part is below the cut size, -/
theorem y0_lt2_8 (t : Fin cfg2.N) (y : ((cfg2.win 8).xblock (cfg2.grid.coords t)).Idx) : (y 0).val < min 4096 (1000000 - t.val * 4096) :=
  Nat.lt_of_lt_of_eq (y 0).isLt (xs2_8 t).1
/-- and a column below the width. -/
theorem y1_lt2_8 (t : Fin cfg2.N) (y : ((cfg2.win 8).xblock (cfg2.grid.coords t)).Idx) : (y 1).val < 2 :=
  Nat.lt_of_lt_of_eq (y 1).isLt (xs2_8 t).2

/-- An element of the block at point `t` sits in the array at row `t · 4096 +` its row, -/
theorem emb2_8_0 (t : Fin cfg2.N) (y : ((cfg2.win 8).xblock (cfg2.grid.coords t)).Idx) :
    (((cfg2.win 8).blk t).view.emb y (0 : Fin 2)).val = t.val * 4096 + (y 0).val := by
  have h := (cfg2.win 8).rect_emb_val t y (0 : Fin 2)
  rw [(idx2_8 t).1] at h
  exact h
/-- at its own column. -/
theorem emb2_8_1 (t : Fin cfg2.N) (y : ((cfg2.win 8).xblock (cfg2.grid.coords t)).Idx) :
    (((cfg2.win 8).blk t).view.emb y (1 : Fin 2)).val = (y 1).val := by
  have h := (cfg2.win 8).rect_emb_val t y (1 : Fin 2)
  rw [(idx2_8 t).2] at h
  exact h.trans (by omega)

/-- The same as one equation of indices. -/
theorem emb2_8 (t : Fin cfg2.N) (y : ((cfg2.win 8).xblock (cfg2.grid.coords t)).Idx) :
    ((cfg2.win 8).blk t).view.emb y
      = (ix2 ⟨t.val * 4096 + (y 0).val, row_lt (y0_lt2_8 t y)⟩ ⟨(y 1).val, y1_lt2_8 t y⟩ : S1000000x2.Idx) := by
  funext a; apply Fin.ext
  match a with
  | ⟨0, _⟩ => exact emb2_8_0 t y
  | ⟨1, _⟩ => exact emb2_8_1 t y

/-- Reading the array through the block at point `t`: the array at row `t · 4096 +` the row. -/
theorem read2_8 {Val : EltTy → Type} (t : Fin cfg2.N) (A : S1000000x2.Idx → Val .f32) (y : ((cfg2.win 8).xblock (cfg2.grid.coords t)).Idx) :
    ((cfg2.win 8).blk t).view.read Val A y
      = A (ix2 ⟨t.val * 4096 + (y 0).val, row_lt (y0_lt2_8 t y)⟩ ⟨(y 1).val, y1_lt2_8 t y⟩) := by
  rw [← emb2_8 t y]; rfl

/-- An index of the array is in the block at point `t` iff its row is among the block's rows inside the array. -/
theorem mem_blk2_8 (t : Fin cfg2.N) (i : S1000000x2.Idx) :
    i ∈ ((cfg2.win 8).blk t).view.set
      ↔ t.val * 4096 ≤ (i 0).val ∧ (i 0).val < t.val * 4096 + min 4096 (1000000 - t.val * 4096) := by
  show i ∈ ((View.whole main_v66_1).slice (win2_8.rect t)).set ↔ _
  rw [View.set_slice_whole, Rect.mem_set_unit]
  obtain ⟨e0, e1⟩ := idx2_8 t
  obtain ⟨s0, s1⟩ := xs2_8 t
  have h1 : (i 1).val < 2 := (i 1).isLt
  refine ⟨fun h => ?_, fun h a => ?_⟩
  · have h0 := h (0 : Fin 2)
    change win2_8.index t (0 : Fin 2) * 4096 ≤ (i 0).val
      ∧ (i 0).val < win2_8.index t (0 : Fin 2) * 4096 + win2_8.xsize (grid2.coords t) (0 : Fin 2) at h0
    rw [e0, s0] at h0; exact h0
  · match a with
    | ⟨0, _⟩ =>
      change win2_8.index t (0 : Fin 2) * 4096 ≤ (i 0).val
        ∧ (i 0).val < win2_8.index t (0 : Fin 2) * 4096 + win2_8.xsize (grid2.coords t) (0 : Fin 2)
      rw [e0, s0]; exact h
    | ⟨1, _⟩ =>
      change win2_8.index t (1 : Fin 2) * 2 ≤ (i 1).val
        ∧ (i 1).val < win2_8.index t (1 : Fin 2) * 2 + win2_8.xsize (grid2.coords t) (1 : Fin 2)
      rw [e1, s1]; omega

/-- The index of the moved part of the block at point `t` with row `r` (below the cut size) and column `k`. -/
def xix2_8 (t : Fin cfg2.N) (r : Nat) (hr : r < min 4096 (1000000 - t.val * 4096)) (k : Fin 2) : ((cfg2.win 8).xblock (cfg2.grid.coords t)).Idx :=
  fun a => match a with
    | ⟨0, _⟩ => ⟨r, Nat.lt_of_lt_of_eq hr (xs2_8 t).1.symm⟩
    | ⟨1, _⟩ => ⟨k.val, Nat.lt_of_lt_of_eq k.isLt (xs2_8 t).2.symm⟩
theorem xix2_8_0 (t : Fin cfg2.N) (r : Nat) (hr : r < min 4096 (1000000 - t.val * 4096)) (k : Fin 2) :
    (xix2_8 t r hr k 0).val = r := rfl
theorem xix2_8_1 (t : Fin cfg2.N) (r : Nat) (hr : r < min 4096 (1000000 - t.val * 4096)) (k : Fin 2) :
    (xix2_8 t r hr k 1).val = k.val := rfl
/-- Every index of the moved part is of that form. -/
theorem eq_xix2_8 (t : Fin cfg2.N) (y : ((cfg2.win 8).xblock (cfg2.grid.coords t)).Idx) :
    y = xix2_8 t (y 0).val (y0_lt2_8 t y) ⟨(y 1).val, y1_lt2_8 t y⟩ := by
  funext a; match a with | ⟨0, _⟩ => rfl | ⟨1, _⟩ => rfl

/-- Reading the array through the block at point `t`, at row `r` and column `k` of its moved part. -/
theorem read_xix2_8 {Val : EltTy → Type} (t : Fin cfg2.N) (A : S1000000x2.Idx → Val .f32) (r : Nat)
    (hr : r < min 4096 (1000000 - t.val * 4096)) (k : Fin 2) :
    ((cfg2.win 8).blk t).view.read Val A (xix2_8 t r hr k) = A (ix2 ⟨t.val * 4096 + r, row_lt hr⟩ k) :=
  read2_8 t A _

/-- The moved part of contents `X` of the block, at an index: `X` at the same row and column. -/
theorem cut2_8 {α : Type} (t : Fin cfg2.N) (X : S4096x2.Idx → α) (y : ((cfg2.win 8).xblock (cfg2.grid.coords t)).Idx) :
    (cfg2.win 8).cut (cfg2.grid.coords t) X y
      = X (ix2 ⟨(y 0).val, lt_block (y0_lt2_8 t y)⟩ ⟨(y 1).val, y1_lt2_8 t y⟩) :=
  congrArg X (funext fun a => match a with | ⟨0, _⟩ => rfl | ⟨1, _⟩ => rfl)

/-- Contents `d` of the block with the moved part replaced by `g`, at a row below the cut size: `g` there. -/
theorem fill2_8 {α : Type} (t : Fin cfg2.N) (d : S4096x2.Idx → α) (g : ((cfg2.win 8).xblock (cfg2.grid.coords t)).Idx → α) (j : S4096x2.Idx)
    (h : (j 0).val < min 4096 (1000000 - t.val * 4096)) :
    (cfg2.win 8).fill (cfg2.grid.coords t) d g j = g (xix2_8 t (j 0).val h (j 1)) := by
  have hm : (cfg2.win 8).moved (cfg2.grid.coords t) j = true := ((cfg2.win 8).moved_iff _ j).mpr fun a => by
    match a with
    | ⟨0, _⟩ => exact Nat.lt_of_lt_of_eq h (xs2_8 t).1.symm
    | ⟨1, _⟩ => exact Nat.lt_of_lt_of_eq (j 1).isLt (xs2_8 t).2.symm
  unfold Pipeline.Window.fill
  rw [dif_pos hm]
  exact congrArg g (funext fun a => match a with | ⟨0, _⟩ => rfl | ⟨1, _⟩ => rfl)

/-- A staging buffer just filled from the array at point `t`, at a row below the cut size: the array at row
    `t · 4096 +` the row. -/
theorem fill_read2_8 {Val : EltTy → Type} (t : Fin cfg2.N) (d : S4096x2.Idx → Val .f32) (A : S1000000x2.Idx → Val .f32)
    (j : S4096x2.Idx) (h : (j 0).val < min 4096 (1000000 - t.val * 4096)) :
    (cfg2.win 8).fill (cfg2.grid.coords t) d (((cfg2.win 8).blk t).view.read Val A) j
      = A (ix2 ⟨t.val * 4096 + (j 0).val, row_lt h⟩ (j 1)) :=
  (fill2_8 t d _ j h).trans (read_xix2_8 t A _ h _)

/-- Every index of the array is in the block of the point `row / 4096`, which writes it back. -/
theorem blocksCover2_8 : ∀ i : S1000000x2.Idx, ∃ t : Fin cfg2.N, (cfg2.win 8).flush t = true ∧ i ∈ ((cfg2.win 8).blk t).view.set := by
  intro i
  have hi : (i 0).val < 1000000 := (i 0).isLt
  refine ⟨⟨(i 0).val / 4096, Nat.lt_of_lt_of_eq (by omega) N_2.symm⟩, flush2_8 _, ?_⟩
  rw [mem_blk2_8]
  show (i 0).val / 4096 * 4096 ≤ (i 0).val
    ∧ (i 0).val < (i 0).val / 4096 * 4096 + min 4096 (1000000 - (i 0).val / 4096 * 4096)
  omega

/-- The index inside that block: row `row % 4096`, the same column. -/
def blkIdx2_8 (i : S1000000x2.Idx) : ((cfg2.win 8).xblock (cfg2.grid.coords (pt2 (i 0)))).Idx :=
  xix2_8 (pt2 (i 0)) ((i 0).val % 4096) (rem_lt (i 0).isLt) (i 1)

/-- It sits in the array at `i`. -/
theorem emb_blkIdx2_8 (i : S1000000x2.Idx) : ((cfg2.win 8).blk (pt2 (i 0))).view.emb (blkIdx2_8 i) = i := by
  rw [emb2_8]
  funext a; apply Fin.ext
  match a with
  | ⟨0, _⟩ => show (i 0).val / 4096 * 4096 + (i 0).val % 4096 = (i 0).val; omega
  | ⟨1, _⟩ => rfl

/-- THE WHOLE ARRAY: if every point writes back its block of one contents `G`, the array ends holding `G`. -/
theorem final2_8 {Val : EltTy → Type} {Ix : Type} [DecidableEq Ix] {Name : Type} [DecidableEq Name] {U : Type} [Idealize.SL.RA.URA U]
    {Lvl : Type} {c : Dev nD} (dat : Dat τ Val Ix Name U Lvl cfg2 c)
    (G : Buf Val ((cfg2.win 8).arr.view.loc (c.tc : Thread nD τ)))
    (hG : ∀ t, dat.flushed 8 t = ((cfg2.win 8).blk t).view.read Val G) :
    dat.arrAt 8 cfg2.N = G :=
  dat.arrAt_eq_of_cover 8 G (fun t _ => hG t) blocksCover2_8

end Cert.KernelIdeal.Hand

end
-- ==== Proof.KI.Final2.lean ====
/-
  The third layer's pipeline, at the ideal instance, as functions of the arrays it finds: the hidden output array
  ends holding, at row r and column j, the maximum with zero of the bias plus, for each of the four input columns in
  turn, the aggregated entry of row r times its weight and then the feature entry of row r times its weight; the
  read-out array ends holding its bias plus the two hidden entries of row r times their weights. Every point writes
  back its blocks of those functions, and the blocks cover the arrays.
-/
import proofs.«180108_j33234456937224_1_alg».proof.Proof.KI.Region2
import proofs.«180108_j33234456937224_1_alg».proof.Proof.KI.Geometry2
import proofs.«180108_j33234456937224_1_alg».proof.Proof.KI.PayloadsIdeal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The third layer over whole arrays, the bias a row, the additions in the kernel's order. -/
def lay42 (a x : FVec Ideal S1000000x4 .f32) (wl : FVec Ideal S4x2 .f32) (bb : FVec Ideal S1x2 .f32)
    (wr : FVec Ideal S4x2 .f32) : FVec Ideal S1000000x2 .f32 := fun i =>
  max ((((((((bb (ix2 0 (i 1))
    + a (ix2 (i 0) 0) * wl (ix2 0 (i 1))) + x (ix2 (i 0) 0) * wr (ix2 0 (i 1)))
    + a (ix2 (i 0) 1) * wl (ix2 1 (i 1))) + x (ix2 (i 0) 1) * wr (ix2 1 (i 1)))
    + a (ix2 (i 0) 2) * wl (ix2 2 (i 1))) + x (ix2 (i 0) 2) * wr (ix2 2 (i 1)))
    + a (ix2 (i 0) 3) * wl (ix2 3 (i 1))) + x (ix2 (i 0) 3) * wr (ix2 3 (i 1))) 0

/-- The read-out over whole arrays, the bias a row. -/
def clsr (h : FVec Ideal S1000000x2 .f32) (wc : FVec Ideal S2x2 .f32) (bcr : FVec Ideal S1x2 .f32) :
    FVec Ideal S1000000x2 .f32 := fun i =>
  (bcr (ix2 0 (i 1)) + h (ix2 (i 0) 0) * wc (ix2 0 (i 1))) + h (ix2 (i 0) 1) * wc (ix2 1 (i 1))

section
variable {F : FTy → Type} [FloatOps F]
variable (V : (c : Dev nD) → (b : Ref sig .tc) → Buf (Elt F) ((c : Thread nD τ).loc b))

/-- The aggregated tile at point `t`, at a row `r` inside the array: the aggregated array at row t · 4096 + r. -/
theorem atile2_apply (c : Dev nD) (t : Fin cfg2.N) (r : Nat) (h : r < min 4096 (1000000 - t.val * 4096)) (k : Fin 4) :
    atile2 V c t (ix2 ⟨r, lt_block h⟩ k) = V c main_v63 (ix2 ⟨t.val * 4096 + r, row_lt h⟩ k) :=
  fill_read2_0 t _ (V c main_v63) (ix2 ⟨r, lt_block h⟩ k) h
/-- The feature tile likewise. -/
theorem xtile2_apply (c : Dev nD) (t : Fin cfg2.N) (r : Nat) (h : r < min 4096 (1000000 - t.val * 4096)) (k : Fin 4) :
    xtile2 V c t (ix2 ⟨r, lt_block h⟩ k) = V c main_v44 (ix2 ⟨t.val * 4096 + r, row_lt h⟩ k) :=
  fill_read2_1 t _ (V c main_v44) (ix2 ⟨r, lt_block h⟩ k) h
/-- The weight blocks are the weight arrays. -/
theorem iblk2_2 (c : Dev nD) (t : Fin cfg2.N) : (iblk2 V c 2 t : S4x2.Idx → Elt F .f32) = V c main_arg8 :=
  read2_2 t (V c main_arg8)
theorem iblk2_3 (c : Dev nD) (t : Fin cfg2.N) : (iblk2 V c 3 t : S1x2.Idx → Elt F .f32) = V c main_v64 :=
  read2_3 t (V c main_v64)
theorem iblk2_4 (c : Dev nD) (t : Fin cfg2.N) : (iblk2 V c 4 t : S4x2.Idx → Elt F .f32) = V c main_arg10 :=
  read2_4 t (V c main_arg10)
theorem iblk2_5 (c : Dev nD) (t : Fin cfg2.N) : (iblk2 V c 5 t : S2x2.Idx → Elt F .f32) = V c main_arg11 :=
  read2_5 t (V c main_arg11)
theorem iblk2_6 (c : Dev nD) (t : Fin cfg2.N) : (iblk2 V c 6 t : S1x2.Idx → Elt F .f32) = V c main_v65 :=
  read2_6 t (V c main_v65)
end

variable (V : (c : Dev nD) → (b : Ref sig .tc) → Buf (Elt Ideal) ((c : Thread nD τ).loc b))

/-- What the body stores in the hidden tile at row `r` (inside the array) at point `t` is the layer at row
    t · 4096 + r. -/
theorem store2h_tile (c : Dev nD) (t : Fin cfg2.N) (r : Nat) (h : r < min 4096 (1000000 - t.val * 4096)) (j : Fin 2) :
    store2h (atile2 V c t) (xtile2 V c t) (iblk2 V c 2 t) (iblk2 V c 3 t) (iblk2 V c 4 t) (ix2 ⟨r, lt_block h⟩ j)
      = lay42 (V c main_v63) (V c main_v44) (V c main_arg8) (V c main_v64) (V c main_arg10)
          (ix2 ⟨t.val * 4096 + r, row_lt h⟩ j) := by
  refine (store2h_apply_ideal _ _ _ _ _ _ _).trans ?_
  rw [atile2_apply V c t r h 0, atile2_apply V c t r h 1, atile2_apply V c t r h 2, atile2_apply V c t r h 3,
    xtile2_apply V c t r h 0, xtile2_apply V c t r h 1, xtile2_apply V c t r h 2, xtile2_apply V c t r h 3,
    iblk2_2, iblk2_3, iblk2_4]
  rfl

/-- What the body stores in the read-out tile there is the read-out of the layer at row t · 4096 + r. -/
theorem store2o_tile (c : Dev nD) (t : Fin cfg2.N) (r : Nat) (h : r < min 4096 (1000000 - t.val * 4096)) (j : Fin 2) :
    store2o (atile2 V c t) (xtile2 V c t) (iblk2 V c 2 t) (iblk2 V c 3 t) (iblk2 V c 4 t) (iblk2 V c 5 t) (iblk2 V c 6 t)
        (ix2 ⟨r, lt_block h⟩ j)
      = clsr (lay42 (V c main_v63) (V c main_v44) (V c main_arg8) (V c main_v64) (V c main_arg10)) (V c main_arg11) (V c main_v65)
          (ix2 ⟨t.val * 4096 + r, row_lt h⟩ j) := by
  refine (store2o_apply_ideal _ _ _ _ _ _ _ _ _).trans ?_
  rw [store2h_tile V c t r h 0, store2h_tile V c t r h 1, iblk2_5, iblk2_6]
  rfl

/-- What point `t` writes back to the hidden array is its block of the layer's function of the arrays. -/
theorem flushed2_7 (c : Dev nD) (t : Fin cfg2.N) :
    (dat2 (F := Ideal) V c).flushed 7 t
      = ((cfg2.win 7).blk t).view.read (Elt Ideal) (lay42 (V c main_v63) (V c main_v44) (V c main_arg8) (V c main_v64) (V c main_arg10)) := by
  funext y
  show (cfg2.win 7).cut (cfg2.grid.coords t) ((dat2 V c).after 7 t) y = _
  rw [after2_7]
  refine (cut2_7 t _ y).trans ?_
  refine Eq.trans ?_ (read2_7 t _ y).symm
  exact store2h_tile V c t (y 0).val (y0_lt2_7 t y) ⟨(y 1).val, y1_lt2_7 t y⟩

/-- What point `t` writes back to the read-out array is its block of the read-out of the layer. -/
theorem flushed2_8 (c : Dev nD) (t : Fin cfg2.N) :
    (dat2 (F := Ideal) V c).flushed 8 t
      = ((cfg2.win 8).blk t).view.read (Elt Ideal)
          (clsr (lay42 (V c main_v63) (V c main_v44) (V c main_arg8) (V c main_v64) (V c main_arg10)) (V c main_arg11) (V c main_v65)) := by
  funext y
  show (cfg2.win 8).cut (cfg2.grid.coords t) ((dat2 V c).after 8 t) y = _
  rw [after2_8]
  refine (cut2_8 t _ y).trans ?_
  refine Eq.trans ?_ (read2_8 t _ y).symm
  exact store2o_tile V c t (y 0).val (y0_lt2_8 t y) ⟨(y 1).val, y1_lt2_8 t y⟩

/-- THE THIRD LAYER'S ARRAY after the pipeline. -/
theorem final2h (c : Dev nD) :
    (dat2 (F := Ideal) V c).arrAt 7 cfg2.N = lay42 (V c main_v63) (V c main_v44) (V c main_arg8) (V c main_v64) (V c main_arg10) :=
  final2_7 (dat2 V c) _ (flushed2_7 V c)

/-- THE READ-OUT ARRAY after the pipeline. -/
theorem final2o (c : Dev nD) :
    (dat2 (F := Ideal) V c).arrAt 8 cfg2.N
      = clsr (lay42 (V c main_v63) (V c main_v44) (V c main_arg8) (V c main_v64) (V c main_arg10)) (V c main_arg11) (V c main_v65) :=
  final2_8 (dat2 V c) _ (flushed2_8 V c)

end Cert.KernelIdeal.Hand

end
-- ==== Proof.KI.ValueLayers.lean ====
/-
  The layers with the bias given as a one-row matrix are the specification's layers with the bias
  a vector, once the row read at column j is the vector's entry j: the two differ in that one read.
-/
import proofs.«180108_j33234456937224_1_alg».proof.Proof.Spec
import proofs.«180108_j33234456937224_1_alg».proof.Proof.KI.Final0
import proofs.«180108_j33234456937224_1_alg».proof.Proof.KI.Final1
import proofs.«180108_j33234456937224_1_alg».proof.Proof.KI.Final2

noncomputable section

namespace Cert.KernelIdeal.Hand

open Cert.KernelIdeal Idealize.ShloMosaic Idealize.ShloMosaic.ValueIdx

/-- The first layer. -/
theorem lay1_layer1 {a a' x x' : FVec Ideal S1000000x1 .f32} {wl wl' wr wr' bb : FVec Ideal S1x4 .f32}
    {b : FVec Ideal S4 .f32} (ha : a = a') (hx : x = x') (hwl : wl = wl')
    (hb : ∀ j : Fin 4, bb (ix2 0 j) = b (ix1 j)) (hwr : wr = wr') :
    lay1 a x wl bb wr = Cert.Sage.layer1 a' x' wl' b wr' := by
  subst ha hx hwl hwr
  funext i
  unfold lay1 Cert.Sage.layer1
  rw [hb (i 1)]

/-- The second layer. -/
theorem lay44_layer44 {a a' x x' : FVec Ideal S1000000x4 .f32} {wl wl' wr wr' : FVec Ideal S4x4 .f32}
    {bb : FVec Ideal S1x4 .f32} {b : FVec Ideal S4 .f32} (ha : a = a') (hx : x = x') (hwl : wl = wl')
    (hb : ∀ j : Fin 4, bb (ix2 0 j) = b (ix1 j)) (hwr : wr = wr') :
    lay44 a x wl bb wr = Cert.Sage.layer44 a' x' wl' b wr' := by
  subst ha hx hwl hwr
  funext i
  unfold lay44 Cert.Sage.layer44
  rw [hb (i 1)]

/-- The third layer. -/
theorem lay42_layer42 {a a' x x' : FVec Ideal S1000000x4 .f32} {wl wl' wr wr' : FVec Ideal S4x2 .f32}
    {bb : FVec Ideal S1x2 .f32} {b : FVec Ideal S2 .f32} (ha : a = a') (hx : x = x') (hwl : wl = wl')
    (hb : ∀ j : Fin 2, bb (ix2 0 j) = b (ix1 j)) (hwr : wr = wr') :
    lay42 a x wl bb wr = Cert.Sage.layer42 a' x' wl' b wr' := by
  subst ha hx hwl hwr
  funext i
  unfold lay42 Cert.Sage.layer42
  rw [hb (i 1)]

/-- The classifier. -/
theorem clsr_cls {h h' : FVec Ideal S1000000x2 .f32} {wc wc' : FVec Ideal S2x2 .f32}
    {bcr : FVec Ideal S1x2 .f32} {bc : FVec Ideal S2 .f32} (hh : h = h') (hwc : wc = wc')
    (hb : ∀ j : Fin 2, bcr (ix2 0 j) = bc (ix1 j)) :
    clsr h wc bcr = Cert.Sage.cls h' wc' bc := by
  subst hh hwc
  funext i
  unfold clsr Cert.Sage.cls
  rw [hb (i 1)]

end Cert.KernelIdeal.Hand

end
-- ==== Proof.KI.Value.lean ====
/-
  The kernel program's value at the ideal instance. Boundary by boundary: the first region leaves
  the specification's first hidden layer in its result array, the second the second, the third
  the third hidden layer and the classifier output; every weakly fair execution of the program
  therefore ends with the two results at `out` and `h3` of the arguments, the arguments unchanged.
-/
import proofs.«180108_j33234456937224_1_alg».proof.Proof.KI.ValueArgs
import proofs.«180108_j33234456937224_1_alg».proof.Proof.KI.ValueLayers

noncomputable section

namespace Cert.KernelIdeal.Hand

open Cert.KernelIdeal Cert.KernelIdeal.Gen Cert.KernelIdeal.HostV
open Idealize.ShloMosaic Idealize.ShloMosaic.TcCoe Idealize.SL.Sem Idealize.ShloMosaic.ValueIdx

variable (m : (ℓ : Loc nD τ sig) → Buf (Elt Ideal) ℓ) (ρ : Dev nD → PrngReg)

section
variable (c : Dev nD)

/-! ## Region 0: the first hidden layer -/

/-- Entering region 0, the aggregated features. -/
theorem W1_agg : W1 m ρ c (Proc.devRef .tc main_v21) = Cert.Sage.agg1 (m ((c : Thread nD τ).loc main_arg0)) (m ((c : Thread nD τ).loc main_arg1)) :=
  h0_agg (W0 m ρ c)
/-- Entering region 0, the bias row read at a column. -/
theorem W1_b (j : Fin 4) : (W1 m ρ c (Proc.devRef .tc main_v22) : FVec Ideal S1x4 .f32) (ix2 0 j)
    = (m ((c : Thread nD τ).loc main_arg3) : FVec Ideal S4 .f32) (ix1 j) :=
  h0_b_apply (W0 m ρ c) j

/-- Region 0 leaves the first hidden layer in its result array. -/
theorem W2_h1 : W2 m ρ c (Proc.devRef .tc main_v23) = Cert.Sage.h1 (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans <| (final0 (V1 m ρ) c).trans <|
    lay1_layer1 (W1_agg m ρ c) (W1_arg0 m ρ c) (W1_arg2 m ρ c) (W1_b m ρ c) (W1_arg4 m ρ c)

/-! ## Region 1: the second hidden layer -/

/-- Entering region 1, the aggregated first layer. -/
theorem W3_agg : W3 m ρ c (Proc.devRef .tc main_v42)
    = Cert.Sage.agg4 (Cert.Sage.h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
  (h1_agg (W2 m ρ c) (m ((c : Thread nD τ).loc main_arg1)) (W2_src m ρ c) (W2_dst m ρ c)).trans
    (congrArg (Cert.Sage.agg4 · (m ((c : Thread nD τ).loc main_arg1))) (W2_h1 m ρ c))
/-- Entering region 1, the first layer. -/
theorem W3_v23 : W3 m ρ c (Proc.devRef .tc main_v23) = Cert.Sage.h1 (m ((c : Thread nD τ).loc main_arg0)) (m ((c : Thread nD τ).loc main_arg1)) (m ((c : Thread nD τ).loc main_arg2)) (m ((c : Thread nD τ).loc main_arg3)) (m ((c : Thread nD τ).loc main_arg4)) :=
  (h1_keep_v23 (W2 m ρ c)).trans (W2_h1 m ρ c)
/-- Entering region 1, the bias row read at a column. -/
theorem W3_b (j : Fin 4) : (W3 m ρ c (Proc.devRef .tc main_v43) : FVec Ideal S1x4 .f32) (ix2 0 j)
    = (m ((c : Thread nD τ).loc main_arg6) : FVec Ideal S4 .f32) (ix1 j) :=
  (h1_b_apply (W2 m ρ c) j).trans (congrFun (W2_arg6 m ρ c) (ix1 j))

/-- Region 1 leaves the second hidden layer in its result array. -/
theorem W4_h2 : W4 m ρ c (Proc.devRef .tc main_v44) = Cert.Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans <| (final1 (V3 m ρ) c).trans <|
    lay44_layer44 (W3_agg m ρ c) (W3_v23 m ρ c) (W3_arg5 m ρ c) (W3_b m ρ c) (W3_arg7 m ρ c)

/-! ## Region 2: the third hidden layer and the classifier -/

/-- Entering region 2, the aggregated second layer. -/
theorem W5_agg : W5 m ρ c (Proc.devRef .tc main_v63)
    = Cert.Sage.agg4 (Cert.Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) :=
  (h2_agg (W4 m ρ c) (m ((c : Thread nD τ).loc main_arg1)) (W4_src m ρ c) (W4_dst m ρ c)).trans
    (congrArg (Cert.Sage.agg4 · (m ((c : Thread nD τ).loc main_arg1))) (W4_h2 m ρ c))
/-- Entering region 2, the second layer. -/
theorem W5_v44 : W5 m ρ c (Proc.devRef .tc main_v44) = Cert.Sage.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h2_keep_v44 (W4 m ρ c)).trans (W4_h2 m ρ c)
/-- Entering region 2, the third bias row read at a column. -/
theorem W5_b3 (j : Fin 2) : (W5 m ρ c (Proc.devRef .tc main_v64) : FVec Ideal S1x2 .f32) (ix2 0 j)
    = (m ((c : Thread nD τ).loc main_arg9) : FVec Ideal S2 .f32) (ix1 j) :=
  (h2_b3_apply (W4 m ρ c) j).trans (congrFun (W4_arg9 m ρ c) (ix1 j))
/-- Entering region 2, the classifier's bias row read at a column. -/
theorem W5_bc (j : Fin 2) : (W5 m ρ c (Proc.devRef .tc main_v65) : FVec Ideal S1x2 .f32) (ix2 0 j)
    = (m ((c : Thread nD τ).loc main_arg12) : FVec Ideal S2 .f32) (ix1 j) :=
  (h2_bc_apply (W4 m ρ c) j).trans (congrFun (W4_arg12 m ρ c) (ix1 j))

/-- The third layer over the arrays region 2 finds is the specification's. -/
theorem W5_lay42 :
    lay42 (V5 m ρ c main_v63) (V5 m ρ c main_v44) (V5 m ρ c main_arg8) (V5 m ρ c main_v64) (V5 m ρ c main_arg10)
      = Cert.Sage.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  lay42_layer42 (W5_agg m ρ c) (W5_v44 m ρ c) (W5_arg8 m ρ c) (W5_b3 m ρ c) (W5_arg10 m ρ c)

/-- Region 2 leaves the third hidden layer in its first result array. -/
theorem W6_h3 : W6 m ρ c (Proc.devRef .tc main_v66_0) = Cert.Sage.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 7).trans <| (final2h (V5 m ρ) c).trans (W5_lay42 m ρ c)

/-- Region 2 leaves the classifier output in its second result array. -/
theorem W6_out : W6 m ρ c (Proc.devRef .tc main_v66_1) = Cert.Sage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_arr m ρ c 8).trans <| (final2o (V5 m ρ) c).trans <|
    clsr_cls (W5_lay42 m ρ c) (W5_arg11 m ρ c) (W5_bc m ρ c)

end

/-! ## The run -/

/-- From any memory with zero counters every weakly fair execution of the program terminates with the
    classifier output and the third hidden layer of the specification in the two result arrays and the
    arguments unchanged. -/
theorem run_values : θ_run defs (onTc (τ := τ) (main (F := Ideal))) ⟨m, fun _ => 0, ρ⟩ (fun r => ∀ c : Dev nD,
      r.2.mem ((c.tc : Thread nD τ).loc main_v66_1) = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v66_0) = Cert.Sage.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v66_1 (by decide))).trans (W6_out m ρ c),
    (h c _ (mem_uc main_v66_0 (by decide))).trans (W6_h3 m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c)⟩) (run_all m ρ)

end Cert.KernelIdeal.Hand

end
-- ==== Proof.RefAgg.lean ====
/-
  The reference's three mean-aggregation chains are `agg1` / `agg4` of the specification: the same
  operations composed in the same order, so the equalities hold by unfolding the stage names.
-/
import proofs.«180108_j33234456937224_1_alg».proof.Proof.Spec
import proofs.«180108_j33234456937224_1_alg».proof.Proof.Gen.ReferenceIdeal.Read

noncomputable section

namespace Cert.Sage.Ref

open Cert.ReferenceIdeal Cert.ReferenceIdeal.Read Idealize.ShloMosaic Idealize.ShloMosaic.ValueIdx

set_option maxRecDepth 8192 in
/-- The first aggregation (of the input features). -/
theorem v21_eq (x0 : FVec Ideal S1000000x1 .f32) (x1 : Cert.Sage.Edges) : val_main_v21 (F := Ideal) x0 x1 = Cert.Sage.agg1 x0 x1 := by
  unfold val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_c val_main_c_0 val_main_cst val_main_cst_1 val_main_cst_2 val_main_cst_3 Cert.Sage.agg1
  rfl

set_option maxRecDepth 8192 in
/-- The second aggregation is `agg4` of the first hidden layer. -/
theorem v47_eq (x0 : FVec Ideal S1000000x1 .f32) (x1 : Cert.Sage.Edges) (x2 : FVec Ideal S1x4 .f32) (x3 : FVec Ideal S4 .f32) (x4 : FVec Ideal S1x4 .f32) :
    val_main_v47 (F := Ideal) x0 x1 x2 x3 x4 = Cert.Sage.agg4 (val_main_v28 (F := Ideal) x0 x1 x2 x3 x4) x1 := by
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v3 val_main_v2 val_main_v1 val_main_v0 val_main_c_4 val_main_c_5 val_main_cst_6 val_main_cst_7 val_main_cst_8 val_main_cst_9 Cert.Sage.agg4
  rfl

set_option maxRecDepth 8192 in
/-- The third aggregation is `agg4` of the second hidden layer. -/
theorem v73_eq (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) :
    val_main_v73 (F := Ideal) x0 x1 x2 x3 x4 x5 x6 x7 = Cert.Sage.agg4 (val_main_v54 (F := Ideal) x0 x1 x2 x3 x4 x5 x6 x7) x1 := by
  unfold val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v3 val_main_v2 val_main_v1 val_main_v0 val_main_c_10 val_main_c_11 val_main_cst_12 val_main_cst_13 val_main_cst_14 val_main_cst_15 Cert.Sage.agg4
  rfl

end Cert.Sage.Ref

end
-- ==== Proof.RefL1.lean ====
/-
  The reference's first layer, `relu (agg · Wl + b + x · Wr)` with one input column, is `layer1`
  of the specification: each product over the single contracted index is one term, and the sums
  agree by commutativity of `+` on the extended reals.
-/
import proofs.«180108_j33234456937224_1_alg».proof.Proof.RefAgg

noncomputable section

namespace Cert.Sage.Ref

open Cert.ReferenceIdeal Cert.ReferenceIdeal.Read Idealize.ShloMosaic Idealize.ShloMosaic.ValueIdx

/-- Three terms, the first two swapped. -/
theorem add3_comm {M : Type} [AddCommMonoid M] (b a x : M) : (a + b) + x = (b + a) + x := by
  rw [add_comm a b]

theorem lidx22 (i : S1000000x4.Idx) (k : Fin 1) : lidx_main_v22 i k = ix2 (i 0) k := by
  funext a; match a with | ⟨0, _⟩ => rfl | ⟨1, _⟩ => rfl
theorem ridx22 (i : S1000000x4.Idx) (k : Fin 1) : ridx_main_v22 i k = ix2 k (i 1) := by
  funext a; match a with | ⟨0, _⟩ => rfl | ⟨1, _⟩ => rfl
theorem lidx26 (i : S1000000x4.Idx) (k : Fin 1) : lidx_main_v26 i k = ix2 (i 0) k := by
  funext a; match a with | ⟨0, _⟩ => rfl | ⟨1, _⟩ => rfl
theorem ridx26 (i : S1000000x4.Idx) (k : Fin 1) : ridx_main_v26 i k = ix2 k (i 1) := by
  funext a; match a with | ⟨0, _⟩ => rfl | ⟨1, _⟩ => rfl
theorem bidx24 (i : S1000000x4.Idx) : idx_main_v23 (idx_main_v24 i) = ix1 (i 1) := by
  funext a; match a with | ⟨0, _⟩ => rfl

/-- The first hidden layer of the reference is `layer1` of the aggregated and the raw features. -/
theorem v28_eq (x0 : FVec Ideal S1000000x1 .f32) (x1 : Cert.Sage.Edges) (x2 : FVec Ideal S1x4 .f32) (x3 : FVec Ideal S4 .f32) (x4 : FVec Ideal S1x4 .f32) :
    val_main_v28 (F := Ideal) x0 x1 x2 x3 x4 = Cert.Sage.layer1 (Cert.Sage.agg1 x0 x1) x0 x2 x3 x4 := by
  funext i
  rw [val_main_v28_apply, val_main_v27_apply, val_main_v25_apply, val_main_v22_apply, val_main_v24_apply,
    val_main_v23_apply, val_main_v26_apply, val_main_call0_v0_apply, val_main_call0_cst_apply, v21_eq]
  simp only [Fin.sum_univ_one, lidx22, ridx22, lidx26, ridx26, bidx24, Ideal.maximumf_def, Ideal.addf_def,
    Ideal.ofBits_def, Ideal.ofBits_zero_f32]
  unfold Cert.Sage.layer1
  exact congrArg (max · 0) (add3_comm (M := EReal) _ _ _)

end Cert.Sage.Ref

end
-- ==== Proof.RefL2.lean ====
/-
  The reference's second layer, `relu (agg · Wl + b + h · Wr)` with four input columns, is
  `layer44` of the specification: each contraction is a sum of four products, and the two sums of
  nine terms agree by commutativity and associativity of `+` on the extended reals.
-/
import proofs.«180108_j33234456937224_1_alg».proof.Proof.RefAgg
import proofs.«180108_j33234456937224_1_alg».proof.Proof.RefL1

noncomputable section

namespace Cert.Sage.Ref

open Cert.ReferenceIdeal Cert.ReferenceIdeal.Read Idealize.ShloMosaic Idealize.ShloMosaic.ValueIdx

/-- Nine terms: a sum of four, a bias, a sum of four, against the interleaved left-nested chain. -/
theorem add9_comm {M : Type} [AddCommMonoid M] (b a0 a1 a2 a3 x0 x1 x2 x3 : M) :
    ((a0 + a1 + a2 + a3) + b) + (x0 + x1 + x2 + x3)
      = (((((((b + a0) + x0) + a1) + x1) + a2) + x2) + a3) + x3 := by
  abel

theorem lidx48 (i : S1000000x4.Idx) (k : Fin 4) : lidx_main_v48 i k = ix2 (i 0) k := by
  funext a; match a with | ⟨0, _⟩ => rfl | ⟨1, _⟩ => rfl
theorem ridx48 (i : S1000000x4.Idx) (k : Fin 4) : ridx_main_v48 i k = ix2 k (i 1) := by
  funext a; match a with | ⟨0, _⟩ => rfl | ⟨1, _⟩ => rfl
theorem lidx52 (i : S1000000x4.Idx) (k : Fin 4) : lidx_main_v52 i k = ix2 (i 0) k := by
  funext a; match a with | ⟨0, _⟩ => rfl | ⟨1, _⟩ => rfl
theorem ridx52 (i : S1000000x4.Idx) (k : Fin 4) : ridx_main_v52 i k = ix2 k (i 1) := by
  funext a; match a with | ⟨0, _⟩ => rfl | ⟨1, _⟩ => rfl
theorem bidx50 (i : S1000000x4.Idx) : idx_main_v49 (idx_main_v50 i) = ix1 (i 1) := by
  funext a; match a with | ⟨0, _⟩ => rfl

/-- The second hidden layer of the reference is `layer44` of the aggregated and the plain first layer. -/
theorem v54_eq (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) :
    val_main_v54 (F := Ideal) x0 x1 x2 x3 x4 x5 x6 x7 =
      Cert.Sage.layer44 (Cert.Sage.agg4 (val_main_v28 (F := Ideal) x0 x1 x2 x3 x4) x1) (val_main_v28 (F := Ideal) x0 x1 x2 x3 x4) x5 x6 x7 := by
  funext i
  rw [val_main_v54_apply, val_main_v53_apply, val_main_v51_apply, val_main_v48_apply, val_main_v50_apply,
    val_main_v49_apply, val_main_v52_apply, val_main_call1_v0_apply, val_main_call1_cst_apply, v47_eq]
  generalize val_main_v28 (F := Ideal) x0 x1 x2 x3 x4 = h
  simp only [Fin.sum_univ_four, lidx48, ridx48, lidx52, ridx52, bidx50, Ideal.maximumf_def, Ideal.addf_def,
    Ideal.ofBits_def, Ideal.ofBits_zero_f32]
  unfold Cert.Sage.layer44
  exact congrArg (max · 0) (add9_comm (M := EReal) _ _ _ _ _ _ _ _ _)

end Cert.Sage.Ref

end
-- ==== Proof.RefL3.lean ====
/-
  The reference's third layer (four input columns, two output columns) is `layer42` of the
  specification, and its classifier `h · Wc + bc` is `cls`: the contractions are sums of four and
  of two products, and the sums agree by commutativity and associativity of `+` on the extended reals.
-/
import proofs.«180108_j33234456937224_1_alg».proof.Proof.RefAgg
import proofs.«180108_j33234456937224_1_alg».proof.Proof.RefL2

noncomputable section

namespace Cert.Sage.Ref

open Cert.ReferenceIdeal Cert.ReferenceIdeal.Read Idealize.ShloMosaic Idealize.ShloMosaic.ValueIdx

/-- Three terms: a sum of two and a bias, against the left-nested chain from the bias. -/
theorem add3_bias {M : Type} [AddCommMonoid M] (b p q : M) : (p + q) + b = (b + p) + q := by
  abel

theorem lidx74 (i : S1000000x2.Idx) (k : Fin 4) : lidx_main_v74 i k = ix2 (i 0) k := by
  funext a; match a with | ⟨0, _⟩ => rfl | ⟨1, _⟩ => rfl
theorem ridx74 (i : S1000000x2.Idx) (k : Fin 4) : ridx_main_v74 i k = ix2 k (i 1) := by
  funext a; match a with | ⟨0, _⟩ => rfl | ⟨1, _⟩ => rfl
theorem lidx78 (i : S1000000x2.Idx) (k : Fin 4) : lidx_main_v78 i k = ix2 (i 0) k := by
  funext a; match a with | ⟨0, _⟩ => rfl | ⟨1, _⟩ => rfl
theorem ridx78 (i : S1000000x2.Idx) (k : Fin 4) : ridx_main_v78 i k = ix2 k (i 1) := by
  funext a; match a with | ⟨0, _⟩ => rfl | ⟨1, _⟩ => rfl
theorem bidx76 (i : S1000000x2.Idx) : idx_main_v75 (idx_main_v76 i) = ix1 (i 1) := by
  funext a; match a with | ⟨0, _⟩ => rfl
theorem lidx81 (i : S1000000x2.Idx) (k : Fin 2) : lidx_main_v81 i k = ix2 (i 0) k := by
  funext a; match a with | ⟨0, _⟩ => rfl | ⟨1, _⟩ => rfl
theorem ridx81 (i : S1000000x2.Idx) (k : Fin 2) : ridx_main_v81 i k = ix2 k (i 1) := by
  funext a; match a with | ⟨0, _⟩ => rfl | ⟨1, _⟩ => rfl
theorem bidx83 (i : S1000000x2.Idx) : idx_main_v82 (idx_main_v83 i) = ix1 (i 1) := by
  funext a; match a with | ⟨0, _⟩ => rfl

/-- The third hidden layer of the reference is `layer42` of the aggregated and the plain second layer. -/
theorem v80_eq (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) (x8 : FVec Ideal S4x2 .f32) (x9 : FVec Ideal S2 .f32) (x10 : FVec Ideal S4x2 .f32) :
    val_main_v80 (F := Ideal) x0 x1 x2 x3 x4 x5 x6 x7 x8 x9 x10 =
      Cert.Sage.layer42 (Cert.Sage.agg4 (val_main_v54 (F := Ideal) x0 x1 x2 x3 x4 x5 x6 x7) x1) (val_main_v54 (F := Ideal) x0 x1 x2 x3 x4 x5 x6 x7) x8 x9 x10 := by
  funext i
  rw [val_main_v80_apply, val_main_v79_apply, val_main_v77_apply, val_main_v74_apply, val_main_v76_apply,
    val_main_v75_apply, val_main_v78_apply, val_main_call2_v0_apply, val_main_call2_cst_apply, v73_eq]
  generalize val_main_v54 (F := Ideal) x0 x1 x2 x3 x4 x5 x6 x7 = h
  simp only [Fin.sum_univ_four, lidx74, ridx74, lidx78, ridx78, bidx76, Ideal.maximumf_def, Ideal.addf_def,
    Ideal.ofBits_def, Ideal.ofBits_zero_f32]
  unfold Cert.Sage.layer42
  exact congrArg (max · 0) (add9_comm (M := EReal) _ _ _ _ _ _ _ _ _)

/-- The reference's classifier output is `cls` of its third layer. -/
theorem v84_eq (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) (x8 : FVec Ideal S4x2 .f32) (x9 : FVec Ideal S2 .f32) (x10 : FVec Ideal S4x2 .f32) (x11 : FVec Ideal S2x2 .f32) (x12 : FVec Ideal S2 .f32) :
    val_main_v84 (F := Ideal) x0 x1 x2 x3 x4 x5 x6 x7 x8 x9 x10 x11 x12 = Cert.Sage.cls (val_main_v80 (F := Ideal) x0 x1 x2 x3 x4 x5 x6 x7 x8 x9 x10) x11 x12 := by
  funext i
  rw [val_main_v84_apply, val_main_v81_apply, val_main_v83_apply, val_main_v82_apply]
  generalize val_main_v80 (F := Ideal) x0 x1 x2 x3 x4 x5 x6 x7 x8 x9 x10 = h
  simp only [Fin.sum_univ_two, lidx81, ridx81, bidx83, Ideal.addf_def]
  unfold Cert.Sage.cls
  exact add3_bias (M := EReal) _ _ _

end Cert.Sage.Ref

end
-- ==== Proof.RefValue.lean ====
/-
  The reference program computes the specification's network: its two results, as the run states
  them, are `out` and `h3` of the 13 argument arrays.
-/
import proofs.«180108_j33234456937224_1_alg».proof.Proof.RefL3

noncomputable section

namespace Cert.Sage.Ref

open Cert.ReferenceIdeal Cert.ReferenceIdeal.Gen Cert.ReferenceIdeal.Read Idealize.ShloMosaic Idealize.ShloMosaic.TcCoe Idealize.SL.Sem Idealize.ShloMosaic.StableHlo

/-- The reference's first hidden layer is the specification's. -/
theorem v28_h1 (x0 : FVec Ideal S1000000x1 .f32) (x1 : Cert.Sage.Edges) (x2 : FVec Ideal S1x4 .f32) (x3 : FVec Ideal S4 .f32) (x4 : FVec Ideal S1x4 .f32) :
    val_main_v28 (F := Ideal) x0 x1 x2 x3 x4 = Cert.Sage.h1 x0 x1 x2 x3 x4 := v28_eq x0 x1 x2 x3 x4

/-- The reference's second hidden layer is the specification's. -/
theorem v54_h2 (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) :
    val_main_v54 (F := Ideal) x0 x1 x2 x3 x4 x5 x6 x7 = Cert.Sage.h2 x0 x1 x2 x3 x4 x5 x6 x7 := by
  rw [v54_eq, v28_h1]; unfold Cert.Sage.h2; rfl

/-- The reference's third hidden layer is the specification's. -/
theorem v80_h3 (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) (x8 : FVec Ideal S4x2 .f32) (x9 : FVec Ideal S2 .f32) (x10 : FVec Ideal S4x2 .f32) :
    val_main_v80 (F := Ideal) x0 x1 x2 x3 x4 x5 x6 x7 x8 x9 x10 = Cert.Sage.h3 x0 x1 x2 x3 x4 x5 x6 x7 x8 x9 x10 := by
  rw [v80_eq, v54_h2]; unfold Cert.Sage.h3; rfl

/-- The reference's classifier output is the specification's. -/
theorem v84_out (x0 : FVec Ideal S1000000x1 .f32) (x1 : Cert.Sage.Edges) (x2 : FVec Ideal S1x4 .f32) (x3 : FVec Ideal S4 .f32) (x4 : FVec Ideal S1x4 .f32) (x5 : FVec Ideal S4x4 .f32) (x6 : FVec Ideal S4 .f32) (x7 : FVec Ideal S4x4 .f32) (x8 : FVec Ideal S4x2 .f32) (x9 : FVec Ideal S2 .f32) (x10 : FVec Ideal S4x2 .f32) (x11 : FVec Ideal S2x2 .f32) (x12 : FVec Ideal S2 .f32) :
    val_main_v84 (F := Ideal) x0 x1 x2 x3 x4 x5 x6 x7 x8 x9 x10 x11 x12 = Cert.Sage.out x0 x1 x2 x3 x4 x5 x6 x7 x8 x9 x10 x11 x12 := by
  rw [v84_eq, v80_h3]; unfold Cert.Sage.out; rfl

/-- The reference's first result (the classifier output), as its run states it, is `out` of the arguments. -/
theorem ref_out0 (m : (ℓ : Loc nD τ sig) → Buf (Elt Ideal) ℓ) (c : Dev nD) :
    Cert.ReferenceIdeal.Value.res_out0 (F := Ideal) m c = Cert.Sage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (val_main_v84_eq (F := Ideal) m c).trans (v84_out ..)

/-- The reference's second result (the third hidden layer), as its run states it, is `h3` of the arguments. -/
theorem ref_out1 (m : (ℓ : Loc nD τ sig) → Buf (Elt Ideal) ℓ) (c : Dev nD) :
    Cert.ReferenceIdeal.Value.res_out1 (F := Ideal) m c = Cert.Sage.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v80_eq (F := Ideal) m c).trans (v80_h3 ..)

end Cert.Sage.Ref

end
-- ==== Proof.lean ====
/-
  Two programs over a graph of 1000000 nodes and 16000000 edges: a three-layer mean-aggregating graph network whose
  dense per-node steps run as three tiled kernels (tiles of 4096 rows, the last overhanging the arrays) between host
  stretches that gather along the edges and sum into the destination nodes, and a plain reference that computes each
  layer as relu (agg · Wl + b + x · Wr) with matrix products. Claimed: each program runs to the end, faults nowhere and
  leaves its arguments unchanged; and over the extended reals the kernel program's two results — the classifier's output
  and the third layer — equal the reference's. The kernels add the bias first and then, column by column, agg·Wl and
  x·Wr; the reference adds two matrix products and the bias: the same sums, reordered, and addition of extended reals
  is commutative and associative. The aggregation is the same host chain in both programs and is never opened.
-/
import proofs.«180108_j33234456937224_1_alg».proof.Defs
import proofs.«180108_j33234456937224_1_alg».proof.Proof.Gen.Kernel
import proofs.«180108_j33234456937224_1_alg».proof.Proof.Gen.KernelIdeal
import proofs.«180108_j33234456937224_1_alg».proof.Proof.Gen.ReferenceIdeal
import proofs.«180108_j33234456937224_1_alg».proof.Proof.Gen.Pre_finite_inputs
import proofs.«180108_j33234456937224_1_alg».proof.Proof.K.Run
import proofs.«180108_j33234456937224_1_alg».proof.Proof.KI.Value
import proofs.«180108_j33234456937224_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.run_args (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.run_args (F := Ideal) m ρ

/-- The reference is a line of host operations: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

set_option maxHeartbeats 4000000 in
/-- Both programs end at the one network of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Sage.h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact Cert.KernelIdeal.Hand.run_values m ρ
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.Sage.Ref.ref_out0 m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    · refine (Cert.Sage.Ref.ref_out1 m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
